-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x56x7 : Shape := ⟨3, ![32768, 56, 7]⟩
abbrev S32768x81 : Shape := ⟨2, ![32768, 81]⟩
abbrev S256x56 : Shape := ⟨2, ![256, 56]⟩
abbrev S256 : Shape := ⟨1, ![256]⟩
abbrev S7 : Shape := ⟨1, ![7]⟩
abbrev S256x256 : Shape := ⟨2, ![256, 256]⟩
abbrev S248x224 : Shape := ⟨2, ![248, 224]⟩
abbrev S248 : Shape := ⟨1, ![248]⟩
abbrev S128x256 : Shape := ⟨2, ![128, 256]⟩
abbrev S128 : Shape := ⟨1, ![128]⟩
abbrev S256x704 : Shape := ⟨2, ![256, 704]⟩
abbrev S248x240 : Shape := ⟨2, ![248, 240]⟩
abbrev S120x112 : Shape := ⟨2, ![120, 112]⟩
abbrev S120 : Shape := ⟨1, ![120]⟩
abbrev S128x128 : Shape := ⟨2, ![128, 128]⟩
abbrev S81x128 : Shape := ⟨2, ![81, 128]⟩
abbrev S81 : Shape := ⟨1, ![81]⟩
abbrev S1x128 : Shape := ⟨2, ![1, 128]⟩
abbrev S1 : Shape := ⟨1, ![1]⟩
abbrev S31x128 : Shape := ⟨2, ![31, 128]⟩
abbrev S31 : Shape := ⟨1, ![31]⟩
abbrev S_ : Shape := ⟨0, ![]⟩

class Facts : Prop where
  bcast_S_S32768x56x7 : S_.BroadcastsInDim S32768x56x7 (![] : Fin 0 → Fin S32768x56x7.rank)
  reducesTo_S32768x56x7_S_d0_1_2 : S32768x56x7.ReducesTo [0, 1, 2] S_
  h_S_ : 0 < S_.numel
  bcast_S_S256x56 : S_.BroadcastsInDim S256x56 (![] : Fin 0 → Fin S256x56.rank)
  reducesTo_S256x56_S_d0_1 : S256x56.ReducesTo [0, 1] S_
  bcast_S_S256 : S_.BroadcastsInDim S256 (![] : Fin 0 → Fin S256.rank)
  reducesTo_S256_S_d0 : S256.ReducesTo [0] S_
  bcast_S_S7 : S_.BroadcastsInDim S7 (![] : Fin 0 → Fin S7.rank)
  reducesTo_S7_S_d0 : S7.ReducesTo [0] S_
  bcast_S_S256x256 : S_.BroadcastsInDim S256x256 (![] : Fin 0 → Fin S256x256.rank)
  reducesTo_S256x256_S_d0_1 : S256x256.ReducesTo [0, 1] S_
  bcast_S_S248x224 : S_.BroadcastsInDim S248x224 (![] : Fin 0 → Fin S248x224.rank)
  reducesTo_S248x224_S_d0_1 : S248x224.ReducesTo [0, 1] S_
  bcast_S_S248 : S_.BroadcastsInDim S248 (![] : Fin 0 → Fin S248.rank)
  reducesTo_S248_S_d0 : S248.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x704 : S_.BroadcastsInDim S256x704 (![] : Fin 0 → Fin S256x704.rank)
  reducesTo_S256x704_S_d0_1 : S256x704.ReducesTo [0, 1] S_
  bcast_S_S248x240 : S_.BroadcastsInDim S248x240 (![] : Fin 0 → Fin S248x240.rank)
  reducesTo_S248x240_S_d0_1 : S248x240.ReducesTo [0, 1] S_
  bcast_S_S120x112 : S_.BroadcastsInDim S120x112 (![] : Fin 0 → Fin S120x112.rank)
  reducesTo_S120x112_S_d0_1 : S120x112.ReducesTo [0, 1] S_
  bcast_S_S120 : S_.BroadcastsInDim S120 (![] : Fin 0 → Fin S120.rank)
  reducesTo_S120_S_d0 : S120.ReducesTo [0] S_
  bcast_S_S128x128 : S_.BroadcastsInDim S128x128 (![] : Fin 0 → Fin S128x128.rank)
  reducesTo_S128x128_S_d0_1 : S128x128.ReducesTo [0, 1] S_
  bcast_S_S81x128 : S_.BroadcastsInDim S81x128 (![] : Fin 0 → Fin S81x128.rank)
  reducesTo_S81x128_S_d0_1 : S81x128.ReducesTo [0, 1] S_
  bcast_S_S81 : S_.BroadcastsInDim S81 (![] : Fin 0 → Fin S81.rank)
  reducesTo_S81_S_d0 : S81.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S31x128 : S_.BroadcastsInDim S31x128 (![] : Fin 0 → Fin S31x128.rank)
  reducesTo_S31x128_S_d0_1 : S31x128.ReducesTo [0, 1] S_
  bcast_S_S31 : S_.BroadcastsInDim S31 (![] : Fin 0 → Fin S31.rank)
  reducesTo_S31_S_d0 : S31.ReducesTo [0] S_

variable [Facts]

def fn_part9 {F : FTy → Type} [FloatOps F] (main_arg32 : FVec F S31x128 .f32) (main_arg33 : FVec F S31 .f32) (main_v153 : IVec S_ 1) : IVec S_ 1 :=
  let main_v154 : FVec F S31x128 .f32 := Host.absf main_arg32
  let main_cst_60 : FVec F S_ .f32 := constant S_ .f32 0x7F800000#32
  let main_v155 : FVec F S31x128 .f32 := broadcastInDim S31x128 ![] bcast_S_S31x128 main_cst_60
  let main_v156 : IVec S31x128 1 := cmpf .olt main_v154 main_v155
  let main_c_61 : IVec S_ 1 := constantI S_ 1 1#1
  let main_v157 : IVec S_ 1 := (fun x v => Host.reduce IntOp.andi x v reducesTo_S31x128_S_d0_1 h_S_) main_v156 main_c_61
  let main_v158 : IVec S_ 1 := andi main_v153 main_v157
  let main_v159 : FVec F S31 .f32 := Host.absf main_arg33
  let main_cst_62 : FVec F S_ .f32 := constant S_ .f32 0x7F800000#32
  let main_v160 : FVec F S31 .f32 := broadcastInDim S31 ![] bcast_S_S31 main_cst_62
  let main_v161 : IVec S31 1 := cmpf .olt main_v159 main_v160
  let main_c_63 : IVec S_ 1 := constantI S_ 1 1#1
  let main_v162 : IVec S_ 1 := (fun x v => Host.reduce IntOp.andi x v reducesTo_S31_S_d0 h_S_) main_v161 main_c_63
  let main_v163 : IVec S_ 1 := andi main_v158 main_v162
  main_v163

def fn_part8 {F : FTy → Type} [FloatOps F] (main_arg29 : FVec F S1 .f32) (main_arg30 : FVec F S128x128 .f32) (main_arg31 : FVec F S128 .f32) (main_arg32 : FVec F S31x128 .f32) (main_arg33 : FVec F S31 .f32) (main_v133 : IVec S_ 1) (main_v136 : IVec S1x128 1) : IVec S_ 1 :=
  let main_c_53 : IVec S_ 1 := constantI S_ 1 1#1
  let main_v137 : IVec S_ 1 := (fun x v => Host.reduce IntOp.andi x v reducesTo_S1x128_S_d0_1 h_S_) main_v136 main_c_53
  let main_v138 : IVec S_ 1 := andi main_v133 main_v137
  let main_v139 : FVec F S1 .f32 := Host.absf main_arg29
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  let main_v144 : FVec F S128x128 .f32 := Host.absf main_arg30
  let main_cst_56 : FVec F S_ .f32 := constant S_ .f32 0x7F800000#32
  let main_v145 : FVec F S128x128 .f32 := broadcastInDim S128x128 ![] bcast_S_S128x128 main_cst_56
  let main_v146 : IVec S128x128 1 := cmpf .olt main_v144 main_v145
  let main_c_57 : IVec S_ 1 := constantI S_ 1 1#1
  let main_v147 : IVec S_ 1 := (fun x v => Host.reduce IntOp.andi x v reducesTo_S128x128_S_d0_1 h_S_) main_v146 main_c_57
  let main_v148 : IVec S_ 1 := andi main_v143 main_v147
  let main_v149 : FVec F S128 .f32 := Host.absf main_arg31
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg32 main_arg33 main_v153

def fn_part7 {F : FTy → Type} [FloatOps F] (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v118 : IVec S_ 1) (main_v119 : FVec F S81 .f32) : IVec S_ 1 :=
  let main_cst_46 : FVec F S_ .f32 := constant S_ .f32 0x7F800000#32
  let main_v120 : FVec F S81 .f32 := broadcastInDim S81 ![] bcast_S_S81 main_cst_46
  let main_v121 : IVec S81 1 := cmpf .olt main_v119 main_v120
  let main_c_47 : IVec S_ 1 := constantI S_ 1 1#1
  let main_v122 : IVec S_ 1 := (fun x v => Host.reduce IntOp.andi x v reducesTo_S81_S_d0 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S1x128 .f32 := Host.absf main_arg28
  let main_cst_52 : FVec F S_ .f32 := constant S_ .f32 0x7F800000#32
  let main_v135 : FVec F S1x128 .f32 := broadcastInDim S1x128 ![] bcast_S_S1x128 main_cst_52
  let main_v136 : IVec S1x128 1 := cmpf .olt main_v134 main_v135
  fn_part8 (F := F) main_arg29 main_arg30 main_arg31 main_arg32 main_arg33 main_v133 main_v136

def fn_part6 {F : FTy → Type} [FloatOps F] (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v98 : IVec S_ 1) (main_v101 : IVec S120 1) (main_c_39 : IVec S_ 1) : IVec S_ 1 :=
  let main_v102 : IVec S_ 1 := (fun x v => Host.reduce IntOp.andi x v reducesTo_S120_S_d0 h_S_) main_v101 main_c_39
  let main_v103 : IVec S_ 1 := andi main_v98 main_v102
  let main_v104 : FVec F S128x128 .f32 := Host.absf main_arg22
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S81x128 .f32 := Host.absf main_arg24
  let main_cst_44 : FVec F S_ .f32 := constant S_ .f32 0x7F800000#32
  let main_v115 : FVec F S81x128 .f32 := broadcastInDim S81x128 ![] bcast_S_S81x128 main_cst_44
  let main_v116 : IVec S81x128 1 := cmpf .olt main_v114 main_v115
  let main_c_45 : IVec S_ 1 := constantI S_ 1 1#1
  let main_v117 : IVec S_ 1 := (fun x v => Host.reduce IntOp.andi x v reducesTo_S81x128_S_d0_1 h_S_) main_v116 main_c_45
  let main_v118 : IVec S_ 1 := andi main_v113 main_v117
  let main_v119 : FVec F S81 .f32 := Host.absf main_arg25
  fn_part7 (F := F) main_arg26 main_arg27 main_arg28 main_arg29 main_arg30 main_arg31 main_arg32 main_arg33 main_v118 main_v119

def fn_part5 {F : FTy → Type} [FloatOps F] (main_arg19 : FVec F S128 .f32) (main_arg20 : FVec F S120x112 .f32) (main_arg21 : FVec F S120 .f32) (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S120x112 .f32 := Host.absf main_arg20
  let main_cst_36 : FVec F S_ .f32 := constant S_ .f32 0x7F800000#32
  let main_v95 : FVec F S120x112 .f32 := broadcastInDim S120x112 ![] bcast_S_S120x112 main_cst_36
  let main_v96 : IVec S120x112 1 := cmpf .olt main_v94 main_v95
  let main_c_37 : IVec S_ 1 := constantI S_ 1 1#1
  let main_v97 : IVec S_ 1 := (fun x v => Host.reduce IntOp.andi x v reducesTo_S120x112_S_d0_1 h_S_) main_v96 main_c_37
  let main_v98 : IVec S_ 1 := andi main_v93 main_v97
  let main_v99 : FVec F S120 .f32 := Host.absf main_arg21
  let main_cst_38 : FVec F S_ .f32 := constant S_ .f32 0x7F800000#32
  let main_v100 : FVec F S120 .f32 := broadcastInDim S120 ![] bcast_S_S120 main_cst_38
  let main_v101 : IVec S120 1 := cmpf .olt main_v99 main_v100
  let main_c_39 : IVec S_ 1 := constantI S_ 1 1#1
  fn_part6 (F := F) main_arg22 main_arg23 main_arg24 main_arg25 main_arg26 main_arg27 main_arg28 main_arg29 main_arg30 main_arg31 main_arg32 main_arg33 main_v98 main_v101 main_c_39

def fn_part4 {F : FTy → Type} [FloatOps F] (main_arg15 : FVec F S256 .f32) (main_arg16 : FVec F S248x240 .f32) (main_arg17 : FVec F S248 .f32) (main_arg18 : FVec F S128x256 .f32) (main_arg19 : FVec F S128 .f32) (main_arg20 : FVec F S120x112 .f32) (main_arg21 : FVec F S120 .f32) (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S248x240 .f32 := Host.absf main_arg16
  let main_cst_28 : FVec F S_ .f32 := constant S_ .f32 0x7F800000#32
  let main_v75 : FVec F S248x240 .f32 := broadcastInDim S248x240 ![] bcast_S_S248x240 main_cst_28
  let main_v76 : IVec S248x240 1 := cmpf .olt main_v74 main_v75
  let main_c_29 : IVec S_ 1 := constantI S_ 1 1#1
  let main_v77 : IVec S_ 1 := (fun x v => Host.reduce IntOp.andi x v reducesTo_S248x240_S_d0_1 h_S_) main_v76 main_c_29
  let main_v78 : IVec S_ 1 := andi main_v73 main_v77
  let main_v79 : FVec F S248 .f32 := Host.absf main_arg17
  let main_cst_30 : FVec F S_ .f32 := constant S_ .f32 0x7F800000#32
  let main_v80 : FVec F S248 .f32 := broadcastInDim S248 ![] bcast_S_S248 main_cst_30
  let main_v81 : IVec S248 1 := cmpf .olt main_v79 main_v80
  let main_c_31 : IVec S_ 1 := constantI S_ 1 1#1
  let main_v82 : IVec S_ 1 := (fun x v => Host.reduce IntOp.andi x v reducesTo_S248_S_d0 h_S_) main_v81 main_c_31
  let main_v83 : IVec S_ 1 := andi main_v78 main_v82
  let main_v84 : FVec F S128x256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg12 : FVec F S128x256 .f32) (main_arg13 : FVec F S128 .f32) (main_arg14 : FVec F S256x704 .f32) (main_arg15 : FVec F S256 .f32) (main_arg16 : FVec F S248x240 .f32) (main_arg17 : FVec F S248 .f32) (main_arg18 : FVec F S128x256 .f32) (main_arg19 : FVec F S128 .f32) (main_arg20 : FVec F S120x112 .f32) (main_arg21 : FVec F S120 .f32) (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v48 : IVec S_ 1) (main_v49 : FVec F S248 .f32) (main_v50 : FVec F S248 .f32) : IVec S_ 1 :=
  let main_v51 : IVec S248 1 := cmpf .olt main_v49 main_v50
  let main_c_19 : IVec S_ 1 := constantI S_ 1 1#1
  let main_v52 : IVec S_ 1 := (fun x v => Host.reduce IntOp.andi x v reducesTo_S248_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x704 .f32 := Host.absf main_arg14
  let main_cst_24 : FVec F S_ .f32 := constant S_ .f32 0x7F800000#32
  let main_v65 : FVec F S256x704 .f32 := broadcastInDim S256x704 ![] bcast_S_S256x704 main_cst_24
  let main_v66 : IVec S256x704 1 := cmpf .olt main_v64 main_v65
  let main_c_25 : IVec S_ 1 := constantI S_ 1 1#1
  let main_v67 : IVec S_ 1 := (fun x v => Host.reduce IntOp.andi x v reducesTo_S256x704_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg8 : FVec F S256x256 .f32) (main_arg9 : FVec F S256 .f32) (main_arg10 : FVec F S248x224 .f32) (main_arg11 : FVec F S248 .f32) (main_arg12 : FVec F S128x256 .f32) (main_arg13 : FVec F S128 .f32) (main_arg14 : FVec F S256x704 .f32) (main_arg15 : FVec F S256 .f32) (main_arg16 : FVec F S248x240 .f32) (main_arg17 : FVec F S248 .f32) (main_arg18 : FVec F S128x256 .f32) (main_arg19 : FVec F S128 .f32) (main_arg20 : FVec F S120x112 .f32) (main_arg21 : FVec F S120 .f32) (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S248x224 .f32 := Host.absf main_arg10
  let main_cst_16 : FVec F S_ .f32 := constant S_ .f32 0x7F800000#32
  let main_v45 : FVec F S248x224 .f32 := broadcastInDim S248x224 ![] bcast_S_S248x224 main_cst_16
  let main_v46 : IVec S248x224 1 := cmpf .olt main_v44 main_v45
  let main_c_17 : IVec S_ 1 := constantI S_ 1 1#1
  let main_v47 : IVec S_ 1 := (fun x v => Host.reduce IntOp.andi x v reducesTo_S248x224_S_d0_1 h_S_) main_v46 main_c_17
  let main_v48 : IVec S_ 1 := andi main_v43 main_v47
  let main_v49 : FVec F S248 .f32 := Host.absf main_arg11
  let main_cst_18 : FVec F S_ .f32 := constant S_ .f32 0x7F800000#32
  let main_v50 : FVec F S248 .f32 := broadcastInDim S248 ![] bcast_S_S248 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg5 : FVec F S7 .f32) (main_arg6 : FVec F S7 .f32) (main_arg7 : FVec F S7 .f32) (main_arg8 : FVec F S256x256 .f32) (main_arg9 : FVec F S256 .f32) (main_arg10 : FVec F S248x224 .f32) (main_arg11 : FVec F S248 .f32) (main_arg12 : FVec F S128x256 .f32) (main_arg13 : FVec F S128 .f32) (main_arg14 : FVec F S256x704 .f32) (main_arg15 : FVec F S256 .f32) (main_arg16 : FVec F S248x240 .f32) (main_arg17 : FVec F S248 .f32) (main_arg18 : FVec F S128x256 .f32) (main_arg19 : FVec F S128 .f32) (main_arg20 : FVec F S120x112 .f32) (main_arg21 : FVec F S120 .f32) (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S32768x56x7 .f32) (main_arg1 : IVec S32768x81 1) (main_arg2 : FVec F S256x56 .f32) (main_arg3 : FVec F S256 .f32) (main_arg4 : FVec F S7 .f32) (main_arg5 : FVec F S7 .f32) (main_arg6 : FVec F S7 .f32) (main_arg7 : FVec F S7 .f32) (main_arg8 : FVec F S256x256 .f32) (main_arg9 : FVec F S256 .f32) (main_arg10 : FVec F S248x224 .f32) (main_arg11 : FVec F S248 .f32) (main_arg12 : FVec F S128x256 .f32) (main_arg13 : FVec F S128 .f32) (main_arg14 : FVec F S256x704 .f32) (main_arg15 : FVec F S256 .f32) (main_arg16 : FVec F S248x240 .f32) (main_arg17 : FVec F S248 .f32) (main_arg18 : FVec F S128x256 .f32) (main_arg19 : FVec F S128 .f32) (main_arg20 : FVec F S120x112 .f32) (main_arg21 : FVec F S120 .f32) (main_arg22 : FVec F S128x128 .f32) (main_arg23 : FVec F S128 .f32) (main_arg24 : FVec F S81x128 .f32) (main_arg25 : FVec F S81 .f32) (main_arg26 : FVec F S128x128 .f32) (main_arg27 : FVec F S128 .f32) (main_arg28 : FVec F S1x128 .f32) (main_arg29 : FVec F S1 .f32) (main_arg30 : FVec F S128x128 .f32) (main_arg31 : FVec F S128 .f32) (main_arg32 : FVec F S31x128 .f32) (main_arg33 : FVec F S31 .f32) : IVec S_ 1 :=
  let main_v0 : FVec F S32768x56x7 .f32 := Host.absf main_arg0
  let main_cst : FVec F S_ .f32 := constant S_ .f32 0x7F800000#32
  let main_v1 : FVec F S32768x56x7 .f32 := broadcastInDim S32768x56x7 ![] bcast_S_S32768x56x7 main_cst
  let main_v2 : IVec S32768x56x7 1 := cmpf .olt main_v0 main_v1
  let main_c : IVec S_ 1 := constantI S_ 1 1#1
  let main_v3 : IVec S_ 1 := (fun x v => Host.reduce IntOp.andi x v reducesTo_S32768x56x7_S_d0_1_2 h_S_) main_v2 main_c
  let main_v4 : FVec F S256x56 .f32 := Host.absf main_arg2
  let main_cst_0 : FVec F S_ .f32 := constant S_ .f32 0x7F800000#32
  let main_v5 : FVec F S256x56 .f32 := broadcastInDim S256x56 ![] bcast_S_S256x56 main_cst_0
  let main_v6 : IVec S256x56 1 := cmpf .olt main_v4 main_v5
  let main_c_1 : IVec S_ 1 := constantI S_ 1 1#1
  let main_v7 : IVec S_ 1 := (fun x v => Host.reduce IntOp.andi x v reducesTo_S256x56_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S7 .f32 := Host.absf main_arg4
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S32768x56x7 : Shape := ⟨3, ![32768, 56, 7]⟩
abbrev S32768x81 : Shape := ⟨2, ![32768, 81]⟩
abbrev S256x56 : Shape := ⟨2, ![256, 56]⟩
abbrev S256 : Shape := ⟨1, ![256]⟩
abbrev S7 : Shape := ⟨1, ![7]⟩
abbrev S256x256 : Shape := ⟨2, ![256, 256]⟩
abbrev S248x224 : Shape := ⟨2, ![248, 224]⟩
abbrev S248 : Shape := ⟨1, ![248]⟩
abbrev S128x256 : Shape := ⟨2, ![128, 256]⟩
abbrev S128 : Shape := ⟨1, ![128]⟩
abbrev S256x704 : Shape := ⟨2, ![256, 704]⟩
abbrev S248x240 : Shape := ⟨2, ![248, 240]⟩
abbrev S120x112 : Shape := ⟨2, ![120, 112]⟩
abbrev S120 : Shape := ⟨1, ![120]⟩
abbrev S128x128 : Shape := ⟨2, ![128, 128]⟩
abbrev S81x128 : Shape := ⟨2, ![81, 128]⟩
abbrev S81 : Shape := ⟨1, ![81]⟩
abbrev S1x128 : Shape := ⟨2, ![1, 128]⟩
abbrev S1 : Shape := ⟨1, ![1]⟩
abbrev S31x128 : Shape := ⟨2, ![31, 128]⟩
abbrev S31 : Shape := ⟨1, ![31]⟩
abbrev S32768x7x56 : Shape := ⟨3, ![32768, 7, 56]⟩
abbrev S56x256 : Shape := ⟨2, ![56, 256]⟩
abbrev S1x256 : Shape := ⟨2, ![1, 256]⟩
abbrev S1x7x1 : Shape := ⟨3, ![1, 7, 1]⟩
abbrev S224x248 : Shape := ⟨2, ![224, 248]⟩
abbrev S1x248 : Shape := ⟨2, ![1, 248]⟩
abbrev S256x128 : Shape := ⟨2, ![256, 128]⟩
abbrev S704x256 : Shape := ⟨2, ![704, 256]⟩
abbrev S240x248 : Shape := ⟨2, ![240, 248]⟩
abbrev S112x120 : Shape := ⟨2, ![112, 120]⟩
abbrev S1x120 : Shape := ⟨2, ![1, 120]⟩
abbrev S128x81 : Shape := ⟨2, ![128, 81]⟩
abbrev S1x81 : Shape := ⟨2, ![1, 81]⟩
abbrev S128x1 : Shape := ⟨2, ![128, 1]⟩
abbrev S1x1 : Shape := ⟨2, ![1, 1]⟩
abbrev S128x31 : Shape := ⟨2, ![128, 31]⟩
abbrev S1x31 : Shape := ⟨2, ![1, 31]⟩
abbrev S32768x1 : Shape := ⟨2, ![32768, 1]⟩
abbrev S32768x31 : Shape := ⟨2, ![32768, 31]⟩
abbrev S256x7x56 : Shape := ⟨3, ![256, 7, 56]⟩
abbrev S256x81 : Shape := ⟨2, ![256, 81]⟩
abbrev S256x1 : Shape := ⟨2, ![256, 1]⟩
abbrev S256x31 : Shape := ⟨2, ![256, 31]⟩
abbrev S1792x56 : Shape := ⟨2, ![1792, 56]⟩
abbrev S1792x256 : Shape := ⟨2, ![1792, 256]⟩
abbrev S256x7x256 : Shape := ⟨3, ![256, 7, 256]⟩
abbrev S256x7x32 : Shape := ⟨3, ![256, 7, 32]⟩
abbrev S256x7x4x8 : Shape := ⟨4, ![256, 7, 4, 8]⟩
abbrev S256x7x4 : Shape := ⟨3, ![256, 7, 4]⟩
abbrev S256x7x224 : Shape := ⟨3, ![256, 7, 224]⟩
abbrev S1792x224 : Shape := ⟨2, ![1792, 224]⟩
abbrev S1792x248 : Shape := ⟨2, ![1792, 248]⟩
abbrev S256x7x248 : Shape := ⟨3, ![256, 7, 248]⟩
abbrev S1792x128 : Shape := ⟨2, ![1792, 128]⟩
abbrev S256x7x128 : Shape := ⟨3, ![256, 7, 128]⟩
abbrev S256x7x64 : Shape := ⟨3, ![256, 7, 64]⟩
abbrev S256x5x64 : Shape := ⟨3, ![256, 5, 64]⟩
abbrev S256x2x64 : Shape := ⟨3, ![256, 2, 64]⟩
abbrev S256x64 : Shape := ⟨2, ![256, 64]⟩
abbrev S256x448 : Shape := ⟨2, ![256, 448]⟩
abbrev S256x16 : Shape := ⟨2, ![256, 16]⟩
abbrev S256x4x4 : Shape := ⟨3, ![256, 4, 4]⟩
abbrev S256x4 : Shape := ⟨2, ![256, 4]⟩
abbrev S256x240 : Shape := ⟨2, ![256, 240]⟩
abbrev S256x248 : Shape := ⟨2, ![256, 248]⟩
abbrev S256x112 : Shape := ⟨2, ![256, 112]⟩
abbrev S256x120 : Shape := ⟨2, ![256, 120]⟩

abbrev nBuf : Space → Nat
  | .hbm => 71
  | .vmem => 42
  | .smem => 0
  | _ => 0

abbrev bufTy : (tb : Table) → Fin (tcTables nBuf tb) → BufTy
  | .hbm, ⟨0, _⟩ => ⟨S32768x56x7, .f32⟩
  | .hbm, ⟨1, _⟩ => ⟨S32768x81, .i1⟩
  | .hbm, ⟨2, _⟩ => ⟨S256x56, .f32⟩
  | .hbm, ⟨3, _⟩ => ⟨S256, .f32⟩
  | .hbm, ⟨4, _⟩ => ⟨S7, .f32⟩
  | .hbm, ⟨5, _⟩ => ⟨S7, .f32⟩
  | .hbm, ⟨6, _⟩ => ⟨S7, .f32⟩
  | .hbm, ⟨7, _⟩ => ⟨S7, .f32⟩
  | .hbm, ⟨8, _⟩ => ⟨S256x256, .f32⟩
  | .hbm, ⟨9, _⟩ => ⟨S256, .f32⟩
  | .hbm, ⟨10, _⟩ => ⟨S248x224, .f32⟩
  | .hbm, ⟨11, _⟩ => ⟨S248, .f32⟩
  | .hbm, ⟨12, _⟩ => ⟨S128x256, .f32⟩
  | .hbm, ⟨13, _⟩ => ⟨S128, .f32⟩
  | .hbm, ⟨14, _⟩ => ⟨S256x704, .f32⟩
  | .hbm, ⟨15, _⟩ => ⟨S256, .f32⟩
  | .hbm, ⟨16, _⟩ => ⟨S248x240, .f32⟩
  | .hbm, ⟨17, _⟩ => ⟨S248, .f32⟩
  | .hbm, ⟨18, _⟩ => ⟨S128x256, .f32⟩
  | .hbm, ⟨19, _⟩ => ⟨S128, .f32⟩
  | .hbm, ⟨20, _⟩ => ⟨S120x112, .f32⟩
  | .hbm, ⟨21, _⟩ => ⟨S120, .f32⟩
  | .hbm, ⟨22, _⟩ => ⟨S128x128, .f32⟩
  | .hbm, ⟨23, _⟩ => ⟨S128, .f32⟩
  | .hbm, ⟨24, _⟩ => ⟨S81x128, .f32⟩
  | .hbm, ⟨25, _⟩ => ⟨S81, .f32⟩
  | .hbm, ⟨26, _⟩ => ⟨S128x128, .f32⟩
  | .hbm, ⟨27, _⟩ => ⟨S128, .f32⟩
  | .hbm, ⟨28, _⟩ => ⟨S1x128, .f32⟩
  | .hbm, ⟨29, _⟩ => ⟨S1, .f32⟩
  | .hbm, ⟨30, _⟩ => ⟨S128x128, .f32⟩
  | .hbm, ⟨31, _⟩ => ⟨S128, .f32⟩
  | .hbm, ⟨32, _⟩ => ⟨S31x128, .f32⟩
  | .hbm, ⟨33, _⟩ => ⟨S31, .f32⟩
  | .hbm, ⟨34, _⟩ => ⟨S32768x7x56, .f32⟩
  | .hbm, ⟨35, _⟩ => ⟨S32768x81, .f32⟩
  | .hbm, ⟨36, _⟩ => ⟨S56x256, .f32⟩
  | .hbm, ⟨37, _⟩ => ⟨S1x256, .f32⟩
  | .hbm, ⟨38, _⟩ => ⟨S1x7x1, .f32⟩
  | .hbm, ⟨39, _⟩ => ⟨S1x7x1, .f32⟩
  | .hbm, ⟨40, _⟩ => ⟨S1x7x1, .f32⟩
  | .hbm, ⟨41, _⟩ => ⟨S1x7x1, .f32⟩
  | .hbm, ⟨42, _⟩ => ⟨S256x256, .f32⟩
  | .hbm, ⟨43, _⟩ => ⟨S1x256, .f32⟩
  | .hbm, ⟨44, _⟩ => ⟨S224x248, .f32⟩
  | .hbm, ⟨45, _⟩ => ⟨S1x248, .f32⟩
  | .hbm, ⟨46, _⟩ => ⟨S256x128, .f32⟩
  | .hbm, ⟨47, _⟩ => ⟨S1x128, .f32⟩
  | .hbm, ⟨48, _⟩ => ⟨S704x256, .f32⟩
  | .hbm, ⟨49, _⟩ => ⟨S1x256, .f32⟩
  | .hbm, ⟨50, _⟩ => ⟨S240x248, .f32⟩
  | .hbm, ⟨51, _⟩ => ⟨S1x248, .f32⟩
  | .hbm, ⟨52, _⟩ => ⟨S256x128, .f32⟩
  | .hbm, ⟨53, _⟩ => ⟨S1x128, .f32⟩
  | .hbm, ⟨54, _⟩ => ⟨S112x120, .f32⟩
  | .hbm, ⟨55, _⟩ => ⟨S1x120, .f32⟩
  | .hbm, ⟨56, _⟩ => ⟨S128x128, .f32⟩
  | .hbm, ⟨57, _⟩ => ⟨S1x128, .f32⟩
  | .hbm, ⟨58, _⟩ => ⟨S128x81, .f32⟩
  | .hbm, ⟨59, _⟩ => ⟨S1x81, .f32⟩
  | .hbm, ⟨60, _⟩ => ⟨S128x128, .f32⟩
  | .hbm, ⟨61, _⟩ => ⟨S1x128, .f32⟩
  | .hbm, ⟨62, _⟩ => ⟨S128x1, .f32⟩
  | .hbm, ⟨63, _⟩ => ⟨S1x1, .f32⟩
  | .hbm, ⟨64, _⟩ => ⟨S128x128, .f32⟩
  | .hbm, ⟨65, _⟩ => ⟨S1x128, .f32⟩
  | .hbm, ⟨66, _⟩ => ⟨S128x31, .f32⟩
  | .hbm, ⟨67, _⟩ => ⟨S1x31, .f32⟩
  | .hbm, ⟨68, _⟩ => ⟨S32768x81, .f32⟩
  | .hbm, ⟨69, _⟩ => ⟨S32768x1, .f32⟩
  | .hbm, ⟨70, _⟩ => ⟨S32768x31, .f32⟩
  | .local _ .vmem, ⟨0, _⟩ => ⟨S256x7x56, .f32⟩
  | .local _ .vmem, ⟨1, _⟩ => ⟨S256x7x56, .f32⟩
  | .local _ .vmem, ⟨2, _⟩ => ⟨S256x81, .f32⟩
  | .local _ .vmem, ⟨3, _⟩ => ⟨S256x81, .f32⟩
  | .local _ .vmem, ⟨4, _⟩ => ⟨S56x256, .f32⟩
  | .local _ .vmem, ⟨5, _⟩ => ⟨S1x256, .f32⟩
  | .local _ .vmem, ⟨6, _⟩ => ⟨S1x7x1, .f32⟩
  | .local _ .vmem, ⟨7, _⟩ => ⟨S1x7x1, .f32⟩
  | .local _ .vmem, ⟨8, _⟩ => ⟨S1x7x1, .f32⟩
  | .local _ .vmem, ⟨9, _⟩ => ⟨S1x7x1, .f32⟩
  | .local _ .vmem, ⟨10, _⟩ => ⟨S256x256, .f32⟩
  | .local _ .vmem, ⟨11, _⟩ => ⟨S1x256, .f32⟩
  | .local _ .vmem, ⟨12, _⟩ => ⟨S224x248, .f32⟩
  | .local _ .vmem, ⟨13, _⟩ => ⟨S1x248, .f32⟩
  | .local _ .vmem, ⟨14, _⟩ => ⟨S256x128, .f32⟩
  | .local _ .vmem, ⟨15, _⟩ => ⟨S1x128, .f32⟩
  | .local _ .vmem, ⟨16, _⟩ => ⟨S704x256, .f32⟩
  | .local _ .vmem, ⟨17, _⟩ => ⟨S1x256, .f32⟩
  | .local _ .vmem, ⟨18, _⟩ => ⟨S240x248, .f32⟩
  | .local _ .vmem, ⟨19, _⟩ => ⟨S1x248, .f32⟩
  | .local _ .vmem, ⟨20, _⟩ => ⟨S256x128, .f32⟩
  | .local _ .vmem, ⟨21, _⟩ => ⟨S1x128, .f32⟩
  | .local _ .vmem, ⟨22, _⟩ => ⟨S112x120, .f32⟩
  | .local _ .vmem, ⟨23, _⟩ => ⟨S1x120, .f32⟩
  | .local _ .vmem, ⟨24, _⟩ => ⟨S128x128, .f32⟩
  | .local _ .vmem, ⟨25, _⟩ => ⟨S1x128, .f32⟩
  | .local _ .vmem, ⟨26, _⟩ => ⟨S128x81, .f32⟩
  | .local _ .vmem, ⟨27, _⟩ => ⟨S1x81, .f32⟩
  | .local _ .vmem, ⟨28, _⟩ => ⟨S128x128, .f32⟩
  | .local _ .vmem, ⟨29, _⟩ => ⟨S1x128, .f32⟩
  | .local _ .vmem, ⟨30, _⟩ => ⟨S128x1, .f32⟩
  | .local _ .vmem, ⟨31, _⟩ => ⟨S1x1, .f32⟩
  | .local _ .vmem, ⟨32, _⟩ => ⟨S128x128, .f32⟩
  | .local _ .vmem, ⟨33, _⟩ => ⟨S1x128, .f32⟩
  | .local _ .vmem, ⟨34, _⟩ => ⟨S128x31, .f32⟩
  | .local _ .vmem, ⟨35, _⟩ => ⟨S1x31, .f32⟩
  | .local _ .vmem, ⟨36, _⟩ => ⟨S256x81, .f32⟩
  | .local _ .vmem, ⟨37, _⟩ => ⟨S256x81, .f32⟩
  | .local _ .vmem, ⟨38, _⟩ => ⟨S256x1, .f32⟩
  | .local _ .vmem, ⟨39, _⟩ => ⟨S256x1, .f32⟩
  | .local _ .vmem, ⟨40, _⟩ => ⟨S256x31, .f32⟩
  | .local _ .vmem, ⟨41, _⟩ => ⟨S256x31, .f32⟩
  | _, _ => ⟨S32768x56x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34_0 : Ref sig .tc := ⟨.hbm, 68, rfl⟩
abbrev main_v34_1 : Ref sig .tc := ⟨.hbm, 69, rfl⟩
abbrev main_v34_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg33_0 : Ref sig .tc := ⟨.vmem, 35, rfl⟩
abbrev cc0_stg34_0 : Ref sig .tc := ⟨.vmem, 36, rfl⟩
abbrev cc0_stg34_1 : Ref sig .tc := ⟨.vmem, 37, rfl⟩
abbrev cc0_stg35_0 : Ref sig .tc := ⟨.vmem, 38, rfl⟩
abbrev cc0_stg35_1 : Ref sig .tc := ⟨.vmem, 39, rfl⟩
abbrev cc0_stg36_0 : Ref sig .tc := ⟨.vmem, 40, rfl⟩
abbrev cc0_stg36_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem33_0 : DmaSem sig := 35
abbrev cc0_sem34_0 : DmaSem sig := 36
abbrev cc0_sem34_1 : DmaSem sig := 37
abbrev cc0_sem35_0 : DmaSem sig := 38
abbrev cc0_sem35_1 : DmaSem sig := 39
abbrev cc0_sem36_0 : DmaSem sig := 40
abbrev cc0_sem36_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_36 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x7x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x7x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S224x248 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x248 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S704x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S240x248 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x248 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S112x120 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x120 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x81 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x81 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x1 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S128x31 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x31 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 2 → Memref sig .tc .vmem S256x81 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S256x1 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S256x31 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

class Facts₀ : Prop where
  transposes_S32768x56x7_S32768x7x56_0_2_1 : S32768x56x7.Transposes [0, 2, 1] S32768x7x56
  transposes_S256x56_S56x256_1_0 : S256x56.Transposes [1, 0] S56x256
  shapeCasts_S256_S1x256 : S256.ShapeCasts S1x256
  shapeCasts_S7_S1x7x1 : S7.ShapeCasts S1x7x1
  transposes_S256x256_S256x256_1_0 : S256x256.Transposes [1, 0] S256x256
  transposes_S248x224_S224x248_1_0 : S248x224.Transposes [1, 0] S224x248
  shapeCasts_S248_S1x248 : S248.ShapeCasts S1x248
  transposes_S128x256_S256x128_1_0 : S128x256.Transposes [1, 0] S256x128
  shapeCasts_S128_S1x128 : S128.ShapeCasts S1x128
  transposes_S256x704_S704x256_1_0 : S256x704.Transposes [1, 0] S704x256
  transposes_S248x240_S240x248_1_0 : S248x240.Transposes [1, 0] S240x248
  transposes_S120x112_S112x120_1_0 : S120x112.Transposes [1, 0] S112x120
  shapeCasts_S120_S1x120 : S120.ShapeCasts S1x120
  transposes_S128x128_S128x128_1_0 : S128x128.Transposes [1, 0] S128x128
  transposes_S81x128_S128x81_1_0 : S81x128.Transposes [1, 0] S128x81
  shapeCasts_S81_S1x81 : S81.ShapeCasts S1x81
  transposes_S1x128_S128x1_1_0 : S1x128.Transposes [1, 0] S128x1
  shapeCasts_S1_S1x1 : S1.ShapeCasts S1x1
  transposes_S31x128_S128x31_1_0 : S31x128.Transposes [1, 0] S128x31
  shapeCasts_S31_S1x31 : S31.ShapeCasts S1x31
  inb_S256x7x56_S256x7x56_0_0_0 : ∀ a, (![0, 0, 0] : Fin 3 → Nat) a + S256x7x56.size a ≤ S256x7x56.size a
  h_S256x7x56 : 0 < S256x7x56.numel
  shapeCasts_S256x7x56_S256x7x56 : S256x7x56.ShapeCasts S256x7x56
  shapeCasts_S256x7x56_S1792x56 : S256x7x56.ShapeCasts S1792x56
  bitsLt_bf16_f32 : FTy.bits .bf16 < FTy.bits .f32
  inb_S56x256_S56x256_0_0 : ∀ a, (![0, 0] : Fin 2 → Nat) a + S56x256.size a ≤ S56x256.size a
  h_S56x256 : 0 < S56x256.numel
  shapeCasts_S56x256_S56x256 : S56x256.ShapeCasts S56x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1792x256 : S1x256.Broadcasts S1792x256
  shapeCasts_S1792x256_S256x7x256 : S1792x256.ShapeCasts S256x7x256
  inb_S1x7x1_S1x7x1_0_0_0 : ∀ a, (![0, 0, 0] : Fin 3 → Nat) a + S1x7x1.size a ≤ S1x7x1.size a
  h_S1x7x1 : 0 < S1x7x1.numel
  shapeCasts_S1x7x1_S1x7x1 : S1x7x1.ShapeCasts S1x7x1
  broadcasts_S1x7x1_S256x7x256 : S1x7x1.Broadcasts S256x7x256
  shapeCasts_S256x7x256_S1792x256 : S256x7x256.ShapeCasts S1792x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x7x256_o0_0_0_S256x7x32 : S256x7x256.Slices ![0, 0, 0] S256x7x32
  shapeCasts_S256x7x32_S256x7x4x8 : S256x7x32.ShapeCasts S256x7x4x8
  reduces_S256x7x4x8_S256x7x4 : S256x7x4x8.Reduces [3] S256x7x4
  slices_S256x7x256_o0_0_32_S256x7x224 : S256x7x256.Slices ![0, 0, 32] S256x7x224
  shapeCasts_S256x7x224_S1792x224 : S256x7x224.ShapeCasts S1792x224
  inb_S224x248_S224x248_0_0 : ∀ a, (![0, 0] : Fin 2 → Nat) a + S224x248.size a ≤ S224x248.size a
  h_S224x248 : 0 < S224x248.numel
  shapeCasts_S224x248_S224x248 : S224x248.ShapeCasts S224x248
  inb_S1x248_S1x248_0_0 : ∀ a, (![0, 0] : Fin 2 → Nat) a + S1x248.size a ≤ S1x248.size a
  h_S1x248 : 0 < S1x248.numel
  shapeCasts_S1x248_S1x248 : S1x248.ShapeCasts S1x248
  broadcasts_S1x248_S1792x248 : S1x248.Broadcasts S1792x248
  shapeCasts_S1792x248_S256x7x248 : S1792x248.ShapeCasts S256x7x248
  concatenates_S256x7x4_S256x7x4_S256x7x248_S256x7x256_d2 : Shape.Concatenates [S256x7x4, S256x7x4, S256x7x248] S256x7x256 2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1792x128 : S1x128.Broadcasts S1792x128
  shapeCasts_S1792x128_S256x7x128 : S1792x128.ShapeCasts S256x7x128
  slices_S256x7x128_o0_0_0_S256x7x64 : S256x7x128.Slices ![0, 0, 0] S256x7x64
  slices_S256x7x128_o0_0_64_S256x7x64 : S256x7x128.Slices ![0, 0, 64] S256x7x64
  slices_S256x7x64_o0_0_0_S256x5x64 : S256x7x64.Slices ![0, 0, 0] S256x5x64
  slices_S256x7x64_o0_5_0_S256x2x64 : S256x7x64.Slices ![0, 5, 0] S256x2x64
  reduces_S256x5x64_S256x64 : S256x5x64.Reduces [1] S256x64
  shapeCasts_S256x2x64_S256x128 : S256x2x64.ShapeCasts S256x128
  shapeCasts_S256x7x64_S256x448 : S256x7x64.ShapeCasts S256x448
  concatenates_S256x64_S256x64_S256x128_S256x448_S256x704_d1 : Shape.Concatenates [S256x64, S256x64, S256x128, S256x448] S256x704 1
  inb_S704x256_S704x256_0_0 : ∀ a, (![0, 0] : Fin 2 → Nat) a + S704x256.size a ≤ S704x256.size a
  h_S704x256 : 0 < S704x256.numel
  shapeCasts_S704x256_S704x256 : S704x256.ShapeCasts S704x256
  broadcasts_S1x256_S256x256 : S1x256.Broadcasts S256x256
  slices_S256x256_o0_0_S256x16 : S256x256.Slices ![0, 0] S256x16
  shapeCasts_S256x16_S256x4x4 : S256x16.ShapeCasts S256x4x4
  reduces_S256x4x4_S256x4 : S256x4x4.Reduces [2] S256x4
  slices_S256x256_o0_16_S256x240 : S256x256.Slices ![0, 16] S256x240
  inb_S240x248_S240x248_0_0 : ∀ a, (![0, 0] : Fin 2 → Nat) a + S240x248.size a ≤ S240x248.size a
  h_S240x248 : 0 < S240x248.numel
  shapeCasts_S240x248_S240x248 : S240x248.ShapeCasts S240x248
  broadcasts_S1x248_S256x248 : S1x248.Broadcasts S256x248
  concatenates_S256x4_S256x4_S256x248_S256x256_d1 : Shape.Concatenates [S256x4, S256x4, S256x248] S256x256 1
  broadcasts_S1x128_S256x128 : S1x128.Broadcasts S256x128
  slices_S256x128_o0_0_S256x16 : S256x128.Slices ![0, 0] S256x16
  slices_S256x128_o0_16_S256x112 : S256x128.Slices ![0, 16] S256x112
  inb_S112x120_S112x120_0_0 : ∀ a, (![0, 0] : Fin 2 → Nat) a + S112x120.size a ≤ S112x120.size a
  h_S112x120 : 0 < S112x120.numel
  shapeCasts_S112x120_S112x120 : S112x120.ShapeCasts S112x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S256x120 : S1x120.Broadcasts S256x120
  concatenates_S256x4_S256x4_S256x120_S256x128_d1 : Shape.Concatenates [S256x4, S256x4, S256x120] S256x128 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x81_S128x81_0_0 : ∀ a, (![0, 0] : Fin 2 → Nat) a + S128x81.size a ≤ S128x81.size a
  h_S128x81 : 0 < S128x81.numel
  shapeCasts_S128x81_S128x81 : S128x81.ShapeCasts S128x81
  inb_S1x81_S1x81_0_0 : ∀ a, (![0, 0] : Fin 2 → Nat) a + S1x81.size a ≤ S1x81.size a
  h_S1x81 : 0 < S1x81.numel
  shapeCasts_S1x81_S1x81 : S1x81.ShapeCasts S1x81
  broadcasts_S1x81_S256x81 : S1x81.Broadcasts S256x81
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S128x31_S128x31_0_0 : ∀ a, (![0, 0] : Fin 2 → Nat) a + S128x31.size a ≤ S128x31.size a
  h_S128x31 : 0 < S128x31.numel
  shapeCasts_S128x31_S128x31 : S128x31.ShapeCasts S128x31
  inb_S1x31_S1x31_0_0 : ∀ a, (![0, 0] : Fin 2 → Nat) a + S1x31.size a ≤ S1x31.size a
  h_S1x31 : 0 < S1x31.numel
  shapeCasts_S1x31_S1x31 : S1x31.ShapeCasts S1x31
  broadcasts_S1x31_S256x31 : S1x31.Broadcasts S256x31
  inb_S256x81_S256x81_0_0 : ∀ a, (![0, 0] : Fin 2 → Nat) a + S256x81.size a ≤ S256x81.size a
  h_S256x81 : 0 < S256x81.numel
  shapeCasts_S256x81_S256x81 : S256x81.ShapeCasts S256x81
  reduces_S256x81_S256 : S256x81.Reduces [1] S256
  shapeCasts_S256_S256x1 : S256.ShapeCasts S256x1
  broadcasts_S256x1_S256x81 : S256x1.Broadcasts S256x81
  inb_S256x1_S256x1_0_0 : ∀ a, (![0, 0] : Fin 2 → Nat) a + S256x1.size a ≤ S256x1.size a
  h_S256x1 : 0 < S256x1.numel
  reduces_S256x31_S256 : S256x31.Reduces [1] S256
  broadcasts_S256x1_S256x31 : S256x1.Broadcasts S256x31
  inb_S256x31_S256x31_0_0 : ∀ a, (![0, 0] : Fin 2 → Nat) a + S256x31.size a ≤ S256x31.size a
  h_S256x31 : 0 < S256x31.numel
  dot_S1792x56_S56x256_S1792x256_1_0_0_1_n_n_wf : DotDims.WF S1792x56 S56x256 S1792x256 [1] [0] [0] [1] [] []
  dot_S1792x256_S256x256_S1792x256_1_0_0_1_n_n_wf : DotDims.WF S1792x256 S256x256 S1792x256 [1] [0] [0] [1] [] []
  dot_S1792x224_S224x248_S1792x248_1_0_0_1_n_n_wf : DotDims.WF S1792x224 S224x248 S1792x248 [1] [0] [0] [1] [] []
  dot_S1792x256_S256x128_S1792x128_1_0_0_1_n_n_wf : DotDims.WF S1792x256 S256x128 S1792x128 [1] [0] [0] [1] [] []
  dot_S256x704_S704x256_S256x256_1_0_0_1_n_n_wf : DotDims.WF S256x704 S704x256 S256x256 [1] [0] [0] [1] [] []
  dot_S256x240_S240x248_S256x248_1_0_0_1_n_n_wf : DotDims.WF S256x240 S240x248 S256x248 [1] [0] [0] [1] [] []
  dot_S256x256_S256x128_S256x128_1_0_0_1_n_n_wf : DotDims.WF S256x256 S256x128 S256x128 [1] [0] [0] [1] [] []
  dot_S256x112_S112x120_S256x120_1_0_0_1_n_n_wf : DotDims.WF S256x112 S112x120 S256x120 [1] [0] [0] [1] [] []
  dot_S256x128_S128x128_S256x128_1_0_0_1_n_n_wf : DotDims.WF S256x128 S128x128 S256x128 [1] [0] [0] [1] [] []
  dot_S256x128_S128x81_S256x81_1_0_0_1_n_n_wf : DotDims.WF S256x128 S128x81 S256x81 [1] [0] [0] [1] [] []
  dot_S256x128_S128x1_S256x1_1_0_0_1_n_n_wf : DotDims.WF S256x128 S128x1 S256x1 [1] [0] [0] [1] [] []
  dot_S256x128_S128x31_S256x31_1_0_0_1_n_n_wf : DotDims.WF S256x128 S128x31 S256x31 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x7x56.size a ≤ S32768x7x56.size a
  hwx0_0 : ∀ i : grid0.Coords, EltTy.bits .f32 = 32 ∨ (Rect.block (s := S32768x7x56) S256x7x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x81.size a ≤ S32768x81.size a
  hwx0_1 : ∀ i : grid0.Coords, EltTy.bits .f32 = 32 ∨ (Rect.block (s := S32768x81) S256x81.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S56x256.size a ≤ S56x256.size a
  hwx0_2 : ∀ i : grid0.Coords, EltTy.bits .f32 = 32 ∨ (Rect.block (s := S56x256) S56x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x7x1.size a ≤ S1x7x1.size a
  hwx0_4 : ∀ i : grid0.Coords, EltTy.bits .f32 = 32 ∨ (Rect.block (s := S1x7x1) S1x7x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7x1.size a ≤ S1x7x1.size a
  hwx0_5 : ∀ i : grid0.Coords, EltTy.bits .f32 = 32 ∨ (Rect.block (s := S1x7x1) S1x7x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x7x1.size a ≤ S1x7x1.size a
  hwx0_6 : ∀ i : grid0.Coords, EltTy.bits .f32 = 32 ∨ (Rect.block (s := S1x7x1) S1x7x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x7x1.size a ≤ S1x7x1.size a
  hwx0_7 : ∀ i : grid0.Coords, EltTy.bits .f32 = 32 ∨ (Rect.block (s := S1x7x1) S1x7x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S224x248.size a ≤ S224x248.size a
  hwx0_10 : ∀ i : grid0.Coords, EltTy.bits .f32 = 32 ∨ (Rect.block (s := S224x248) S224x248.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x248.size a ≤ S1x248.size a
  hwx0_11 : ∀ i : grid0.Coords, EltTy.bits .f32 = 32 ∨ (Rect.block (s := S1x248) S1x248.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S256x128.size a
  hwx0_12 : ∀ i : grid0.Coords, EltTy.bits .f32 = 32 ∨ (Rect.block (s := S256x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S704x256.size a ≤ S704x256.size a
  hwx0_14 : ∀ i : grid0.Coords, EltTy.bits .f32 = 32 ∨ (Rect.block (s := S704x256) S704x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S240x248.size a ≤ S240x248.size a
  hwx0_16 : ∀ i : grid0.Coords, EltTy.bits .f32 = 32 ∨ (Rect.block (s := S240x248) S240x248.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x248.size a ≤ S1x248.size a
  hwx0_17 : ∀ i : grid0.Coords, EltTy.bits .f32 = 32 ∨ (Rect.block (s := S1x248) S1x248.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x128.size a ≤ S256x128.size a
  hwx0_18 : ∀ i : grid0.Coords, EltTy.bits .f32 = 32 ∨ (Rect.block (s := S256x128) S256x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S112x120.size a ≤ S112x120.size a
  hwx0_20 : ∀ i : grid0.Coords, EltTy.bits .f32 = 32 ∨ (Rect.block (s := S112x120) S112x120.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x120.size a ≤ S1x120.size a
  hwx0_21 : ∀ i : grid0.Coords, EltTy.bits .f32 = 32 ∨ (Rect.block (s := S1x120) S1x120.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x128.size a ≤ S128x128.size a
  hwx0_22 : ∀ i : grid0.Coords, EltTy.bits .f32 = 32 ∨ (Rect.block (s := S128x128) S128x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x128.size a ≤ S1x128.size a
  hwx0_23 : ∀ i : grid0.Coords, EltTy.bits .f32 = 32 ∨ (Rect.block (s := S1x128) S1x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S128x81.size a ≤ S128x81.size a
  hwx0_24 : ∀ i : grid0.Coords, EltTy.bits .f32 = 32 ∨ (Rect.block (s := S128x81) S128x81.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1x81.size a ≤ S1x81.size a
  hwx0_25 : ∀ i : grid0.Coords, EltTy.bits .f32 = 32 ∨ (Rect.block (s := S1x81) S1x81.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128x128.size a ≤ S128x128.size a
  hwx0_26 : ∀ i : grid0.Coords, EltTy.bits .f32 = 32 ∨ (Rect.block (s := S128x128) S128x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x128.size a ≤ S1x128.size a
  hwx0_27 : ∀ i : grid0.Coords, EltTy.bits .f32 = 32 ∨ (Rect.block (s := S1x128) S1x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S128x1.size a ≤ S128x1.size a
  hwx0_28 : ∀ i : grid0.Coords, EltTy.bits .f32 = 32 ∨ (Rect.block (s := S128x1) S128x1.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S1x1.size a ≤ S1x1.size a
  hwx0_29 : ∀ i : grid0.Coords, EltTy.bits .f32 = 32 ∨ (Rect.block (s := S1x1) S1x1.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S128x128.size a ≤ S128x128.size a
  hwx0_30 : ∀ i : grid0.Coords, EltTy.bits .f32 = 32 ∨ (Rect.block (s := S128x128) S128x128.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S1x128.size a ≤ S1x128.size a
  hwx0_31 : ∀ i : grid0.Coords, EltTy.bits .f32 = 32 ∨ (Rect.block (s := S1x128) S1x128.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S128x31.size a ≤ S128x31.size a
  hwx0_32 : ∀ i : grid0.Coords, EltTy.bits .f32 = 32 ∨ (Rect.block (s := S128x31) S128x31.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S1x31.size a ≤ S1x31.size a
  hwx0_33 : ∀ i : grid0.Coords, EltTy.bits .f32 = 32 ∨ (Rect.block (s := S1x31) S1x31.size (cc0_transform_33 i) (hinb0_33 i)).WholeWords (EltTy.packing .f32)
  hstage0_34 : ∀ j, (stage0_34 j).IsWhole
  nbuf0_34 : grid0.bufCount reads0_34 false = 2
  hreads0_34 : ∀ i i' : grid0.Coords, (∀ a, reads0_34 a = true → i a = i' a) → cc0_transform_34 i = cc0_transform_34 i'
  hinb0_34 : ∀ (i : grid0.Coords) a, (cc0_transform_34 i a + 1) * S256x81.size a ≤ S32768x81.size a
  hwx0_34 : ∀ i : grid0.Coords, EltTy.bits .f32 = 32 ∨ (Rect.block (s := S32768x81) S256x81.size (cc0_transform_34 i) (hinb0_34 i)).WholeWords (EltTy.packing .f32)
  hstage0_35 : ∀ j, (stage0_35 j).IsWhole
  nbuf0_35 : grid0.bufCount reads0_35 false = 2
  hreads0_35 : ∀ i i' : grid0.Coords, (∀ a, reads0_35 a = true → i a = i' a) → cc0_transform_35 i = cc0_transform_35 i'
  hinb0_35 : ∀ (i : grid0.Coords) a, (cc0_transform_35 i a + 1) * S256x1.size a ≤ S32768x1.size a
  hwx0_35 : ∀ i : grid0.Coords, EltTy.bits .f32 = 32 ∨ (Rect.block (s := S32768x1) S256x1.size (cc0_transform_35 i) (hinb0_35 i)).WholeWords (EltTy.packing .f32)
  hstage0_36 : ∀ j, (stage0_36 j).IsWhole
  nbuf0_36 : grid0.bufCount reads0_36 false = 2
  hreads0_36 : ∀ i i' : grid0.Coords, (∀ a, reads0_36 a = true → i a = i' a) → cc0_transform_36 i = cc0_transform_36 i'
  hinb0_36 : ∀ (i : grid0.Coords) a, (cc0_transform_36 i a + 1) * S256x31.size a ≤ S32768x31.size a
  hwx0_36 : ∀ i : grid0.Coords, EltTy.bits .f32 = 32 ∨ (Rect.block (s := S32768x31) S256x31.size (cc0_transform_36 i) (hinb0_36 i)).WholeWords (EltTy.packing .f32)

variable [Facts₀]

def dot_S1792x56_S56x256_S1792x256_1_0_0_1_n_n : DotDims S1792x56 S56x256 S1792x256 where
  lhsContracting := [1]
  rhsContracting := [0]
  lhsNonContracting := [0]
  rhsNonContracting := [1]
  lhsBatch := []
  rhsBatch := []
  wf := dot_S1792x56_S56x256_S1792x256_1_0_0_1_n_n_wf
def dot_S1792x256_S256x256_S1792x256_1_0_0_1_n_n : DotDims S1792x256 S256x256 S1792x256 where
  lhsContracting := [1]
  rhsContracting := [0]
  lhsNonContracting := [0]
  rhsNonContracting := [1]
  lhsBatch := []
  rhsBatch := []
  wf := dot_S1792x256_S256x256_S1792x256_1_0_0_1_n_n_wf
def dot_S1792x224_S224x248_S1792x248_1_0_0_1_n_n : DotDims S1792x224 S224x248 S1792x248 where
  lhsContracting := [1]
  rhsContracting := [0]
  lhsNonContracting := [0]
  rhsNonContracting := [1]
  lhsBatch := []
  rhsBatch := []
  wf := dot_S1792x224_S224x248_S1792x248_1_0_0_1_n_n_wf
def dot_S1792x256_S256x128_S1792x128_1_0_0_1_n_n : DotDims S1792x256 S256x128 S1792x128 where
  lhsContracting := [1]
  rhsContracting := [0]
  lhsNonContracting := [0]
  rhsNonContracting := [1]
  lhsBatch := []
  rhsBatch := []
  wf := dot_S1792x256_S256x128_S1792x128_1_0_0_1_n_n_wf
def dot_S256x704_S704x256_S256x256_1_0_0_1_n_n : DotDims S256x704 S704x256 S256x256 where
  lhsContracting := [1]
  rhsContracting := [0]
  lhsNonContracting := [0]
  rhsNonContracting := [1]
  lhsBatch := []
  rhsBatch := []
  wf := dot_S256x704_S704x256_S256x256_1_0_0_1_n_n_wf
def dot_S256x240_S240x248_S256x248_1_0_0_1_n_n : DotDims S256x240 S240x248 S256x248 where
  lhsContracting := [1]
  rhsContracting := [0]
  lhsNonContracting := [0]
  rhsNonContracting := [1]
  lhsBatch := []
  rhsBatch := []
  wf := dot_S256x240_S240x248_S256x248_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x112_S112x120_S256x120_1_0_0_1_n_n : DotDims S256x112 S112x120 S256x120 where
  lhsContracting := [1]
  rhsContracting := [0]
  lhsNonContracting := [0]
  rhsNonContracting := [1]
  lhsBatch := []
  rhsBatch := []
  wf := dot_S256x112_S112x120_S256x120_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x81_S256x81_1_0_0_1_n_n : DotDims S256x128 S128x81 S256x81 where
  lhsContracting := [1]
  rhsContracting := [0]
  lhsNonContracting := [0]
  rhsNonContracting := [1]
  lhsBatch := []
  rhsBatch := []
  wf := dot_S256x128_S128x81_S256x81_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def dot_S256x128_S128x31_S256x31_1_0_0_1_n_n : DotDims S256x128 S128x31 S256x31 where
  lhsContracting := [1]
  rhsContracting := [0]
  lhsNonContracting := [0]
  rhsNonContracting := [1]
  lhsBatch := []
  rhsBatch := []
  wf := dot_S256x128_S128x31_S256x31_1_0_0_1_n_n_wf

abbrev win0_0 : Pipeline.Window sig grid0 :=
  Pipeline.Window.ofSpec (Memref.whole main_v0) S256x7x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x81.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S56x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x7x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x7x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x7x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x7x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S224x248.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x248.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S256x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S704x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S240x248.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x248.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S256x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v20) S112x120.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v21) S1x120.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v22) S128x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v23) S1x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v24) S128x81.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v25) S1x81.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v26) S128x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v27) S1x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v28) S128x1.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v29) S1x1.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v30) S128x128.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v31) S1x128.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v32) S128x31.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v33) S1x31.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v34_0) S256x81.size cc0_transform_34 reads0_34 true false 2 stage0_34 sem0_34
    hrank0 hreads0_34 hinb0_34 nbuf0_34 (Memref.isWhole_whole _) hwx0_34 hstage0_34

abbrev win0_35 : Pipeline.Window sig grid0 :=
  Pipeline.Window.ofSpec (Memref.whole main_v34_1) S256x1.size cc0_transform_35 reads0_35 true false 2 stage0_35 sem0_35
    hrank0 hreads0_35 hinb0_35 nbuf0_35 (Memref.isWhole_whole _) hwx0_35 hstage0_35

abbrev win0_36 : Pipeline.Window sig grid0 :=
  Pipeline.Window.ofSpec (Memref.whole main_v34_2) S256x31.size cc0_transform_36 reads0_36 true false 2 stage0_36 sem0_36
    hrank0 hreads0_36 hinb0_36 nbuf0_36 (Memref.isWhole_whole _) hwx0_36 hstage0_36

abbrev win0 : Fin 37 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | ⟨_ + 37, h⟩ => absurd h (Nat.not_lt.2 (Nat.le_add_left _ _))
abbrev spec0 : Fin 37 → Pipeline.WinSpec sig grid0.rank := fun w => (win0 w).toWinSpec

class Facts : Prop extends Facts₀ where

variable [Facts]
-- ==== ReferenceIdeal.lean ====
abbrev S32768x56x7 : Shape := ⟨3, ![32768, 56, 7]⟩
abbrev S32768x81 : Shape := ⟨2, ![32768, 81]⟩
abbrev S256x56 : Shape := ⟨2, ![256, 56]⟩
abbrev S256 : Shape := ⟨1, ![256]⟩
abbrev S7 : Shape := ⟨1, ![7]⟩
abbrev S256x256 : Shape := ⟨2, ![256, 256]⟩
abbrev S248x224 : Shape := ⟨2, ![248, 224]⟩
abbrev S248 : Shape := ⟨1, ![248]⟩
abbrev S128x256 : Shape := ⟨2, ![128, 256]⟩
abbrev S128 : Shape := ⟨1, ![128]⟩
abbrev S256x704 : Shape := ⟨2, ![256, 704]⟩
abbrev S248x240 : Shape := ⟨2, ![248, 240]⟩
abbrev S120x112 : Shape := ⟨2, ![120, 112]⟩
abbrev S120 : Shape := ⟨1, ![120]⟩
abbrev S128x128 : Shape := ⟨2, ![128, 128]⟩
abbrev S81x128 : Shape := ⟨2, ![81, 128]⟩
abbrev S81 : Shape := ⟨1, ![81]⟩
abbrev S1x128 : Shape := ⟨2, ![1, 128]⟩
abbrev S1 : Shape := ⟨1, ![1]⟩
abbrev S31x128 : Shape := ⟨2, ![31, 128]⟩
abbrev S31 : Shape := ⟨1, ![31]⟩
abbrev S32768x7x56 : Shape := ⟨3, ![32768, 7, 56]⟩
abbrev S32768x7x256 : Shape := ⟨3, ![32768, 7, 256]⟩
abbrev S1x1x256 : Shape := ⟨3, ![1, 1, 256]⟩
abbrev S7x1 : Shape := ⟨2, ![7, 1]⟩
abbrev S1x7x1 : Shape := ⟨3, ![1, 7, 1]⟩
abbrev S_ : Shape := ⟨0, ![]⟩
abbrev S32768x7x32 : Shape := ⟨3, ![32768, 7, 32]⟩
abbrev S32768x7x4x8 : Shape := ⟨4, ![32768, 7, 4, 8]⟩
abbrev S32768x7x224 : Shape := ⟨3, ![32768, 7, 224]⟩
abbrev S32768x7x248 : Shape := ⟨3, ![32768, 7, 248]⟩
abbrev S1x1x248 : Shape := ⟨3, ![1, 1, 248]⟩
abbrev S32768x7x4 : Shape := ⟨3, ![32768, 7, 4]⟩
abbrev S32768x7x128 : Shape := ⟨3, ![32768, 7, 128]⟩
abbrev S1x1x128 : Shape := ⟨3, ![1, 1, 128]⟩
abbrev S32768x7x64 : Shape := ⟨3, ![32768, 7, 64]⟩
abbrev S32768x5x64 : Shape := ⟨3, ![32768, 5, 64]⟩
abbrev S32768x2x64 : Shape := ⟨3, ![32768, 2, 64]⟩
abbrev S32768x64 : Shape := ⟨2, ![32768, 64]⟩
abbrev S32768x128 : Shape := ⟨2, ![32768, 128]⟩
abbrev S32768x448 : Shape := ⟨2, ![32768, 448]⟩
abbrev S32768x704 : Shape := ⟨2, ![32768, 704]⟩
abbrev S32768x1x704 : Shape := ⟨3, ![32768, 1, 704]⟩
abbrev S32768x1x256 : Shape := ⟨3, ![32768, 1, 256]⟩
abbrev S32768x1x16 : Shape := ⟨3, ![32768, 1, 16]⟩
abbrev S32768x1x4x4 : Shape := ⟨4, ![32768, 1, 4, 4]⟩
abbrev S32768x1x240 : Shape := ⟨3, ![32768, 1, 240]⟩
abbrev S32768x1x248 : Shape := ⟨3, ![32768, 1, 248]⟩
abbrev S32768x1x4 : Shape := ⟨3, ![32768, 1, 4]⟩
abbrev S32768x1x128 : Shape := ⟨3, ![32768, 1, 128]⟩
abbrev S32768x1x112 : Shape := ⟨3, ![32768, 1, 112]⟩
abbrev S32768x1x120 : Shape := ⟨3, ![32768, 1, 120]⟩
abbrev S1x1x120 : Shape := ⟨3, ![1, 1, 120]⟩
abbrev S32768x1x81 : Shape := ⟨3, ![32768, 1, 81]⟩
abbrev S1x1x81 : Shape := ⟨3, ![1, 1, 81]⟩
abbrev S32768x1x1 : Shape := ⟨3, ![32768, 1, 1]⟩
abbrev S1x1x1 : Shape := ⟨3, ![1, 1, 1]⟩
abbrev S32768x1 : Shape := ⟨2, ![32768, 1]⟩
abbrev S32768x1x31 : Shape := ⟨3, ![32768, 1, 31]⟩
abbrev S1x1x31 : Shape := ⟨3, ![1, 1, 31]⟩
abbrev S32768x31 : Shape := ⟨2, ![32768, 31]⟩
abbrev S32768 : Shape := ⟨1, ![32768]⟩

abbrev nBuf : Space → Nat
  | .hbm => 221
  | .vmem => 0
  | .smem => 0
  | _ => 0

abbrev hbmTy0_0 (i : Nat) : BufTy := match i % 128 with
  | 0 => ⟨S32768x56x7, .f32⟩
  | 1 => ⟨S32768x81, .i1⟩
  | 2 => ⟨S256x56, .f32⟩
  | 3 => ⟨S256, .f32⟩
  | 4 => ⟨S7, .f32⟩
  | 5 => ⟨S7, .f32⟩
  | 6 => ⟨S7, .f32⟩
  | 7 => ⟨S7, .f32⟩
  | 8 => ⟨S256x256, .f32⟩
  | 9 => ⟨S256, .f32⟩
  | 10 => ⟨S248x224, .f32⟩
  | 11 => ⟨S248, .f32⟩
  | 12 => ⟨S128x256, .f32⟩
  | 13 => ⟨S128, .f32⟩
  | 14 => ⟨S256x704, .f32⟩
  | 15 => ⟨S256, .f32⟩
  | 16 => ⟨S248x240, .f32⟩
  | 17 => ⟨S248, .f32⟩
  | 18 => ⟨S128x256, .f32⟩
  | 19 => ⟨S128, .f32⟩
  | 20 => ⟨S120x112, .f32⟩
  | 21 => ⟨S120, .f32⟩
  | 22 => ⟨S128x128, .f32⟩
  | 23 => ⟨S128, .f32⟩
  | 24 => ⟨S81x128, .f32⟩
  | 25 => ⟨S81, .f32⟩
  | 26 => ⟨S128x128, .f32⟩
  | 27 => ⟨S128, .f32⟩
  | 28 => ⟨S1x128, .f32⟩
  | 29 => ⟨S1, .f32⟩
  | 30 => ⟨S128x128, .f32⟩
  | 31 => ⟨S128, .f32⟩
  | 32 => ⟨S31x128, .f32⟩
  | 33 => ⟨S31, .f32⟩
  | 34 => ⟨S32768x7x56, .f32⟩
  | 35 => ⟨S32768x7x256, .f32⟩
  | 36 => ⟨S1x1x256, .f32⟩
  | 37 => ⟨S32768x7x256, .f32⟩
  | 38 => ⟨S32768x7x256, .f32⟩
  | 39 => ⟨S7x1, .f32⟩
  | 40 => ⟨S1x7x1, .f32⟩
  | 41 => ⟨S32768x7x256, .f32⟩
  | 42 => ⟨S32768x7x256, .f32⟩
  | 43 => ⟨S7x1, .f32⟩
  | 44 => ⟨S_, .f32⟩
  | 45 => ⟨S7x1, .f32⟩
  | 46 => ⟨S7x1, .f32⟩
  | 47 => ⟨S7x1, .f32⟩
  | 48 => ⟨S1x7x1, .f32⟩
  | 49 => ⟨S32768x7x256, .f32⟩
  | 50 => ⟨S32768x7x256, .f32⟩
  | 51 => ⟨S7x1, .f32⟩
  | 52 => ⟨S1x7x1, .f32⟩
  | 53 => ⟨S32768x7x256, .f32⟩
  | 54 => ⟨S32768x7x256, .f32⟩
  | 55 => ⟨S7x1, .f32⟩
  | 56 => ⟨S1x7x1, .f32⟩
  | 57 => ⟨S32768x7x256, .f32⟩
  | 58 => ⟨S32768x7x256, .f32⟩
  | 59 => ⟨S_, .f32⟩
  | 60 => ⟨S32768x7x256, .f32⟩
  | 61 => ⟨S32768x7x256, .f32⟩
  | 62 => ⟨S32768x7x256, .f32⟩
  | 63 => ⟨S1x1x256, .f32⟩
  | 64 => ⟨S32768x7x256, .f32⟩
  | 65 => ⟨S32768x7x256, .f32⟩
  | 66 => ⟨S_, .f32⟩
  | 67 => ⟨S32768x7x256, .f32⟩
  | 68 => ⟨S32768x7x256, .f32⟩
  | 69 => ⟨S32768x7x32, .f32⟩
  | 70 => ⟨S32768x7x4x8, .f32⟩
  | 71 => ⟨S32768x7x224, .f32⟩
  | 72 => ⟨S32768x7x248, .f32⟩
  | 73 => ⟨S1x1x248, .f32⟩
  | 74 => ⟨S32768x7x248, .f32⟩
  | 75 => ⟨S32768x7x248, .f32⟩
  | 76 => ⟨S_, .f32⟩
  | 77 => ⟨S32768x7x248, .f32⟩
  | 78 => ⟨S32768x7x248, .f32⟩
  | 79 => ⟨S_, .f32⟩
  | 80 => ⟨S32768x7x4, .f32⟩
  | 81 => ⟨S_, .f32⟩
  | 82 => ⟨S32768x7x4, .f32⟩
  | 83 => ⟨S_, .f32⟩
  | 84 => ⟨S32768x7x4, .f32⟩
  | 85 => ⟨S32768x7x4, .f32⟩
  | 86 => ⟨S32768x7x256, .f32⟩
  | 87 => ⟨S32768x7x128, .f32⟩
  | 88 => ⟨S1x1x128, .f32⟩
  | 89 => ⟨S32768x7x128, .f32⟩
  | 90 => ⟨S32768x7x128, .f32⟩
  | 91 => ⟨S_, .f32⟩
  | 92 => ⟨S32768x7x128, .f32⟩
  | 93 => ⟨S32768x7x128, .f32⟩
  | 94 => ⟨S32768x7x64, .f32⟩
  | 95 => ⟨S32768x7x64, .f32⟩
  | 96 => ⟨S32768x5x64, .f32⟩
  | 97 => ⟨S32768x2x64, .f32⟩
  | 98 => ⟨S_, .f32⟩
  | 99 => ⟨S32768x64, .f32⟩
  | 100 => ⟨S_, .f32⟩
  | 101 => ⟨S32768x64, .f32⟩
  | 102 => ⟨S_, .f32⟩
  | 103 => ⟨S32768x64, .f32⟩
  | 104 => ⟨S32768x64, .f32⟩
  | 105 => ⟨S32768x128, .f32⟩
  | 106 => ⟨S32768x448, .f32⟩
  | 107 => ⟨S32768x704, .f32⟩
  | 108 => ⟨S32768x1x704, .f32⟩
  | 109 => ⟨S32768x1x256, .f32⟩
  | 110 => ⟨S1x1x256, .f32⟩
  | 111 => ⟨S32768x1x256, .f32⟩
  | 112 => ⟨S32768x1x256, .f32⟩
  | 113 => ⟨S_, .f32⟩
  | 114 => ⟨S32768x1x256, .f32⟩
  | 115 => ⟨S32768x1x256, .f32⟩
  | 116 => ⟨S32768x1x16, .f32⟩
  | 117 => ⟨S32768x1x4x4, .f32⟩
  | 118 => ⟨S32768x1x240, .f32⟩
  | 119 => ⟨S32768x1x248, .f32⟩
  | 120 => ⟨S1x1x248, .f32⟩
  | 121 => ⟨S32768x1x248, .f32⟩
  | 122 => ⟨S32768x1x248, .f32⟩
  | 123 => ⟨S_, .f32⟩
  | 124 => ⟨S32768x1x248, .f32⟩
  | 125 => ⟨S32768x1x248, .f32⟩
  | 126 => ⟨S_, .f32⟩
  | 127 => ⟨S32768x1x4, .f32⟩
  | _ => ⟨S32768x56x7, .f32⟩

abbrev hbmTy0_1 (i : Nat) : BufTy := match i % 128 with
  | 0 => ⟨S_, .f32⟩
  | 1 => ⟨S32768x1x4, .f32⟩
  | 2 => ⟨S_, .f32⟩
  | 3 => ⟨S32768x1x4, .f32⟩
  | 4 => ⟨S32768x1x4, .f32⟩
  | 5 => ⟨S32768x1x256, .f32⟩
  | 6 => ⟨S32768x1x128, .f32⟩
  | 7 => ⟨S1x1x128, .f32⟩
  | 8 => ⟨S32768x1x128, .f32⟩
  | 9 => ⟨S32768x1x128, .f32⟩
  | 10 => ⟨S_, .f32⟩
  | 11 => ⟨S32768x1x128, .f32⟩
  | 12 => ⟨S32768x1x128, .f32⟩
  | 13 => ⟨S32768x1x16, .f32⟩
  | 14 => ⟨S32768x1x4x4, .f32⟩
  | 15 => ⟨S32768x1x112, .f32⟩
  | 16 => ⟨S32768x1x120, .f32⟩
  | 17 => ⟨S1x1x120, .f32⟩
  | 18 => ⟨S32768x1x120, .f32⟩
  | 19 => ⟨S32768x1x120, .f32⟩
  | 20 => ⟨S_, .f32⟩
  | 21 => ⟨S32768x1x120, .f32⟩
  | 22 => ⟨S32768x1x120, .f32⟩
  | 23 => ⟨S_, .f32⟩
  | 24 => ⟨S32768x1x4, .f32⟩
  | 25 => ⟨S_, .f32⟩
  | 26 => ⟨S32768x1x4, .f32⟩
  | 27 => ⟨S_, .f32⟩
  | 28 => ⟨S32768x1x4, .f32⟩
  | 29 => ⟨S32768x1x4, .f32⟩
  | 30 => ⟨S32768x1x128, .f32⟩
  | 31 => ⟨S32768x1x128, .f32⟩
  | 32 => ⟨S1x1x128, .f32⟩
  | 33 => ⟨S32768x1x128, .f32⟩
  | 34 => ⟨S32768x1x128, .f32⟩
  | 35 => ⟨S32768x1x81, .f32⟩
  | 36 => ⟨S1x1x81, .f32⟩
  | 37 => ⟨S32768x1x81, .f32⟩
  | 38 => ⟨S32768x1x81, .f32⟩
  | 39 => ⟨S32768x81, .f32⟩
  | 40 => ⟨S32768x1x128, .f32⟩
  | 41 => ⟨S1x1x128, .f32⟩
  | 42 => ⟨S32768x1x128, .f32⟩
  | 43 => ⟨S32768x1x128, .f32⟩
  | 44 => ⟨S32768x1x1, .f32⟩
  | 45 => ⟨S1x1x1, .f32⟩
  | 46 => ⟨S32768x1x1, .f32⟩
  | 47 => ⟨S32768x1x1, .f32⟩
  | 48 => ⟨S32768x1, .f32⟩
  | 49 => ⟨S32768x1x128, .f32⟩
  | 50 => ⟨S1x1x128, .f32⟩
  | 51 => ⟨S32768x1x128, .f32⟩
  | 52 => ⟨S32768x1x128, .f32⟩
  | 53 => ⟨S32768x1x31, .f32⟩
  | 54 => ⟨S1x1x31, .f32⟩
  | 55 => ⟨S32768x1x31, .f32⟩
  | 56 => ⟨S32768x1x31, .f32⟩
  | 57 => ⟨S32768x31, .f32⟩
  | 58 => ⟨S_, .f32⟩
  | 59 => ⟨S_, .f32⟩
  | 60 => ⟨S32768x81, .f32⟩
  | 61 => ⟨S32768x81, .f32⟩
  | 62 => ⟨S_, .f32⟩
  | 63 => ⟨S32768, .f32⟩
  | 64 => ⟨S_, .f32⟩
  | 65 => ⟨S32768, .f32⟩
  | 66 => ⟨S32768, .f32⟩
  | 67 => ⟨S32768x1, .f32⟩
  | 68 => ⟨S32768x81, .f32⟩
  | 69 => ⟨S32768x81, .f32⟩
  | 70 => ⟨S32768x81, .f32⟩
  | 71 => ⟨S_, .f32⟩
  | 72 => ⟨S32768, .f32⟩
  | 73 => ⟨S32768x1, .f32⟩
  | 74 => ⟨S32768x1, .f32⟩
  | 75 => ⟨S32768x81, .f32⟩
  | 76 => ⟨S32768x81, .f32⟩
  | 77 => ⟨S32768x1, .f32⟩
  | 78 => ⟨S_, .f32⟩
  | 79 => ⟨S32768, .f32⟩
  | 80 => ⟨S_, .f32⟩
  | 81 => ⟨S32768, .f32⟩
  | 82 => ⟨S32768, .f32⟩
  | 83 => ⟨S32768x1, .f32⟩
  | 84 => ⟨S32768x31, .f32⟩
  | 85 => ⟨S32768x31, .f32⟩
  | 86 => ⟨S32768x31, .f32⟩
  | 87 => ⟨S_, .f32⟩
  | 88 => ⟨S32768, .f32⟩
  | 89 => ⟨S32768x1, .f32⟩
  | 90 => ⟨S32768x1, .f32⟩
  | 91 => ⟨S32768x31, .f32⟩
  | 92 => ⟨S32768x31, .f32⟩
  | _ => ⟨S32768x56x7, .f32⟩

abbrev hbmTy (i : Nat) : BufTy := match i / 128 with
  | 0 => hbmTy0_0 i
  | 1 => hbmTy0_1 i
  | _ => ⟨S32768x56x7, .f32⟩

abbrev bufTy : (tb : Table) → Fin (tcTables nBuf tb) → BufTy
  | .hbm, ⟨i, _⟩ => hbmTy i
  | _, _ => ⟨S32768x56x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_cst : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_call0_cst : Ref sig .tc := ⟨.hbm, 59, rfl⟩
abbrev main_call0_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call1_cst : Ref sig .tc := ⟨.hbm, 66, rfl⟩
abbrev main_call1_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_call2_cst : Ref sig .tc := ⟨.hbm, 76, rfl⟩
abbrev main_call2_v0 : Ref sig .tc := ⟨.hbm, 77, rfl⟩
abbrev main_v37 : Ref sig .tc := ⟨.hbm, 78, rfl⟩
abbrev main_cst_0 : Ref sig .tc := ⟨.hbm, 79, rfl⟩
abbrev main_v38 : Ref sig .tc := ⟨.hbm, 80, rfl⟩
abbrev main_cst_1 : Ref sig .tc := ⟨.hbm, 81, rfl⟩
abbrev main_v39 : Ref sig .tc := ⟨.hbm, 82, rfl⟩
abbrev main_cst_2 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_call3_cst : Ref sig .tc := ⟨.hbm, 91, rfl⟩
abbrev main_call3_v0 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_3 : Ref sig .tc := ⟨.hbm, 98, rfl⟩
abbrev main_v52 : Ref sig .tc := ⟨.hbm, 99, rfl⟩
abbrev main_cst_4 : Ref sig .tc := ⟨.hbm, 100, rfl⟩
abbrev main_v53 : Ref sig .tc := ⟨.hbm, 101, rfl⟩
abbrev main_cst_5 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_call4_cst : Ref sig .tc := ⟨.hbm, 113, rfl⟩
abbrev main_call4_v0 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call5_cst : Ref sig .tc := ⟨.hbm, 123, rfl⟩
abbrev main_call5_v0 : Ref sig .tc := ⟨.hbm, 124, rfl⟩
abbrev main_v72 : Ref sig .tc := ⟨.hbm, 125, rfl⟩
abbrev main_cst_6 : Ref sig .tc := ⟨.hbm, 126, rfl⟩
abbrev main_v73 : Ref sig .tc := ⟨.hbm, 127, rfl⟩
abbrev main_cst_7 : Ref sig .tc := ⟨.hbm, 128, rfl⟩
abbrev main_v74 : Ref sig .tc := ⟨.hbm, 129, rfl⟩
abbrev main_cst_8 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call6_cst : Ref sig .tc := ⟨.hbm, 138, rfl⟩
abbrev main_call6_v0 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_call7_cst : Ref sig .tc := ⟨.hbm, 148, rfl⟩
abbrev main_call7_v0 : Ref sig .tc := ⟨.hbm, 149, rfl⟩
abbrev main_v90 : Ref sig .tc := ⟨.hbm, 150, rfl⟩
abbrev main_cst_9 : Ref sig .tc := ⟨.hbm, 151, rfl⟩
abbrev main_v91 : Ref sig .tc := ⟨.hbm, 152, rfl⟩
abbrev main_cst_10 : Ref sig .tc := ⟨.hbm, 153, rfl⟩
abbrev main_v92 : Ref sig .tc := ⟨.hbm, 154, rfl⟩
abbrev main_cst_11 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_cst_12 : Ref sig .tc := ⟨.hbm, 186, rfl⟩
abbrev main_call8_v0 : Ref sig .tc := ⟨.hbm, 187, rfl⟩
abbrev main_call8_v1 : Ref sig .tc := ⟨.hbm, 188, rfl⟩
abbrev main_v123 : Ref sig .tc := ⟨.hbm, 189, rfl⟩
abbrev main_call9_cst : Ref sig .tc := ⟨.hbm, 190, rfl⟩
abbrev main_call9_v0 : Ref sig .tc := ⟨.hbm, 191, rfl⟩
abbrev main_call9_cst_0 : Ref sig .tc := ⟨.hbm, 192, rfl⟩
abbrev main_call9_v1 : Ref sig .tc := ⟨.hbm, 193, rfl⟩
abbrev main_call9_v2 : Ref sig .tc := ⟨.hbm, 194, rfl⟩
abbrev main_call9_v3 : Ref sig .tc := ⟨.hbm, 195, rfl⟩
abbrev main_call9_v4 : Ref sig .tc := ⟨.hbm, 196, rfl⟩
abbrev main_call9_v5 : Ref sig .tc := ⟨.hbm, 197, rfl⟩
abbrev main_call9_v6 : Ref sig .tc := ⟨.hbm, 198, rfl⟩
abbrev main_call9_cst_1 : Ref sig .tc := ⟨.hbm, 199, rfl⟩
abbrev main_call9_v7 : Ref sig .tc := ⟨.hbm, 200, rfl⟩
abbrev main_call9_v8 : Ref sig .tc := ⟨.hbm, 201, rfl⟩
abbrev main_call9_v9 : Ref sig .tc := ⟨.hbm, 202, rfl⟩
abbrev main_call9_v10 : Ref sig .tc := ⟨.hbm, 203, rfl⟩
abbrev main_v124 : Ref sig .tc := ⟨.hbm, 204, rfl⟩
abbrev main_v125 : Ref sig .tc := ⟨.hbm, 205, rfl⟩
abbrev main_call10_cst : Ref sig .tc := ⟨.hbm, 206, rfl⟩
abbrev main_call10_v0 : Ref sig .tc := ⟨.hbm, 207, rfl⟩
abbrev main_call10_cst_0 : Ref sig .tc := ⟨.hbm, 208, rfl⟩
abbrev main_call10_v1 : Ref sig .tc := ⟨.hbm, 209, rfl⟩
abbrev main_call10_v2 : Ref sig .tc := ⟨.hbm, 210, rfl⟩
abbrev main_call10_v3 : Ref sig .tc := ⟨.hbm, 211, rfl⟩
abbrev main_call10_v4 : Ref sig .tc := ⟨.hbm, 212, rfl⟩
abbrev main_call10_v5 : Ref sig .tc := ⟨.hbm, 213, rfl⟩
abbrev main_call10_v6 : Ref sig .tc := ⟨.hbm, 214, rfl⟩
abbrev main_call10_cst_1 : Ref sig .tc := ⟨.hbm, 215, rfl⟩
abbrev main_call10_v7 : Ref sig .tc := ⟨.hbm, 216, rfl⟩
abbrev main_call10_v8 : Ref sig .tc := ⟨.hbm, 217, rfl⟩
abbrev main_call10_v9 : Ref sig .tc := ⟨.hbm, 218, rfl⟩
abbrev main_call10_v10 : Ref sig .tc := ⟨.hbm, 219, rfl⟩
abbrev main_v126 : Ref sig .tc := ⟨.hbm, 220, rfl⟩

abbrev nD : Nat := 1
abbrev τ : Topo := Topo.v7x

variable {F : FTy → Type} [FloatOps F]

class Facts₀ : Prop where
  transposes_S32768x56x7_S32768x7x56_0_2_1 : S32768x56x7.Transposes [0, 2, 1] S32768x7x56
  bcast_S256_S1x1x256_2 : S256.BroadcastsInDim S1x1x256 (![2] : Fin 1 → Fin S1x1x256.rank)
  bcast_S1x1x256_S32768x7x256_0_1_2 : S1x1x256.BroadcastsInDim S32768x7x256 (![0, 1, 2] : Fin 3 → Fin S32768x7x256.rank)
  bcast_S7_S7x1_0 : S7.BroadcastsInDim S7x1 (![0] : Fin 1 → Fin S7x1.rank)
  bcast_S7x1_S1x7x1_1_2 : S7x1.BroadcastsInDim S1x7x1 (![1, 2] : Fin 2 → Fin S1x7x1.rank)
  bcast_S1x7x1_S32768x7x256_0_1_2 : S1x7x1.BroadcastsInDim S32768x7x256 (![0, 1, 2] : Fin 3 → Fin S32768x7x256.rank)
  bcast_S_S7x1 : S_.BroadcastsInDim S7x1 (![] : Fin 0 → Fin S7x1.rank)
  bcast_S_S32768x7x256 : S_.BroadcastsInDim S32768x7x256 (![] : Fin 0 → Fin S32768x7x256.rank)
  slices_S32768x7x256_S32768x7x32_0_0_0 : S32768x7x256.Slices ![0, 0, 0] S32768x7x32
  shapeCasts_S32768x7x32_S32768x7x4x8 : S32768x7x32.ShapeCasts S32768x7x4x8
  slices_S32768x7x256_S32768x7x224_0_0_32 : S32768x7x256.Slices ![0, 0, 32] S32768x7x224
  bcast_S248_S1x1x248_2 : S248.BroadcastsInDim S1x1x248 (![2] : Fin 1 → Fin S1x1x248.rank)
  bcast_S1x1x248_S32768x7x248_0_1_2 : S1x1x248.BroadcastsInDim S32768x7x248 (![0, 1, 2] : Fin 3 → Fin S32768x7x248.rank)
  bcast_S_S32768x7x248 : S_.BroadcastsInDim S32768x7x248 (![] : Fin 0 → Fin S32768x7x248.rank)
  reducesTo_S32768x7x4x8_S32768x7x4_d3 : S32768x7x4x8.ReducesTo [3] S32768x7x4
  h_S_ : 0 < S_.numel
  bcast_S_S32768x7x4 : S_.BroadcastsInDim S32768x7x4 (![] : Fin 0 → Fin S32768x7x4.rank)
  concatenates_S32768x7x4_S32768x7x4_S32768x7x248_S32768x7x256_d2 : Shape.Concatenates [S32768x7x4, S32768x7x4, S32768x7x248] S32768x7x256 2
  bcast_S128_S1x1x128_2 : S128.BroadcastsInDim S1x1x128 (![2] : Fin 1 → Fin S1x1x128.rank)
  bcast_S1x1x128_S32768x7x128_0_1_2 : S1x1x128.BroadcastsInDim S32768x7x128 (![0, 1, 2] : Fin 3 → Fin S32768x7x128.rank)
  bcast_S_S32768x7x128 : S_.BroadcastsInDim S32768x7x128 (![] : Fin 0 → Fin S32768x7x128.rank)
  slices_S32768x7x128_S32768x7x64_0_0_0 : S32768x7x128.Slices ![0, 0, 0] S32768x7x64
  slices_S32768x7x128_S32768x7x64_0_0_64 : S32768x7x128.Slices ![0, 0, 64] S32768x7x64
  slices_S32768x7x64_S32768x5x64_0_0_0 : S32768x7x64.Slices ![0, 0, 0] S32768x5x64
  slices_S32768x7x64_S32768x2x64_0_5_0 : S32768x7x64.Slices ![0, 5, 0] S32768x2x64
  reducesTo_S32768x5x64_S32768x64_d1 : S32768x5x64.ReducesTo [1] S32768x64
  bcast_S_S32768x64 : S_.BroadcastsInDim S32768x64 (![] : Fin 0 → Fin S32768x64.rank)
  shapeCasts_S32768x2x64_S32768x128 : S32768x2x64.ShapeCasts S32768x128
  shapeCasts_S32768x7x64_S32768x448 : S32768x7x64.ShapeCasts S32768x448
  concatenates_S32768x64_S32768x64_S32768x128_S32768x448_S32768x704_d1 : Shape.Concatenates [S32768x64, S32768x64, S32768x128, S32768x448] S32768x704 1
  bcast_S32768x704_S32768x1x704_0_2 : S32768x704.BroadcastsInDim S32768x1x704 (![0, 2] : Fin 2 → Fin S32768x1x704.rank)
  bcast_S1x1x256_S32768x1x256_0_1_2 : S1x1x256.BroadcastsInDim S32768x1x256 (![0, 1, 2] : Fin 3 → Fin S32768x1x256.rank)
  bcast_S_S32768x1x256 : S_.BroadcastsInDim S32768x1x256 (![] : Fin 0 → Fin S32768x1x256.rank)
  slices_S32768x1x256_S32768x1x16_0_0_0 : S32768x1x256.Slices ![0, 0, 0] S32768x1x16
  shapeCasts_S32768x1x16_S32768x1x4x4 : S32768x1x16.ShapeCasts S32768x1x4x4
  slices_S32768x1x256_S32768x1x240_0_0_16 : S32768x1x256.Slices ![0, 0, 16] S32768x1x240
  bcast_S1x1x248_S32768x1x248_0_1_2 : S1x1x248.BroadcastsInDim S32768x1x248 (![0, 1, 2] : Fin 3 → Fin S32768x1x248.rank)
  bcast_S_S32768x1x248 : S_.BroadcastsInDim S32768x1x248 (![] : Fin 0 → Fin S32768x1x248.rank)
  reducesTo_S32768x1x4x4_S32768x1x4_d3 : S32768x1x4x4.ReducesTo [3] S32768x1x4
  bcast_S_S32768x1x4 : S_.BroadcastsInDim S32768x1x4 (![] : Fin 0 → Fin S32768x1x4.rank)
  concatenates_S32768x1x4_S32768x1x4_S32768x1x248_S32768x1x256_d2 : Shape.Concatenates [S32768x1x4, S32768x1x4, S32768x1x248] S32768x1x256 2
  bcast_S1x1x128_S32768x1x128_0_1_2 : S1x1x128.BroadcastsInDim S32768x1x128 (![0, 1, 2] : Fin 3 → Fin S32768x1x128.rank)
  bcast_S_S32768x1x128 : S_.BroadcastsInDim S32768x1x128 (![] : Fin 0 → Fin S32768x1x128.rank)
  slices_S32768x1x128_S32768x1x16_0_0_0 : S32768x1x128.Slices ![0, 0, 0] S32768x1x16
  slices_S32768x1x128_S32768x1x112_0_0_16 : S32768x1x128.Slices ![0, 0, 16] S32768x1x112
  bcast_S120_S1x1x120_2 : S120.BroadcastsInDim S1x1x120 (![2] : Fin 1 → Fin S1x1x120.rank)
  bcast_S1x1x120_S32768x1x120_0_1_2 : S1x1x120.BroadcastsInDim S32768x1x120 (![0, 1, 2] : Fin 3 → Fin S32768x1x120.rank)
  bcast_S_S32768x1x120 : S_.BroadcastsInDim S32768x1x120 (![] : Fin 0 → Fin S32768x1x120.rank)
  concatenates_S32768x1x4_S32768x1x4_S32768x1x120_S32768x1x128_d2 : Shape.Concatenates [S32768x1x4, S32768x1x4, S32768x1x120] S32768x1x128 2
  bcast_S81_S1x1x81_2 : S81.BroadcastsInDim S1x1x81 (![2] : Fin 1 → Fin S1x1x81.rank)
  bcast_S1x1x81_S32768x1x81_0_1_2 : S1x1x81.BroadcastsInDim S32768x1x81 (![0, 1, 2] : Fin 3 → Fin S32768x1x81.rank)
  shapeCasts_S32768x1x81_S32768x81 : S32768x1x81.ShapeCasts S32768x81
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  shapeCasts_S32768x1x1_S32768x1 : S32768x1x1.ShapeCasts S32768x1
  bcast_S31_S1x1x31_2 : S31.BroadcastsInDim S1x1x31 (![2] : Fin 1 → Fin S1x1x31.rank)
  bcast_S1x1x31_S32768x1x31_0_1_2 : S1x1x31.BroadcastsInDim S32768x1x31 (![0, 1, 2] : Fin 3 → Fin S32768x1x31.rank)
  shapeCasts_S32768x1x31_S32768x31 : S32768x1x31.ShapeCasts S32768x31
  bcast_S_S32768x81 : S_.BroadcastsInDim S32768x81 (![] : Fin 0 → Fin S32768x81.rank)
  reducesTo_S32768x81_S32768_d1 : S32768x81.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x81_0_1 : S32768x1.BroadcastsInDim S32768x81 (![0, 1] : Fin 2 → Fin S32768x81.rank)
  reducesTo_S32768x31_S32768_d1 : S32768x31.ReducesTo [1] S32768
  bcast_S32768x1_S32768x31_0_1 : S32768x1.BroadcastsInDim S32768x31 (![0, 1] : Fin 2 → Fin S32768x31.rank)
  dot_S32768x7x56_S256x56_S32768x7x256_2_1_01_0_n_n_wf : DotDims.WF S32768x7x56 S256x56 S32768x7x256 [2] [1] [0, 1] [0] [] []
  dot_S32768x7x256_S256x256_S32768x7x256_2_1_01_0_n_n_wf : DotDims.WF S32768x7x256 S256x256 S32768x7x256 [2] [1] [0, 1] [0] [] []
  dot_S32768x7x224_S248x224_S32768x7x248_2_1_01_0_n_n_wf : DotDims.WF S32768x7x224 S248x224 S32768x7x248 [2] [1] [0, 1] [0] [] []
  dot_S32768x7x256_S128x256_S32768x7x128_2_1_01_0_n_n_wf : DotDims.WF S32768x7x256 S128x256 S32768x7x128 [2] [1] [0, 1] [0] [] []
  dot_S32768x1x704_S256x704_S32768x1x256_2_1_01_0_n_n_wf : DotDims.WF S32768x1x704 S256x704 S32768x1x256 [2] [1] [0, 1] [0] [] []
  dot_S32768x1x240_S248x240_S32768x1x248_2_1_01_0_n_n_wf : DotDims.WF S32768x1x240 S248x240 S32768x1x248 [2] [1] [0, 1] [0] [] []
  dot_S32768x1x256_S128x256_S32768x1x128_2_1_01_0_n_n_wf : DotDims.WF S32768x1x256 S128x256 S32768x1x128 [2] [1] [0, 1] [0] [] []
  dot_S32768x1x112_S120x112_S32768x1x120_2_1_01_0_n_n_wf : DotDims.WF S32768x1x112 S120x112 S32768x1x120 [2] [1] [0, 1] [0] [] []
  dot_S32768x1x128_S128x128_S32768x1x128_2_1_01_0_n_n_wf : DotDims.WF S32768x1x128 S128x128 S32768x1x128 [2] [1] [0, 1] [0] [] []
  dot_S32768x1x128_S81x128_S32768x1x81_2_1_01_0_n_n_wf : DotDims.WF S32768x1x128 S81x128 S32768x1x81 [2] [1] [0, 1] [0] [] []
  dot_S32768x1x128_S1x128_S32768x1x1_2_1_01_0_n_n_wf : DotDims.WF S32768x1x128 S1x128 S32768x1x1 [2] [1] [0, 1] [0] [] []
  dot_S32768x1x128_S31x128_S32768x1x31_2_1_01_0_n_n_wf : DotDims.WF S32768x1x128 S31x128 S32768x1x31 [2] [1] [0, 1] [0] [] []

variable [Facts₀]

def dot_S32768x7x56_S256x56_S32768x7x256_2_1_01_0_n_n : DotDims S32768x7x56 S256x56 S32768x7x256 where
  lhsContracting := [2]
  rhsContracting := [1]
  lhsNonContracting := [0, 1]
  rhsNonContracting := [0]
  lhsBatch := []
  rhsBatch := []
  wf := dot_S32768x7x56_S256x56_S32768x7x256_2_1_01_0_n_n_wf
def dot_S32768x7x256_S256x256_S32768x7x256_2_1_01_0_n_n : DotDims S32768x7x256 S256x256 S32768x7x256 where
  lhsContracting := [2]
  rhsContracting := [1]
  lhsNonContracting := [0, 1]
  rhsNonContracting := [0]
  lhsBatch := []
  rhsBatch := []
  wf := dot_S32768x7x256_S256x256_S32768x7x256_2_1_01_0_n_n_wf
def dot_S32768x7x224_S248x224_S32768x7x248_2_1_01_0_n_n : DotDims S32768x7x224 S248x224 S32768x7x248 where
  lhsContracting := [2]
  rhsContracting := [1]
  lhsNonContracting := [0, 1]
  rhsNonContracting := [0]
  lhsBatch := []
  rhsBatch := []
  wf := dot_S32768x7x224_S248x224_S32768x7x248_2_1_01_0_n_n_wf
def dot_S32768x7x256_S128x256_S32768x7x128_2_1_01_0_n_n : DotDims S32768x7x256 S128x256 S32768x7x128 where
  lhsContracting := [2]
  rhsContracting := [1]
  lhsNonContracting := [0, 1]
  rhsNonContracting := [0]
  lhsBatch := []
  rhsBatch := []
  wf := dot_S32768x7x256_S128x256_S32768x7x128_2_1_01_0_n_n_wf
def dot_S32768x1x704_S256x704_S32768x1x256_2_1_01_0_n_n : DotDims S32768x1x704 S256x704 S32768x1x256 where
  lhsContracting := [2]
  rhsContracting := [1]
  lhsNonContracting := [0, 1]
  rhsNonContracting := [0]
  lhsBatch := []
  rhsBatch := []
  wf := dot_S32768x1x704_S256x704_S32768x1x256_2_1_01_0_n_n_wf
def dot_S32768x1x240_S248x240_S32768x1x248_2_1_01_0_n_n : DotDims S32768x1x240 S248x240 S32768x1x248 where
  lhsContracting := [2]
  rhsContracting := [1]
  lhsNonContracting := [0, 1]
  rhsNonContracting := [0]
  lhsBatch := []
  rhsBatch := []
  wf := dot_S32768x1x240_S248x240_S32768x1x248_2_1_01_0_n_n_wf
def dot_S32768x1x256_S128x256_S32768x1x128_2_1_01_0_n_n : DotDims S32768x1x256 S128x256 S32768x1x128 where
  lhsContracting := [2]
  rhsContracting := [1]
  lhsNonContracting := [0, 1]
  rhsNonContracting := [0]
  lhsBatch := []
  rhsBatch := []
  wf := dot_S32768x1x256_S128x256_S32768x1x128_2_1_01_0_n_n_wf
def dot_S32768x1x112_S120x112_S32768x1x120_2_1_01_0_n_n : DotDims S32768x1x112 S120x112 S32768x1x120 where
  lhsContracting := [2]
  rhsContracting := [1]
  lhsNonContracting := [0, 1]
  rhsNonContracting := [0]
  lhsBatch := []
  rhsBatch := []
  wf := dot_S32768x1x112_S120x112_S32768x1x120_2_1_01_0_n_n_wf
def dot_S32768x1x128_S128x128_S32768x1x128_2_1_01_0_n_n : DotDims S32768x1x128 S128x128 S32768x1x128 where
  lhsContracting := [2]
  rhsContracting := [1]
  lhsNonContracting := [0, 1]
  rhsNonContracting := [0]
  lhsBatch := []
  rhsBatch := []
  wf := dot_S32768x1x128_S128x128_S32768x1x128_2_1_01_0_n_n_wf
def dot_S32768x1x128_S81x128_S32768x1x81_2_1_01_0_n_n : DotDims S32768x1x128 S81x128 S32768x1x81 where
  lhsContracting := [2]
  rhsContracting := [1]
  lhsNonContracting := [0, 1]
  rhsNonContracting := [0]
  lhsBatch := []
  rhsBatch := []
  wf := dot_S32768x1x128_S81x128_S32768x1x81_2_1_01_0_n_n_wf
def dot_S32768x1x128_S1x128_S32768x1x1_2_1_01_0_n_n : DotDims S32768x1x128 S1x128 S32768x1x1 where
  lhsContracting := [2]
  rhsContracting := [1]
  lhsNonContracting := [0, 1]
  rhsNonContracting := [0]
  lhsBatch := []
  rhsBatch := []
  wf := dot_S32768x1x128_S1x128_S32768x1x1_2_1_01_0_n_n_wf
def dot_S32768x1x128_S31x128_S32768x1x31_2_1_01_0_n_n : DotDims S32768x1x128 S31x128 S32768x1x31 where
  lhsContracting := [2]
  rhsContracting := [1]
  lhsNonContracting := [0, 1]
  rhsNonContracting := [0]
  lhsBatch := []
  rhsBatch := []
  wf := dot_S32768x1x128_S31x128_S32768x1x31_2_1_01_0_n_n_wf

class Facts : Prop extends Facts₀ where

variable [Facts]
-- ==== Proof.Net.lean ====
/-
  The network, one example at a time, on the extended reals.

  Both programs compute, for every example b of the batch, the same function of that example's 56×7 input (read
  transposed, as 7 channels of 56 features), its 81 action flags and the shared weights:

    channels s = 0..6:   a₁ s = W1a · x s + b1a                              (256)
                         a₂ s = relu (((a₁ s − μ s) · rsqrt (σ² s + ε)) · γ s + β s)
                         a₃ s = relu (W1b · a₂ s + b1b)                      (256)
                         g₁ s = pool₄ₓ₈ (a₃ s)                               (4 maxima, 4 means, 248 = relu (Gp1 · rest + gp1b))
                         a₄ s = relu (W3 · g₁ s + b3)                        (128)
    across channels:     f    = the first 64 features' maximum and mean over channels 0..4, channels 5, 6 of those
                                features laid side by side, then the last 64 features of all 7 channels   (704)
                         a₅   = relu (W4 · f + b4)  (256),  g₄ = pool₄ₓ₄ a₅  (256),  a₆ = relu (W5 · g₄ + b5)  (128),
                         g₅   = pool₄ₓ₄ a₆  (128)
    heads:               π = log_softmax (where flag then Pw2 · (Pw1 · g₅ + pb1) + pb2 else −10⁸),
                         v = tanh (Vw2 · (Vw1 · g₅ + vb1) + vb2),   sd = log_softmax (Sw2 · (Sw1 · g₅ + sb1) + sb2).

  Float literals are kept as the words the programs print (the same word on both sides is never evaluated); sums, maxima,
  quotients and the transcendental functions are the exact ones of the extended reals. Nothing here mentions a program.
-/
import Idealize.ShloMosaic.PureOps.Ideal
import Idealize.ShloMosaic.PureOps.Ideal.Laws

noncomputable section

open scoped BigOperators

namespace Cert.Net

open Idealize.ShloMosaic

/-- The literals of the two programs, as their words. -/
abbrev fzero : EReal := Ideal.ofBits .f32 0x00000000#32
abbrev fninf : EReal := Ideal.ofBits .f32 0xFF800000#32
abbrev feps : EReal := Ideal.ofBits .f32 0x3727C5AC#32
abbrev flow : EReal := Ideal.ofBits .f32 0xCCBEBC20#32
abbrev f8 : EReal := Ideal.ofBits .f32 0x41000000#32
abbrev f5 : EReal := Ideal.ofBits .f32 0x40A00000#32
abbrev f4 : EReal := Ideal.ofBits .f32 0x40800000#32

/-- max(x, 0). -/
def relu (x : EReal) : EReal := max x fzero

/-- An affine layer with weights in (output, input) order: (W x + b) at output o. -/
def lin {K N : ℕ} (w : Fin N → Fin K → EReal) (b : Fin N → EReal) (x : Fin K → EReal) : Fin N → EReal :=
  fun o => (∑ k : Fin K, x k * w o k) + b o

/-- Inference-time normalisation of one channel's entry: ((x − μ) · rsqrt (σ² + ε)) · γ + β, in this order. -/
def bnorm (mu var gam bet x : EReal) : EReal := (x - mu) * Ideal.rsqrt (var + feps) * gam + bet

/-- The maximum of finitely many entries, folded from −∞. -/
def vmax {n : ℕ} (f : Fin n → EReal) : EReal := (Finset.univ : Finset (Fin n)).fold max fninf f

/-- The sum of finitely many entries divided by the printed count. -/
def vmean {n : ℕ} (d : EReal) (f : Fin n → EReal) : EReal := Ideal.div (∑ i : Fin n, f i) d

/-- Entry i of a vector, 0 past its end (so that a position computed by arithmetic needs no bound in a definition). -/
def get {n : ℕ} (x : Fin n → EReal) (i : ℕ) : EReal := if h : i < n then x ⟨i, h⟩ else 0

theorem get_of_lt {n : ℕ} (x : Fin n → EReal) (i : ℕ) (h : i < n) : get x i = x ⟨i, h⟩ := dif_pos h

/-- Entry (i, j) of a matrix, 0 outside it. -/
def get2 {a b : ℕ} (x : Fin a → Fin b → EReal) (i j : ℕ) : EReal :=
  if hi : i < a then (if hj : j < b then x ⟨i, hi⟩ ⟨j, hj⟩ else 0) else 0

theorem get2_of_lt {a b : ℕ} (x : Fin a → Fin b → EReal) (i j : ℕ) (hi : i < a) (hj : j < b) :
    get2 x i j = x ⟨i, hi⟩ ⟨j, hj⟩ := by
  unfold get2; rw [dif_pos hi, dif_pos hj]

/-- Partial pooling of a feature vector: the first 4·ni features in 4 groups of ni give 4 maxima then 4 means; the
    remaining kin features pass through an affine layer and relu. -/
def gpool (ni kin : ℕ) (d : EReal) {nin nout ntot : ℕ} (w : Fin nout → Fin kin → EReal) (b : Fin nout → EReal)
    (x : Fin nin → EReal) : Fin ntot → EReal := fun j =>
  if j.val < 4 then vmax (fun i : Fin ni => get x (j.val * ni + i.val))
  else if j.val < 8 then vmean d (fun i : Fin ni => get x ((j.val - 4) * ni + i.val))
  else relu (get (lin w b (fun k : Fin kin => get x (4 * ni + k.val))) (j.val - 8))

/-- Flattening 7 channels of 128 features with partial pooling across channels: of the first 64 features, the maximum
    and the mean over channels 0..4, then channels 5 and 6; then the last 64 features of every channel. -/
def flat704 (h : Fin 7 → Fin 128 → EReal) : Fin 704 → EReal := fun j =>
  if j.val < 64 then vmax (fun s : Fin 5 => get2 h s.val j.val)
  else if j.val < 128 then vmean f5 (fun s : Fin 5 => get2 h s.val (j.val - 64))
  else if j.val < 256 then get2 h (5 + (j.val - 128) / 64) ((j.val - 128) % 64)
  else get2 h ((j.val - 256) / 64) (64 + (j.val - 256) % 64)

/-- log_softmax: (z − max z) − log Σ exp (z − max z). -/
def logsoftmax {n : ℕ} (z : Fin n → EReal) : Fin n → EReal := fun j =>
  (z j - vmax z) - Ideal.log (∑ i : Fin n, Ideal.exp (z i - vmax z))

/-- A logit kept where the action's flag is set, the large negative literal elsewhere. -/
def maskv (flag : BitVec 1) (p : EReal) : EReal := Scalar.select flag p flow

/-- The shared weights, each in (output, input) order. -/
structure Params where
  w1a : Fin 256 → Fin 56 → EReal
  b1a : Fin 256 → EReal
  bng : Fin 7 → EReal
  bnb : Fin 7 → EReal
  bnm : Fin 7 → EReal
  bnv : Fin 7 → EReal
  w1b : Fin 256 → Fin 256 → EReal
  b1b : Fin 256 → EReal
  gp1w : Fin 248 → Fin 224 → EReal
  gp1b : Fin 248 → EReal
  w3 : Fin 128 → Fin 256 → EReal
  b3 : Fin 128 → EReal
  w4 : Fin 256 → Fin 704 → EReal
  b4 : Fin 256 → EReal
  gp4w : Fin 248 → Fin 240 → EReal
  gp4b : Fin 248 → EReal
  w5 : Fin 128 → Fin 256 → EReal
  b5 : Fin 128 → EReal
  gp5w : Fin 120 → Fin 112 → EReal
  gp5b : Fin 120 → EReal
  piw1 : Fin 128 → Fin 128 → EReal
  pib1 : Fin 128 → EReal
  piw2 : Fin 81 → Fin 128 → EReal
  pib2 : Fin 81 → EReal
  vw1 : Fin 128 → Fin 128 → EReal
  vb1 : Fin 128 → EReal
  vw2 : Fin 1 → Fin 128 → EReal
  vb2 : Fin 1 → EReal
  sdw1 : Fin 128 → Fin 128 → EReal
  sdb1 : Fin 128 → EReal
  sdw2 : Fin 31 → Fin 128 → EReal
  sdb2 : Fin 31 → EReal

variable (P : Params)

/-- One channel after the first affine layer, normalisation and relu. -/
def a2 (x : Fin 7 → Fin 56 → EReal) (s : Fin 7) : Fin 256 → EReal :=
  fun o => relu (bnorm (P.bnm s) (P.bnv s) (P.bng s) (P.bnb s) (lin P.w1a P.b1a (x s) o))

def a3 (x : Fin 7 → Fin 56 → EReal) (s : Fin 7) : Fin 256 → EReal :=
  fun o => relu (lin P.w1b P.b1b (a2 P x s) o)

def g1 (x : Fin 7 → Fin 56 → EReal) (s : Fin 7) : Fin 256 → EReal :=
  gpool 8 224 f8 P.gp1w P.gp1b (a3 P x s)

def a4 (x : Fin 7 → Fin 56 → EReal) (s : Fin 7) : Fin 128 → EReal :=
  fun o => relu (lin P.w3 P.b3 (g1 P x s) o)

def a5 (x : Fin 7 → Fin 56 → EReal) : Fin 256 → EReal :=
  fun o => relu (lin P.w4 P.b4 (flat704 (a4 P x)) o)

def g4 (x : Fin 7 → Fin 56 → EReal) : Fin 256 → EReal := gpool 4 240 f4 P.gp4w P.gp4b (a5 P x)

def a6 (x : Fin 7 → Fin 56 → EReal) : Fin 128 → EReal := fun o => relu (lin P.w5 P.b5 (g4 P x) o)

/-- The trunk's output, shared by the three heads. -/
def g5 (x : Fin 7 → Fin 56 → EReal) : Fin 128 → EReal := gpool 4 112 f4 P.gp5w P.gp5b (a6 P x)

/-- The policy head: masked logits, then log_softmax. -/
def outPi (x : Fin 7 → Fin 56 → EReal) (flags : Fin 81 → BitVec 1) : Fin 81 → EReal :=
  logsoftmax (fun j => maskv (flags j) (lin P.piw2 P.pib2 (lin P.piw1 P.pib1 (g5 P x)) j))

/-- The value head. -/
def outV (x : Fin 7 → Fin 56 → EReal) : Fin 1 → EReal :=
  fun j => Ideal.tanh (lin P.vw2 P.vb2 (lin P.vw1 P.vb1 (g5 P x)) j)

/-- The score-difference head. -/
def outSd (x : Fin 7 → Fin 56 → EReal) : Fin 31 → EReal :=
  logsoftmax (lin P.sdw2 P.sdb2 (lin P.sdw1 P.sdb1 (g5 P x)))

end Cert.Net

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.KOps.lean ====
/-
  The vector operations the kernel composes, read at an index on the extended reals, generic in the extents:
    * an affine layer — a product with transposed weights into the zero accumulator plus a bias row repeated down the
      rows — at (r, c) is the specification's `lin` of row r;
    * a stack of 256 examples × 7 channels laid out as 1792 rows and back (row 7a + s ↔ (a, s));
    * a 1×7×1 vector repeated over a 256×7×K stack reads its channel's entry;
    * a bias row repeated down the rows reads its column's entry.
-/
import proofs.«125488_j18605798326416_1_alg».proof.Proof.Net
import proofs.«125488_j18605798326416_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KOps

open Idealize.ShloMosaic Idealize.ShloMosaic.ValueIdx

/-- Row 7a + s of a 1792-row layout. -/
def row7 (a : Fin 256) (s : Fin 7) : Fin 1792 := ⟨a.val * 7 + s.val, by omega⟩

/-- Every row of the 1792-row layout is a channel of an example. -/
theorem exists_row7 (r : Fin 1792) : ∃ (a : Fin 256) (s : Fin 7), r = row7 a s :=
  ⟨⟨r.val / 7, by omega⟩, ⟨r.val % 7, by omega⟩, Fin.ext (by show r.val = r.val / 7 * 7 + r.val % 7; omega)⟩

variable {α : Type}

/-- 256×7×K laid out as 1792×K: row 7a + s is (a, s). -/
theorem stack_to_rows_apply {K : ℕ} (x : (⟨3, ![256, 7, K]⟩ : Shape).Idx → α)
    (h : (⟨3, ![256, 7, K]⟩ : Shape).ShapeCasts ⟨2, ![1792, K]⟩) (a : Fin 256) (s : Fin 7) (k : Fin K) :
    shapeCast ⟨2, ![1792, K]⟩ x h (ix2 (row7 a s) k) = x (ix3 a s k) := by
  refine shapeCast_apply x h _ (ix3 a s k) ?_
  rw [Shape.rowMajor_val_three, Shape.rowMajor_val_two]
  rfl

/-- 1792×K read back as 256×7×K. -/
theorem rows_to_stack_apply {K : ℕ} (y : (⟨2, ![1792, K]⟩ : Shape).Idx → α)
    (h : (⟨2, ![1792, K]⟩ : Shape).ShapeCasts ⟨3, ![256, 7, K]⟩) (a : Fin 256) (s : Fin 7) (k : Fin K) :
    shapeCast ⟨3, ![256, 7, K]⟩ y h (ix3 a s k) = y (ix2 (row7 a s) k) := by
  refine shapeCast_apply y h _ (ix2 (row7 a s) k) ?_
  rw [Shape.rowMajor_val_three, Shape.rowMajor_val_two]
  rfl

/-- A 1×7×1 vector repeated over a 256×7×K stack reads its channel's entry. -/
theorem chan_bcast_apply {K : ℕ} (v : (⟨3, ![1, 7, 1]⟩ : Shape).Idx → α)
    (h : (⟨3, ![1, 7, 1]⟩ : Shape).Broadcasts ⟨3, ![256, 7, K]⟩) (a : Fin 256) (s : Fin 7) (k : Fin K) :
    broadcastTo ⟨3, ![256, 7, K]⟩ v h (ix3 a s k) = v (ix3 0 s 0) := by
  refine broadcastTo_apply v h _ (ix3 0 s 0) fun b => ?_
  match b with
  | ⟨0, _⟩ => rfl
  | ⟨1, _⟩ => rfl
  | ⟨2, _⟩ => rfl

/-- An affine layer of the kernel at (r, c): the product of row r with the transposed weights, plus the bias row's
    entry c — the specification's `lin` with the weights read back in (output, input) order. -/
theorem affine_apply {M K N : ℕ} {φ : FTy} (D : DotDims ⟨2, ![M, K]⟩ ⟨2, ![K, N]⟩ ⟨2, ![M, N]⟩)
    (hD : D = DotDims.plain M K N) (x : FVec Ideal ⟨2, ![M, K]⟩ φ) (w : FVec Ideal ⟨2, ![K, N]⟩ .bf16)
    (b : (⟨2, ![1, N]⟩ : Shape).Idx → EReal) (hb : (⟨2, ![1, N]⟩ : Shape).Broadcasts ⟨2, ![M, N]⟩) (r : Fin M) (c : Fin N) :
    addf (F := Ideal) (matmul D none x w (constant ⟨2, ![M, N]⟩ .f32 0x00000000#32)) (broadcastTo ⟨2, ![M, N]⟩ b hb) (ix2 r c)
      = Net.lin (fun o k => w (ix2 k o)) (fun o => b (ix2 0 o)) (fun k => x (ix2 r k)) c := by
  subst hD
  show FloatOps.matmul (DotDims.plain M K N) none x w (constant ⟨2, ![M, N]⟩ .f32 0x00000000#32) (ix2 r c)
      + broadcastTo ⟨2, ![M, N]⟩ b hb (ix2 r c) = _
  rw [PlainDot.matmul_zero_apply, broadcastTo_1b_ab_apply]
  rfl

/-- The product alone (a layer whose bias is added by a later statement). -/
theorem product_apply {M K N : ℕ} {φ : FTy} (D : DotDims ⟨2, ![M, K]⟩ ⟨2, ![K, N]⟩ ⟨2, ![M, N]⟩)
    (hD : D = DotDims.plain M K N) (x : FVec Ideal ⟨2, ![M, K]⟩ φ) (w : FVec Ideal ⟨2, ![K, N]⟩ .bf16) (r : Fin M) (c : Fin N) :
    matmul (F := Ideal) D none x w (constant ⟨2, ![M, N]⟩ .f32 0x00000000#32) (ix2 r c)
      = ∑ k : Fin K, x (ix2 r k) * w (ix2 k c) := by
  subst hD
  exact PlainDot.matmul_zero_apply none x w r c

/-- A bias row repeated down the rows reads its column's entry. -/
theorem bias_rows_apply {M N : ℕ} (b : (⟨2, ![1, N]⟩ : Shape).Idx → α) (hb : (⟨2, ![1, N]⟩ : Shape).Broadcasts ⟨2, ![M, N]⟩)
    (r : Fin M) (c : Fin N) : broadcastTo ⟨2, ![M, N]⟩ b hb (ix2 r c) = b (ix2 0 c) :=
  broadcastTo_1b_ab_apply b hb r c

end Cert.KOps

end
-- ==== Proof.KBase.lean ====
/-
  The kernel's side of the bridge: a block of 256 examples. Its 7-channel stages are laid out as 1792 rows (row 7a + s is
  channel s of example a of the block); the weights arrive transposed, in (input, output) order, biases as one row,
  the normalisation vectors as 1×7×1 — read here back into the specification's (output, input) order.
-/
import proofs.«125488_j18605798326416_1_alg».proof.Proof.Gen.KernelIdeal.Skeleton
import proofs.«125488_j18605798326416_1_alg».proof.Proof.Net
import proofs.«125488_j18605798326416_1_alg».proof.Proof.KOps
import Idealize.ShloMosaic.Lib.ValueIdx

noncomputable section

namespace Cert.KStage

open Idealize.ShloMosaic Idealize.ShloMosaic.ValueIdx Cert.KernelIdeal

/-- Row 7a + s of the 1792-row layout: channel s of the block's example a. -/
abbrev flat7 (a : Fin 256) (s : Fin 7) : Fin 1792 := KOps.row7 a s

/-- The weights as the kernel's operand blocks give them. -/
def kerP (x2 : Vec Ideal S56x256 .f32) (x3 : Vec Ideal S1x256 .f32) (x4 : Vec Ideal S1x7x1 .f32) (x5 : Vec Ideal S1x7x1 .f32) (x6 : Vec Ideal S1x7x1 .f32) (x7 : Vec Ideal S1x7x1 .f32) (x8 : Vec Ideal S256x256 .f32) (x9 : Vec Ideal S1x256 .f32) (x10 : Vec Ideal S224x248 .f32) (x11 : Vec Ideal S1x248 .f32) (x12 : Vec Ideal S256x128 .f32) (x13 : Vec Ideal S1x128 .f32) (x14 : Vec Ideal S704x256 .f32) (x15 : Vec Ideal S1x256 .f32) (x16 : Vec Ideal S240x248 .f32) (x17 : Vec Ideal S1x248 .f32) (x18 : Vec Ideal S256x128 .f32) (x19 : Vec Ideal S1x128 .f32) (x20 : Vec Ideal S112x120 .f32) (x21 : Vec Ideal S1x120 .f32) (x22 : Vec Ideal S128x128 .f32) (x23 : Vec Ideal S1x128 .f32) (x24 : Vec Ideal S128x81 .f32) (x25 : Vec Ideal S1x81 .f32) (x26 : Vec Ideal S128x128 .f32) (x27 : Vec Ideal S1x128 .f32) (x28 : Vec Ideal S128x1 .f32) (x29 : Vec Ideal S1x1 .f32) (x30 : Vec Ideal S128x128 .f32) (x31 : Vec Ideal S1x128 .f32) (x32 : Vec Ideal S128x31 .f32) (x33 : Vec Ideal S1x31 .f32) : Net.Params where
  w1a := fun o k => x2 (ix2 k o)
  b1a := fun o => x3 (ix2 0 o)
  bng := fun s => x4 (ix3 0 s 0)
  bnb := fun s => x5 (ix3 0 s 0)
  bnm := fun s => x6 (ix3 0 s 0)
  bnv := fun s => x7 (ix3 0 s 0)
  w1b := fun o k => x8 (ix2 k o)
  b1b := fun o => x9 (ix2 0 o)
  gp1w := fun o k => x10 (ix2 k o)
  gp1b := fun o => x11 (ix2 0 o)
  w3 := fun o k => x12 (ix2 k o)
  b3 := fun o => x13 (ix2 0 o)
  w4 := fun o k => x14 (ix2 k o)
  b4 := fun o => x15 (ix2 0 o)
  gp4w := fun o k => x16 (ix2 k o)
  gp4b := fun o => x17 (ix2 0 o)
  w5 := fun o k => x18 (ix2 k o)
  b5 := fun o => x19 (ix2 0 o)
  gp5w := fun o k => x20 (ix2 k o)
  gp5b := fun o => x21 (ix2 0 o)
  piw1 := fun o k => x22 (ix2 k o)
  pib1 := fun o => x23 (ix2 0 o)
  piw2 := fun o k => x24 (ix2 k o)
  pib2 := fun o => x25 (ix2 0 o)
  vw1 := fun o k => x26 (ix2 k o)
  vb1 := fun o => x27 (ix2 0 o)
  vw2 := fun o k => x28 (ix2 k o)
  vb2 := fun o => x29 (ix2 0 o)
  sdw1 := fun o k => x30 (ix2 k o)
  sdb1 := fun o => x31 (ix2 0 o)
  sdw2 := fun o k => x32 (ix2 k o)
  sdb2 := fun o => x33 (ix2 0 o)

/-- Example a of the block: its input as 7 channels of 56 features. -/
def kerX (x0 : Vec Ideal S256x7x56 .f32) (a : Fin 256) : Fin 7 → Fin 56 → EReal := fun s k => x0 (ix3 a s k)

/-- Example a's action flags as the kernel sees them: the flag array arrives converted to 0.0 / 1.0 and is compared with 0.5. -/
def kerFlags (x1 : Vec Ideal S256x81 .f32) (a : Fin 256) : Fin 81 → BitVec 1 :=
  fun j => Ideal.cmp .ogt (x1 (ix2 a j)) (Ideal.ofBits .f32 0x3F000000#32)

end Cert.KStage

end
-- ==== Proof.KBlocks.lean ====
/-
  Blocks of the arrays at a grid point. The grid has 128 points; point t stages block t (256 examples) of the input, of the flags and of the
  three results, and every weight array whole. So what point t writes back to a result is block t of ONE function of the
  arrays the region finds — entry (b, j) is head j of the network on example b — and the 128 blocks cover the result.
-/
import proofs.«125488_j18605798326416_1_alg».proof.Proof.KernelIdealFrameP
import proofs.«125488_j18605798326416_1_alg».proof.Proof.KBase
import Idealize.ShloMosaic.Lib.Pipeline.Value

set_option maxRecDepth 16384
set_option synthInstance.maxSize 4096

noncomputable section

namespace Cert.KArr

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat Cfg Window)

variable (m : (ℓ : Loc nD τ sig) → Buf (Elt Ideal) ℓ) (ρ : Dev nD → PrngReg)

/-- The example (row) and the head's entry (column) of an index of a 32768×n result. -/
def rowOf {n : ℕ} (i : (⟨2, ![32768, n]⟩ : Shape).Idx) : Fin 32768 := ⟨(i 0).val, (i 0).isLt⟩
def colOf {n : ℕ} (i : (⟨2, ![32768, n]⟩ : Shape).Idx) : Fin n := ⟨(i 1).val, (i 1).isLt⟩

/-- Where each window's block sits at grid point t: the example-indexed windows (the input, the flags, the three results) at
    block t of their first axis, every weight window at the whole array. Decided over the 128 points. -/
theorem idx_io : ∀ t : Fin cfg0.N, win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0
    ∧ win0_34.index t (0 : Fin 2) = t.val
    ∧ win0_34.index t (1 : Fin 2) = 0
    ∧ win0_35.index t (0 : Fin 2) = t.val
    ∧ win0_35.index t (1 : Fin 2) = 0
    ∧ win0_36.index t (0 : Fin 2) = t.val
    ∧ win0_36.index t (1 : Fin 2) = 0 :=
  (by decide +kernel : ∀ t : Fin grid0.N, _)

theorem idx_w1 : ∀ t : Fin cfg0.N, win0_2.index t (0 : Fin 2) = 0
    ∧ win0_2.index t (1 : Fin 2) = 0
    ∧ win0_3.index t (0 : Fin 2) = 0
    ∧ win0_3.index t (1 : Fin 2) = 0
    ∧ win0_4.index t (0 : Fin 3) = 0
    ∧ win0_4.index t (1 : Fin 3) = 0
    ∧ win0_4.index t (2 : Fin 3) = 0
    ∧ win0_5.index t (0 : Fin 3) = 0
    ∧ win0_5.index t (1 : Fin 3) = 0
    ∧ win0_5.index t (2 : Fin 3) = 0
    ∧ win0_6.index t (0 : Fin 3) = 0
    ∧ win0_6.index t (1 : Fin 3) = 0
    ∧ win0_6.index t (2 : Fin 3) = 0
    ∧ win0_7.index t (0 : Fin 3) = 0
    ∧ win0_7.index t (1 : Fin 3) = 0
    ∧ win0_7.index t (2 : Fin 3) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

theorem idx_w2 : ∀ t : Fin cfg0.N, win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0 :=
  (by decide +kernel : ∀ t : Fin grid0.N, _)

theorem idx_w3 : ∀ t : Fin cfg0.N, win0_18.index t (0 : Fin 2) = 0
    ∧ win0_18.index t (1 : Fin 2) = 0
    ∧ win0_19.index t (0 : Fin 2) = 0
    ∧ win0_19.index t (1 : Fin 2) = 0
    ∧ win0_20.index t (0 : Fin 2) = 0
    ∧ win0_20.index t (1 : Fin 2) = 0
    ∧ win0_21.index t (0 : Fin 2) = 0
    ∧ win0_21.index t (1 : Fin 2) = 0
    ∧ win0_22.index t (0 : Fin 2) = 0
    ∧ win0_22.index t (1 : Fin 2) = 0
    ∧ win0_23.index t (0 : Fin 2) = 0
    ∧ win0_23.index t (1 : Fin 2) = 0
    ∧ win0_24.index t (0 : Fin 2) = 0
    ∧ win0_24.index t (1 : Fin 2) = 0
    ∧ win0_25.index t (0 : Fin 2) = 0
    ∧ win0_25.index t (1 : Fin 2) = 0 :=
  (by decide +kernel : ∀ t : Fin grid0.N, _)

theorem idx_w4 : ∀ t : Fin cfg0.N, win0_26.index t (0 : Fin 2) = 0
    ∧ win0_26.index t (1 : Fin 2) = 0
    ∧ win0_27.index t (0 : Fin 2) = 0
    ∧ win0_27.index t (1 : Fin 2) = 0
    ∧ win0_28.index t (0 : Fin 2) = 0
    ∧ win0_28.index t (1 : Fin 2) = 0
    ∧ win0_29.index t (0 : Fin 2) = 0
    ∧ win0_29.index t (1 : Fin 2) = 0
    ∧ win0_30.index t (0 : Fin 2) = 0
    ∧ win0_30.index t (1 : Fin 2) = 0
    ∧ win0_31.index t (0 : Fin 2) = 0
    ∧ win0_31.index t (1 : Fin 2) = 0
    ∧ win0_32.index t (0 : Fin 2) = 0
    ∧ win0_32.index t (1 : Fin 2) = 0
    ∧ win0_33.index t (0 : Fin 2) = 0
    ∧ win0_33.index t (1 : Fin 2) = 0 :=
  (by decide +kernel : ∀ t : Fin grid0.N, _)

/-- Example a of block t of the input is example 256 t + a of the array. -/
theorem iblk0_apply (c : Dev nD) (t : Fin cfg0.N) (a : Fin 256) (s : Fin 7) (k : Fin 56) :
    iblk (F := Ideal) m c 0 t (ix3 a s k) = V m c main_v0 (ix3 ⟨t.val * 256 + a.val, by have h : t.val < 128 := t.isLt; have := a.isLt; show _ < 32768; omega⟩ s k) := by
  obtain ⟨e0, e1, e2, -⟩ := idx_io t
  show V m c main_v0 (((cfg0.win 0).blk t).view.emb (ix3 a s k)) = _
  refine congrArg (V m c main_v0) (funext fun ax => Fin.ext ?_)
  match ax with
  | ⟨0, _⟩ => show win0_0.index t (0 : Fin 3) * 256 + 1 * a.val = t.val * 256 + a.val; omega
  | ⟨1, _⟩ => show win0_0.index t (1 : Fin 3) * 7 + 1 * s.val = s.val; omega
  | ⟨2, _⟩ => show win0_0.index t (2 : Fin 3) * 56 + 1 * k.val = k.val; omega

/-- The same for the converted flags. -/
theorem iblk1_apply (c : Dev nD) (t : Fin cfg0.N) (a : Fin 256) (j : Fin 81) :
    iblk (F := Ideal) m c 1 t (ix2 a j) = V m c main_v1 (ix2 ⟨t.val * 256 + a.val, by have h : t.val < 128 := t.isLt; have := a.isLt; show _ < 32768; omega⟩ j) := by
  obtain ⟨-, -, -, e0, e1, -⟩ := idx_io t
  show V m c main_v1 (((cfg0.win 1).blk t).view.emb (ix2 a j)) = _
  refine congrArg (V m c main_v1) (funext fun ax => Fin.ext ?_)
  match ax with
  | ⟨0, _⟩ => show win0_1.index t (0 : Fin 2) * 256 + 1 * a.val = t.val * 256 + a.val; omega
  | ⟨1, _⟩ => show win0_1.index t (1 : Fin 2) * 81 + 1 * j.val = j.val; omega

/-! ## Every weight window's block is the whole array, at every point -/

theorem iblk2_eq (c : Dev nD) (t : Fin cfg0.N) : iblk (F := Ideal) m c 2 t = V m c main_v2 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v2 (((cfg0.win 2).blk t).view.emb y) = V m c main_v2 y
  refine congrArg (V m c main_v2) (funext fun ax => Fin.ext ?_)
  match ax with
  | ⟨0, _⟩ => show win0_2.index t (0 : Fin 2) * 56 + 1 * (y 0).val = (y 0).val; omega
  | ⟨1, _⟩ => show win0_2.index t (1 : Fin 2) * 256 + 1 * (y 1).val = (y 1).val; omega

theorem iblk3_eq (c : Dev nD) (t : Fin cfg0.N) : iblk (F := Ideal) m c 3 t = V m c main_v3 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v3 (((cfg0.win 3).blk t).view.emb y) = V m c main_v3 y
  refine congrArg (V m c main_v3) (funext fun ax => Fin.ext ?_)
  match ax with
  | ⟨0, _⟩ => show win0_3.index t (0 : Fin 2) * 1 + 1 * (y 0).val = (y 0).val; omega
  | ⟨1, _⟩ => show win0_3.index t (1 : Fin 2) * 256 + 1 * (y 1).val = (y 1).val; omega

theorem iblk4_eq (c : Dev nD) (t : Fin cfg0.N) : iblk (F := Ideal) m c 4 t = V m c main_v4 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v4 (((cfg0.win 4).blk t).view.emb y) = V m c main_v4 y
  refine congrArg (V m c main_v4) (funext fun ax => Fin.ext ?_)
  match ax with
  | ⟨0, _⟩ => show win0_4.index t (0 : Fin 3) * 1 + 1 * (y 0).val = (y 0).val; omega
  | ⟨1, _⟩ => show win0_4.index t (1 : Fin 3) * 7 + 1 * (y 1).val = (y 1).val; omega
  | ⟨2, _⟩ => show win0_4.index t (2 : Fin 3) * 1 + 1 * (y 2).val = (y 2).val; omega

theorem iblk5_eq (c : Dev nD) (t : Fin cfg0.N) : iblk (F := Ideal) m c 5 t = V m c main_v5 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v5 (((cfg0.win 5).blk t).view.emb y) = V m c main_v5 y
  refine congrArg (V m c main_v5) (funext fun ax => Fin.ext ?_)
  match ax with
  | ⟨0, _⟩ => show win0_5.index t (0 : Fin 3) * 1 + 1 * (y 0).val = (y 0).val; omega
  | ⟨1, _⟩ => show win0_5.index t (1 : Fin 3) * 7 + 1 * (y 1).val = (y 1).val; omega
  | ⟨2, _⟩ => show win0_5.index t (2 : Fin 3) * 1 + 1 * (y 2).val = (y 2).val; omega

theorem iblk6_eq (c : Dev nD) (t : Fin cfg0.N) : iblk (F := Ideal) m c 6 t = V m c main_v6 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v6 (((cfg0.win 6).blk t).view.emb y) = V m c main_v6 y
  refine congrArg (V m c main_v6) (funext fun ax => Fin.ext ?_)
  match ax with
  | ⟨0, _⟩ => show win0_6.index t (0 : Fin 3) * 1 + 1 * (y 0).val = (y 0).val; omega
  | ⟨1, _⟩ => show win0_6.index t (1 : Fin 3) * 7 + 1 * (y 1).val = (y 1).val; omega
  | ⟨2, _⟩ => show win0_6.index t (2 : Fin 3) * 1 + 1 * (y 2).val = (y 2).val; omega

theorem iblk7_eq (c : Dev nD) (t : Fin cfg0.N) : iblk (F := Ideal) m c 7 t = V m c main_v7 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v7 (((cfg0.win 7).blk t).view.emb y) = V m c main_v7 y
  refine congrArg (V m c main_v7) (funext fun ax => Fin.ext ?_)
  match ax with
  | ⟨0, _⟩ => show win0_7.index t (0 : Fin 3) * 1 + 1 * (y 0).val = (y 0).val; omega
  | ⟨1, _⟩ => show win0_7.index t (1 : Fin 3) * 7 + 1 * (y 1).val = (y 1).val; omega
  | ⟨2, _⟩ => show win0_7.index t (2 : Fin 3) * 1 + 1 * (y 2).val = (y 2).val; omega

theorem iblk8_eq (c : Dev nD) (t : Fin cfg0.N) : iblk (F := Ideal) m c 8 t = V m c main_v8 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v8 (((cfg0.win 8).blk t).view.emb y) = V m c main_v8 y
  refine congrArg (V m c main_v8) (funext fun ax => Fin.ext ?_)
  match ax with
  | ⟨0, _⟩ => show win0_8.index t (0 : Fin 2) * 256 + 1 * (y 0).val = (y 0).val; omega
  | ⟨1, _⟩ => show win0_8.index t (1 : Fin 2) * 256 + 1 * (y 1).val = (y 1).val; omega

theorem iblk9_eq (c : Dev nD) (t : Fin cfg0.N) : iblk (F := Ideal) m c 9 t = V m c main_v9 := by
  obtain ⟨h2_0, h2_1, h3_0, h3_1, h4_0, h4_1, h4_2, h5_0, h5_1, h5_2, h6_0, h6_1, h6_2, h7_0, h7_1, h7_2, h8_0, h8_1, h9_0, h9_1⟩ := idx_w1 t
  funext y
  show V m c main_v9 (((cfg0.win 9).blk t).view.emb y) = V m c main_v9 y
  refine congrArg (V m c main_v9) (funext fun ax => Fin.ext ?_)
  match ax with
  | ⟨0, _⟩ => show win0_9.index t (0 : Fin 2) * 1 + 1 * (y 0).val = (y 0).val; omega
  | ⟨1, _⟩ => show win0_9.index t (1 : Fin 2) * 256 + 1 * (y 1).val = (y 1).val; omega

theorem iblk10_eq (c : Dev nD) (t : Fin cfg0.N) : iblk (F := Ideal) m c 10 t = V m c main_v10 := by
  obtain ⟨h10_0, h10_1, h11_0, h11_1, h12_0, h12_1, h13_0, h13_1, h14_0, h14_1, h15_0, h15_1, h16_0, h16_1, h17_0, h17_1⟩ := idx_w2 t
  funext y
  show V m c main_v10 (((cfg0.win 10).blk t).view.emb y) = V m c main_v10 y
  refine congrArg (V m c main_v10) (funext fun ax => Fin.ext ?_)
  match ax with
  | ⟨0, _⟩ => show win0_10.index t (0 : Fin 2) * 224 + 1 * (y 0).val = (y 0).val; omega
  | ⟨1, _⟩ => show win0_10.index t (1 : Fin 2) * 248 + 1 * (y 1).val = (y 1).val; omega

theorem iblk11_eq (c : Dev nD) (t : Fin cfg0.N) : iblk (F := Ideal) m c 11 t = V m c main_v11 := by
  obtain ⟨h10_0, h10_1, h11_0, h11_1, h12_0, h12_1, h13_0, h13_1, h14_0, h14_1, h15_0, h15_1, h16_0, h16_1, h17_0, h17_1⟩ := idx_w2 t
  funext y
  show V m c main_v11 (((cfg0.win 11).blk t).view.emb y) = V m c main_v11 y
  refine congrArg (V m c main_v11) (funext fun ax => Fin.ext ?_)
  match ax with
  | ⟨0, _⟩ => show win0_11.index t (0 : Fin 2) * 1 + 1 * (y 0).val = (y 0).val; omega
  | ⟨1, _⟩ => show win0_11.index t (1 : Fin 2) * 248 + 1 * (y 1).val = (y 1).val; omega

theorem iblk12_eq (c : Dev nD) (t : Fin cfg0.N) : iblk (F := Ideal) m c 12 t = V m c main_v12 := by
  obtain ⟨h10_0, h10_1, h11_0, h11_1, h12_0, h12_1, h13_0, h13_1, h14_0, h14_1, h15_0, h15_1, h16_0, h16_1, h17_0, h17_1⟩ := idx_w2 t
  funext y
  show V m c main_v12 (((cfg0.win 12).blk t).view.emb y) = V m c main_v12 y
  refine congrArg (V m c main_v12) (funext fun ax => Fin.ext ?_)
  match ax with
  | ⟨0, _⟩ => show win0_12.index t (0 : Fin 2) * 256 + 1 * (y 0).val = (y 0).val; omega
  | ⟨1, _⟩ => show win0_12.index t (1 : Fin 2) * 128 + 1 * (y 1).val = (y 1).val; omega

theorem iblk13_eq (c : Dev nD) (t : Fin cfg0.N) : iblk (F := Ideal) m c 13 t = V m c main_v13 := by
  obtain ⟨h10_0, h10_1, h11_0, h11_1, h12_0, h12_1, h13_0, h13_1, h14_0, h14_1, h15_0, h15_1, h16_0, h16_1, h17_0, h17_1⟩ := idx_w2 t
  funext y
  show V m c main_v13 (((cfg0.win 13).blk t).view.emb y) = V m c main_v13 y
  refine congrArg (V m c main_v13) (funext fun ax => Fin.ext ?_)
  match ax with
  | ⟨0, _⟩ => show win0_13.index t (0 : Fin 2) * 1 + 1 * (y 0).val = (y 0).val; omega
  | ⟨1, _⟩ => show win0_13.index t (1 : Fin 2) * 128 + 1 * (y 1).val = (y 1).val; omega

theorem iblk14_eq (c : Dev nD) (t : Fin cfg0.N) : iblk (F := Ideal) m c 14 t = V m c main_v14 := by
  obtain ⟨h10_0, h10_1, h11_0, h11_1, h12_0, h12_1, h13_0, h13_1, h14_0, h14_1, h15_0, h15_1, h16_0, h16_1, h17_0, h17_1⟩ := idx_w2 t
  funext y
  show V m c main_v14 (((cfg0.win 14).blk t).view.emb y) = V m c main_v14 y
  refine congrArg (V m c main_v14) (funext fun ax => Fin.ext ?_)
  match ax with
  | ⟨0, _⟩ => show win0_14.index t (0 : Fin 2) * 704 + 1 * (y 0).val = (y 0).val; omega
  | ⟨1, _⟩ => show win0_14.index t (1 : Fin 2) * 256 + 1 * (y 1).val = (y 1).val; omega

theorem iblk15_eq (c : Dev nD) (t : Fin cfg0.N) : iblk (F := Ideal) m c 15 t = V m c main_v15 := by
  obtain ⟨h10_0, h10_1, h11_0, h11_1, h12_0, h12_1, h13_0, h13_1, h14_0, h14_1, h15_0, h15_1, h16_0, h16_1, h17_0, h17_1⟩ := idx_w2 t
  funext y
  show V m c main_v15 (((cfg0.win 15).blk t).view.emb y) = V m c main_v15 y
  refine congrArg (V m c main_v15) (funext fun ax => Fin.ext ?_)
  match ax with
  | ⟨0, _⟩ => show win0_15.index t (0 : Fin 2) * 1 + 1 * (y 0).val = (y 0).val; omega
  | ⟨1, _⟩ => show win0_15.index t (1 : Fin 2) * 256 + 1 * (y 1).val = (y 1).val; omega

theorem iblk16_eq (c : Dev nD) (t : Fin cfg0.N) : iblk (F := Ideal) m c 16 t = V m c main_v16 := by
  obtain ⟨h10_0, h10_1, h11_0, h11_1, h12_0, h12_1, h13_0, h13_1, h14_0, h14_1, h15_0, h15_1, h16_0, h16_1, h17_0, h17_1⟩ := idx_w2 t
  funext y
  show V m c main_v16 (((cfg0.win 16).blk t).view.emb y) = V m c main_v16 y
  refine congrArg (V m c main_v16) (funext fun ax => Fin.ext ?_)
  match ax with
  | ⟨0, _⟩ => show win0_16.index t (0 : Fin 2) * 240 + 1 * (y 0).val = (y 0).val; omega
  | ⟨1, _⟩ => show win0_16.index t (1 : Fin 2) * 248 + 1 * (y 1).val = (y 1).val; omega

theorem iblk17_eq (c : Dev nD) (t : Fin cfg0.N) : iblk (F := Ideal) m c 17 t = V m c main_v17 := by
  obtain ⟨h10_0, h10_1, h11_0, h11_1, h12_0, h12_1, h13_0, h13_1, h14_0, h14_1, h15_0, h15_1, h16_0, h16_1, h17_0, h17_1⟩ := idx_w2 t
  funext y
  show V m c main_v17 (((cfg0.win 17).blk t).view.emb y) = V m c main_v17 y
  refine congrArg (V m c main_v17) (funext fun ax => Fin.ext ?_)
  match ax with
  | ⟨0, _⟩ => show win0_17.index t (0 : Fin 2) * 1 + 1 * (y 0).val = (y 0).val; omega
  | ⟨1, _⟩ => show win0_17.index t (1 : Fin 2) * 248 + 1 * (y 1).val = (y 1).val; omega

theorem iblk18_eq (c : Dev nD) (t : Fin cfg0.N) : iblk (F := Ideal) m c 18 t = V m c main_v18 := by
  obtain ⟨h18_0, h18_1, h19_0, h19_1, h20_0, h20_1, h21_0, h21_1, h22_0, h22_1, h23_0, h23_1, h24_0, h24_1, h25_0, h25_1⟩ := idx_w3 t
  funext y
  show V m c main_v18 (((cfg0.win 18).blk t).view.emb y) = V m c main_v18 y
  refine congrArg (V m c main_v18) (funext fun ax => Fin.ext ?_)
  match ax with
  | ⟨0, _⟩ => show win0_18.index t (0 : Fin 2) * 256 + 1 * (y 0).val = (y 0).val; omega
  | ⟨1, _⟩ => show win0_18.index t (1 : Fin 2) * 128 + 1 * (y 1).val = (y 1).val; omega

theorem iblk19_eq (c : Dev nD) (t : Fin cfg0.N) : iblk (F := Ideal) m c 19 t = V m c main_v19 := by
  obtain ⟨h18_0, h18_1, h19_0, h19_1, h20_0, h20_1, h21_0, h21_1, h22_0, h22_1, h23_0, h23_1, h24_0, h24_1, h25_0, h25_1⟩ := idx_w3 t
  funext y
  show V m c main_v19 (((cfg0.win 19).blk t).view.emb y) = V m c main_v19 y
  refine congrArg (V m c main_v19) (funext fun ax => Fin.ext ?_)
  match ax with
  | ⟨0, _⟩ => show win0_19.index t (0 : Fin 2) * 1 + 1 * (y 0).val = (y 0).val; omega
  | ⟨1, _⟩ => show win0_19.index t (1 : Fin 2) * 128 + 1 * (y 1).val = (y 1).val; omega

theorem iblk20_eq (c : Dev nD) (t : Fin cfg0.N) : iblk (F := Ideal) m c 20 t = V m c main_v20 := by
  obtain ⟨h18_0, h18_1, h19_0, h19_1, h20_0, h20_1, h21_0, h21_1, h22_0, h22_1, h23_0, h23_1, h24_0, h24_1, h25_0, h25_1⟩ := idx_w3 t
  funext y
  show V m c main_v20 (((cfg0.win 20).blk t).view.emb y) = V m c main_v20 y
  refine congrArg (V m c main_v20) (funext fun ax => Fin.ext ?_)
  match ax with
  | ⟨0, _⟩ => show win0_20.index t (0 : Fin 2) * 112 + 1 * (y 0).val = (y 0).val; omega
  | ⟨1, _⟩ => show win0_20.index t (1 : Fin 2) * 120 + 1 * (y 1).val = (y 1).val; omega

theorem iblk21_eq (c : Dev nD) (t : Fin cfg0.N) : iblk (F := Ideal) m c 21 t = V m c main_v21 := by
  obtain ⟨h18_0, h18_1, h19_0, h19_1, h20_0, h20_1, h21_0, h21_1, h22_0, h22_1, h23_0, h23_1, h24_0, h24_1, h25_0, h25_1⟩ := idx_w3 t
  funext y
  show V m c main_v21 (((cfg0.win 21).blk t).view.emb y) = V m c main_v21 y
  refine congrArg (V m c main_v21) (funext fun ax => Fin.ext ?_)
  match ax with
  | ⟨0, _⟩ => show win0_21.index t (0 : Fin 2) * 1 + 1 * (y 0).val = (y 0).val; omega
  | ⟨1, _⟩ => show win0_21.index t (1 : Fin 2) * 120 + 1 * (y 1).val = (y 1).val; omega

theorem iblk22_eq (c : Dev nD) (t : Fin cfg0.N) : iblk (F := Ideal) m c 22 t = V m c main_v22 := by
  obtain ⟨h18_0, h18_1, h19_0, h19_1, h20_0, h20_1, h21_0, h21_1, h22_0, h22_1, h23_0, h23_1, h24_0, h24_1, h25_0, h25_1⟩ := idx_w3 t
  funext y
  show V m c main_v22 (((cfg0.win 22).blk t).view.emb y) = V m c main_v22 y
  refine congrArg (V m c main_v22) (funext fun ax => Fin.ext ?_)
  match ax with
  | ⟨0, _⟩ => show win0_22.index t (0 : Fin 2) * 128 + 1 * (y 0).val = (y 0).val; omega
  | ⟨1, _⟩ => show win0_22.index t (1 : Fin 2) * 128 + 1 * (y 1).val = (y 1).val; omega

theorem iblk23_eq (c : Dev nD) (t : Fin cfg0.N) : iblk (F := Ideal) m c 23 t = V m c main_v23 := by
  obtain ⟨h18_0, h18_1, h19_0, h19_1, h20_0, h20_1, h21_0, h21_1, h22_0, h22_1, h23_0, h23_1, h24_0, h24_1, h25_0, h25_1⟩ := idx_w3 t
  funext y
  show V m c main_v23 (((cfg0.win 23).blk t).view.emb y) = V m c main_v23 y
  refine congrArg (V m c main_v23) (funext fun ax => Fin.ext ?_)
  match ax with
  | ⟨0, _⟩ => show win0_23.index t (0 : Fin 2) * 1 + 1 * (y 0).val = (y 0).val; omega
  | ⟨1, _⟩ => show win0_23.index t (1 : Fin 2) * 128 + 1 * (y 1).val = (y 1).val; omega

theorem iblk24_eq (c : Dev nD) (t : Fin cfg0.N) : iblk (F := Ideal) m c 24 t = V m c main_v24 := by
  obtain ⟨h18_0, h18_1, h19_0, h19_1, h20_0, h20_1, h21_0, h21_1, h22_0, h22_1, h23_0, h23_1, h24_0, h24_1, h25_0, h25_1⟩ := idx_w3 t
  funext y
  show V m c main_v24 (((cfg0.win 24).blk t).view.emb y) = V m c main_v24 y
  refine congrArg (V m c main_v24) (funext fun ax => Fin.ext ?_)
  match ax with
  | ⟨0, _⟩ => show win0_24.index t (0 : Fin 2) * 128 + 1 * (y 0).val = (y 0).val; omega
  | ⟨1, _⟩ => show win0_24.index t (1 : Fin 2) * 81 + 1 * (y 1).val = (y 1).val; omega

theorem iblk25_eq (c : Dev nD) (t : Fin cfg0.N) : iblk (F := Ideal) m c 25 t = V m c main_v25 := by
  obtain ⟨h18_0, h18_1, h19_0, h19_1, h20_0, h20_1, h21_0, h21_1, h22_0, h22_1, h23_0, h23_1, h24_0, h24_1, h25_0, h25_1⟩ := idx_w3 t
  funext y
  show V m c main_v25 (((cfg0.win 25).blk t).view.emb y) = V m c main_v25 y
  refine congrArg (V m c main_v25) (funext fun ax => Fin.ext ?_)
  match ax with
  | ⟨0, _⟩ => show win0_25.index t (0 : Fin 2) * 1 + 1 * (y 0).val = (y 0).val; omega
  | ⟨1, _⟩ => show win0_25.index t (1 : Fin 2) * 81 + 1 * (y 1).val = (y 1).val; omega

theorem iblk26_eq (c : Dev nD) (t : Fin cfg0.N) : iblk (F := Ideal) m c 26 t = V m c main_v26 := by
  obtain ⟨h26_0, h26_1, h27_0, h27_1, h28_0, h28_1, h29_0, h29_1, h30_0, h30_1, h31_0, h31_1, h32_0, h32_1, h33_0, h33_1⟩ := idx_w4 t
  funext y
  show V m c main_v26 (((cfg0.win 26).blk t).view.emb y) = V m c main_v26 y
  refine congrArg (V m c main_v26) (funext fun ax => Fin.ext ?_)
  match ax with
  | ⟨0, _⟩ => show win0_26.index t (0 : Fin 2) * 128 + 1 * (y 0).val = (y 0).val; omega
  | ⟨1, _⟩ => show win0_26.index t (1 : Fin 2) * 128 + 1 * (y 1).val = (y 1).val; omega

theorem iblk27_eq (c : Dev nD) (t : Fin cfg0.N) : iblk (F := Ideal) m c 27 t = V m c main_v27 := by
  obtain ⟨h26_0, h26_1, h27_0, h27_1, h28_0, h28_1, h29_0, h29_1, h30_0, h30_1, h31_0, h31_1, h32_0, h32_1, h33_0, h33_1⟩ := idx_w4 t
  funext y
  show V m c main_v27 (((cfg0.win 27).blk t).view.emb y) = V m c main_v27 y
  refine congrArg (V m c main_v27) (funext fun ax => Fin.ext ?_)
  match ax with
  | ⟨0, _⟩ => show win0_27.index t (0 : Fin 2) * 1 + 1 * (y 0).val = (y 0).val; omega
  | ⟨1, _⟩ => show win0_27.index t (1 : Fin 2) * 128 + 1 * (y 1).val = (y 1).val; omega

theorem iblk28_eq (c : Dev nD) (t : Fin cfg0.N) : iblk (F := Ideal) m c 28 t = V m c main_v28 := by
  obtain ⟨h26_0, h26_1, h27_0, h27_1, h28_0, h28_1, h29_0, h29_1, h30_0, h30_1, h31_0, h31_1, h32_0, h32_1, h33_0, h33_1⟩ := idx_w4 t
  funext y
  show V m c main_v28 (((cfg0.win 28).blk t).view.emb y) = V m c main_v28 y
  refine congrArg (V m c main_v28) (funext fun ax => Fin.ext ?_)
  match ax with
  | ⟨0, _⟩ => show win0_28.index t (0 : Fin 2) * 128 + 1 * (y 0).val = (y 0).val; omega
  | ⟨1, _⟩ => show win0_28.index t (1 : Fin 2) * 1 + 1 * (y 1).val = (y 1).val; omega

theorem iblk29_eq (c : Dev nD) (t : Fin cfg0.N) : iblk (F := Ideal) m c 29 t = V m c main_v29 := by
  obtain ⟨h26_0, h26_1, h27_0, h27_1, h28_0, h28_1, h29_0, h29_1, h30_0, h30_1, h31_0, h31_1, h32_0, h32_1, h33_0, h33_1⟩ := idx_w4 t
  funext y
  show V m c main_v29 (((cfg0.win 29).blk t).view.emb y) = V m c main_v29 y
  refine congrArg (V m c main_v29) (funext fun ax => Fin.ext ?_)
  match ax with
  | ⟨0, _⟩ => show win0_29.index t (0 : Fin 2) * 1 + 1 * (y 0).val = (y 0).val; omega
  | ⟨1, _⟩ => show win0_29.index t (1 : Fin 2) * 1 + 1 * (y 1).val = (y 1).val; omega

theorem iblk30_eq (c : Dev nD) (t : Fin cfg0.N) : iblk (F := Ideal) m c 30 t = V m c main_v30 := by
  obtain ⟨h26_0, h26_1, h27_0, h27_1, h28_0, h28_1, h29_0, h29_1, h30_0, h30_1, h31_0, h31_1, h32_0, h32_1, h33_0, h33_1⟩ := idx_w4 t
  funext y
  show V m c main_v30 (((cfg0.win 30).blk t).view.emb y) = V m c main_v30 y
  refine congrArg (V m c main_v30) (funext fun ax => Fin.ext ?_)
  match ax with
  | ⟨0, _⟩ => show win0_30.index t (0 : Fin 2) * 128 + 1 * (y 0).val = (y 0).val; omega
  | ⟨1, _⟩ => show win0_30.index t (1 : Fin 2) * 128 + 1 * (y 1).val = (y 1).val; omega

theorem iblk31_eq (c : Dev nD) (t : Fin cfg0.N) : iblk (F := Ideal) m c 31 t = V m c main_v31 := by
  obtain ⟨h26_0, h26_1, h27_0, h27_1, h28_0, h28_1, h29_0, h29_1, h30_0, h30_1, h31_0, h31_1, h32_0, h32_1, h33_0, h33_1⟩ := idx_w4 t
  funext y
  show V m c main_v31 (((cfg0.win 31).blk t).view.emb y) = V m c main_v31 y
  refine congrArg (V m c main_v31) (funext fun ax => Fin.ext ?_)
  match ax with
  | ⟨0, _⟩ => show win0_31.index t (0 : Fin 2) * 1 + 1 * (y 0).val = (y 0).val; omega
  | ⟨1, _⟩ => show win0_31.index t (1 : Fin 2) * 128 + 1 * (y 1).val = (y 1).val; omega

theorem iblk32_eq (c : Dev nD) (t : Fin cfg0.N) : iblk (F := Ideal) m c 32 t = V m c main_v32 := by
  obtain ⟨h26_0, h26_1, h27_0, h27_1, h28_0, h28_1, h29_0, h29_1, h30_0, h30_1, h31_0, h31_1, h32_0, h32_1, h33_0, h33_1⟩ := idx_w4 t
  funext y
  show V m c main_v32 (((cfg0.win 32).blk t).view.emb y) = V m c main_v32 y
  refine congrArg (V m c main_v32) (funext fun ax => Fin.ext ?_)
  match ax with
  | ⟨0, _⟩ => show win0_32.index t (0 : Fin 2) * 128 + 1 * (y 0).val = (y 0).val; omega
  | ⟨1, _⟩ => show win0_32.index t (1 : Fin 2) * 31 + 1 * (y 1).val = (y 1).val; omega

theorem iblk33_eq (c : Dev nD) (t : Fin cfg0.N) : iblk (F := Ideal) m c 33 t = V m c main_v33 := by
  obtain ⟨h26_0, h26_1, h27_0, h27_1, h28_0, h28_1, h29_0, h29_1, h30_0, h30_1, h31_0, h31_1, h32_0, h32_1, h33_0, h33_1⟩ := idx_w4 t
  funext y
  show V m c main_v33 (((cfg0.win 33).blk t).view.emb y) = V m c main_v33 y
  refine congrArg (V m c main_v33) (funext fun ax => Fin.ext ?_)
  match ax with
  | ⟨0, _⟩ => show win0_33.index t (0 : Fin 2) * 1 + 1 * (y 0).val = (y 0).val; omega
  | ⟨1, _⟩ => show win0_33.index t (1 : Fin 2) * 31 + 1 * (y 1).val = (y 1).val; omega

end Cert.KArr

end
-- ==== Proof.KPay1.lean ====
/-
  The kernel's first stage at an index: each of the 1792 rows (a channel of an example) passes through the first affine
  layer, its channel's normalisation and relu.
-/
import proofs.«125488_j18605798326416_1_alg».proof.Proof.KBase
import proofs.«125488_j18605798326416_1_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KStage

open Idealize.ShloMosaic Idealize.ShloMosaic.ValueIdx Cert.KernelIdeal Cert.KernelIdeal.Gen

theorem pay1_apply (v0 : Vec Ideal S256x7x56 .f32) (v4 : Vec Ideal S56x256 .f32) (v8 : Vec Ideal S1x256 .f32)
    (v13 v17 v24 v28 : Vec Ideal S1x7x1 .f32) (a : Fin 256) (s : Fin 7) (o : Fin 256) :
    k0_pay1 (F := Ideal) v0 v4 v8 v13 v17 v24 v28 (ix2 (flat7 a s) o)
      = Net.relu (Net.bnorm (v13 (ix3 0 s 0)) (v17 (ix3 0 s 0)) (v24 (ix3 0 s 0)) (v28 (ix3 0 s 0))
          (Net.lin (fun o k => v4 (ix2 k o)) (fun o => v8 (ix2 0 o)) (fun k => v0 (ix3 a s k)) o)) := by
  have hD : dot_S1792x56_S56x256_S1792x256_1_0_0_1_n_n = DotDims.plain 1792 56 256 := rfl
  unfold k0_pay1
  simp only [truncf_apply]
  rw [KOps.stack_to_rows_apply]
  simp only [maximumf_apply, addf_apply, mulf_apply, subf_apply, broadcast_apply, KOps.chan_bcast_apply,
    KOps.rows_to_stack_apply, shapeCast_self]
  rw [KOps.product_apply _ hD, KOps.bias_rows_apply]
  simp only [truncf_apply, KOps.stack_to_rows_apply]
  unfold Net.relu Net.bnorm Net.lin
  rfl

end Cert.KStage

end
-- ==== Proof.KPay2.lean ====
/-
  The kernel's second stage at an index: each row passes through the second affine layer and relu, the partial pooling
  over groups of 8 features, and the product with the third layer's weights (its bias and relu come with the next stage).
-/
import proofs.«125488_j18605798326416_1_alg».proof.Proof.KBase
import proofs.«125488_j18605798326416_1_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KStage

open Idealize.ShloMosaic Idealize.ShloMosaic.ValueIdx Cert.KernelIdeal Cert.KernelIdeal.Gen

/-- The last 224 features of a row of the stack, laid out as 1792 rows: feature 32 + k of channel s of example a. -/
theorem pay2_slice224 (y : S256x7x256.Idx → EReal) (a : Fin 256) (s : Fin 7) (k : Fin 224) :
    shapeCast S1792x224 (extractStridedSlice S256x7x224 ![0, 0, 32] y slices_S256x7x256_o0_0_32_S256x7x224)
      shapeCasts_S256x7x224_S1792x224 (ix2 (KOps.row7 a s) k) = y (ix3 a s ⟨32 + k.val, by omega⟩) := by
  rw [KOps.stack_to_rows_apply]
  refine extractStridedSlice_apply _ y _ _ _ fun b => ?_
  match b with
  | ⟨0, _⟩ => exact (Nat.zero_add _).symm
  | ⟨1, _⟩ => exact (Nat.zero_add _).symm
  | ⟨2, _⟩ => rfl

/-- The first 32 features in 4 groups of 8: entry i of group j is feature 8j + i. -/
theorem pay2_slice32 (y : S256x7x256.Idx → EReal) (a : Fin 256) (s : Fin 7) (j : Fin 4) (i : Fin 8) :
    shapeCast S256x7x4x8 (extractStridedSlice S256x7x32 ![0, 0, 0] y slices_S256x7x256_o0_0_0_S256x7x32)
      shapeCasts_S256x7x32_S256x7x4x8 (ix4 a s j i) = y (ix3 a s ⟨j.val * 8 + i.val, by omega⟩) := by
  have h1 : shapeCast S256x7x4x8 (extractStridedSlice S256x7x32 ![0, 0, 0] y slices_S256x7x256_o0_0_0_S256x7x32)
      shapeCasts_S256x7x32_S256x7x4x8 (ix4 a s j i)
      = extractStridedSlice S256x7x32 ![0, 0, 0] y slices_S256x7x256_o0_0_0_S256x7x32 (ix3 a s ⟨j.val * 8 + i.val, by omega⟩) := by
    refine shapeCast_apply _ _ _ _ ?_
    rw [Shape.rowMajor_val_three, Shape.rowMajor_val_four]
    show (a.val * 7 + s.val) * 32 + (j.val * 8 + i.val) = ((a.val * 7 + s.val) * 4 + j.val) * 8 + i.val
    omega
  rw [h1]
  refine extractStridedSlice_apply _ y _ _ _ fun b => ?_
  match b with
  | ⟨0, _⟩ => exact (Nat.zero_add _).symm
  | ⟨1, _⟩ => exact (Nat.zero_add _).symm
  | ⟨2, _⟩ => exact (Nat.zero_add _).symm

/-- The maximum over each group of 8 of the first 32 features. -/
theorem pay2_maxpool (y : S256x7x256.Idx → EReal) (a : Fin 256) (s : Fin 7) (j : Fin 4) :
    multiReduction (F := Ideal) .maximumf [3] S256x7x4
      (shapeCast S256x7x4x8 (extractStridedSlice S256x7x32 ![0, 0, 0] y slices_S256x7x256_o0_0_0_S256x7x32)
        shapeCasts_S256x7x32_S256x7x4x8) 0xFF800000#32 reduces_S256x7x4x8_S256x7x4 (.inl rfl) rfl (ix3 a s j)
      = (Finset.univ : Finset (Fin 8)).fold max Net.fninf (fun i => y (ix3 a s ⟨j.val * 8 + i.val, by omega⟩)) := by
  refine (Ideal.multiReduction_maximumf_single _ _ reduces_S256x7x4x8_S256x7x4 _ _ (ix3 a s j)).trans ?_
  refine congrArg (fun f => (Finset.univ : Finset (Fin 8)).fold max Net.fninf f) (funext fun (i : Fin 8) => ?_)
  have e : reduces_S256x7x4x8_S256x7x4.lift (ix3 a s j) i = ix4 a s j i :=
    funext fun b => Fin.ext (by match b with | ⟨0, _⟩ => rfl | ⟨1, _⟩ => rfl | ⟨2, _⟩ => rfl | ⟨3, _⟩ => rfl)
  show shapeCast S256x7x4x8 (extractStridedSlice S256x7x32 ![0, 0, 0] y slices_S256x7x256_o0_0_0_S256x7x32)
        shapeCasts_S256x7x32_S256x7x4x8 (reduces_S256x7x4x8_S256x7x4.lift (ix3 a s j) i) = _
  rw [e]
  exact pay2_slice32 y a s j i

/-- The sum over each group of 8 of the first 32 features. -/
theorem pay2_sumpool (y : S256x7x256.Idx → EReal) (a : Fin 256) (s : Fin 7) (j : Fin 4) :
    multiReduction (F := Ideal) .add [3] S256x7x4
      (shapeCast S256x7x4x8 (extractStridedSlice S256x7x32 ![0, 0, 0] y slices_S256x7x256_o0_0_0_S256x7x32)
        shapeCasts_S256x7x32_S256x7x4x8) 0x00000000#32 reduces_S256x7x4x8_S256x7x4 (.inl rfl) rfl (ix3 a s j)
      = ∑ i : Fin 8, y (ix3 a s ⟨j.val * 8 + i.val, by omega⟩) := by
  refine (Ideal.multiReduction_add_single _ _ reduces_S256x7x4x8_S256x7x4 _ _ (ix3 a s j)).trans ?_
  refine Finset.sum_congr rfl fun i _ => ?_
  have e : reduces_S256x7x4x8_S256x7x4.lift (ix3 a s j) i = ix4 a s j i :=
    funext fun b => Fin.ext (by match b with | ⟨0, _⟩ => rfl | ⟨1, _⟩ => rfl | ⟨2, _⟩ => rfl | ⟨3, _⟩ => rfl)
  rw [e]
  exact pay2_slice32 y a s j i

/-- The three pieces laid side by side along the features: columns 0..3 read the first piece, … -/
theorem pay2_cat0 (p0 p1 : S256x7x4.Idx → EReal) (p2 : S256x7x248.Idx → EReal) (a : Fin 256) (s : Fin 7) (k : Fin 256)
    (hk : k.val < 4) :
    concatenate S256x7x256 2 [⟨S256x7x4, p0⟩, ⟨S256x7x4, p1⟩, ⟨S256x7x248, p2⟩]
      concatenates_S256x7x4_S256x7x4_S256x7x248_S256x7x256_d2 (ix3 a s k) = p0 (ix3 a s ⟨k.val, hk⟩) := by
  refine concatenate_apply_piece _ _ _ (ix3 a s k) 0 (by show (0 : ℕ) < 3; omega) S256x7x4 p0 rfl rfl 0 rfl (ix3 a s ⟨k.val, hk⟩)
    (fun b hb => ?_) ?_
  · match b with
    | ⟨0, _⟩ => rfl
    | ⟨1, _⟩ => rfl
    | ⟨2, _⟩ => exact absurd rfl hb
  · exact Nat.zero_add _

/-- … columns 4..7 the second, … -/
theorem pay2_cat1 (p0 p1 : S256x7x4.Idx → EReal) (p2 : S256x7x248.Idx → EReal) (a : Fin 256) (s : Fin 7) (k : Fin 256)
    (hk4 : 4 ≤ k.val) (hk : k.val < 8) :
    concatenate S256x7x256 2 [⟨S256x7x4, p0⟩, ⟨S256x7x4, p1⟩, ⟨S256x7x248, p2⟩]
      concatenates_S256x7x4_S256x7x4_S256x7x248_S256x7x256_d2 (ix3 a s k) = p1 (ix3 a s ⟨k.val - 4, by omega⟩) := by
  refine concatenate_apply_piece _ _ _ (ix3 a s k) 1 (by show (1 : ℕ) < 3; omega) S256x7x4 p1 rfl rfl 4 rfl (ix3 a s ⟨k.val - 4, by omega⟩)
    (fun b hb => ?_) ?_
  · match b with
    | ⟨0, _⟩ => rfl
    | ⟨1, _⟩ => rfl
    | ⟨2, _⟩ => exact absurd rfl hb
  · show 4 + (k.val - 4) = k.val
    omega

/-- … and columns 8..255 the third. -/
theorem pay2_cat2 (p0 p1 : S256x7x4.Idx → EReal) (p2 : S256x7x248.Idx → EReal) (a : Fin 256) (s : Fin 7) (k : Fin 256)
    (hk : 8 ≤ k.val) :
    concatenate S256x7x256 2 [⟨S256x7x4, p0⟩, ⟨S256x7x4, p1⟩, ⟨S256x7x248, p2⟩]
      concatenates_S256x7x4_S256x7x4_S256x7x248_S256x7x256_d2 (ix3 a s k) = p2 (ix3 a s ⟨k.val - 8, by omega⟩) := by
  refine concatenate_apply_piece _ _ _ (ix3 a s k) 2 (by show (2 : ℕ) < 3; omega) S256x7x248 p2 rfl rfl 8 rfl (ix3 a s ⟨k.val - 8, by omega⟩)
    (fun b hb => ?_) ?_
  · match b with
    | ⟨0, _⟩ => rfl
    | ⟨1, _⟩ => rfl
    | ⟨2, _⟩ => exact absurd rfl hb
  · show 8 + (k.val - 8) = k.val
    omega

theorem pay2_apply (v35 : FVec Ideal S1792x256 .bf16) (v36 : Vec Ideal S256x256 .f32) (v40 : Vec Ideal S1x256 .f32)
    (v56 : Vec Ideal S224x248 .f32) (v60 : Vec Ideal S1x248 .f32) (v70 : Vec Ideal S256x128 .f32)
    (r : Fin 1792) (o : Fin 128) :
    k0_pay2 (F := Ideal) v35 v36 v40 v56 v60 v70 (ix2 r o)
      = ∑ k : Fin 256, (Net.gpool 8 224 Net.f8 (fun o k => v56 (ix2 k o)) (fun o => v60 (ix2 0 o))
          (fun o' : Fin 256 => Net.relu (Net.lin (fun o k => v36 (ix2 k o)) (fun o => v40 (ix2 0 o)) (fun k' => v35 (ix2 r k')) o')) : Fin 256 → EReal) k
          * v70 (ix2 k o) := by
  obtain ⟨a, s, rfl⟩ := KOps.exists_row7 r
  have hD1 : dot_S1792x256_S256x256_S1792x256_1_0_0_1_n_n = DotDims.plain 1792 256 256 := rfl
  have hD2 : dot_S1792x224_S224x248_S1792x248_1_0_0_1_n_n = DotDims.plain 1792 224 248 := rfl
  have hD3 : dot_S1792x256_S256x128_S1792x128_1_0_0_1_n_n = DotDims.plain 1792 256 128 := rfl
  unfold k0_pay2
  simp only [truncf_apply]
  rw [KOps.product_apply _ hD3]
  refine Finset.sum_congr rfl fun k _ => ?_
  simp only [truncf_apply, shapeCast_self]
  rw [KOps.stack_to_rows_apply]
  refine congrArg (· * v70 (ix2 k o)) ?_
  generalize hY : shapeCast S256x7x256 _ shapeCasts_S1792x256_S256x7x256 = Y
  have hy : ∀ c : Fin 256, Y (ix3 a s c)
      = Net.relu (Net.lin (fun o k => v36 (ix2 k o)) (fun o => v40 (ix2 0 o)) (fun k' => v35 (ix2 (KOps.row7 a s) k')) c) := by
    intro c
    rw [← hY, KOps.rows_to_stack_apply]
    simp only [maximumf_apply, broadcast_apply]
    rw [KOps.affine_apply _ hD1]
    simp only [truncf_apply, shapeCast_self]
    rfl
  clear hY
  unfold Net.gpool
  beta_reduce
  by_cases h4 : k.val < 4
  · rw [if_pos h4]
    refine (pay2_cat0 _ _ _ a s k h4).trans ?_
    refine (pay2_maxpool Y a s ⟨k.val, h4⟩).trans ?_
    unfold Net.vmax
    refine congrArg (fun f => (Finset.univ : Finset (Fin 8)).fold max Net.fninf f) (funext fun i => ?_)
    rw [Net.get_of_lt _ _ (by show k.val * 8 + i.val < 256; omega)]
    exact hy _
  · rw [if_neg h4]
    by_cases h8 : k.val < 8
    · rw [if_pos h8]
      refine (pay2_cat1 _ _ _ a s k (by omega) h8).trans ?_
      rw [divf_apply, broadcast_apply]
      refine (congrArg (fun t => Ideal.div t Net.f8) (pay2_sumpool Y a s ⟨k.val - 4, by omega⟩)).trans ?_
      unfold Net.vmean
      refine congrArg (fun t => Ideal.div t Net.f8) (Finset.sum_congr rfl fun i _ => ?_)
      beta_reduce
      rw [Net.get_of_lt _ _ (by show (k.val - 4) * 8 + i.val < 256; omega)]
      exact hy _
    · rw [if_neg h8]
      refine (pay2_cat2 _ _ _ a s k (by omega)).trans ?_
      rw [KOps.rows_to_stack_apply]
      simp only [maximumf_apply, broadcast_apply]
      rw [KOps.affine_apply _ hD2]
      rw [Net.get_of_lt _ _ (by show k.val - 8 < 248; omega)]
      unfold Net.relu
      refine congrArg (fun t => max t Net.fzero) ?_
      unfold Net.lin
      simp only [truncf_apply, shapeCast_self, pay2_slice224]
      refine congrArg (· + v60 (ix2 0 ⟨k.val - 8, by omega⟩)) (Finset.sum_congr rfl fun k' _ => ?_)
      beta_reduce
      rw [Net.get_of_lt _ _ (by show 4 * 8 + k'.val < 256; omega)]
      exact congrArg (· * v56 (ix2 k' ⟨k.val - 8, by omega⟩)) (hy _)

/-- The third layer's bias, repeated down the rows. -/
theorem pay3_apply (v74 : Vec Ideal S1x128 .f32) (r : Fin 1792) (o : Fin 128) :
    k0_pay3 (F := Ideal) v74 (ix2 r o) = v74 (ix2 0 o) := by
  unfold k0_pay3
  rw [KOps.bias_rows_apply, shapeCast_self]

end Cert.KStage

end
-- ==== Proof.KPay4.lean ====
/-
  The kernel's stages across channels, at an index: the third layer's bias and relu, the flattening of an example's 7
  channels with pooling across channels, the fourth affine layer with relu; then, of that layer's 256 outputs, the maxima
  and the means of 4 groups of 4 and the affine image of the other 240.
-/
import proofs.«125488_j18605798326416_1_alg».proof.Proof.KBase
import proofs.«125488_j18605798326416_1_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KStage

open Idealize.ShloMosaic Idealize.ShloMosaic.ValueIdx Cert.KernelIdeal Cert.KernelIdeal.Gen

/-- The maximum over the 5 channels of a 256×5×64 stack. -/
theorem pay4_max5 (z : FVec Ideal S256x5x64 .f32) (h : S256x5x64.Reduces [1] S256x64) (hφ : FKind.Formats .f32)
    (hacc : (0xFF800000#32 : BitVec (FTy.bits .f32)) = FKind.maximumf.neutral .f32 hφ) (a : Fin 256) (k : Fin 64) :
    multiReduction .maximumf [1] S256x64 z 0xFF800000#32 h hφ hacc (ix2 a k) = Net.vmax (fun s : Fin 5 => z (ix3 a s k)) := by
  refine (Ideal.multiReduction_maximumf_single z _ h hφ hacc (ix2 a k)).trans ?_
  have e : (z ∘ h.lift (ix2 a k)) = fun s : Fin 5 => z (ix3 a s k) := by
    funext s
    exact congrArg z (funext fun c => Fin.ext (by match c with | ⟨0, _⟩ => rfl | ⟨1, _⟩ => rfl | ⟨2, _⟩ => rfl))
  rw [e]
  rfl

/-- The sum over the 5 channels of a 256×5×64 stack. -/
theorem pay4_sum5 (z : FVec Ideal S256x5x64 .f32) (h : S256x5x64.Reduces [1] S256x64) (hφ : FKind.Formats .f32)
    (hacc : (0x00000000#32 : BitVec (FTy.bits .f32)) = FKind.add.neutral .f32 hφ) (a : Fin 256) (k : Fin 64) :
    multiReduction .add [1] S256x64 z 0x00000000#32 h hφ hacc (ix2 a k) = ∑ s : Fin 5, z (ix3 a s k) := by
  refine (Ideal.multiReduction_add_single z _ h hφ hacc (ix2 a k)).trans ?_
  refine Finset.sum_congr rfl fun s _ => ?_
  exact congrArg z (funext fun c => Fin.ext (by match c with | ⟨0, _⟩ => rfl | ⟨1, _⟩ => rfl | ⟨2, _⟩ => rfl))

variable {α : Type}

/-- The first 64 features of each channel. -/
theorem pay4_lo (x : S256x7x128.Idx → α) (h : S256x7x128.Slices ![0, 0, 0] S256x7x64) (a : Fin 256) (s : Fin 7) (k : Fin 64) :
    extractStridedSlice S256x7x64 ![0, 0, 0] x h (ix3 a s k) = x (ix3 a s ⟨k.val, by omega⟩) := by
  refine extractStridedSlice_apply _ x h _ _ fun c => ?_
  match c with
  | ⟨0, _⟩ => exact (Nat.zero_add _).symm
  | ⟨1, _⟩ => exact (Nat.zero_add _).symm
  | ⟨2, _⟩ => exact (Nat.zero_add _).symm

/-- The last 64 features of each channel. -/
theorem pay4_hi (x : S256x7x128.Idx → α) (h : S256x7x128.Slices ![0, 0, 64] S256x7x64) (a : Fin 256) (s : Fin 7) (k : Fin 64) :
    extractStridedSlice S256x7x64 ![0, 0, 64] x h (ix3 a s k) = x (ix3 a s ⟨64 + k.val, by omega⟩) := by
  refine extractStridedSlice_apply _ x h _ _ fun c => ?_
  match c with
  | ⟨0, _⟩ => exact (Nat.zero_add _).symm
  | ⟨1, _⟩ => exact (Nat.zero_add _).symm
  | ⟨2, _⟩ => rfl

/-- Channels 0 to 4. -/
theorem pay4_first5 (y : S256x7x64.Idx → α) (h : S256x7x64.Slices ![0, 0, 0] S256x5x64) (a : Fin 256) (s : Fin 5) (k : Fin 64) :
    extractStridedSlice S256x5x64 ![0, 0, 0] y h (ix3 a s k) = y (ix3 a ⟨s.val, by omega⟩ k) := by
  refine extractStridedSlice_apply _ y h _ _ fun c => ?_
  match c with
  | ⟨0, _⟩ => exact (Nat.zero_add _).symm
  | ⟨1, _⟩ => exact (Nat.zero_add _).symm
  | ⟨2, _⟩ => exact (Nat.zero_add _).symm

/-- Channels 5 and 6. -/
theorem pay4_last2 (y : S256x7x64.Idx → α) (h : S256x7x64.Slices ![0, 5, 0] S256x2x64) (a : Fin 256) (s : Fin 2) (k : Fin 64) :
    extractStridedSlice S256x2x64 ![0, 5, 0] y h (ix3 a s k) = y (ix3 a ⟨5 + s.val, by omega⟩ k) := by
  refine extractStridedSlice_apply _ y h _ _ fun c => ?_
  match c with
  | ⟨0, _⟩ => exact (Nat.zero_add _).symm
  | ⟨1, _⟩ => rfl
  | ⟨2, _⟩ => exact (Nat.zero_add _).symm

/-- Two channels of 64 features laid side by side: column 64 s + k is (s, k). -/
theorem pay4_side2 (y : S256x2x64.Idx → α) (h : S256x2x64.ShapeCasts S256x128) (a : Fin 256) (c : Fin 128) :
    shapeCast S256x128 y h (ix2 a c) = y (ix3 a ⟨c.val / 64, by omega⟩ ⟨c.val % 64, by omega⟩) := by
  refine shapeCast_apply y h _ _ ?_
  rw [Shape.rowMajor_val_three, Shape.rowMajor_val_two]
  show (a.val * 2 + c.val / 64) * 64 + c.val % 64 = a.val * 128 + c.val
  omega

/-- Seven channels of 64 features laid side by side: column 64 s + k is (s, k). -/
theorem pay4_side7 (y : S256x7x64.Idx → α) (h : S256x7x64.ShapeCasts S256x448) (a : Fin 256) (c : Fin 448) :
    shapeCast S256x448 y h (ix2 a c) = y (ix3 a ⟨c.val / 64, by omega⟩ ⟨c.val % 64, by omega⟩) := by
  refine shapeCast_apply y h _ _ ?_
  rw [Shape.rowMajor_val_three, Shape.rowMajor_val_two]
  show (a.val * 7 + c.val / 64) * 64 + c.val % 64 = a.val * 448 + c.val
  omega

/-- The four pieces laid side by side along the columns: the piece whose span holds the column, at the column less the
    extents before it. -/
theorem pay4_cat (p0 p1 : S256x64.Idx → α) (p2 : S256x128.Idx → α) (p3 : S256x448.Idx → α)
    (h : Shape.Concatenates [S256x64, S256x64, S256x128, S256x448] S256x704 1) (a : Fin 256) (c : Fin 704) :
    concatenate S256x704 1 [⟨S256x64, p0⟩, ⟨S256x64, p1⟩, ⟨S256x128, p2⟩, ⟨S256x448, p3⟩] h (ix2 a c)
      = if h0 : c.val < 64 then p0 (ix2 a ⟨c.val, h0⟩)
        else if h1 : c.val < 128 then p1 (ix2 a ⟨c.val - 64, by omega⟩)
        else if h2 : c.val < 256 then p2 (ix2 a ⟨c.val - 128, by omega⟩)
        else p3 (ix2 a ⟨c.val - 256, by omega⟩) := by
  by_cases h0 : c.val < 64
  · rw [dif_pos h0]
    exact concatenate_apply_piece (t := S256x704) (1 : Fin 2) [⟨S256x64, p0⟩, ⟨S256x64, p1⟩, ⟨S256x128, p2⟩, ⟨S256x448, p3⟩]
      h (ix2 a c) 0 (by show 0 < 4; omega) S256x64 p0 rfl rfl 0 rfl (ix2 a ⟨c.val, h0⟩)
      (fun b hb => by match b with | ⟨0, _⟩ => rfl | ⟨1, _⟩ => exact absurd (Fin.ext rfl) hb) (Nat.zero_add _)
  rw [dif_neg h0]
  by_cases h1 : c.val < 128
  · rw [dif_pos h1]
    exact concatenate_apply_piece (t := S256x704) (1 : Fin 2) [⟨S256x64, p0⟩, ⟨S256x64, p1⟩, ⟨S256x128, p2⟩, ⟨S256x448, p3⟩]
      h (ix2 a c) 1 (by show 1 < 4; omega) S256x64 p1 rfl rfl 64 rfl (ix2 a ⟨c.val - 64, by omega⟩)
      (fun b hb => by match b with | ⟨0, _⟩ => rfl | ⟨1, _⟩ => exact absurd (Fin.ext rfl) hb)
      (by show 64 + (c.val - 64) = c.val; omega)
  rw [dif_neg h1]
  by_cases h2 : c.val < 256
  · rw [dif_pos h2]
    exact concatenate_apply_piece (t := S256x704) (1 : Fin 2) [⟨S256x64, p0⟩, ⟨S256x64, p1⟩, ⟨S256x128, p2⟩, ⟨S256x448, p3⟩]
      h (ix2 a c) 2 (by show 2 < 4; omega) S256x128 p2 rfl rfl 128 rfl (ix2 a ⟨c.val - 128, by omega⟩)
      (fun b hb => by match b with | ⟨0, _⟩ => rfl | ⟨1, _⟩ => exact absurd (Fin.ext rfl) hb)
      (by show 128 + (c.val - 128) = c.val; omega)
  rw [dif_neg h2]
  exact concatenate_apply_piece (t := S256x704) (1 : Fin 2) [⟨S256x64, p0⟩, ⟨S256x64, p1⟩, ⟨S256x128, p2⟩, ⟨S256x448, p3⟩]
    h (ix2 a c) 3 (by show 3 < 4; omega) S256x448 p3 rfl rfl 256 rfl (ix2 a ⟨c.val - 256, by omega⟩)
    (fun b hb => by match b with | ⟨0, _⟩ => rfl | ⟨1, _⟩ => exact absurd (Fin.ext rfl) hb)
    (by show 256 + (c.val - 256) = c.val; omega)

/-- Row a of the flattened block: the specification's flattening of example a's 7 channels. -/
theorem pay4_flat (x : FVec Ideal S256x7x128 .f32) (g : Fin 7 → Fin 128 → EReal) (a : Fin 256)
    (hx : ∀ s k, x (ix3 a s k) = g s k)
    (hlo : S256x7x128.Slices ![0, 0, 0] S256x7x64) (hhi : S256x7x128.Slices ![0, 0, 64] S256x7x64)
    (h5 : S256x7x64.Slices ![0, 0, 0] S256x5x64) (h2 : S256x7x64.Slices ![0, 5, 0] S256x2x64)
    (hr : S256x5x64.Reduces [1] S256x64) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc2 : S256x2x64.ShapeCasts S256x128) (hc7 : S256x7x64.ShapeCasts S256x448)
    (hcat : Shape.Concatenates [S256x64, S256x64, S256x128, S256x448] S256x704 1) (c : Fin 704) :
    concatenate S256x704 1
      [⟨S256x64, multiReduction .maximumf [1] S256x64
          (extractStridedSlice S256x5x64 ![0, 0, 0] (extractStridedSlice S256x7x64 ![0, 0, 0] x hlo) h5) 0xFF800000#32 hr hφ hmax⟩,
       ⟨S256x64, divf (multiReduction .add [1] S256x64
          (extractStridedSlice S256x5x64 ![0, 0, 0] (extractStridedSlice S256x7x64 ![0, 0, 0] x hlo) h5) 0x00000000#32 hr hφ hadd)
          (broadcast S256x64 Net.f5)⟩,
       ⟨S256x128, shapeCast S256x128 (extractStridedSlice S256x2x64 ![0, 5, 0] (extractStridedSlice S256x7x64 ![0, 0, 0] x hlo) h2) hc2⟩,
       ⟨S256x448, shapeCast S256x448 (extractStridedSlice S256x7x64 ![0, 0, 64] x hhi) hc7⟩] hcat (ix2 a c)
      = Net.flat704 g c := by
  rw [pay4_cat]
  unfold Net.flat704
  by_cases h0 : c.val < 64
  · rw [dif_pos h0, if_pos h0, pay4_max5]
    refine congrArg Net.vmax (funext fun s => ?_)
    rw [pay4_first5, pay4_lo, hx, Net.get2_of_lt g _ _ (by omega) (by omega)]
  rw [dif_neg h0, if_neg h0]
  by_cases h1 : c.val < 128
  · rw [dif_pos h1, if_pos h1, divf_apply, pay4_sum5, broadcast_apply]
    unfold Net.vmean
    refine congrArg (fun t => Ideal.div t Net.f5) (Finset.sum_congr rfl fun s _ => ?_)
    rw [pay4_first5, pay4_lo, hx]
    exact (Net.get2_of_lt g s.val (c.val - 64) (by omega) (by omega)).symm
  rw [dif_neg h1, if_neg h1]
  by_cases h2' : c.val < 256
  · rw [dif_pos h2', if_pos h2', pay4_side2, pay4_last2, pay4_lo, hx, Net.get2_of_lt g _ _ (by omega) (by omega)]
  rw [dif_neg h2', if_neg h2', pay4_side7, pay4_hi, hx, Net.get2_of_lt g _ _ (by omega) (by omega)]

/-- The fourth layer's output (after relu) for example a of the block. -/
theorem pay4_apply (v73 v76 : FVec Ideal S1792x128 .f32) (v93 : Vec Ideal S704x256 .f32) (v97 : Vec Ideal S1x256 .f32)
    (a : Fin 256) (o : Fin 256) :
    k0_pay4 (F := Ideal) v73 v76 v93 v97 (ix2 a o)
      = Net.relu (Net.lin (fun o k => v93 (ix2 k o)) (fun o => v97 (ix2 0 o))
          (Net.flat704 (fun s k => Net.relu (v73 (ix2 (flat7 a s) k) + v76 (ix2 (flat7 a s) k)))) o) := by
  have hD : dot_S256x704_S704x256_S256x256_1_0_0_1_n_n = DotDims.plain 256 704 256 := rfl
  unfold k0_pay4
  simp only [maximumf_apply, broadcast_apply]
  rw [KOps.affine_apply _ hD]
  simp only [truncf_apply, shapeCast_self]
  refine congrArg (fun x => max (Net.lin (fun o k => v93 (ix2 k o)) (fun o => v97 (ix2 0 o)) x o) Net.fzero) (funext fun k => ?_)
  refine pay4_flat _ _ a (fun s f => ?_) _ _ _ _ _ _ _ _ _ _ _ k
  rw [KOps.rows_to_stack_apply]
  rfl

/-- The first 16 columns in 4 groups of 4: entry (j, i) is column 4 j + i. -/
theorem pay4_grp (y : S256x256.Idx → α) (hs : S256x256.Slices ![0, 0] S256x16) (hc : S256x16.ShapeCasts S256x4x4)
    (a : Fin 256) (j i : Fin 4) :
    shapeCast S256x4x4 (extractStridedSlice S256x16 ![0, 0] y hs) hc (ix3 a j i) = y (ix2 a ⟨j.val * 4 + i.val, by omega⟩) := by
  refine (shapeCast_apply _ hc _ (ix2 a ⟨j.val * 4 + i.val, by omega⟩) ?_).trans ?_
  · rw [Shape.rowMajor_val_three, Shape.rowMajor_val_two]
    show a.val * 16 + (j.val * 4 + i.val) = (a.val * 4 + j.val) * 4 + i.val
    omega
  · refine extractStridedSlice_apply _ y hs _ _ fun c => ?_
    match c with
    | ⟨0, _⟩ => exact (Nat.zero_add _).symm
    | ⟨1, _⟩ => exact (Nat.zero_add _).symm

/-- The columns from the 16th on. -/
theorem pay4_rest (y : S256x256.Idx → α) (h : S256x256.Slices ![0, 16] S256x240) (a : Fin 256) (k : Fin 240) :
    extractStridedSlice S256x240 ![0, 16] y h (ix2 a k) = y (ix2 a ⟨16 + k.val, by omega⟩) := by
  refine extractStridedSlice_apply _ y h _ _ fun c => ?_
  match c with
  | ⟨0, _⟩ => exact (Nat.zero_add _).symm
  | ⟨1, _⟩ => rfl

/-- The maximum over a group of 4. -/
theorem pay4_max4 (z : FVec Ideal S256x4x4 .f32) (h : S256x4x4.Reduces [2] S256x4) (hφ : FKind.Formats .f32)
    (hacc : (0xFF800000#32 : BitVec (FTy.bits .f32)) = FKind.maximumf.neutral .f32 hφ) (a : Fin 256) (j : Fin 4) :
    multiReduction .maximumf [2] S256x4 z 0xFF800000#32 h hφ hacc (ix2 a j) = Net.vmax (fun i : Fin 4 => z (ix3 a j i)) := by
  refine (Ideal.multiReduction_maximumf_single z _ h hφ hacc (ix2 a j)).trans ?_
  have e : (z ∘ h.lift (ix2 a j)) = fun i : Fin 4 => z (ix3 a j i) := by
    funext i
    exact congrArg z (funext fun c => Fin.ext (by match c with | ⟨0, _⟩ => rfl | ⟨1, _⟩ => rfl | ⟨2, _⟩ => rfl))
  rw [e]
  rfl

/-- The sum over a group of 4. -/
theorem pay4_sum4 (z : FVec Ideal S256x4x4 .f32) (h : S256x4x4.Reduces [2] S256x4) (hφ : FKind.Formats .f32)
    (hacc : (0x00000000#32 : BitVec (FTy.bits .f32)) = FKind.add.neutral .f32 hφ) (a : Fin 256) (j : Fin 4) :
    multiReduction .add [2] S256x4 z 0x00000000#32 h hφ hacc (ix2 a j) = ∑ i : Fin 4, z (ix3 a j i) := by
  refine (Ideal.multiReduction_add_single z _ h hφ hacc (ix2 a j)).trans ?_
  refine Finset.sum_congr rfl fun i _ => ?_
  exact congrArg z (funext fun c => Fin.ext (by match c with | ⟨0, _⟩ => rfl | ⟨1, _⟩ => rfl | ⟨2, _⟩ => rfl))

/-- The maxima of the first 4 groups of 4. -/
theorem pay6_apply (v73 v76 : FVec Ideal S1792x128 .f32) (v93 : Vec Ideal S704x256 .f32) (v97 : Vec Ideal S1x256 .f32)
    (a : Fin 256) (j : Fin 4) :
    k0_pay6 (F := Ideal) v73 v76 v93 v97 (ix2 a j)
      = Net.vmax (fun i : Fin 4 => Net.get (fun o : Fin 256 => k0_pay4 (F := Ideal) v73 v76 v93 v97 (ix2 a o)) (j.val * 4 + i.val)) := by
  unfold k0_pay6
  refine (pay4_max4 _ _ _ _ a j).trans (congrArg Net.vmax (funext fun i => ?_))
  exact (pay4_grp (k0_pay4 (F := Ideal) v73 v76 v93 v97) _ _ a j i).trans
    (Net.get_of_lt (fun o : Fin 256 => k0_pay4 (F := Ideal) v73 v76 v93 v97 (ix2 a o)) (j.val * 4 + i.val) (by omega)).symm

/-- The means of the first 4 groups of 4. -/
theorem pay7_apply (v73 v76 : FVec Ideal S1792x128 .f32) (v93 : Vec Ideal S704x256 .f32) (v97 : Vec Ideal S1x256 .f32)
    (a : Fin 256) (j : Fin 4) :
    k0_pay7 (F := Ideal) v73 v76 v93 v97 (ix2 a j)
      = Net.vmean Net.f4 (fun i : Fin 4 => Net.get (fun o : Fin 256 => k0_pay4 (F := Ideal) v73 v76 v93 v97 (ix2 a o)) (j.val * 4 + i.val)) := by
  unfold k0_pay7 Net.vmean
  simp only [divf_apply, broadcast_apply]
  refine congrArg (fun t => Ideal.div t Net.f4) ((pay4_sum4 _ _ _ _ a j).trans (Finset.sum_congr rfl fun i _ => ?_))
  exact (pay4_grp (k0_pay4 (F := Ideal) v73 v76 v93 v97) _ _ a j i).trans
    (Net.get_of_lt (fun o : Fin 256 => k0_pay4 (F := Ideal) v73 v76 v93 v97 (ix2 a o)) (j.val * 4 + i.val) (by omega)).symm

/-- The affine image of the other 240 outputs (before relu). -/
theorem pay8_apply (v73 v76 : FVec Ideal S1792x128 .f32) (v93 : Vec Ideal S704x256 .f32) (v97 : Vec Ideal S1x256 .f32)
    (v111 : Vec Ideal S240x248 .f32) (v115 : Vec Ideal S1x248 .f32) (a : Fin 256) (o : Fin 248) :
    k0_pay8 (F := Ideal) v73 v76 v93 v97 v111 v115 (ix2 a o)
      = Net.lin (fun o k => v111 (ix2 k o)) (fun o => v115 (ix2 0 o))
          (fun k : Fin 240 => Net.get (fun o' : Fin 256 => k0_pay4 (F := Ideal) v73 v76 v93 v97 (ix2 a o')) (4 * 4 + k.val)) o := by
  have hD : dot_S256x240_S240x248_S256x248_1_0_0_1_n_n = DotDims.plain 256 240 248 := rfl
  unfold k0_pay8
  simp only [shapeCast_self]
  rw [KOps.affine_apply _ hD]
  simp only [truncf_apply]
  refine congrArg (fun x => Net.lin (fun o k => v111 (ix2 k o)) (fun o => v115 (ix2 0 o)) x o) (funext fun k => ?_)
  exact (pay4_rest (k0_pay4 (F := Ideal) v73 v76 v93 v97) _ a k).trans
    (Net.get_of_lt (fun o' : Fin 256 => k0_pay4 (F := Ideal) v73 v76 v93 v97 (ix2 a o')) (4 * 4 + k.val) (by omega)).symm

end Cert.KStage

end
-- ==== Proof.KPay9.lean ====
/-
  The kernel's last trunk stages at an index: the pooled vector (4 maxima, 4 means, 248 after relu) passes through the
  fifth affine layer with relu and the second partial pooling; then the product with a head's first weights.
-/
import proofs.«125488_j18605798326416_1_alg».proof.Proof.KBase
import proofs.«125488_j18605798326416_1_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KStage

open Idealize.ShloMosaic Idealize.ShloMosaic.ValueIdx Cert.KernelIdeal Cert.KernelIdeal.Gen

/-- The pooled vector of example a: 4 maxima, 4 means, then the 248 affine outputs after relu. -/
def pooled4 (v105 v108 : FVec Ideal S256x4 .f32) (v118 : FVec Ideal S256x248 .f32) (a : Fin 256) : Fin 256 → EReal := fun k =>
  if k.val < 4 then Net.get (fun j : Fin 4 => v105 (ix2 a j)) k.val
  else if k.val < 8 then Net.get (fun j : Fin 4 => v108 (ix2 a j)) (k.val - 4)
  else Net.relu (Net.get (fun o : Fin 248 => v118 (ix2 a o)) (k.val - 8))

section Layout
variable {α : Type}

/-- Three blocks of columns laid side by side, read at a column of the first block. -/
theorem concat3_fst {n1 n2 n3 N : ℕ} (x1 : (⟨2, ![256, n1]⟩ : Shape).Idx → α) (x2 : (⟨2, ![256, n2]⟩ : Shape).Idx → α)
    (x3 : (⟨2, ![256, n3]⟩ : Shape).Idx → α)
    (h : Shape.Concatenates [⟨2, ![256, n1]⟩, ⟨2, ![256, n2]⟩, ⟨2, ![256, n3]⟩] ⟨2, ![256, N]⟩ 1)
    (a : Fin 256) (c : Fin N) (c1 : Fin n1) (hc : c.val = c1.val) :
    concatenate ⟨2, ![256, N]⟩ 1 [⟨⟨2, ![256, n1]⟩, x1⟩, ⟨⟨2, ![256, n2]⟩, x2⟩, ⟨⟨2, ![256, n3]⟩, x3⟩] h (ix2 a c)
      = x1 (ix2 a c1) :=
  concatenate_apply_piece (t := ⟨2, ![256, N]⟩) (1 : Fin 2) [⟨⟨2, ![256, n1]⟩, x1⟩, ⟨⟨2, ![256, n2]⟩, x2⟩, ⟨⟨2, ![256, n3]⟩, x3⟩] h (ix2 a c) 0 (by show (0 : ℕ) < 3; omega) _ x1 rfl rfl 0 rfl (ix2 a c1)
    (fun b => by
      match b with
      | ⟨0, _⟩ => exact fun _ => rfl
      | ⟨1, _⟩ => exact fun hb => absurd rfl hb)
    (by show 0 + c1.val = c.val; omega)

/-- … at a column of the second block. -/
theorem concat3_snd {n1 n2 n3 N : ℕ} (x1 : (⟨2, ![256, n1]⟩ : Shape).Idx → α) (x2 : (⟨2, ![256, n2]⟩ : Shape).Idx → α)
    (x3 : (⟨2, ![256, n3]⟩ : Shape).Idx → α)
    (h : Shape.Concatenates [⟨2, ![256, n1]⟩, ⟨2, ![256, n2]⟩, ⟨2, ![256, n3]⟩] ⟨2, ![256, N]⟩ 1)
    (a : Fin 256) (c : Fin N) (c2 : Fin n2) (hc : c.val = n1 + c2.val) :
    concatenate ⟨2, ![256, N]⟩ 1 [⟨⟨2, ![256, n1]⟩, x1⟩, ⟨⟨2, ![256, n2]⟩, x2⟩, ⟨⟨2, ![256, n3]⟩, x3⟩] h (ix2 a c)
      = x2 (ix2 a c2) :=
  concatenate_apply_piece (t := ⟨2, ![256, N]⟩) (1 : Fin 2) [⟨⟨2, ![256, n1]⟩, x1⟩, ⟨⟨2, ![256, n2]⟩, x2⟩, ⟨⟨2, ![256, n3]⟩, x3⟩] h (ix2 a c) 1 (by show (1 : ℕ) < 3; omega) _ x2 rfl rfl n1 rfl (ix2 a c2)
    (fun b => by
      match b with
      | ⟨0, _⟩ => exact fun _ => rfl
      | ⟨1, _⟩ => exact fun hb => absurd rfl hb)
    (by show n1 + c2.val = c.val; omega)

/-- … at a column of the third block. -/
theorem concat3_thd {n1 n2 n3 N : ℕ} (x1 : (⟨2, ![256, n1]⟩ : Shape).Idx → α) (x2 : (⟨2, ![256, n2]⟩ : Shape).Idx → α)
    (x3 : (⟨2, ![256, n3]⟩ : Shape).Idx → α)
    (h : Shape.Concatenates [⟨2, ![256, n1]⟩, ⟨2, ![256, n2]⟩, ⟨2, ![256, n3]⟩] ⟨2, ![256, N]⟩ 1)
    (a : Fin 256) (c : Fin N) (c3 : Fin n3) (hc : c.val = n1 + n2 + c3.val) :
    concatenate ⟨2, ![256, N]⟩ 1 [⟨⟨2, ![256, n1]⟩, x1⟩, ⟨⟨2, ![256, n2]⟩, x2⟩, ⟨⟨2, ![256, n3]⟩, x3⟩] h (ix2 a c)
      = x3 (ix2 a c3) :=
  concatenate_apply_piece (t := ⟨2, ![256, N]⟩) (1 : Fin 2) [⟨⟨2, ![256, n1]⟩, x1⟩, ⟨⟨2, ![256, n2]⟩, x2⟩, ⟨⟨2, ![256, n3]⟩, x3⟩] h (ix2 a c) 2 (by show (2 : ℕ) < 3; omega) _ x3 rfl rfl (n1 + n2) rfl (ix2 a c3)
    (fun b => by
      match b with
      | ⟨0, _⟩ => exact fun _ => rfl
      | ⟨1, _⟩ => exact fun hb => absurd rfl hb)
    (by show n1 + n2 + c3.val = c.val; omega)

/-- 16 columns read as 4 groups of 4: entry (g, i) is column 4g + i. -/
theorem groups_apply (x : (⟨2, ![256, 16]⟩ : Shape).Idx → α)
    (h : (⟨2, ![256, 16]⟩ : Shape).ShapeCasts ⟨3, ![256, 4, 4]⟩) (a : Fin 256) (g i : Fin 4) :
    shapeCast ⟨3, ![256, 4, 4]⟩ x h (ix3 a g i) = x (ix2 a ⟨g.val * 4 + i.val, by omega⟩) :=
  shapeCast_apply x h _ _ (by
    rw [Shape.rowMajor_val_three, Shape.rowMajor_val_two]
    show a.val * 16 + (g.val * 4 + i.val) = (a.val * 4 + g.val) * 4 + i.val
    omega)

end Layout

/-- The source index of a reduction over the entries of a group: (a, g, i). -/
theorem grp_lift (h : Shape.Reduces ⟨3, ![256, 4, 4]⟩ [2] ⟨2, ![256, 4]⟩) (a : Fin 256) (g i : Fin 4) :
    h.lift (ix2 a g) i = ix3 a g i :=
  funext fun c => Fin.ext (by match c with | ⟨0, _⟩ => rfl | ⟨1, _⟩ => rfl | ⟨2, _⟩ => rfl)

/-- A group's sum. -/
theorem grpsum_apply (z : FVec Ideal ⟨3, ![256, 4, 4]⟩ .f32) (h : Shape.Reduces ⟨3, ![256, 4, 4]⟩ [2] ⟨2, ![256, 4]⟩)
    (hφ : FKind.Formats .f32) (hacc : (0x00000000#32 : BitVec 32) = FKind.add.neutral .f32 hφ) (a : Fin 256) (g : Fin 4) :
    multiReduction .add [2] ⟨2, ![256, 4]⟩ z 0x00000000#32 h hφ hacc (ix2 a g) = ∑ i : Fin 4, z (ix3 a g i) :=
  (Ideal.multiReduction_add_single z _ h hφ hacc (ix2 a g)).trans
    (Finset.sum_congr rfl fun i _ => congrArg z (grp_lift h a g i))

/-- A group's maximum. -/
theorem grpmax_apply (z : FVec Ideal ⟨3, ![256, 4, 4]⟩ .f32) (h : Shape.Reduces ⟨3, ![256, 4, 4]⟩ [2] ⟨2, ![256, 4]⟩)
    (hφ : FKind.Formats .f32) (hacc : (0xFF800000#32 : BitVec 32) = FKind.maximumf.neutral .f32 hφ) (a : Fin 256) (g : Fin 4) :
    multiReduction .maximumf [2] ⟨2, ![256, 4]⟩ z 0xFF800000#32 h hφ hacc (ix2 a g)
      = Net.vmax (fun i : Fin 4 => z (ix3 a g i)) := by
  refine (Ideal.multiReduction_maximumf_single z _ h hφ hacc (ix2 a g)).trans ?_
  have e : (z ∘ h.lift (ix2 a g)) = fun i : Fin 4 => z (ix3 a g i) := funext fun i => congrArg z (grp_lift h a g i)
  rw [e]
  rfl

/-- The pooled vector is the three blocks laid side by side, the third after relu. -/
theorem pooled4_cat (v105 v108 : FVec Ideal S256x4 .f32) (v118 x3 : FVec Ideal S256x248 .f32) (a : Fin 256)
    (h3 : ∀ o : Fin 248, x3 (ix2 a o) = Net.relu (v118 (ix2 a o)))
    (h : Shape.Concatenates [S256x4, S256x4, S256x248] S256x256 1) (k : Fin 256) :
    concatenate S256x256 1 [⟨S256x4, v105⟩, ⟨S256x4, v108⟩, ⟨S256x248, x3⟩] h (ix2 a k) = pooled4 v105 v108 v118 a k := by
  unfold pooled4
  by_cases h4 : k.val < 4
  · rw [if_pos h4, Net.get_of_lt _ _ h4]
    exact concat3_fst v105 v108 x3 h a k ⟨k.val, h4⟩ rfl
  · rw [if_neg h4]
    by_cases h8 : k.val < 8
    · rw [if_pos h8, Net.get_of_lt _ _ (by omega : k.val - 4 < 4)]
      exact concat3_snd v105 v108 x3 h a k ⟨k.val - 4, by omega⟩ (by show k.val = 4 + (k.val - 4); omega)
    · rw [if_neg h8, Net.get_of_lt _ _ (by have := k.isLt; omega : k.val - 8 < 248), ← h3]
      exact concat3_thd v105 v108 x3 h a k ⟨k.val - 8, by have := k.isLt; omega⟩ (by show k.val = 4 + 4 + (k.val - 8); omega)

/-- The second partial pooling at an index: of a 128-vector X a (whose entries are y), the maxima and the means of the first
    4 groups of 4, then the other 112 entries through an affine layer and relu. -/
theorem pool5_apply (X : FVec Ideal S256x128 .f32) (v141 : Vec Ideal S112x120 .f32) (v145 : Vec Ideal S1x120 .f32)
    (a : Fin 256) (y : Fin 128 → EReal) (hx : ∀ o' : Fin 128, X (ix2 a o') = y o') (j : Fin 128) :
    concatenate S256x128 1
      [⟨S256x4, multiReduction .maximumf [2] S256x4
          (shapeCast S256x4x4 (extractStridedSlice S256x16 ![0, 0] X slices_S256x128_o0_0_S256x16) shapeCasts_S256x16_S256x4x4)
          0xFF800000#32 reduces_S256x4x4_S256x4 (.inl rfl) rfl⟩,
       ⟨S256x4, divf (multiReduction .add [2] S256x4
          (shapeCast S256x4x4 (extractStridedSlice S256x16 ![0, 0] X slices_S256x128_o0_0_S256x16) shapeCasts_S256x16_S256x4x4)
          0x00000000#32 reduces_S256x4x4_S256x4 (.inl rfl) rfl) (broadcast S256x4 (FloatOps.ofBits .f32 0x40800000#32))⟩,
       ⟨S256x120, maximumf (addf (matmul dot_S256x112_S112x120_S256x120_1_0_0_1_n_n none
            (truncf .bf16 (extractStridedSlice S256x112 ![0, 16] X slices_S256x128_o0_16_S256x112) bitsLt_bf16_f32)
            (truncf .bf16 (shapeCast S112x120 v141 shapeCasts_S112x120_S112x120) bitsLt_bf16_f32)
            (constant S256x120 .f32 0x00000000#32))
          (broadcastTo S256x120 (shapeCast S1x120 v145 shapeCasts_S1x120_S1x120) broadcasts_S1x120_S256x120))
          (broadcast S256x120 (FloatOps.ofBits .f32 0x00000000#32))⟩]
      concatenates_S256x4_S256x4_S256x120_S256x128_d1 (ix2 a j)
      = (Net.gpool 4 112 Net.f4 (fun o k => v141 (ix2 k o)) (fun o => v145 (ix2 0 o)) y : Fin 128 → EReal) j := by
  have hD2 : dot_S256x112_S112x120_S256x120_1_0_0_1_n_n = DotDims.plain 256 112 120 := rfl
  have hg : ∀ g i : Fin 4, shapeCast S256x4x4 (extractStridedSlice S256x16 ![0, 0] X slices_S256x128_o0_0_S256x16)
      shapeCasts_S256x16_S256x4x4 (ix3 a g i) = Net.get y (g.val * 4 + i.val) := fun g i => by
    rw [groups_apply, slice2_axis1_apply 0 X _ a _ ⟨g.val * 4 + i.val, by omega⟩ (by show g.val * 4 + i.val = 0 + (g.val * 4 + i.val); omega),
      hx, Net.get_of_lt _ _ (by omega)]
  have hrest : ∀ k : Fin 112, extractStridedSlice S256x112 ![0, 16] X slices_S256x128_o0_16_S256x112 (ix2 a k)
      = Net.get y (4 * 4 + k.val) := fun k => by
    rw [slice2_axis1_apply 16 X _ a k ⟨16 + k.val, by omega⟩ rfl, hx, Net.get_of_lt _ _ (by omega)]
  unfold Net.gpool
  by_cases h4 : j.val < 4
  · rw [if_pos h4]
    refine (concat3_fst _ _ _ _ a j ⟨j.val, h4⟩ rfl).trans ?_
    refine (grpmax_apply _ _ _ _ a ⟨j.val, h4⟩).trans ?_
    exact congrArg Net.vmax (funext fun i => hg ⟨j.val, h4⟩ i)
  · rw [if_neg h4]
    by_cases h8 : j.val < 8
    · rw [if_pos h8]
      refine (concat3_snd _ _ _ _ a j ⟨j.val - 4, by omega⟩ (by show j.val = 4 + (j.val - 4); omega)).trans ?_
      exact congrArg (fun s : EReal => Ideal.div s Net.f4)
        ((grpsum_apply _ _ _ _ a ⟨j.val - 4, by omega⟩).trans (Finset.sum_congr rfl fun i _ => hg ⟨j.val - 4, by omega⟩ i))
    · rw [if_neg h8]
      refine (concat3_thd _ _ _ _ a j ⟨j.val - 8, by have := j.isLt; omega⟩ (by show j.val = 4 + 4 + (j.val - 8); omega)).trans ?_
      rw [Net.get_of_lt _ _ (by have := j.isLt; omega : j.val - 8 < 120)]
      simp only [maximumf_apply, addf_apply, broadcast_apply]
      rw [KOps.product_apply _ hD2, KOps.bias_rows_apply]
      simp only [truncf_apply, shapeCast_self, hrest]
      unfold Net.relu Net.lin
      rfl

/-- The trunk's output for example a of the block. -/
theorem pay9_apply (v105 v108 : FVec Ideal S256x4 .f32) (v118 : FVec Ideal S256x248 .f32) (v123 : Vec Ideal S256x128 .f32)
    (v127 : Vec Ideal S1x128 .f32) (v141 : Vec Ideal S112x120 .f32) (v145 : Vec Ideal S1x120 .f32) (a : Fin 256) (j : Fin 128) :
    k0_pay9 (F := Ideal) v105 v108 v118 v123 v127 v141 v145 (ix2 a j)
      = (Net.gpool 4 112 Net.f4 (fun o k => v141 (ix2 k o)) (fun o => v145 (ix2 0 o))
          (fun o' : Fin 128 => Net.relu (Net.lin (fun o k => v123 (ix2 k o)) (fun o => v127 (ix2 0 o)) (pooled4 v105 v108 v118 a) o')) : Fin 128 → EReal) j := by
  have hD1 : dot_S256x256_S256x128_S256x128_1_0_0_1_n_n = DotDims.plain 256 256 128 := rfl
  unfold k0_pay9
  generalize hX : maximumf (F := Ideal) (addf (matmul dot_S256x256_S256x128_S256x128_1_0_0_1_n_n none _ _ _) _) _ = X
  refine pool5_apply X v141 v145 a _ (fun o' => ?_) j
  rw [← hX]
  simp only [maximumf_apply, addf_apply, broadcast_apply]
  rw [KOps.product_apply _ hD1, KOps.bias_rows_apply]
  simp only [truncf_apply, shapeCast_self]
  have hcat : ∀ k : Fin 256, concatenate S256x256 1 [⟨S256x4, v105⟩, ⟨S256x4, v108⟩,
        ⟨S256x248, maximumf v118 (broadcast S256x248 (FloatOps.ofBits (F := Ideal) .f32 0x00000000#32))⟩]
        concatenates_S256x4_S256x4_S256x248_S256x256_d1 (ix2 a k) = pooled4 v105 v108 v118 a k :=
    fun k => pooled4_cat v105 v108 v118 _ a (fun _ => rfl) _ k
  simp only [hcat]
  unfold Net.relu Net.lin
  rfl

/-- The product of the trunk's output with the policy head's first weights (its bias comes with the next stage). -/
theorem pay10_apply (v105 v108 : FVec Ideal S256x4 .f32) (v118 : FVec Ideal S256x248 .f32) (v123 : Vec Ideal S256x128 .f32)
    (v127 : Vec Ideal S1x128 .f32) (v141 : Vec Ideal S112x120 .f32) (v145 : Vec Ideal S1x120 .f32) (v153 : Vec Ideal S128x128 .f32)
    (a : Fin 256) (o : Fin 128) :
    k0_pay10 (F := Ideal) v105 v108 v118 v123 v127 v141 v145 v153 (ix2 a o)
      = ∑ k : Fin 128, k0_pay9 (F := Ideal) v105 v108 v118 v123 v127 v141 v145 (ix2 a k) * v153 (ix2 k o) := by
  have hD : dot_S256x128_S128x128_S256x128_1_0_0_1_n_n = DotDims.plain 256 128 128 := rfl
  unfold k0_pay10
  rw [KOps.product_apply _ hD]
  simp only [truncf_apply, shapeCast_self]

end Cert.KStage

end
-- ==== Proof.KHeads.lean ====
/-
  The kernel's three heads at an index: the policy logits, masked where the converted flag does not exceed one half,
  under log_softmax; the value under tanh; the score-difference logits under log_softmax.
-/
import proofs.«125488_j18605798326416_1_alg».proof.Proof.KBase
import proofs.«125488_j18605798326416_1_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KStage

open Idealize.ShloMosaic Idealize.ShloMosaic.ValueIdx Cert.KernelIdeal Cert.KernelIdeal.Gen

section Rows
variable {α : Type}

/-- A vector of 256 entries laid out as a 256×1 column reads its entry. -/
theorem col_cast_apply (x : (⟨1, ![256]⟩ : Shape).Idx → α) (h : (⟨1, ![256]⟩ : Shape).ShapeCasts ⟨2, ![256, 1]⟩)
    (a : Fin 256) (u : Fin 1) : shapeCast ⟨2, ![256, 1]⟩ x h (ix2 a u) = x (ix1 a) :=
  shapeCast_apply x h _ _ (by
    have hu : u.val = 0 := by omega
    rw [Shape.rowMajor_val_one, Shape.rowMajor_val_two]
    show a.val = a.val * 1 + u.val
    omega)

/-- A 256×1 column repeated along the rows reads its row's entry. -/
theorem col_bcast_apply {n : ℕ} (v : (⟨2, ![256, 1]⟩ : Shape).Idx → α)
    (h : (⟨2, ![256, 1]⟩ : Shape).Broadcasts ⟨2, ![256, n]⟩) (a : Fin 256) (c : Fin n) :
    broadcastTo ⟨2, ![256, n]⟩ v h (ix2 a c) = v (ix2 a 0) := by
  refine broadcastTo_apply v h (ix2 a c) (ix2 a 0) fun ax => ?_
  match ax with
  | ⟨0, _⟩ => rfl
  | ⟨1, _⟩ => rfl

end Rows

/-- The source index of a reduction along the rows: row a, column k. -/
theorem row_lift {n : ℕ} (h : Shape.Reduces ⟨2, ![256, n]⟩ [1] ⟨1, ![256]⟩) (a : Fin 256) (k : Fin n) :
    h.lift (ix1 a) k = ix2 a k :=
  funext fun c => Fin.ext (by match c with | ⟨0, _⟩ => rfl | ⟨1, _⟩ => rfl)

/-- A row's sum. -/
theorem rowsum_apply {n : ℕ} (z : FVec Ideal ⟨2, ![256, n]⟩ .f32) (h : Shape.Reduces ⟨2, ![256, n]⟩ [1] ⟨1, ![256]⟩)
    (hφ : FKind.Formats .f32) (hacc : (0x00000000#32 : BitVec 32) = FKind.add.neutral .f32 hφ) (a : Fin 256) :
    multiReduction .add [1] ⟨1, ![256]⟩ z 0x00000000#32 h hφ hacc (ix1 a) = ∑ k : Fin n, z (ix2 a k) :=
  (Ideal.multiReduction_add_single z _ h hφ hacc (ix1 a)).trans
    (Finset.sum_congr rfl fun k _ => congrArg z (row_lift h a k))

/-- A row's maximum. -/
theorem rowmax_apply {n : ℕ} (z : FVec Ideal ⟨2, ![256, n]⟩ .f32) (h : Shape.Reduces ⟨2, ![256, n]⟩ [1] ⟨1, ![256]⟩)
    (hφ : FKind.Formats .f32) (hacc : (0xFF800000#32 : BitVec 32) = FKind.maximumf.neutral .f32 hφ) (a : Fin 256) :
    multiReduction .maximumf [1] ⟨1, ![256]⟩ z 0xFF800000#32 h hφ hacc (ix1 a) = Net.vmax (fun k : Fin n => z (ix2 a k)) := by
  refine (Ideal.multiReduction_maximumf_single z _ h hφ hacc (ix1 a)).trans ?_
  have e : (z ∘ h.lift (ix1 a)) = fun k : Fin n => z (ix2 a k) := funext fun k => congrArg z (row_lift h a k)
  rw [e]
  rfl

/-- A row's maximum, laid out as a column and repeated along the row. -/
theorem rowmax_bcast_apply {n : ℕ} (z : FVec Ideal ⟨2, ![256, n]⟩ .f32)
    (hr : Shape.Reduces ⟨2, ![256, n]⟩ [1] ⟨1, ![256]⟩) (hφ : FKind.Formats .f32)
    (hm : (0xFF800000#32 : BitVec 32) = FKind.maximumf.neutral .f32 hφ)
    (hc : (⟨1, ![256]⟩ : Shape).ShapeCasts ⟨2, ![256, 1]⟩) (hb : (⟨2, ![256, 1]⟩ : Shape).Broadcasts ⟨2, ![256, n]⟩)
    (a : Fin 256) (k : Fin n) :
    broadcastTo ⟨2, ![256, n]⟩ (shapeCast ⟨2, ![256, 1]⟩
        (multiReduction .maximumf [1] ⟨1, ![256]⟩ z 0xFF800000#32 hr hφ hm) hc) hb (ix2 a k)
      = Net.vmax (fun j' : Fin n => z (ix2 a j')) := by
  rw [col_bcast_apply, col_cast_apply]
  exact rowmax_apply z hr hφ hm a

/-- log_softmax along the rows at an index, given the vector mx that holds each row's maximum in every column:
    (z − mx) − log Σ exp (z − mx). -/
theorem lsm_core {n : ℕ} (z mx : FVec Ideal ⟨2, ![256, n]⟩ .f32) (a : Fin 256)
    (hmx : ∀ k : Fin n, mx (ix2 a k) = Net.vmax (fun j' : Fin n => z (ix2 a j')))
    (hr : Shape.Reduces ⟨2, ![256, n]⟩ [1] ⟨1, ![256]⟩) (hφ : FKind.Formats .f32)
    (hs : (0x00000000#32 : BitVec 32) = FKind.add.neutral .f32 hφ)
    (hc : (⟨1, ![256]⟩ : Shape).ShapeCasts ⟨2, ![256, 1]⟩) (hb : (⟨2, ![256, 1]⟩ : Shape).Broadcasts ⟨2, ![256, n]⟩)
    (j : Fin n) :
    subf (subf z mx) (broadcastTo ⟨2, ![256, n]⟩ (log (shapeCast ⟨2, ![256, 1]⟩
        (multiReduction .add [1] ⟨1, ![256]⟩ (exp (subf z mx)) 0x00000000#32 hr hφ hs) hc)) hb) (ix2 a j)
      = Net.logsoftmax (fun j' : Fin n => z (ix2 a j')) j := by
  have hsum : multiReduction .add [1] ⟨1, ![256]⟩ (exp (subf z mx)) 0x00000000#32 hr hφ hs (ix1 a)
      = ∑ i : Fin n, Ideal.exp (z (ix2 a i) - Net.vmax (fun j' : Fin n => z (ix2 a j'))) :=
    (rowsum_apply (exp (subf z mx)) hr hφ hs a).trans (Finset.sum_congr rfl fun k _ => by
      show Ideal.exp (z (ix2 a k) - mx (ix2 a k)) = _
      rw [hmx])
  show z (ix2 a j) - mx (ix2 a j) - broadcastTo ⟨2, ![256, n]⟩ _ hb (ix2 a j) = _
  rw [col_bcast_apply]
  show _ - Ideal.log (shapeCast ⟨2, ![256, 1]⟩ _ hc (ix2 a 0)) = _
  rw [col_cast_apply, hsum, hmx]
  rfl

/-- The policy logits: the first policy layer's bias, then the second policy layer. -/
theorem pay11_apply (v156 : FVec Ideal S256x128 .f32) (v157 : Vec Ideal S1x128 .f32) (v162 : Vec Ideal S128x81 .f32)
    (v166 : Vec Ideal S1x81 .f32) (a : Fin 256) (j : Fin 81) :
    k0_pay11 (F := Ideal) v156 v157 v162 v166 (ix2 a j)
      = Net.lin (fun o k => v162 (ix2 k o)) (fun o => v166 (ix2 0 o)) (fun k => v156 (ix2 a k) + v157 (ix2 0 k)) j := by
  have hD : dot_S256x128_S128x81_S256x81_1_0_0_1_n_n = DotDims.plain 256 128 81 := rfl
  unfold k0_pay11
  simp only [addf_apply]
  rw [KOps.product_apply _ hD, KOps.bias_rows_apply]
  simp only [truncf_apply, addf_apply, shapeCast_self, KOps.bias_rows_apply]
  unfold Net.lin
  rfl

/-- The value before tanh: two affine layers. -/
theorem pay12_apply (v151 : FVec Ideal S256x128 .f32) (v171 : Vec Ideal S128x128 .f32) (v175 : Vec Ideal S1x128 .f32)
    (v180 : Vec Ideal S128x1 .f32) (v184 : Vec Ideal S1x1 .f32) (a : Fin 256) (j : Fin 1) :
    k0_pay12 (F := Ideal) v151 v171 v175 v180 v184 (ix2 a j)
      = Net.lin (fun o k => v180 (ix2 k o)) (fun o => v184 (ix2 0 o)) (Net.lin (fun o k => v171 (ix2 k o)) (fun o => v175 (ix2 0 o)) (fun k => v151 (ix2 a k))) j := by
  have hD1 : dot_S256x128_S128x128_S256x128_1_0_0_1_n_n = DotDims.plain 256 128 128 := rfl
  have hD2 : dot_S256x128_S128x1_S256x1_1_0_0_1_n_n = DotDims.plain 256 128 1 := rfl
  unfold k0_pay12
  simp only [addf_apply]
  rw [KOps.product_apply _ hD2, KOps.bias_rows_apply]
  simp only [truncf_apply, addf_apply, shapeCast_self, KOps.bias_rows_apply, KOps.product_apply _ hD1]
  unfold Net.lin
  rfl

/-- The score-difference head's first affine layer. -/
theorem pay13_apply (v151 : FVec Ideal S256x128 .f32) (v189 : Vec Ideal S128x128 .f32) (v193 : Vec Ideal S1x128 .f32)
    (a : Fin 256) (o : Fin 128) :
    k0_pay13 (F := Ideal) v151 v189 v193 (ix2 a o) = Net.lin (fun o k => v189 (ix2 k o)) (fun o => v193 (ix2 0 o)) (fun k => v151 (ix2 a k)) o := by
  have hD : dot_S256x128_S128x128_S256x128_1_0_0_1_n_n = DotDims.plain 256 128 128 := rfl
  unfold k0_pay13
  simp only [truncf_apply, addf_apply]
  rw [KOps.product_apply _ hD, KOps.bias_rows_apply]
  simp only [truncf_apply, shapeCast_self]
  unfold Net.lin
  rfl

/-- The policy result: the logits masked by the comparison of the converted flags with one half, under log_softmax. -/
theorem pay14_apply (v169 : FVec Ideal S256x81 .f32) (v206 : Vec Ideal S256x81 .f32) (a : Fin 256) (j : Fin 81) :
    k0_pay14 (F := Ideal) v169 v206 (ix2 a j)
      = Net.logsoftmax (fun j' => Net.maskv (kerFlags v206 a j') (v169 (ix2 a j'))) j := by
  unfold k0_pay14
  dsimp only
  generalize hZ : select (cmpf (F := Ideal) .ogt _ _) v169 _ = z
  have hz : ∀ j' : Fin 81, z (ix2 a j') = Net.maskv (kerFlags v206 a j') (v169 (ix2 a j')) := fun j' => by
    rw [← hZ]
    simp only [select_apply, cmpf_apply, broadcast_apply, shapeCast_self]
    rfl
  refine (lsm_core z _ a ?hmx _ _ _ _ _ j).trans (congrArg (fun f : Fin 81 → EReal => Net.logsoftmax f j) (funext hz))
  exact fun k => rowmax_bcast_apply z _ _ _ _ _ a k

/-- The value result. -/
theorem pay15_apply (v187 : FVec Ideal S256x1 .f32) (i : S256x1.Idx) :
    k0_pay15 (F := Ideal) v187 i = Ideal.tanh (v187 i) := by
  rfl

/-- The score-difference result: the second affine layer under log_softmax. -/
theorem pay16_apply (v197 : FVec Ideal S256x128 .bf16) (v198 : Vec Ideal S128x31 .f32) (v202 : Vec Ideal S1x31 .f32)
    (a : Fin 256) (j : Fin 31) :
    k0_pay16 (F := Ideal) v197 v198 v202 (ix2 a j)
      = Net.logsoftmax (Net.lin (fun o k => v198 (ix2 k o)) (fun o => v202 (ix2 0 o)) (fun k => v197 (ix2 a k))) j := by
  have hD : dot_S256x128_S128x31_S256x31_1_0_0_1_n_n = DotDims.plain 256 128 31 := rfl
  unfold k0_pay16
  dsimp only
  generalize hZ : addf (F := Ideal) (matmul dot_S256x128_S128x31_S256x31_1_0_0_1_n_n none v197 _ _) _ = z
  have hz : ∀ j' : Fin 31, z (ix2 a j')
      = Net.lin (fun o k => v198 (ix2 k o)) (fun o => v202 (ix2 0 o)) (fun k => v197 (ix2 a k)) j' := fun j' => by
    rw [← hZ]
    simp only [addf_apply]
    rw [KOps.product_apply _ hD, KOps.bias_rows_apply]
    simp only [truncf_apply, shapeCast_self]
    unfold Net.lin
    rfl
  refine (lsm_core z _ a ?hmx _ _ _ _ _ j).trans (congrArg (fun f : Fin 31 → EReal => Net.logsoftmax f j) (funext hz))
  exact fun k => rowmax_bcast_apply z _ _ _ _ _ a k

end Cert.KStage

end
-- ==== Proof.KBody.lean ====
/-
  What the kernel's body leaves in each output block, at an index: entry (a, j) of the block is head j of the
  specification's network on example a of the block — the payloads composed: the per-channel stages on the 1792 rows,
  the flattening across channels, the two pooled layers, and the three heads.
-/
import proofs.«125488_j18605798326416_1_alg».proof.Proof.KernelIdealFrameP
import proofs.«125488_j18605798326416_1_alg».proof.Proof.KPay1
import proofs.«125488_j18605798326416_1_alg».proof.Proof.KPay2
import proofs.«125488_j18605798326416_1_alg».proof.Proof.KPay4
import proofs.«125488_j18605798326416_1_alg».proof.Proof.KPay9
import proofs.«125488_j18605798326416_1_alg».proof.Proof.KHeads

noncomputable section

open scoped BigOperators

namespace Cert.KStage

open Idealize.ShloMosaic Idealize.ShloMosaic.ValueIdx Cert.KernelIdeal Cert.KernelIdeal.Gen

variable (x0 : Vec Ideal S256x7x56 .f32) (x1 : Vec Ideal S256x81 .f32) (x2 : Vec Ideal S56x256 .f32) (x3 : Vec Ideal S1x256 .f32) (x4 : Vec Ideal S1x7x1 .f32) (x5 : Vec Ideal S1x7x1 .f32) (x6 : Vec Ideal S1x7x1 .f32) (x7 : Vec Ideal S1x7x1 .f32) (x8 : Vec Ideal S256x256 .f32) (x9 : Vec Ideal S1x256 .f32) (x10 : Vec Ideal S224x248 .f32) (x11 : Vec Ideal S1x248 .f32) (x12 : Vec Ideal S256x128 .f32) (x13 : Vec Ideal S1x128 .f32) (x14 : Vec Ideal S704x256 .f32) (x15 : Vec Ideal S1x256 .f32) (x16 : Vec Ideal S240x248 .f32) (x17 : Vec Ideal S1x248 .f32) (x18 : Vec Ideal S256x128 .f32) (x19 : Vec Ideal S1x128 .f32) (x20 : Vec Ideal S112x120 .f32) (x21 : Vec Ideal S1x120 .f32) (x22 : Vec Ideal S128x128 .f32) (x23 : Vec Ideal S1x128 .f32) (x24 : Vec Ideal S128x81 .f32) (x25 : Vec Ideal S1x81 .f32) (x26 : Vec Ideal S128x128 .f32) (x27 : Vec Ideal S1x128 .f32) (x28 : Vec Ideal S128x1 .f32) (x29 : Vec Ideal S1x1 .f32) (x30 : Vec Ideal S128x128 .f32) (x31 : Vec Ideal S1x128 .f32) (x32 : Vec Ideal S128x31 .f32) (x33 : Vec Ideal S1x31 .f32) (a : Fin 256)

local notation "𝐏" => (kerP x2 x3 x4 x5 x6 x7 x8 x9 x10 x11 x12 x13 x14 x15 x16 x17 x18 x19 x20 x21 x22 x23 x24 x25 x26 x27 x28 x29 x30 x31 x32 x33)
local notation "𝐗" => kerX x0 a
local notation "T73" => k0_pay2 (F := Ideal) (k0_pay1 (F := Ideal) x0 x2 x3 x6 x7 x4 x5) x8 x9 x10 x11 x12
local notation "T76" => k0_pay3 (F := Ideal) x13
local notation "P6" => k0_pay6 (F := Ideal) T73 T76 x14 x15
local notation "P7" => k0_pay7 (F := Ideal) T73 T76 x14 x15
local notation "P8" => k0_pay8 (F := Ideal) T73 T76 x14 x15 x16 x17
local notation "T151" => k0_pay9 (F := Ideal) P6 P7 P8 x18 x19 x20 x21

/-- The first stage on row (a, s) is the specification's normalised first layer of example a's channel s. -/
theorem body_a2 (s : Fin 7) (o : Fin 256) :
    k0_pay1 (F := Ideal) x0 x2 x3 x6 x7 x4 x5 (ix2 (flat7 a s) o) = Net.a2 𝐏 𝐗 s o := by
  rw [pay1_apply]; rfl

/-- The third layer before relu. -/
theorem body_a4pre (s : Fin 7) (o : Fin 128) :
    T73 (ix2 (flat7 a s) o) + T76 (ix2 (flat7 a s) o) = Net.lin (𝐏).w3 (𝐏).b3 (Net.g1 𝐏 𝐗 s) o := by
  rw [pay2_apply, pay3_apply]
  simp only [body_a2 x0 x2 x3 x4 x5 x6 x7 x8 x9 x10 x11 x12 x13 x14 x15 x16 x17 x18 x19 x20 x21 x22 x23 x24 x25 x26 x27 x28 x29 x30 x31 x32 x33 a]
  rfl

/-- The fourth layer. -/
theorem body_a5 (o : Fin 256) : k0_pay4 (F := Ideal) T73 T76 x14 x15 (ix2 a o) = Net.a5 𝐏 𝐗 o := by
  rw [pay4_apply]
  simp only [body_a4pre x0 x2 x3 x4 x5 x6 x7 x8 x9 x10 x11 x12 x13 x14 x15 x16 x17 x18 x19 x20 x21 x22 x23 x24 x25 x26 x27 x28 x29 x30 x31 x32 x33 a]
  rfl

/-- The pooled vector is the specification's first pooling over groups of 4. -/
theorem body_g4 : pooled4 P6 P7 P8 a = Net.g4 𝐏 𝐗 := by
  funext k
  have e5 : (fun o : Fin 256 => k0_pay4 (F := Ideal) T73 T76 x14 x15 (ix2 a o)) = Net.a5 𝐏 𝐗 :=
    funext fun o => body_a5 x0 x2 x3 x4 x5 x6 x7 x8 x9 x10 x11 x12 x13 x14 x15 x16 x17 x18 x19 x20 x21 x22 x23 x24 x25 x26 x27 x28 x29 x30 x31 x32 x33 a o
  unfold pooled4 Net.g4 Net.gpool
  by_cases h1 : k.val < 4
  · rw [if_pos h1, if_pos h1, Net.get_of_lt _ _ h1, pay6_apply, e5]
  · rw [if_neg h1, if_neg h1]
    by_cases h2 : k.val < 8
    · rw [if_pos h2, if_pos h2, Net.get_of_lt _ _ (by omega : k.val - 4 < 4), pay7_apply, e5]
    · rw [if_neg h2, if_neg h2]
      refine congrArg Net.relu (congrArg (fun f : Fin 248 → EReal => Net.get f (k.val - 8)) ?_)
      funext o
      rw [pay8_apply, e5]
      rfl

/-- The trunk's output. -/
theorem body_g5 (j : Fin 128) : T151 (ix2 a j) = Net.g5 𝐏 𝐗 j := by
  rw [pay9_apply, body_g4 x0 x2 x3 x4 x5 x6 x7 x8 x9 x10 x11 x12 x13 x14 x15 x16 x17 x18 x19 x20 x21 x22 x23 x24 x25 x26 x27 x28 x29 x30 x31 x32 x33 a]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The policy block. -/
theorem out34_apply (j : Fin 81) :
    Cert.KernelIdeal.GenP.out0_34 (F := Ideal) x0 x1 x2 x3 x4 x5 x6 x7 x8 x9 x10 x11 x12 x13 x14 x15 x16 x17 x18 x19 x20 x21 x22 x23 x24 x25 x26 x27 x28 x29 x30 x31 x32 x33 (ix2 a j) = Net.outPi 𝐏 𝐗 (kerFlags x1 a) j := by
  unfold Cert.KernelIdeal.GenP.out0_34
  rw [View.canon_unit_zero hz2]
  simp only [View.ld_unit_zero (S := S256x7x56) hz3,
    View.ld_unit_zero (S := S1x7x1) hz3,
    View.ld_unit_zero (S := S256x81) hz2,
    View.ld_unit_zero (S := S56x256) hz2,
    View.ld_unit_zero (S := S1x256) hz2,
    View.ld_unit_zero (S := S256x256) hz2,
    View.ld_unit_zero (S := S224x248) hz2,
    View.ld_unit_zero (S := S1x248) hz2,
    View.ld_unit_zero (S := S256x128) hz2,
    View.ld_unit_zero (S := S1x128) hz2,
    View.ld_unit_zero (S := S704x256) hz2,
    View.ld_unit_zero (S := S240x248) hz2,
    View.ld_unit_zero (S := S112x120) hz2,
    View.ld_unit_zero (S := S1x120) hz2,
    View.ld_unit_zero (S := S128x128) hz2,
    View.ld_unit_zero (S := S128x81) hz2,
    View.ld_unit_zero (S := S1x81) hz2,
    View.ld_unit_zero (S := S128x1) hz2,
    View.ld_unit_zero (S := S1x1) hz2,
    View.ld_unit_zero (S := S128x31) hz2,
    View.ld_unit_zero (S := S1x31) hz2]
  rw [pay14_apply]
  simp only [pay11_apply, pay10_apply, body_g5 x0 x2 x3 x4 x5 x6 x7 x8 x9 x10 x11 x12 x13 x14 x15 x16 x17 x18 x19 x20 x21 x22 x23 x24 x25 x26 x27 x28 x29 x30 x31 x32 x33 a]
  rfl

/-- The value block. -/
theorem out35_apply (j : Fin 1) :
    Cert.KernelIdeal.GenP.out0_35 (F := Ideal) x0 x1 x2 x3 x4 x5 x6 x7 x8 x9 x10 x11 x12 x13 x14 x15 x16 x17 x18 x19 x20 x21 x22 x23 x24 x25 x26 x27 x28 x29 x30 x31 x32 x33 (ix2 a j) = Net.outV 𝐏 𝐗 j := by
  unfold Cert.KernelIdeal.GenP.out0_35
  rw [View.canon_unit_zero hz2]
  simp only [View.ld_unit_zero (S := S256x7x56) hz3,
    View.ld_unit_zero (S := S1x7x1) hz3,
    View.ld_unit_zero (S := S256x81) hz2,
    View.ld_unit_zero (S := S56x256) hz2,
    View.ld_unit_zero (S := S1x256) hz2,
    View.ld_unit_zero (S := S256x256) hz2,
    View.ld_unit_zero (S := S224x248) hz2,
    View.ld_unit_zero (S := S1x248) hz2,
    View.ld_unit_zero (S := S256x128) hz2,
    View.ld_unit_zero (S := S1x128) hz2,
    View.ld_unit_zero (S := S704x256) hz2,
    View.ld_unit_zero (S := S240x248) hz2,
    View.ld_unit_zero (S := S112x120) hz2,
    View.ld_unit_zero (S := S1x120) hz2,
    View.ld_unit_zero (S := S128x128) hz2,
    View.ld_unit_zero (S := S128x81) hz2,
    View.ld_unit_zero (S := S1x81) hz2,
    View.ld_unit_zero (S := S128x1) hz2,
    View.ld_unit_zero (S := S1x1) hz2,
    View.ld_unit_zero (S := S128x31) hz2,
    View.ld_unit_zero (S := S1x31) hz2]
  rw [pay15_apply, pay12_apply]
  simp only [body_g5 x0 x2 x3 x4 x5 x6 x7 x8 x9 x10 x11 x12 x13 x14 x15 x16 x17 x18 x19 x20 x21 x22 x23 x24 x25 x26 x27 x28 x29 x30 x31 x32 x33 a]
  rfl

/-- The score-difference block. -/
theorem out36_apply (j : Fin 31) :
    Cert.KernelIdeal.GenP.out0_36 (F := Ideal) x0 x1 x2 x3 x4 x5 x6 x7 x8 x9 x10 x11 x12 x13 x14 x15 x16 x17 x18 x19 x20 x21 x22 x23 x24 x25 x26 x27 x28 x29 x30 x31 x32 x33 (ix2 a j) = Net.outSd 𝐏 𝐗 j := by
  unfold Cert.KernelIdeal.GenP.out0_36
  rw [View.canon_unit_zero hz2]
  simp only [View.ld_unit_zero (S := S256x7x56) hz3,
    View.ld_unit_zero (S := S1x7x1) hz3,
    View.ld_unit_zero (S := S256x81) hz2,
    View.ld_unit_zero (S := S56x256) hz2,
    View.ld_unit_zero (S := S1x256) hz2,
    View.ld_unit_zero (S := S256x256) hz2,
    View.ld_unit_zero (S := S224x248) hz2,
    View.ld_unit_zero (S := S1x248) hz2,
    View.ld_unit_zero (S := S256x128) hz2,
    View.ld_unit_zero (S := S1x128) hz2,
    View.ld_unit_zero (S := S704x256) hz2,
    View.ld_unit_zero (S := S240x248) hz2,
    View.ld_unit_zero (S := S112x120) hz2,
    View.ld_unit_zero (S := S1x120) hz2,
    View.ld_unit_zero (S := S128x128) hz2,
    View.ld_unit_zero (S := S128x81) hz2,
    View.ld_unit_zero (S := S1x81) hz2,
    View.ld_unit_zero (S := S128x1) hz2,
    View.ld_unit_zero (S := S1x1) hz2,
    View.ld_unit_zero (S := S128x31) hz2,
    View.ld_unit_zero (S := S1x31) hz2]
  rw [pay16_apply]
  simp only [pay13_apply, body_g5 x0 x2 x3 x4 x5 x6 x7 x8 x9 x10 x11 x12 x13 x14 x15 x16 x17 x18 x19 x20 x21 x22 x23 x24 x25 x26 x27 x28 x29 x30 x31 x32 x33 a]
  rfl

end Cert.KStage

end
-- ==== Proof.KArrays.lean ====
/-
  From blocks to arrays. What grid point t writes back to a result is block t of ONE function of the arrays the region
  finds — entry (b, j) is head j of the network on example b — and the 128 blocks cover the result, so after the run the
  result IS that function.
-/
import proofs.«125488_j18605798326416_1_alg».proof.Proof.KBlocks
import proofs.«125488_j18605798326416_1_alg».proof.Proof.KBody
import Idealize.ShloMosaic.Lib.Pipeline.Value

set_option maxRecDepth 16384
set_option synthInstance.maxSize 4096

noncomputable section

namespace Cert.KArr

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat Cfg Window)

variable (m : (ℓ : Loc nD τ sig) → Buf (Elt Ideal) ℓ) (ρ : Dev nD → PrngReg)

/-! ## The three results -/

/-- Result 0 as ONE function of the arrays the region finds: entry (b, j) is head j of the network on example b. -/
def G34 (c : Dev nD) : S32768x81.Idx → EReal := fun i =>
  Net.outPi (KStage.kerP (V m c main_v2) (V m c main_v3) (V m c main_v4) (V m c main_v5) (V m c main_v6) (V m c main_v7) (V m c main_v8) (V m c main_v9) (V m c main_v10) (V m c main_v11) (V m c main_v12) (V m c main_v13) (V m c main_v14) (V m c main_v15) (V m c main_v16) (V m c main_v17) (V m c main_v18) (V m c main_v19) (V m c main_v20) (V m c main_v21) (V m c main_v22) (V m c main_v23) (V m c main_v24) (V m c main_v25) (V m c main_v26) (V m c main_v27) (V m c main_v28) (V m c main_v29) (V m c main_v30) (V m c main_v31) (V m c main_v32) (V m c main_v33)) (fun s k => V m c main_v0 (ix3 (rowOf i) s k)) (fun j => Ideal.cmp .ogt (V m c main_v1 (ix2 (rowOf i) j)) (Ideal.ofBits .f32 0x3F000000#32)) (colOf i)

set_option maxHeartbeats 4000000 in
/-- What grid point t writes back to result 0 is block t of that function. -/
theorem flushed34_eq (c : Dev nD) (t : Fin cfg0.N) :
    (dats m 0 c).flushed 34 t = ((cfg0.win 34).blk t).view.read (Elt Ideal) (G34 m c) := by
  show (cfg0.win 34).cut (grid0.coords t) ((dats m 0 c).after 34 t) = _
  rw [after0_34]
  obtain ⟨-, -, -, -, -, e340, e341, e350, e351, e360, e361⟩ := idx_io t
  funext y
  obtain ⟨a, j, rfl⟩ : ∃ (a : Fin 256) (j : Fin 81), y = ix2 a j := ⟨y 0, y 1, eq_ix2 y⟩
  show out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (ix2 a j) = G34 m c (((cfg0.win 34).blk t).view.emb (ix2 a j))
  rw [KStage.out34_apply]
  have hr : rowOf (((cfg0.win 34).blk t).view.emb (ix2 a j)) = ⟨t.val * 256 + a.val, by have h : t.val < 128 := t.isLt; have := a.isLt; omega⟩ :=
    Fin.ext (by show win0_34.index t (0 : Fin 2) * 256 + 1 * a.val = t.val * 256 + a.val; omega)
  have hc : colOf (((cfg0.win 34).blk t).view.emb (ix2 a j)) = j :=
    Fin.ext (by show win0_34.index t (1 : Fin 2) * 81 + 1 * j.val = j.val; omega)
  unfold G34
  rw [hr, hc, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t, iblk18_eq m c t, iblk19_eq m c t, iblk20_eq m c t, iblk21_eq m c t, iblk22_eq m c t, iblk23_eq m c t, iblk24_eq m c t, iblk25_eq m c t, iblk26_eq m c t, iblk27_eq m c t, iblk28_eq m c t, iblk29_eq m c t, iblk30_eq m c t, iblk31_eq m c t, iblk32_eq m c t, iblk33_eq m c t]
  refine congrArg₂ (fun X Fl => Net.outPi _ X Fl j) (funext fun s => funext fun k => iblk0_apply m c t a s k) (funext fun j' => ?_)
  unfold KStage.kerFlags
  rw [iblk1_apply]

/-- An index of result 0 is in point t's block iff its example lies in block t. -/
theorem mem_blk34 (t : Fin cfg0.N) (i : S32768x81.Idx) :
    i ∈ ((cfg0.win 34).blk t).view.set ↔ ∀ ax : Fin 2, win0_34.index t ax * S256x81.size ax ≤ (i ax).val ∧ (i ax).val < win0_34.index t ax * S256x81.size ax + S256x81.size ax := by
  show i ∈ ((View.whole main_v34_0).slice (win0_34.rect t)).set ↔ _
  rw [View.set_slice_whole, Rect.mem_set_unit]
  exact Iff.rfl

/-- The 128 blocks cover the result. -/
theorem cover34 (i : S32768x81.Idx) : ∃ t : Fin cfg0.N, (cfg0.win 34).flush t = true ∧ i ∈ ((cfg0.win 34).blk t).view.set := by
  have hi0 : (i 0).val < 32768 := (i 0).isLt
  have hi1 : (i 1).val < 81 := (i 1).isLt
  refine ⟨⟨(i 0).val / 256, by show _ < 128; omega⟩, flush0_34 _, ?_⟩
  rw [mem_blk34]
  obtain ⟨-, -, -, -, -, e340, e341, e350, e351, e360, e361⟩ := idx_io ⟨(i 0).val / 256, by show _ < 128; omega⟩
  intro ax
  match ax with
  | ⟨0, _⟩ => show win0_34.index _ (0 : Fin 2) * 256 ≤ (i 0).val ∧ (i 0).val < win0_34.index _ (0 : Fin 2) * 256 + 256; rw [e340]; show (i 0).val / 256 * 256 ≤ _ ∧ _ < (i 0).val / 256 * 256 + 256; omega
  | ⟨1, _⟩ => show win0_34.index _ (1 : Fin 2) * 81 ≤ (i 1).val ∧ (i 1).val < win0_34.index _ (1 : Fin 2) * 81 + 81; rw [e341]; omega

/-- Result 0 after the run. -/
theorem final34 (c : Dev nD) : (dats m 0 c).arrAt 34 cfg0.N = G34 m c :=
  (dats m 0 c).arrAt_eq_of_cover 34 (G34 m c) (fun t _ => flushed34_eq m c t) (cover34)

/-- Result 1 as ONE function of the arrays the region finds: entry (b, j) is head j of the network on example b. -/
def G35 (c : Dev nD) : S32768x1.Idx → EReal := fun i =>
  Net.outV (KStage.kerP (V m c main_v2) (V m c main_v3) (V m c main_v4) (V m c main_v5) (V m c main_v6) (V m c main_v7) (V m c main_v8) (V m c main_v9) (V m c main_v10) (V m c main_v11) (V m c main_v12) (V m c main_v13) (V m c main_v14) (V m c main_v15) (V m c main_v16) (V m c main_v17) (V m c main_v18) (V m c main_v19) (V m c main_v20) (V m c main_v21) (V m c main_v22) (V m c main_v23) (V m c main_v24) (V m c main_v25) (V m c main_v26) (V m c main_v27) (V m c main_v28) (V m c main_v29) (V m c main_v30) (V m c main_v31) (V m c main_v32) (V m c main_v33)) (fun s k => V m c main_v0 (ix3 (rowOf i) s k)) (colOf i)

set_option maxHeartbeats 4000000 in
/-- What grid point t writes back to result 1 is block t of that function. -/
theorem flushed35_eq (c : Dev nD) (t : Fin cfg0.N) :
    (dats m 0 c).flushed 35 t = ((cfg0.win 35).blk t).view.read (Elt Ideal) (G35 m c) := by
  show (cfg0.win 35).cut (grid0.coords t) ((dats m 0 c).after 35 t) = _
  rw [after0_35]
  obtain ⟨-, -, -, -, -, e340, e341, e350, e351, e360, e361⟩ := idx_io t
  funext y
  obtain ⟨a, j, rfl⟩ : ∃ (a : Fin 256) (j : Fin 1), y = ix2 a j := ⟨y 0, y 1, eq_ix2 y⟩
  show out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (ix2 a j) = G35 m c (((cfg0.win 35).blk t).view.emb (ix2 a j))
  rw [KStage.out35_apply]
  have hr : rowOf (((cfg0.win 35).blk t).view.emb (ix2 a j)) = ⟨t.val * 256 + a.val, by have h : t.val < 128 := t.isLt; have := a.isLt; omega⟩ :=
    Fin.ext (by show win0_35.index t (0 : Fin 2) * 256 + 1 * a.val = t.val * 256 + a.val; omega)
  have hc : colOf (((cfg0.win 35).blk t).view.emb (ix2 a j)) = j :=
    Fin.ext (by show win0_35.index t (1 : Fin 2) * 1 + 1 * j.val = j.val; omega)
  unfold G35
  rw [hr, hc, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t, iblk18_eq m c t, iblk19_eq m c t, iblk20_eq m c t, iblk21_eq m c t, iblk22_eq m c t, iblk23_eq m c t, iblk24_eq m c t, iblk25_eq m c t, iblk26_eq m c t, iblk27_eq m c t, iblk28_eq m c t, iblk29_eq m c t, iblk30_eq m c t, iblk31_eq m c t, iblk32_eq m c t, iblk33_eq m c t]
  exact congrArg (fun X => Net.outV _ X j) (funext fun s => funext fun k => iblk0_apply m c t a s k)

/-- An index of result 1 is in point t's block iff its example lies in block t. -/
theorem mem_blk35 (t : Fin cfg0.N) (i : S32768x1.Idx) :
    i ∈ ((cfg0.win 35).blk t).view.set ↔ ∀ ax : Fin 2, win0_35.index t ax * S256x1.size ax ≤ (i ax).val ∧ (i ax).val < win0_35.index t ax * S256x1.size ax + S256x1.size ax := by
  show i ∈ ((View.whole main_v34_1).slice (win0_35.rect t)).set ↔ _
  rw [View.set_slice_whole, Rect.mem_set_unit]
  exact Iff.rfl

/-- The 128 blocks cover the result. -/
theorem cover35 (i : S32768x1.Idx) : ∃ t : Fin cfg0.N, (cfg0.win 35).flush t = true ∧ i ∈ ((cfg0.win 35).blk t).view.set := by
  have hi0 : (i 0).val < 32768 := (i 0).isLt
  have hi1 : (i 1).val < 1 := (i 1).isLt
  refine ⟨⟨(i 0).val / 256, by show _ < 128; omega⟩, flush0_35 _, ?_⟩
  rw [mem_blk35]
  obtain ⟨-, -, -, -, -, e340, e341, e350, e351, e360, e361⟩ := idx_io ⟨(i 0).val / 256, by show _ < 128; omega⟩
  intro ax
  match ax with
  | ⟨0, _⟩ => show win0_35.index _ (0 : Fin 2) * 256 ≤ (i 0).val ∧ (i 0).val < win0_35.index _ (0 : Fin 2) * 256 + 256; rw [e350]; show (i 0).val / 256 * 256 ≤ _ ∧ _ < (i 0).val / 256 * 256 + 256; omega
  | ⟨1, _⟩ => show win0_35.index _ (1 : Fin 2) * 1 ≤ (i 1).val ∧ (i 1).val < win0_35.index _ (1 : Fin 2) * 1 + 1; rw [e351]; omega

/-- Result 1 after the run. -/
theorem final35 (c : Dev nD) : (dats m 0 c).arrAt 35 cfg0.N = G35 m c :=
  (dats m 0 c).arrAt_eq_of_cover 35 (G35 m c) (fun t _ => flushed35_eq m c t) (cover35)

/-- Result 2 as ONE function of the arrays the region finds: entry (b, j) is head j of the network on example b. -/
def G36 (c : Dev nD) : S32768x31.Idx → EReal := fun i =>
  Net.outSd (KStage.kerP (V m c main_v2) (V m c main_v3) (V m c main_v4) (V m c main_v5) (V m c main_v6) (V m c main_v7) (V m c main_v8) (V m c main_v9) (V m c main_v10) (V m c main_v11) (V m c main_v12) (V m c main_v13) (V m c main_v14) (V m c main_v15) (V m c main_v16) (V m c main_v17) (V m c main_v18) (V m c main_v19) (V m c main_v20) (V m c main_v21) (V m c main_v22) (V m c main_v23) (V m c main_v24) (V m c main_v25) (V m c main_v26) (V m c main_v27) (V m c main_v28) (V m c main_v29) (V m c main_v30) (V m c main_v31) (V m c main_v32) (V m c main_v33)) (fun s k => V m c main_v0 (ix3 (rowOf i) s k)) (colOf i)

set_option maxHeartbeats 4000000 in
/-- What grid point t writes back to result 2 is block t of that function. -/
theorem flushed36_eq (c : Dev nD) (t : Fin cfg0.N) :
    (dats m 0 c).flushed 36 t = ((cfg0.win 36).blk t).view.read (Elt Ideal) (G36 m c) := by
  show (cfg0.win 36).cut (grid0.coords t) ((dats m 0 c).after 36 t) = _
  rw [after0_36]
  obtain ⟨-, -, -, -, -, e340, e341, e350, e351, e360, e361⟩ := idx_io t
  funext y
  obtain ⟨a, j, rfl⟩ : ∃ (a : Fin 256) (j : Fin 31), y = ix2 a j := ⟨y 0, y 1, eq_ix2 y⟩
  show out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (ix2 a j) = G36 m c (((cfg0.win 36).blk t).view.emb (ix2 a j))
  rw [KStage.out36_apply]
  have hr : rowOf (((cfg0.win 36).blk t).view.emb (ix2 a j)) = ⟨t.val * 256 + a.val, by have h : t.val < 128 := t.isLt; have := a.isLt; omega⟩ :=
    Fin.ext (by show win0_36.index t (0 : Fin 2) * 256 + 1 * a.val = t.val * 256 + a.val; omega)
  have hc : colOf (((cfg0.win 36).blk t).view.emb (ix2 a j)) = j :=
    Fin.ext (by show win0_36.index t (1 : Fin 2) * 31 + 1 * j.val = j.val; omega)
  unfold G36
  rw [hr, hc, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t, iblk18_eq m c t, iblk19_eq m c t, iblk20_eq m c t, iblk21_eq m c t, iblk22_eq m c t, iblk23_eq m c t, iblk24_eq m c t, iblk25_eq m c t, iblk26_eq m c t, iblk27_eq m c t, iblk28_eq m c t, iblk29_eq m c t, iblk30_eq m c t, iblk31_eq m c t, iblk32_eq m c t, iblk33_eq m c t]
  exact congrArg (fun X => Net.outSd _ X j) (funext fun s => funext fun k => iblk0_apply m c t a s k)

/-- An index of result 2 is in point t's block iff its example lies in block t. -/
theorem mem_blk36 (t : Fin cfg0.N) (i : S32768x31.Idx) :
    i ∈ ((cfg0.win 36).blk t).view.set ↔ ∀ ax : Fin 2, win0_36.index t ax * S256x31.size ax ≤ (i ax).val ∧ (i ax).val < win0_36.index t ax * S256x31.size ax + S256x31.size ax := by
  show i ∈ ((View.whole main_v34_2).slice (win0_36.rect t)).set ↔ _
  rw [View.set_slice_whole, Rect.mem_set_unit]
  exact Iff.rfl

/-- The 128 blocks cover the result. -/
theorem cover36 (i : S32768x31.Idx) : ∃ t : Fin cfg0.N, (cfg0.win 36).flush t = true ∧ i ∈ ((cfg0.win 36).blk t).view.set := by
  have hi0 : (i 0).val < 32768 := (i 0).isLt
  have hi1 : (i 1).val < 31 := (i 1).isLt
  refine ⟨⟨(i 0).val / 256, by show _ < 128; omega⟩, flush0_36 _, ?_⟩
  rw [mem_blk36]
  obtain ⟨-, -, -, -, -, e340, e341, e350, e351, e360, e361⟩ := idx_io ⟨(i 0).val / 256, by show _ < 128; omega⟩
  intro ax
  match ax with
  | ⟨0, _⟩ => show win0_36.index _ (0 : Fin 2) * 256 ≤ (i 0).val ∧ (i 0).val < win0_36.index _ (0 : Fin 2) * 256 + 256; rw [e360]; show (i 0).val / 256 * 256 ≤ _ ∧ _ < (i 0).val / 256 * 256 + 256; omega
  | ⟨1, _⟩ => show win0_36.index _ (1 : Fin 2) * 31 ≤ (i 1).val ∧ (i 1).val < win0_36.index _ (1 : Fin 2) * 31 + 31; rw [e361]; omega

/-- Result 2 after the run. -/
theorem final36 (c : Dev nD) : (dats m 0 c).arrAt 36 cfg0.N = G36 m c :=
  (dats m 0 c).arrAt_eq_of_cover 36 (G36 m c) (fun t _ => flushed36_eq m c t) (cover36)

end Cert.KArr

end
-- ==== Proof.RBase.lean ====
/-
  The reference's side of the bridge: the shared weights and one example's input, read off @main's arguments in the
  layouts the reference uses (weights in (output, input) order as given, biases and normalisation vectors as given, the
  example's 56×7 input read as 7 channels of 56 features).
-/
import proofs.«125488_j18605798326416_1_alg».proof.Proof.RefReadP
import proofs.«125488_j18605798326416_1_alg».proof.Proof.Net
import Idealize.ShloMosaic.Lib.ValueIdx

noncomputable section

namespace Cert.RStage

open Idealize.ShloMosaic Idealize.ShloMosaic.ValueIdx Cert.ReferenceIdeal

/-- The weights as the reference's arguments give them. -/
def refP (x2 : (⟨S256x56, .f32⟩ : BufTy).Contents (Elt Ideal)) (x3 : (⟨S256, .f32⟩ : BufTy).Contents (Elt Ideal)) (x4 : (⟨S7, .f32⟩ : BufTy).Contents (Elt Ideal)) (x5 : (⟨S7, .f32⟩ : BufTy).Contents (Elt Ideal)) (x6 : (⟨S7, .f32⟩ : BufTy).Contents (Elt Ideal)) (x7 : (⟨S7, .f32⟩ : BufTy).Contents (Elt Ideal)) (x8 : (⟨S256x256, .f32⟩ : BufTy).Contents (Elt Ideal)) (x9 : (⟨S256, .f32⟩ : BufTy).Contents (Elt Ideal)) (x10 : (⟨S248x224, .f32⟩ : BufTy).Contents (Elt Ideal)) (x11 : (⟨S248, .f32⟩ : BufTy).Contents (Elt Ideal)) (x12 : (⟨S128x256, .f32⟩ : BufTy).Contents (Elt Ideal)) (x13 : (⟨S128, .f32⟩ : BufTy).Contents (Elt Ideal)) (x14 : (⟨S256x704, .f32⟩ : BufTy).Contents (Elt Ideal)) (x15 : (⟨S256, .f32⟩ : BufTy).Contents (Elt Ideal)) (x16 : (⟨S248x240, .f32⟩ : BufTy).Contents (Elt Ideal)) (x17 : (⟨S248, .f32⟩ : BufTy).Contents (Elt Ideal)) (x18 : (⟨S128x256, .f32⟩ : BufTy).Contents (Elt Ideal)) (x19 : (⟨S128, .f32⟩ : BufTy).Contents (Elt Ideal)) (x20 : (⟨S120x112, .f32⟩ : BufTy).Contents (Elt Ideal)) (x21 : (⟨S120, .f32⟩ : BufTy).Contents (Elt Ideal)) (x22 : (⟨S128x128, .f32⟩ : BufTy).Contents (Elt Ideal)) (x23 : (⟨S128, .f32⟩ : BufTy).Contents (Elt Ideal)) (x24 : (⟨S81x128, .f32⟩ : BufTy).Contents (Elt Ideal)) (x25 : (⟨S81, .f32⟩ : BufTy).Contents (Elt Ideal)) (x26 : (⟨S128x128, .f32⟩ : BufTy).Contents (Elt Ideal)) (x27 : (⟨S128, .f32⟩ : BufTy).Contents (Elt Ideal)) (x28 : (⟨S1x128, .f32⟩ : BufTy).Contents (Elt Ideal)) (x29 : (⟨S1, .f32⟩ : BufTy).Contents (Elt Ideal)) (x30 : (⟨S128x128, .f32⟩ : BufTy).Contents (Elt Ideal)) (x31 : (⟨S128, .f32⟩ : BufTy).Contents (Elt Ideal)) (x32 : (⟨S31x128, .f32⟩ : BufTy).Contents (Elt Ideal)) (x33 : (⟨S31, .f32⟩ : BufTy).Contents (Elt Ideal)) : Net.Params where
  w1a := fun o k => x2 (ix2 o k)
  b1a := fun o => x3 (ix1 o)
  bng := fun s => x4 (ix1 s)
  bnb := fun s => x5 (ix1 s)
  bnm := fun s => x6 (ix1 s)
  bnv := fun s => x7 (ix1 s)
  w1b := fun o k => x8 (ix2 o k)
  b1b := fun o => x9 (ix1 o)
  gp1w := fun o k => x10 (ix2 o k)
  gp1b := fun o => x11 (ix1 o)
  w3 := fun o k => x12 (ix2 o k)
  b3 := fun o => x13 (ix1 o)
  w4 := fun o k => x14 (ix2 o k)
  b4 := fun o => x15 (ix1 o)
  gp4w := fun o k => x16 (ix2 o k)
  gp4b := fun o => x17 (ix1 o)
  w5 := fun o k => x18 (ix2 o k)
  b5 := fun o => x19 (ix1 o)
  gp5w := fun o k => x20 (ix2 o k)
  gp5b := fun o => x21 (ix1 o)
  piw1 := fun o k => x22 (ix2 o k)
  pib1 := fun o => x23 (ix1 o)
  piw2 := fun o k => x24 (ix2 o k)
  pib2 := fun o => x25 (ix1 o)
  vw1 := fun o k => x26 (ix2 o k)
  vb1 := fun o => x27 (ix1 o)
  vw2 := fun o k => x28 (ix2 o k)
  vb2 := fun o => x29 (ix1 o)
  sdw1 := fun o k => x30 (ix2 o k)
  sdb1 := fun o => x31 (ix1 o)
  sdw2 := fun o k => x32 (ix2 o k)
  sdb2 := fun o => x33 (ix1 o)

/-- Example b's input as 7 channels of 56 features (the array holds it as 56 × 7). -/
def refX (x0 : (⟨S32768x56x7, .f32⟩ : BufTy).Contents (Elt Ideal)) (b : Fin 32768) : Fin 7 → Fin 56 → EReal := fun s k => x0 (ix3 b k s)

/-- Example b's action flags. -/
def refFlags (x1 : (⟨S32768x81, .i1⟩ : BufTy).Contents (Elt Ideal)) (b : Fin 32768) : Fin 81 → BitVec 1 := fun j => x1 (ix2 b j)

end Cert.RStage

end
-- ==== Proof.KHost.lean ====
/-
  The arrays the region finds, read back to @main's arguments. Before the region @main transposes the input to
  32768×7×56, converts the flags to 0.0 / 1.0, transposes every weight matrix, lays every bias out as one row and every
  normalisation vector as 1×7×1. Read through those, the kernel's view of the weights is the reference's, an example's
  channels are the input's columns, and comparing a converted flag with one half gives the flag back.
-/
import proofs.«125488_j18605798326416_1_alg».proof.Proof.KernelIdealFrameP
import proofs.«125488_j18605798326416_1_alg».proof.Proof.KBase
import proofs.«125488_j18605798326416_1_alg».proof.Proof.RBase
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KHost

open Idealize.ShloMosaic Idealize.ShloMosaic.ValueIdx Idealize.ShloMosaic.TcCoe Idealize.SL.Sem
open Cert.KernelIdeal Cert.KernelIdeal.Gen Cert.KernelIdeal.GenP

variable (m : (ℓ : Loc nD τ sig) → Buf (Elt Ideal) ℓ) (c : Dev nD)

/-! Each array the region finds is one operation applied to one of @main's arguments. -/

theorem v0_eq : (V m c main_v0 : S32768x7x56.Idx → EReal)
    = transpose S32768x7x56 [0, 2, 1] (m ((c.tc : Thread nD τ).loc main_arg0)) transposes_S32768x56x7_S32768x7x56_0_2_1 := by
  dsimp only [V, hostOps0]; after_results_simp <;> rfl

theorem v1_eq : (V m c main_v1 : S32768x81.Idx → EReal)
    = uitofp (F := Ideal) .f32 ((m ((c.tc : Thread nD τ).loc main_arg1)) : IVec S32768x81 1) := by
  dsimp only [V, hostOps0]; after_results_simp <;> rfl

theorem v2_eq : (V m c main_v2 : S56x256.Idx → EReal)
    = transpose S56x256 [1, 0] (m ((c.tc : Thread nD τ).loc main_arg2)) transposes_S256x56_S56x256_1_0 := by
  dsimp only [V, hostOps0]; after_results_simp <;> rfl

theorem v3_eq : (V m c main_v3 : S1x256.Idx → EReal)
    = shapeCast S1x256 (m ((c.tc : Thread nD τ).loc main_arg3)) shapeCasts_S256_S1x256 := by
  dsimp only [V, hostOps0]; after_results_simp <;> rfl

theorem v4_eq : (V m c main_v4 : S1x7x1.Idx → EReal)
    = shapeCast S1x7x1 (m ((c.tc : Thread nD τ).loc main_arg4)) shapeCasts_S7_S1x7x1 := by
  dsimp only [V, hostOps0]; after_results_simp <;> rfl

theorem v5_eq : (V m c main_v5 : S1x7x1.Idx → EReal)
    = shapeCast S1x7x1 (m ((c.tc : Thread nD τ).loc main_arg5)) shapeCasts_S7_S1x7x1 := by
  dsimp only [V, hostOps0]; after_results_simp <;> rfl

theorem v6_eq : (V m c main_v6 : S1x7x1.Idx → EReal)
    = shapeCast S1x7x1 (m ((c.tc : Thread nD τ).loc main_arg6)) shapeCasts_S7_S1x7x1 := by
  dsimp only [V, hostOps0]; after_results_simp <;> rfl

theorem v7_eq : (V m c main_v7 : S1x7x1.Idx → EReal)
    = shapeCast S1x7x1 (m ((c.tc : Thread nD τ).loc main_arg7)) shapeCasts_S7_S1x7x1 := by
  dsimp only [V, hostOps0]; after_results_simp <;> rfl

theorem v8_eq : (V m c main_v8 : S256x256.Idx → EReal)
    = transpose S256x256 [1, 0] (m ((c.tc : Thread nD τ).loc main_arg8)) transposes_S256x256_S256x256_1_0 := by
  dsimp only [V, hostOps0]; after_results_simp <;> rfl

theorem v9_eq : (V m c main_v9 : S1x256.Idx → EReal)
    = shapeCast S1x256 (m ((c.tc : Thread nD τ).loc main_arg9)) shapeCasts_S256_S1x256 := by
  dsimp only [V, hostOps0]; after_results_simp <;> rfl

theorem v10_eq : (V m c main_v10 : S224x248.Idx → EReal)
    = transpose S224x248 [1, 0] (m ((c.tc : Thread nD τ).loc main_arg10)) transposes_S248x224_S224x248_1_0 := by
  dsimp only [V, hostOps0]; after_results_simp <;> rfl

theorem v11_eq : (V m c main_v11 : S1x248.Idx → EReal)
    = shapeCast S1x248 (m ((c.tc : Thread nD τ).loc main_arg11)) shapeCasts_S248_S1x248 := by
  dsimp only [V, hostOps0]; after_results_simp <;> rfl

theorem v12_eq : (V m c main_v12 : S256x128.Idx → EReal)
    = transpose S256x128 [1, 0] (m ((c.tc : Thread nD τ).loc main_arg12)) transposes_S128x256_S256x128_1_0 := by
  dsimp only [V, hostOps0]; after_results_simp <;> rfl

theorem v13_eq : (V m c main_v13 : S1x128.Idx → EReal)
    = shapeCast S1x128 (m ((c.tc : Thread nD τ).loc main_arg13)) shapeCasts_S128_S1x128 := by
  dsimp only [V, hostOps0]; after_results_simp <;> rfl

theorem v14_eq : (V m c main_v14 : S704x256.Idx → EReal)
    = transpose S704x256 [1, 0] (m ((c.tc : Thread nD τ).loc main_arg14)) transposes_S256x704_S704x256_1_0 := by
  dsimp only [V, hostOps0]; after_results_simp <;> rfl

theorem v15_eq : (V m c main_v15 : S1x256.Idx → EReal)
    = shapeCast S1x256 (m ((c.tc : Thread nD τ).loc main_arg15)) shapeCasts_S256_S1x256 := by
  dsimp only [V, hostOps0]; after_results_simp <;> rfl

theorem v16_eq : (V m c main_v16 : S240x248.Idx → EReal)
    = transpose S240x248 [1, 0] (m ((c.tc : Thread nD τ).loc main_arg16)) transposes_S248x240_S240x248_1_0 := by
  dsimp only [V, hostOps0]; after_results_simp <;> rfl

theorem v17_eq : (V m c main_v17 : S1x248.Idx → EReal)
    = shapeCast S1x248 (m ((c.tc : Thread nD τ).loc main_arg17)) shapeCasts_S248_S1x248 := by
  dsimp only [V, hostOps0]; after_results_simp <;> rfl

theorem v18_eq : (V m c main_v18 : S256x128.Idx → EReal)
    = transpose S256x128 [1, 0] (m ((c.tc : Thread nD τ).loc main_arg18)) transposes_S128x256_S256x128_1_0 := by
  dsimp only [V, hostOps0]; after_results_simp <;> rfl

theorem v19_eq : (V m c main_v19 : S1x128.Idx → EReal)
    = shapeCast S1x128 (m ((c.tc : Thread nD τ).loc main_arg19)) shapeCasts_S128_S1x128 := by
  dsimp only [V, hostOps0]; after_results_simp <;> rfl

theorem v20_eq : (V m c main_v20 : S112x120.Idx → EReal)
    = transpose S112x120 [1, 0] (m ((c.tc : Thread nD τ).loc main_arg20)) transposes_S120x112_S112x120_1_0 := by
  dsimp only [V, hostOps0]; after_results_simp <;> rfl

theorem v21_eq : (V m c main_v21 : S1x120.Idx → EReal)
    = shapeCast S1x120 (m ((c.tc : Thread nD τ).loc main_arg21)) shapeCasts_S120_S1x120 := by
  dsimp only [V, hostOps0]; after_results_simp <;> rfl

theorem v22_eq : (V m c main_v22 : S128x128.Idx → EReal)
    = transpose S128x128 [1, 0] (m ((c.tc : Thread nD τ).loc main_arg22)) transposes_S128x128_S128x128_1_0 := by
  dsimp only [V, hostOps0]; after_results_simp <;> rfl

theorem v23_eq : (V m c main_v23 : S1x128.Idx → EReal)
    = shapeCast S1x128 (m ((c.tc : Thread nD τ).loc main_arg23)) shapeCasts_S128_S1x128 := by
  dsimp only [V, hostOps0]; after_results_simp <;> rfl

theorem v24_eq : (V m c main_v24 : S128x81.Idx → EReal)
    = transpose S128x81 [1, 0] (m ((c.tc : Thread nD τ).loc main_arg24)) transposes_S81x128_S128x81_1_0 := by
  dsimp only [V, hostOps0]; after_results_simp <;> rfl

theorem v25_eq : (V m c main_v25 : S1x81.Idx → EReal)
    = shapeCast S1x81 (m ((c.tc : Thread nD τ).loc main_arg25)) shapeCasts_S81_S1x81 := by
  dsimp only [V, hostOps0]; after_results_simp <;> rfl

theorem v26_eq : (V m c main_v26 : S128x128.Idx → EReal)
    = transpose S128x128 [1, 0] (m ((c.tc : Thread nD τ).loc main_arg26)) transposes_S128x128_S128x128_1_0 := by
  dsimp only [V, hostOps0]; after_results_simp <;> rfl

theorem v27_eq : (V m c main_v27 : S1x128.Idx → EReal)
    = shapeCast S1x128 (m ((c.tc : Thread nD τ).loc main_arg27)) shapeCasts_S128_S1x128 := by
  dsimp only [V, hostOps0]; after_results_simp <;> rfl

theorem v28_eq : (V m c main_v28 : S128x1.Idx → EReal)
    = transpose S128x1 [1, 0] (m ((c.tc : Thread nD τ).loc main_arg28)) transposes_S1x128_S128x1_1_0 := by
  dsimp only [V, hostOps0]; after_results_simp <;> rfl

theorem v29_eq : (V m c main_v29 : S1x1.Idx → EReal)
    = shapeCast S1x1 (m ((c.tc : Thread nD τ).loc main_arg29)) shapeCasts_S1_S1x1 := by
  dsimp only [V, hostOps0]; after_results_simp <;> rfl

theorem v30_eq : (V m c main_v30 : S128x128.Idx → EReal)
    = transpose S128x128 [1, 0] (m ((c.tc : Thread nD τ).loc main_arg30)) transposes_S128x128_S128x128_1_0 := by
  dsimp only [V, hostOps0]; after_results_simp <;> rfl

theorem v31_eq : (V m c main_v31 : S1x128.Idx → EReal)
    = shapeCast S1x128 (m ((c.tc : Thread nD τ).loc main_arg31)) shapeCasts_S128_S1x128 := by
  dsimp only [V, hostOps0]; after_results_simp <;> rfl

theorem v32_eq : (V m c main_v32 : S128x31.Idx → EReal)
    = transpose S128x31 [1, 0] (m ((c.tc : Thread nD τ).loc main_arg32)) transposes_S31x128_S128x31_1_0 := by
  dsimp only [V, hostOps0]; after_results_simp <;> rfl

theorem v33_eq : (V m c main_v33 : S1x31.Idx → EReal)
    = shapeCast S1x31 (m ((c.tc : Thread nD τ).loc main_arg33)) shapeCasts_S31_S1x31 := by
  dsimp only [V, hostOps0]; after_results_simp <;> rfl

/-! Reading each kind of array at an index. -/

/-- A 7-vector laid out as 1×7×1 reads its entry. -/
theorem vec7_apply {α : Type} (x : (⟨1, ![7]⟩ : Shape).Idx → α) (h : (⟨1, ![7]⟩ : Shape).ShapeCasts ⟨3, ![1, 7, 1]⟩) (s : Fin 7) :
    shapeCast ⟨3, ![1, 7, 1]⟩ x h (ix3 0 s 0) = x (ix1 s) :=
  shapeCast_apply x h _ _ (by
    rw [Shape.rowMajor_val_three, Shape.rowMajor_val_one]
    show s.val = (0 * 7 + s.val) * 1 + 0
    omega)

/-- The word 0x3F000000 is one half. -/
theorem ofBits_half : Ideal.ofBits .f32 0x3F000000#32 = ((1 / 2 : ℝ) : EReal) := by
  simp [Ideal.ofBits, Ideal.ieee, -EReal.coe_mul]; norm_num

/-- Two sets of weights with the same entries are the same. -/
theorem params_ext (P Q : Net.Params)
    (h0 : P.w1a = Q.w1a)
    (h1 : P.b1a = Q.b1a)
    (h2 : P.bng = Q.bng)
    (h3 : P.bnb = Q.bnb)
    (h4 : P.bnm = Q.bnm)
    (h5 : P.bnv = Q.bnv)
    (h6 : P.w1b = Q.w1b)
    (h7 : P.b1b = Q.b1b)
    (h8 : P.gp1w = Q.gp1w)
    (h9 : P.gp1b = Q.gp1b)
    (h10 : P.w3 = Q.w3)
    (h11 : P.b3 = Q.b3)
    (h12 : P.w4 = Q.w4)
    (h13 : P.b4 = Q.b4)
    (h14 : P.gp4w = Q.gp4w)
    (h15 : P.gp4b = Q.gp4b)
    (h16 : P.w5 = Q.w5)
    (h17 : P.b5 = Q.b5)
    (h18 : P.gp5w = Q.gp5w)
    (h19 : P.gp5b = Q.gp5b)
    (h20 : P.piw1 = Q.piw1)
    (h21 : P.pib1 = Q.pib1)
    (h22 : P.piw2 = Q.piw2)
    (h23 : P.pib2 = Q.pib2)
    (h24 : P.vw1 = Q.vw1)
    (h25 : P.vb1 = Q.vb1)
    (h26 : P.vw2 = Q.vw2)
    (h27 : P.vb2 = Q.vb2)
    (h28 : P.sdw1 = Q.sdw1)
    (h29 : P.sdb1 = Q.sdb1)
    (h30 : P.sdw2 = Q.sdw2)
    (h31 : P.sdb2 = Q.sdb2) : P = Q := by
  cases P; cases Q
  simp only at h0 h1 h2 h3 h4 h5 h6 h7 h8 h9 h10 h11 h12 h13 h14 h15 h16 h17 h18 h19 h20 h21 h22 h23 h24 h25 h26 h27 h28 h29 h30 h31
  subst h0 h1 h2 h3 h4 h5 h6 h7 h8 h9 h10 h11 h12 h13 h14 h15 h16 h17 h18 h19 h20 h21 h22 h23 h24 h25 h26 h27 h28 h29 h30 h31
  rfl

/-- The kernel's view of weights that are the reference's transposed (matrices), laid out as one row (biases) or as
    1×7×1 (normalisation vectors) is the reference's view. -/
theorem kerP_ops
    (x2 : Vec Ideal S56x256 .f32)
    (x3 : Vec Ideal S1x256 .f32)
    (x4 : Vec Ideal S1x7x1 .f32)
    (x5 : Vec Ideal S1x7x1 .f32)
    (x6 : Vec Ideal S1x7x1 .f32)
    (x7 : Vec Ideal S1x7x1 .f32)
    (x8 : Vec Ideal S256x256 .f32)
    (x9 : Vec Ideal S1x256 .f32)
    (x10 : Vec Ideal S224x248 .f32)
    (x11 : Vec Ideal S1x248 .f32)
    (x12 : Vec Ideal S256x128 .f32)
    (x13 : Vec Ideal S1x128 .f32)
    (x14 : Vec Ideal S704x256 .f32)
    (x15 : Vec Ideal S1x256 .f32)
    (x16 : Vec Ideal S240x248 .f32)
    (x17 : Vec Ideal S1x248 .f32)
    (x18 : Vec Ideal S256x128 .f32)
    (x19 : Vec Ideal S1x128 .f32)
    (x20 : Vec Ideal S112x120 .f32)
    (x21 : Vec Ideal S1x120 .f32)
    (x22 : Vec Ideal S128x128 .f32)
    (x23 : Vec Ideal S1x128 .f32)
    (x24 : Vec Ideal S128x81 .f32)
    (x25 : Vec Ideal S1x81 .f32)
    (x26 : Vec Ideal S128x128 .f32)
    (x27 : Vec Ideal S1x128 .f32)
    (x28 : Vec Ideal S128x1 .f32)
    (x29 : Vec Ideal S1x1 .f32)
    (x30 : Vec Ideal S128x128 .f32)
    (x31 : Vec Ideal S1x128 .f32)
    (x32 : Vec Ideal S128x31 .f32)
    (x33 : Vec Ideal S1x31 .f32)
    (y2 : (⟨S256x56, .f32⟩ : BufTy).Contents (Elt Ideal))
    (y3 : (⟨S256, .f32⟩ : BufTy).Contents (Elt Ideal))
    (y4 : (⟨S7, .f32⟩ : BufTy).Contents (Elt Ideal))
    (y5 : (⟨S7, .f32⟩ : BufTy).Contents (Elt Ideal))
    (y6 : (⟨S7, .f32⟩ : BufTy).Contents (Elt Ideal))
    (y7 : (⟨S7, .f32⟩ : BufTy).Contents (Elt Ideal))
    (y8 : (⟨S256x256, .f32⟩ : BufTy).Contents (Elt Ideal))
    (y9 : (⟨S256, .f32⟩ : BufTy).Contents (Elt Ideal))
    (y10 : (⟨S248x224, .f32⟩ : BufTy).Contents (Elt Ideal))
    (y11 : (⟨S248, .f32⟩ : BufTy).Contents (Elt Ideal))
    (y12 : (⟨S128x256, .f32⟩ : BufTy).Contents (Elt Ideal))
    (y13 : (⟨S128, .f32⟩ : BufTy).Contents (Elt Ideal))
    (y14 : (⟨S256x704, .f32⟩ : BufTy).Contents (Elt Ideal))
    (y15 : (⟨S256, .f32⟩ : BufTy).Contents (Elt Ideal))
    (y16 : (⟨S248x240, .f32⟩ : BufTy).Contents (Elt Ideal))
    (y17 : (⟨S248, .f32⟩ : BufTy).Contents (Elt Ideal))
    (y18 : (⟨S128x256, .f32⟩ : BufTy).Contents (Elt Ideal))
    (y19 : (⟨S128, .f32⟩ : BufTy).Contents (Elt Ideal))
    (y20 : (⟨S120x112, .f32⟩ : BufTy).Contents (Elt Ideal))
    (y21 : (⟨S120, .f32⟩ : BufTy).Contents (Elt Ideal))
    (y22 : (⟨S128x128, .f32⟩ : BufTy).Contents (Elt Ideal))
    (y23 : (⟨S128, .f32⟩ : BufTy).Contents (Elt Ideal))
    (y24 : (⟨S81x128, .f32⟩ : BufTy).Contents (Elt Ideal))
    (y25 : (⟨S81, .f32⟩ : BufTy).Contents (Elt Ideal))
    (y26 : (⟨S128x128, .f32⟩ : BufTy).Contents (Elt Ideal))
    (y27 : (⟨S128, .f32⟩ : BufTy).Contents (Elt Ideal))
    (y28 : (⟨S1x128, .f32⟩ : BufTy).Contents (Elt Ideal))
    (y29 : (⟨S1, .f32⟩ : BufTy).Contents (Elt Ideal))
    (y30 : (⟨S128x128, .f32⟩ : BufTy).Contents (Elt Ideal))
    (y31 : (⟨S128, .f32⟩ : BufTy).Contents (Elt Ideal))
    (y32 : (⟨S31x128, .f32⟩ : BufTy).Contents (Elt Ideal))
    (y33 : (⟨S31, .f32⟩ : BufTy).Contents (Elt Ideal))
    (h2 : x2 = transpose S56x256 [1, 0] y2 transposes_S256x56_S56x256_1_0)
    (h3 : x3 = shapeCast S1x256 y3 shapeCasts_S256_S1x256)
    (h4 : x4 = shapeCast S1x7x1 y4 shapeCasts_S7_S1x7x1)
    (h5 : x5 = shapeCast S1x7x1 y5 shapeCasts_S7_S1x7x1)
    (h6 : x6 = shapeCast S1x7x1 y6 shapeCasts_S7_S1x7x1)
    (h7 : x7 = shapeCast S1x7x1 y7 shapeCasts_S7_S1x7x1)
    (h8 : x8 = transpose S256x256 [1, 0] y8 transposes_S256x256_S256x256_1_0)
    (h9 : x9 = shapeCast S1x256 y9 shapeCasts_S256_S1x256)
    (h10 : x10 = transpose S224x248 [1, 0] y10 transposes_S248x224_S224x248_1_0)
    (h11 : x11 = shapeCast S1x248 y11 shapeCasts_S248_S1x248)
    (h12 : x12 = transpose S256x128 [1, 0] y12 transposes_S128x256_S256x128_1_0)
    (h13 : x13 = shapeCast S1x128 y13 shapeCasts_S128_S1x128)
    (h14 : x14 = transpose S704x256 [1, 0] y14 transposes_S256x704_S704x256_1_0)
    (h15 : x15 = shapeCast S1x256 y15 shapeCasts_S256_S1x256)
    (h16 : x16 = transpose S240x248 [1, 0] y16 transposes_S248x240_S240x248_1_0)
    (h17 : x17 = shapeCast S1x248 y17 shapeCasts_S248_S1x248)
    (h18 : x18 = transpose S256x128 [1, 0] y18 transposes_S128x256_S256x128_1_0)
    (h19 : x19 = shapeCast S1x128 y19 shapeCasts_S128_S1x128)
    (h20 : x20 = transpose S112x120 [1, 0] y20 transposes_S120x112_S112x120_1_0)
    (h21 : x21 = shapeCast S1x120 y21 shapeCasts_S120_S1x120)
    (h22 : x22 = transpose S128x128 [1, 0] y22 transposes_S128x128_S128x128_1_0)
    (h23 : x23 = shapeCast S1x128 y23 shapeCasts_S128_S1x128)
    (h24 : x24 = transpose S128x81 [1, 0] y24 transposes_S81x128_S128x81_1_0)
    (h25 : x25 = shapeCast S1x81 y25 shapeCasts_S81_S1x81)
    (h26 : x26 = transpose S128x128 [1, 0] y26 transposes_S128x128_S128x128_1_0)
    (h27 : x27 = shapeCast S1x128 y27 shapeCasts_S128_S1x128)
    (h28 : x28 = transpose S128x1 [1, 0] y28 transposes_S1x128_S128x1_1_0)
    (h29 : x29 = shapeCast S1x1 y29 shapeCasts_S1_S1x1)
    (h30 : x30 = transpose S128x128 [1, 0] y30 transposes_S128x128_S128x128_1_0)
    (h31 : x31 = shapeCast S1x128 y31 shapeCasts_S128_S1x128)
    (h32 : x32 = transpose S128x31 [1, 0] y32 transposes_S31x128_S128x31_1_0)
    (h33 : x33 = shapeCast S1x31 y33 shapeCasts_S31_S1x31) :
    KStage.kerP x2 x3 x4 x5 x6 x7 x8 x9 x10 x11 x12 x13 x14 x15 x16 x17 x18 x19 x20 x21 x22 x23 x24 x25 x26 x27 x28 x29 x30 x31 x32 x33 = RStage.refP y2 y3 y4 y5 y6 y7 y8 y9 y10 y11 y12 y13 y14 y15 y16 y17 y18 y19 y20 y21 y22 y23 y24 y25 y26 y27 y28 y29 y30 y31 y32 y33 := by
  subst h2 h3 h4 h5 h6 h7 h8 h9 h10 h11 h12 h13 h14 h15 h16 h17 h18 h19 h20 h21 h22 h23 h24 h25 h26 h27 h28 h29 h30 h31 h32 h33
  refine params_ext _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · funext o k; exact transpose_ix2_apply _ _ k o
  · funext o; exact shapeCast_a_1a_apply _ _ 0 o
  · funext s; exact vec7_apply _ _ s
  · funext s; exact vec7_apply _ _ s
  · funext s; exact vec7_apply _ _ s
  · funext s; exact vec7_apply _ _ s
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o
  · funext o k; exact transpose_ix2_apply _ _ k o
  · funext o; exact shapeCast_a_1a_apply _ _ 0 o

/-- The weights as the region finds them are the weights as @main was given them. -/
theorem params_eq :
    KStage.kerP (V m c main_v2) (V m c main_v3) (V m c main_v4) (V m c main_v5) (V m c main_v6) (V m c main_v7) (V m c main_v8) (V m c main_v9) (V m c main_v10) (V m c main_v11) (V m c main_v12) (V m c main_v13) (V m c main_v14) (V m c main_v15) (V m c main_v16) (V m c main_v17) (V m c main_v18) (V m c main_v19) (V m c main_v20) (V m c main_v21) (V m c main_v22) (V m c main_v23) (V m c main_v24) (V m c main_v25) (V m c main_v26) (V m c main_v27) (V m c main_v28) (V m c main_v29) (V m c main_v30) (V m c main_v31) (V m c main_v32) (V m c main_v33)
      = RStage.refP (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) :=
  kerP_ops _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (v2_eq m c) (v3_eq m c) (v4_eq m c) (v5_eq m c) (v6_eq m c) (v7_eq m c) (v8_eq m c) (v9_eq m c) (v10_eq m c) (v11_eq m c) (v12_eq m c) (v13_eq m c) (v14_eq m c) (v15_eq m c) (v16_eq m c) (v17_eq m c) (v18_eq m c) (v19_eq m c) (v20_eq m c) (v21_eq m c) (v22_eq m c) (v23_eq m c) (v24_eq m c) (v25_eq m c) (v26_eq m c) (v27_eq m c) (v28_eq m c) (v29_eq m c) (v30_eq m c) (v31_eq m c) (v32_eq m c) (v33_eq m c)

/-- Channel s, feature k of example b in the transposed input is entry (b, k, s) of the input. -/
theorem input_eq (b : Fin 32768) (s : Fin 7) (k : Fin 56) :
    V m c main_v0 (ix3 b s k) = (m ((c.tc : Thread nD τ).loc main_arg0)) (ix3 b k s) := by
  rw [v0_eq]
  exact transpose_ix3_021_apply _ _ b s k

/-- A flag converted to 0.0 / 1.0 exceeds one half exactly when it is set. -/
theorem flag_eq (b : Fin 32768) (j : Fin 81) :
    Ideal.cmp .ogt (V m c main_v1 (ix2 b j)) (Ideal.ofBits .f32 0x3F000000#32) = (m ((c.tc : Thread nD τ).loc main_arg1)) (ix2 b j) := by
  rw [v1_eq, ofBits_half]
  show Ideal.cmp .ogt ((((((m ((c.tc : Thread nD τ).loc main_arg1)) : IVec S32768x81 1) (ix2 b j)).toNat : ℝ) : EReal)) _ = _
  generalize ((m ((c.tc : Thread nD τ).loc main_arg1)) : IVec S32768x81 1) (ix2 b j) = w
  rcases BitVec.eq_zero_or_eq_one w with h | h <;> subst h
  · have h : ¬ (((1 / 2 : ℝ) : EReal) < (((0 : ℕ) : ℝ) : EReal)) := by
      rw [EReal.coe_lt_coe_iff]; norm_num
    show BitVec.ofBool (decide (((1 / 2 : ℝ) : EReal) < (((0 : ℕ) : ℝ) : EReal))) = 0#1
    rw [decide_eq_false h]; rfl
  · have h : ((1 / 2 : ℝ) : EReal) < (((1 : ℕ) : ℝ) : EReal) := by
      rw [EReal.coe_lt_coe_iff]; norm_num
    show BitVec.ofBool (decide (((1 / 2 : ℝ) : EReal) < (((1 : ℕ) : ℝ) : EReal))) = 1#1
    rw [decide_eq_true h]; rfl

end Cert.KHost

end
-- ==== Proof.Results.lean ====
/-
  The three results as whole arrays: entry (b, j) of each is head j of the network on example b of the batch, with the
  weights, the example's input and its action flags read off @main's arguments. Both programs' runs are stated against these.
-/
import proofs.«125488_j18605798326416_1_alg».proof.Proof.RBase

noncomputable section

namespace Cert.Results

open Idealize.ShloMosaic Idealize.ShloMosaic.ValueIdx Cert.ReferenceIdeal Cert.RStage

/-- The example (row) and the head's entry (column) of an index of a 32768×n result. -/
def row {n : ℕ} (i : (⟨2, ![32768, n]⟩ : Shape).Idx) : Fin 32768 := ⟨(i 0).val, (i 0).isLt⟩
def col {n : ℕ} (i : (⟨2, ![32768, n]⟩ : Shape).Idx) : Fin n := ⟨(i 1).val, (i 1).isLt⟩

theorem row_ix2 {n : ℕ} (b : Fin 32768) (j : Fin n) : row (ix2 b j) = b := rfl
theorem col_ix2 {n : ℕ} (b : Fin 32768) (j : Fin n) : col (ix2 b j) = j := rfl

variable (x0 : (⟨S32768x56x7, .f32⟩ : BufTy).Contents (Elt Ideal)) (x1 : (⟨S32768x81, .i1⟩ : BufTy).Contents (Elt Ideal)) (x2 : (⟨S256x56, .f32⟩ : BufTy).Contents (Elt Ideal)) (x3 : (⟨S256, .f32⟩ : BufTy).Contents (Elt Ideal)) (x4 : (⟨S7, .f32⟩ : BufTy).Contents (Elt Ideal)) (x5 : (⟨S7, .f32⟩ : BufTy).Contents (Elt Ideal)) (x6 : (⟨S7, .f32⟩ : BufTy).Contents (Elt Ideal)) (x7 : (⟨S7, .f32⟩ : BufTy).Contents (Elt Ideal)) (x8 : (⟨S256x256, .f32⟩ : BufTy).Contents (Elt Ideal)) (x9 : (⟨S256, .f32⟩ : BufTy).Contents (Elt Ideal)) (x10 : (⟨S248x224, .f32⟩ : BufTy).Contents (Elt Ideal)) (x11 : (⟨S248, .f32⟩ : BufTy).Contents (Elt Ideal)) (x12 : (⟨S128x256, .f32⟩ : BufTy).Contents (Elt Ideal)) (x13 : (⟨S128, .f32⟩ : BufTy).Contents (Elt Ideal)) (x14 : (⟨S256x704, .f32⟩ : BufTy).Contents (Elt Ideal)) (x15 : (⟨S256, .f32⟩ : BufTy).Contents (Elt Ideal)) (x16 : (⟨S248x240, .f32⟩ : BufTy).Contents (Elt Ideal)) (x17 : (⟨S248, .f32⟩ : BufTy).Contents (Elt Ideal)) (x18 : (⟨S128x256, .f32⟩ : BufTy).Contents (Elt Ideal)) (x19 : (⟨S128, .f32⟩ : BufTy).Contents (Elt Ideal)) (x20 : (⟨S120x112, .f32⟩ : BufTy).Contents (Elt Ideal)) (x21 : (⟨S120, .f32⟩ : BufTy).Contents (Elt Ideal)) (x22 : (⟨S128x128, .f32⟩ : BufTy).Contents (Elt Ideal)) (x23 : (⟨S128, .f32⟩ : BufTy).Contents (Elt Ideal)) (x24 : (⟨S81x128, .f32⟩ : BufTy).Contents (Elt Ideal)) (x25 : (⟨S81, .f32⟩ : BufTy).Contents (Elt Ideal)) (x26 : (⟨S128x128, .f32⟩ : BufTy).Contents (Elt Ideal)) (x27 : (⟨S128, .f32⟩ : BufTy).Contents (Elt Ideal)) (x28 : (⟨S1x128, .f32⟩ : BufTy).Contents (Elt Ideal)) (x29 : (⟨S1, .f32⟩ : BufTy).Contents (Elt Ideal)) (x30 : (⟨S128x128, .f32⟩ : BufTy).Contents (Elt Ideal)) (x31 : (⟨S128, .f32⟩ : BufTy).Contents (Elt Ideal)) (x32 : (⟨S31x128, .f32⟩ : BufTy).Contents (Elt Ideal)) (x33 : (⟨S31, .f32⟩ : BufTy).Contents (Elt Ideal))

/-- The policy result. -/
def resPi : S32768x81.Idx → EReal := fun i =>
  Net.outPi (refP x2 x3 x4 x5 x6 x7 x8 x9 x10 x11 x12 x13 x14 x15 x16 x17 x18 x19 x20 x21 x22 x23 x24 x25 x26 x27 x28 x29 x30 x31 x32 x33) (refX x0 (row i)) (refFlags x1 (row i)) (col i)

/-- The value result. -/
def resV : S32768x1.Idx → EReal := fun i => Net.outV (refP x2 x3 x4 x5 x6 x7 x8 x9 x10 x11 x12 x13 x14 x15 x16 x17 x18 x19 x20 x21 x22 x23 x24 x25 x26 x27 x28 x29 x30 x31 x32 x33) (refX x0 (row i)) (col i)

/-- The score-difference result. -/
def resSd : S32768x31.Idx → EReal := fun i => Net.outSd (refP x2 x3 x4 x5 x6 x7 x8 x9 x10 x11 x12 x13 x14 x15 x16 x17 x18 x19 x20 x21 x22 x23 x24 x25 x26 x27 x28 x29 x30 x31 x32 x33) (refX x0 (row i)) (col i)

end Cert.Results

end
-- ==== Proof.KRun.lean ====
/-
  The kernel's run, read: every weakly fair execution of the idealized kernel's @main terminates with its three results
  at the network's three heads of each example — the whole-array functions of @main's arguments — and the arguments
  unchanged: the frame run's post, the results' blocks assembled, and the host operations before the region read back.
-/
import proofs.«125488_j18605798326416_1_alg».proof.Proof.KArrays
import proofs.«125488_j18605798326416_1_alg».proof.Proof.KHost
import proofs.«125488_j18605798326416_1_alg».proof.Proof.Results

set_option maxRecDepth 16384

noncomputable section

namespace Cert.KRun

open Idealize.ShloMosaic Idealize.ShloMosaic.ValueIdx Idealize.ShloMosaic.TcCoe Idealize.SL.Sem
open Cert.KernelIdeal Cert.KernelIdeal.Gen Cert.KernelIdeal.GenP

variable (m : (ℓ : Loc nD τ sig) → Buf (Elt Ideal) ℓ) (ρ : Dev nD → PrngReg)

/-- Result 0 after the run, in terms of @main's arguments. -/
theorem G34_eq (c : Dev nD) : KArr.G34 m c = Results.resPi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) := by
  funext i
  unfold KArr.G34 Results.resPi
  rw [KHost.params_eq m c]
  refine congrArg₂ (fun X Fl => Net.outPi _ X Fl (KArr.colOf i)) (funext fun s => funext fun k => KHost.input_eq m c (KArr.rowOf i) s k)
    (funext fun j => KHost.flag_eq m c (KArr.rowOf i) j)

/-- Result 1 after the run, in terms of @main's arguments. -/
theorem G35_eq (c : Dev nD) : KArr.G35 m c = Results.resV (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) := by
  funext i
  unfold KArr.G35 Results.resV
  rw [KHost.params_eq m c]
  exact congrArg (fun X => Net.outV _ X (KArr.colOf i)) (funext fun s => funext fun k => KHost.input_eq m c (KArr.rowOf i) s k)

/-- Result 2 after the run, in terms of @main's arguments. -/
theorem G36_eq (c : Dev nD) : KArr.G36 m c = Results.resSd (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) := by
  funext i
  unfold KArr.G36 Results.resSd
  rw [KHost.params_eq m c]
  exact congrArg (fun X => Net.outSd _ X (KArr.colOf i)) (funext fun s => funext fun k => KHost.input_eq m c (KArr.rowOf i) s k)

set_option maxHeartbeats 8000000 in
/-- The run. -/
theorem run : θ_run defs (onTc (τ := τ) (main (F := Ideal))) ⟨m, fun _ => 0, ρ⟩ (fun r => ∀ c : Dev nD,
      r.2.mem ((c.tc : Thread nD τ).loc main_v34_0) = Results.resPi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
      ∧ r.2.mem ((c.tc : Thread nD τ).loc main_v34_1) = Results.resV (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
      ∧ r.2.mem ((c.tc : Thread nD τ).loc main_v34_2) = Results.resSd (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)) :=
  (θ_run defs _ _).mono (fun r h c => ⟨((h c).1 34).trans ((KArr.final34 m c).trans (G34_eq m c)),
      ((h c).1 35).trans ((KArr.final35 m c).trans (G35_eq m c)),
      ((h c).1 36).trans ((KArr.final36 m c).trans (G36_eq m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c),
      ((h c).2 main_arg30 (Pipeline.mem_restRefs_of main_arg30 (by decide) (by decide))).trans (V_main_arg30 m c),
      ((h c).2 main_arg31 (Pipeline.mem_restRefs_of main_arg31 (by decide) (by decide))).trans (V_main_arg31 m c),
      ((h c).2 main_arg32 (Pipeline.mem_restRefs_of main_arg32 (by decide) (by decide))).trans (V_main_arg32 m c),
      ((h c).2 main_arg33 (Pipeline.mem_restRefs_of main_arg33 (by decide) (by decide))).trans (V_main_arg33 m c)⟩)
    (run_main (F := Ideal) m ρ)

end Cert.KRun

end
-- ==== Proof.RTrunkA.lean ====
/-
  The reference's per-channel stages read at an index: for example b, channel s, the first affine layer with
  normalisation and relu, the second affine layer, the partial pooling over groups of 8 features, the third affine layer,
  and the flattening with pooling across channels — each is the specification's layer of the example's own rows.
-/
import proofs.«125488_j18605798326416_1_alg».proof.Proof.RBase
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RStage

open Idealize.ShloMosaic Idealize.ShloMosaic.ValueIdx Cert.ReferenceIdeal Cert.ReferenceIdeal.Read

variable (x0 : (⟨S32768x56x7, .f32⟩ : BufTy).Contents (Elt Ideal)) (x1 : (⟨S32768x81, .i1⟩ : BufTy).Contents (Elt Ideal)) (x2 : (⟨S256x56, .f32⟩ : BufTy).Contents (Elt Ideal)) (x3 : (⟨S256, .f32⟩ : BufTy).Contents (Elt Ideal)) (x4 : (⟨S7, .f32⟩ : BufTy).Contents (Elt Ideal)) (x5 : (⟨S7, .f32⟩ : BufTy).Contents (Elt Ideal)) (x6 : (⟨S7, .f32⟩ : BufTy).Contents (Elt Ideal)) (x7 : (⟨S7, .f32⟩ : BufTy).Contents (Elt Ideal)) (x8 : (⟨S256x256, .f32⟩ : BufTy).Contents (Elt Ideal)) (x9 : (⟨S256, .f32⟩ : BufTy).Contents (Elt Ideal)) (x10 : (⟨S248x224, .f32⟩ : BufTy).Contents (Elt Ideal)) (x11 : (⟨S248, .f32⟩ : BufTy).Contents (Elt Ideal)) (x12 : (⟨S128x256, .f32⟩ : BufTy).Contents (Elt Ideal)) (x13 : (⟨S128, .f32⟩ : BufTy).Contents (Elt Ideal)) (x14 : (⟨S256x704, .f32⟩ : BufTy).Contents (Elt Ideal)) (x15 : (⟨S256, .f32⟩ : BufTy).Contents (Elt Ideal)) (x16 : (⟨S248x240, .f32⟩ : BufTy).Contents (Elt Ideal)) (x17 : (⟨S248, .f32⟩ : BufTy).Contents (Elt Ideal)) (x18 : (⟨S128x256, .f32⟩ : BufTy).Contents (Elt Ideal)) (x19 : (⟨S128, .f32⟩ : BufTy).Contents (Elt Ideal)) (x20 : (⟨S120x112, .f32⟩ : BufTy).Contents (Elt Ideal)) (x21 : (⟨S120, .f32⟩ : BufTy).Contents (Elt Ideal)) (x22 : (⟨S128x128, .f32⟩ : BufTy).Contents (Elt Ideal)) (x23 : (⟨S128, .f32⟩ : BufTy).Contents (Elt Ideal)) (x24 : (⟨S81x128, .f32⟩ : BufTy).Contents (Elt Ideal)) (x25 : (⟨S81, .f32⟩ : BufTy).Contents (Elt Ideal)) (x26 : (⟨S128x128, .f32⟩ : BufTy).Contents (Elt Ideal)) (x27 : (⟨S128, .f32⟩ : BufTy).Contents (Elt Ideal)) (x28 : (⟨S1x128, .f32⟩ : BufTy).Contents (Elt Ideal)) (x29 : (⟨S1, .f32⟩ : BufTy).Contents (Elt Ideal)) (x30 : (⟨S128x128, .f32⟩ : BufTy).Contents (Elt Ideal)) (x31 : (⟨S128, .f32⟩ : BufTy).Contents (Elt Ideal)) (x32 : (⟨S31x128, .f32⟩ : BufTy).Contents (Elt Ideal)) (x33 : (⟨S31, .f32⟩ : BufTy).Contents (Elt Ideal))

/-- After the first affine layer, the channel's normalisation and relu. -/
theorem r_a2 (b : Fin 32768) (s : Fin 7) (o : Fin 256) :
    val_main_v24 (F := Ideal) x0 x2 x3 x4 x5 x6 x7 (ix3 b s o) = Net.a2 (refP x2 x3 x4 x5 x6 x7 x8 x9 x10 x11 x12 x13 x14 x15 x16 x17 x18 x19 x20 x21 x22 x23 x24 x25 x26 x27 x28 x29 x30 x31 x32 x33) (refX x0 b) s o := by
  rw [val_main_v24_apply, val_main_call0_v0_apply, val_main_call0_cst_apply, val_main_v23_apply, val_main_v22_apply,
    val_main_v21_apply, val_main_v20_apply, val_main_v19_apply, val_main_v18_apply, val_main_v17_apply,
    val_main_v16_apply, val_main_v15_apply, val_main_v14_apply, val_main_v13_apply, val_main_v12_apply,
    val_main_v11_apply, val_main_v10_apply, val_main_cst_apply, val_main_v9_apply, val_main_v8_apply,
    val_main_v7_apply, val_main_v6_apply, val_main_v5_apply, val_main_v4_apply, val_main_v3_apply,
    val_main_v2_apply, val_main_v1_apply]
  have e3 : idx_main_v2 (idx_main_v3 (ix3 b s o)) = ix1 o :=
    funext fun a => Fin.ext (by match a with | ⟨0, _⟩ => rfl)
  have e6 : idx_main_v5 (idx_main_v6 (idx_main_v7 (ix3 b s o))) = ix1 s :=
    funext fun a => Fin.ext (by match a with | ⟨0, _⟩ => rfl)
  have e7 : idx_main_v9 (idx_main_v13 (idx_main_v14 (ix3 b s o))) = ix1 s :=
    funext fun a => Fin.ext (by match a with | ⟨0, _⟩ => rfl)
  have e4 : idx_main_v16 (idx_main_v17 (idx_main_v18 (ix3 b s o))) = ix1 s :=
    funext fun a => Fin.ext (by match a with | ⟨0, _⟩ => rfl)
  have e5 : idx_main_v20 (idx_main_v21 (idx_main_v22 (ix3 b s o))) = ix1 s :=
    funext fun a => Fin.ext (by match a with | ⟨0, _⟩ => rfl)
  have hs : (∑ k, val_main_v0 (F := Ideal) x0 (lidx_main_v1 (ix3 b s o) k) * x2 (ridx_main_v1 (ix3 b s o) k))
      = ∑ k : Fin 56, x0 (ix3 b k s) * x2 (ix2 o k) := Finset.sum_congr rfl fun k _ => by
    rw [val_main_v0_apply,
      show idx_main_v0 (lidx_main_v1 (ix3 b s o) k) = ix3 b k s from
        funext fun a => Fin.ext (by match a with | ⟨0, _⟩ => rfl | ⟨1, _⟩ => rfl | ⟨2, _⟩ => rfl),
      show ridx_main_v1 (ix3 b s o) k = ix2 o k from
        funext fun a => Fin.ext (by match a with | ⟨0, _⟩ => rfl | ⟨1, _⟩ => rfl)]
  rw [e3, e6, e7, e4, e5, hs]
  rfl

/-- After the second affine layer and relu. -/
theorem r_a3 (b : Fin 32768) (s : Fin 7) (o : Fin 256) :
    val_main_v29 (F := Ideal) x0 x2 x3 x4 x5 x6 x7 x8 x9 (ix3 b s o) = Net.a3 (refP x2 x3 x4 x5 x6 x7 x8 x9 x10 x11 x12 x13 x14 x15 x16 x17 x18 x19 x20 x21 x22 x23 x24 x25 x26 x27 x28 x29 x30 x31 x32 x33) (refX x0 b) s o := by
  rw [val_main_v29_apply, val_main_call1_v0_apply, val_main_call1_cst_apply, val_main_v28_apply, val_main_v27_apply,
    val_main_v26_apply, val_main_v25_apply]
  have e9 : idx_main_v26 (idx_main_v27 (ix3 b s o)) = ix1 o :=
    funext fun a => Fin.ext (by match a with | ⟨0, _⟩ => rfl)
  have hs : (∑ k, val_main_v24 (F := Ideal) x0 x2 x3 x4 x5 x6 x7 (lidx_main_v25 (ix3 b s o) k)
        * x8 (ridx_main_v25 (ix3 b s o) k))
      = ∑ k : Fin 256, Net.a2 (refP x2 x3 x4 x5 x6 x7 x8 x9 x10 x11 x12 x13 x14 x15 x16 x17 x18 x19 x20 x21 x22 x23 x24 x25 x26 x27 x28 x29 x30 x31 x32 x33) (refX x0 b) s k * x8 (ix2 o k) :=
    Finset.sum_congr rfl fun k _ => by
      rw [show lidx_main_v25 (ix3 b s o) k = ix3 b s k from
          funext fun a => Fin.ext (by match a with | ⟨0, _⟩ => rfl | ⟨1, _⟩ => rfl | ⟨2, _⟩ => rfl),
        show ridx_main_v25 (ix3 b s o) k = ix2 o k from
          funext fun a => Fin.ext (by match a with | ⟨0, _⟩ => rfl | ⟨1, _⟩ => rfl),
        r_a2 x0 x2 x3 x4 x5 x6 x7 x8 x9 x10 x11 x12 x13 x14 x15 x16 x17 x18 x19 x20 x21 x22 x23 x24 x25 x26 x27 x28 x29 x30 x31 x32 x33]
  rw [e9, hs]
  rfl

/-- The first 32 features of a channel regrouped as 4 groups of 8: entry (g, i) is feature 8 g + i after the second layer. -/
theorem r_v31 (b : Fin 32768) (s : Fin 7) (g : Fin 4) (i : Fin 8) :
    val_main_v31 (F := Ideal) x0 x2 x3 x4 x5 x6 x7 x8 x9 (ix4 b s g i)
      = Net.a3 (refP x2 x3 x4 x5 x6 x7 x8 x9 x10 x11 x12 x13 x14 x15 x16 x17 x18 x19 x20 x21 x22 x23 x24 x25 x26 x27 x28 x29 x30 x31 x32 x33) (refX x0 b) s ⟨g.val * 8 + i.val, by omega⟩ := by
  rw [val_main_v31_apply, val_main_v30_apply,
    show idx_main_v30 (idx_main_v31 (ix4 b s g i)) = ix3 b s (⟨g.val * 8 + i.val, by omega⟩ : Fin 256) from
      funext fun a => Fin.ext (by
        have hs := s.isLt; have hg := g.isLt; have hi := i.isLt
        match a with
        | ⟨0, _⟩ => show (((b.val * 7 + s.val) * 4 + g.val) * 8 + i.val) / 224 = b.val; omega
        | ⟨1, _⟩ => show (((b.val * 7 + s.val) * 4 + g.val) * 8 + i.val) / 32 % 7 = s.val; omega
        | ⟨2, _⟩ => show (((b.val * 7 + s.val) * 4 + g.val) * 8 + i.val) % 32 = g.val * 8 + i.val; omega),
    r_a3 x0 x2 x3 x4 x5 x6 x7 x8 x9 x10 x11 x12 x13 x14 x15 x16 x17 x18 x19 x20 x21 x22 x23 x24 x25 x26 x27 x28 x29 x30 x31 x32 x33]

/-- The maximum over a group of 8: the fold of max from the −∞ word over the group's entries. -/
theorem r_v38 (b : Fin 32768) (s : Fin 7) (g : Fin 4) :
    val_main_v38 (F := Ideal) x0 x2 x3 x4 x5 x6 x7 x8 x9 (ix3 b s g)
      = Net.vmax (fun i : Fin 8 => Net.a3 (refP x2 x3 x4 x5 x6 x7 x8 x9 x10 x11 x12 x13 x14 x15 x16 x17 x18 x19 x20 x21 x22 x23 x24 x25 x26 x27 x28 x29 x30 x31 x32 x33) (refX x0 b) s ⟨g.val * 8 + i.val, by omega⟩) := by
  unfold val_main_v38
  have hR : S32768x7x4x8.Reduces [3] S32768x7x4 := by decide
  rw [Host.reduce_eq_fold_single FloatOps.maximumf _ _ Gen.reducesTo_S32768x7x4x8_S32768x7x4_d3 hR Gen.h_S_]
  unfold Net.vmax
  refine congrArg (fun f => Finset.fold max (Ideal.ofBits .f32 0xFF800000#32) f (Finset.univ : Finset (Fin 8)))
    (funext fun (i : Fin 8) => ?_)
  show val_main_v31 (F := Ideal) x0 x2 x3 x4 x5 x6 x7 x8 x9 (hR.lift (ix3 b s g) i) = _
  rw [show hR.lift (ix3 b s g) i = ix4 b s g i from funext fun a => Fin.ext (by match a with | ⟨0, _⟩ => rfl | ⟨1, _⟩ => rfl | ⟨2, _⟩ => rfl | ⟨3, _⟩ => rfl), r_v31 x0 x2 x3 x4 x5 x6 x7 x8 x9 x10 x11 x12 x13 x14 x15 x16 x17 x18 x19 x20 x21 x22 x23 x24 x25 x26 x27 x28 x29 x30 x31 x32 x33]

/-- The mean over a group of 8: the group's sum (from the zero word) divided by the printed count. -/
theorem r_v41 (b : Fin 32768) (s : Fin 7) (g : Fin 4) :
    val_main_v41 (F := Ideal) x0 x2 x3 x4 x5 x6 x7 x8 x9 (ix3 b s g)
      = Net.vmean Net.f8 (fun i : Fin 8 => Net.a3 (refP x2 x3 x4 x5 x6 x7 x8 x9 x10 x11 x12 x13 x14 x15 x16 x17 x18 x19 x20 x21 x22 x23 x24 x25 x26 x27 x28 x29 x30 x31 x32 x33) (refX x0 b) s ⟨g.val * 8 + i.val, by omega⟩) := by
  rw [val_main_v41_apply, val_main_v40_apply, val_main_cst_2_apply, val_main_v39_apply, val_main_cst_1_apply]
  have hs : (∑ k : Fin 8, val_main_v31 (F := Ideal) x0 x2 x3 x4 x5 x6 x7 x8 x9 (idx_main_v39 (ix3 b s g) k))
      = ∑ i : Fin 8, Net.a3 (refP x2 x3 x4 x5 x6 x7 x8 x9 x10 x11 x12 x13 x14 x15 x16 x17 x18 x19 x20 x21 x22 x23 x24 x25 x26 x27 x28 x29 x30 x31 x32 x33) (refX x0 b) s ⟨g.val * 8 + i.val, by omega⟩ :=
    Finset.sum_congr rfl fun k _ => by
      rw [show idx_main_v39 (ix3 b s g) k = ix4 b s g k from funext fun a => Fin.ext (by match a with | ⟨0, _⟩ => rfl | ⟨1, _⟩ => rfl | ⟨2, _⟩ => rfl | ⟨3, _⟩ => rfl), r_v31 x0 x2 x3 x4 x5 x6 x7 x8 x9 x10 x11 x12 x13 x14 x15 x16 x17 x18 x19 x20 x21 x22 x23 x24 x25 x26 x27 x28 x29 x30 x31 x32 x33]
  rw [hs]
  show Ideal.div (Ideal.ofBits .f32 0x00000000#32 + _) _ = _
  rw [Ideal.ofBits_zero_f32, zero_add]
  rfl

/-- The remaining 224 features through the pooling stage's affine layer and relu. -/
theorem r_v37 (b : Fin 32768) (s : Fin 7) (o : Fin 248) :
    val_main_v37 (F := Ideal) x0 x2 x3 x4 x5 x6 x7 x8 x9 x10 x11 (ix3 b s o)
      = Net.relu (Net.lin (refP x2 x3 x4 x5 x6 x7 x8 x9 x10 x11 x12 x13 x14 x15 x16 x17 x18 x19 x20 x21 x22 x23 x24 x25 x26 x27 x28 x29 x30 x31 x32 x33).gp1w (refP x2 x3 x4 x5 x6 x7 x8 x9 x10 x11 x12 x13 x14 x15 x16 x17 x18 x19 x20 x21 x22 x23 x24 x25 x26 x27 x28 x29 x30 x31 x32 x33).gp1b
          (fun k : Fin 224 => Net.a3 (refP x2 x3 x4 x5 x6 x7 x8 x9 x10 x11 x12 x13 x14 x15 x16 x17 x18 x19 x20 x21 x22 x23 x24 x25 x26 x27 x28 x29 x30 x31 x32 x33) (refX x0 b) s ⟨32 + k.val, by omega⟩) o) := by
  rw [val_main_v37_apply, val_main_call2_v0_apply, val_main_call2_cst_apply, val_main_v36_apply, val_main_v35_apply,
    val_main_v34_apply, val_main_v33_apply]
  have e11 : idx_main_v34 (idx_main_v35 (ix3 b s o)) = ix1 o := funext fun a => Fin.ext (by match a with | ⟨0, _⟩ => rfl)
  have hs : (∑ k, val_main_v32 (F := Ideal) x0 x2 x3 x4 x5 x6 x7 x8 x9 (lidx_main_v33 (ix3 b s o) k) * x10 (ridx_main_v33 (ix3 b s o) k))
      = ∑ k : Fin 224, Net.a3 (refP x2 x3 x4 x5 x6 x7 x8 x9 x10 x11 x12 x13 x14 x15 x16 x17 x18 x19 x20 x21 x22 x23 x24 x25 x26 x27 x28 x29 x30 x31 x32 x33) (refX x0 b) s ⟨32 + k.val, by omega⟩ * x10 (ix2 o k) :=
    Finset.sum_congr rfl fun k _ => by
      rw [val_main_v32_apply,
        show idx_main_v32 (lidx_main_v33 (ix3 b s o) k) = ix3 b s (⟨32 + k.val, by omega⟩ : Fin 256) from funext fun a => Fin.ext (by match a with | ⟨0, _⟩ => rfl | ⟨1, _⟩ => rfl | ⟨2, _⟩ => rfl),
        show ridx_main_v33 (ix3 b s o) k = ix2 o k from funext fun a => Fin.ext (by match a with | ⟨0, _⟩ => rfl | ⟨1, _⟩ => rfl),
        r_a3 x0 x2 x3 x4 x5 x6 x7 x8 x9 x10 x11 x12 x13 x14 x15 x16 x17 x18 x19 x20 x21 x22 x23 x24 x25 x26 x27 x28 x29 x30 x31 x32 x33]
  rw [e11, hs]
  rfl

/-- After the partial pooling over groups of 8 features. -/
theorem r_g1 (b : Fin 32768) (s : Fin 7) (j : Fin 256) :
    val_main_v42 (F := Ideal) x0 x2 x3 x4 x5 x6 x7 x8 x9 x10 x11 (ix3 b s j) = Net.g1 (refP x2 x3 x4 x5 x6 x7 x8 x9 x10 x11 x12 x13 x14 x15 x16 x17 x18 x19 x20 x21 x22 x23 x24 x25 x26 x27 x28 x29 x30 x31 x32 x33) (refX x0 b) s j := by
  unfold val_main_v42 Net.g1 Net.gpool
  by_cases h4 : j.val < 4
  · rw [if_pos h4]
    refine (concatenate_apply_piece _ _ _ (ix3 b s j) 0 (by show (0 : Nat) < 3; omega) S32768x7x4 _ rfl rfl 0 rfl
      (ix3 b s (⟨j.val, h4⟩ : Fin 4)) (fun c hc => ?_) ?_).trans ?_
    · match c with
      | ⟨0, _⟩ => rfl
      | ⟨1, _⟩ => rfl
      | ⟨2, _⟩ => exact absurd rfl hc
    · show 0 + j.val = j.val
      omega
    · rw [r_v38 x0 x2 x3 x4 x5 x6 x7 x8 x9 x10 x11 x12 x13 x14 x15 x16 x17 x18 x19 x20 x21 x22 x23 x24 x25 x26 x27 x28 x29 x30 x31 x32 x33]
      exact congrArg Net.vmax (funext fun i => (Net.get_of_lt _ _ _).symm)
  · rw [if_neg h4]
    by_cases h8 : j.val < 8
    · rw [if_pos h8]
      refine (concatenate_apply_piece _ _ _ (ix3 b s j) 1 (by show (1 : Nat) < 3; omega) S32768x7x4 _ rfl rfl 4 rfl
        (ix3 b s (⟨j.val - 4, by omega⟩ : Fin 4)) (fun c hc => ?_) ?_).trans ?_
      · match c with
        | ⟨0, _⟩ => rfl
        | ⟨1, _⟩ => rfl
        | ⟨2, _⟩ => exact absurd rfl hc
      · show 4 + (j.val - 4) = j.val
        omega
      · rw [r_v41 x0 x2 x3 x4 x5 x6 x7 x8 x9 x10 x11 x12 x13 x14 x15 x16 x17 x18 x19 x20 x21 x22 x23 x24 x25 x26 x27 x28 x29 x30 x31 x32 x33]
        exact congrArg (Net.vmean Net.f8) (funext fun i => (Net.get_of_lt _ _ _).symm)
    · rw [if_neg h8]
      have hj := j.isLt
      refine (concatenate_apply_piece _ _ _ (ix3 b s j) 2 (by show (2 : Nat) < 3; omega) S32768x7x248 _ rfl rfl 8 rfl
        (ix3 b s (⟨j.val - 8, by omega⟩ : Fin 248)) (fun c hc => ?_) ?_).trans ?_
      · match c with
        | ⟨0, _⟩ => rfl
        | ⟨1, _⟩ => rfl
        | ⟨2, _⟩ => exact absurd rfl hc
      · show 8 + (j.val - 8) = j.val
        omega
      · rw [r_v37 x0 x2 x3 x4 x5 x6 x7 x8 x9 x10 x11 x12 x13 x14 x15 x16 x17 x18 x19 x20 x21 x22 x23 x24 x25 x26 x27 x28 x29 x30 x31 x32 x33, Net.get_of_lt _ _ (by omega : j.val - 8 < 248)]
        refine congrArg (fun f => Net.relu (Net.lin _ _ f _)) (funext fun k => ?_)
        exact (Net.get_of_lt _ _ _).symm

/-- After the third affine layer and relu. -/
theorem r_a4 (b : Fin 32768) (s : Fin 7) (o : Fin 128) :
    val_main_v47 (F := Ideal) x0 x2 x3 x4 x5 x6 x7 x8 x9 x10 x11 x12 x13 (ix3 b s o) = Net.a4 (refP x2 x3 x4 x5 x6 x7 x8 x9 x10 x11 x12 x13 x14 x15 x16 x17 x18 x19 x20 x21 x22 x23 x24 x25 x26 x27 x28 x29 x30 x31 x32 x33) (refX x0 b) s o := by
  rw [val_main_v47_apply, val_main_call3_v0_apply, val_main_call3_cst_apply, val_main_v46_apply, val_main_v45_apply,
    val_main_v44_apply, val_main_v43_apply]
  have e13 : idx_main_v44 (idx_main_v45 (ix3 b s o)) = ix1 o := funext fun a => Fin.ext (by match a with | ⟨0, _⟩ => rfl)
  have hs : (∑ k, val_main_v42 (F := Ideal) x0 x2 x3 x4 x5 x6 x7 x8 x9 x10 x11 (lidx_main_v43 (ix3 b s o) k) * x12 (ridx_main_v43 (ix3 b s o) k))
      = ∑ k : Fin 256, Net.g1 (refP x2 x3 x4 x5 x6 x7 x8 x9 x10 x11 x12 x13 x14 x15 x16 x17 x18 x19 x20 x21 x22 x23 x24 x25 x26 x27 x28 x29 x30 x31 x32 x33) (refX x0 b) s k * x12 (ix2 o k) :=
    Finset.sum_congr rfl fun k _ => by
      rw [show lidx_main_v43 (ix3 b s o) k = ix3 b s k from funext fun a => Fin.ext (by match a with | ⟨0, _⟩ => rfl | ⟨1, _⟩ => rfl | ⟨2, _⟩ => rfl),
        show ridx_main_v43 (ix3 b s o) k = ix2 o k from funext fun a => Fin.ext (by match a with | ⟨0, _⟩ => rfl | ⟨1, _⟩ => rfl),
        r_g1 x0 x2 x3 x4 x5 x6 x7 x8 x9 x10 x11 x12 x13 x14 x15 x16 x17 x18 x19 x20 x21 x22 x23 x24 x25 x26 x27 x28 x29 x30 x31 x32 x33]
  rw [e13, hs]
  rfl

/-- The first 64 features of a channel after the third layer. -/
theorem r_v48 (b : Fin 32768) (s : Fin 7) (c : Fin 64) :
    val_main_v48 (F := Ideal) x0 x2 x3 x4 x5 x6 x7 x8 x9 x10 x11 x12 x13 (ix3 b s c) = Net.a4 (refP x2 x3 x4 x5 x6 x7 x8 x9 x10 x11 x12 x13 x14 x15 x16 x17 x18 x19 x20 x21 x22 x23 x24 x25 x26 x27 x28 x29 x30 x31 x32 x33) (refX x0 b) s ⟨c.val, by omega⟩ := by
  rw [val_main_v48_apply, show idx_main_v48 (ix3 b s c) = ix3 b s (⟨c.val, by omega⟩ : Fin 128) from funext fun a => Fin.ext (by match a with | ⟨0, _⟩ => rfl | ⟨1, _⟩ => rfl | ⟨2, _⟩ => rfl),
    r_a4 x0 x2 x3 x4 x5 x6 x7 x8 x9 x10 x11 x12 x13 x14 x15 x16 x17 x18 x19 x20 x21 x22 x23 x24 x25 x26 x27 x28 x29 x30 x31 x32 x33]

/-- The last 64 features of a channel after the third layer. -/
theorem r_v49 (b : Fin 32768) (s : Fin 7) (c : Fin 64) :
    val_main_v49 (F := Ideal) x0 x2 x3 x4 x5 x6 x7 x8 x9 x10 x11 x12 x13 (ix3 b s c) = Net.a4 (refP x2 x3 x4 x5 x6 x7 x8 x9 x10 x11 x12 x13 x14 x15 x16 x17 x18 x19 x20 x21 x22 x23 x24 x25 x26 x27 x28 x29 x30 x31 x32 x33) (refX x0 b) s ⟨64 + c.val, by omega⟩ := by
  rw [val_main_v49_apply, show idx_main_v49 (ix3 b s c) = ix3 b s (⟨64 + c.val, by omega⟩ : Fin 128) from funext fun a => Fin.ext (by match a with | ⟨0, _⟩ => rfl | ⟨1, _⟩ => rfl | ⟨2, _⟩ => rfl),
    r_a4 x0 x2 x3 x4 x5 x6 x7 x8 x9 x10 x11 x12 x13 x14 x15 x16 x17 x18 x19 x20 x21 x22 x23 x24 x25 x26 x27 x28 x29 x30 x31 x32 x33]

/-- Channels 0..4 of the first 64 features. -/
theorem r_v50 (b : Fin 32768) (t : Fin 5) (c : Fin 64) :
    val_main_v50 (F := Ideal) x0 x2 x3 x4 x5 x6 x7 x8 x9 x10 x11 x12 x13 (ix3 b t c) = Net.a4 (refP x2 x3 x4 x5 x6 x7 x8 x9 x10 x11 x12 x13 x14 x15 x16 x17 x18 x19 x20 x21 x22 x23 x24 x25 x26 x27 x28 x29 x30 x31 x32 x33) (refX x0 b) ⟨t.val, by omega⟩ ⟨c.val, by omega⟩ := by
  rw [val_main_v50_apply, show idx_main_v50 (ix3 b t c) = ix3 b (⟨t.val, by omega⟩ : Fin 7) c from funext fun a => Fin.ext (by match a with | ⟨0, _⟩ => rfl | ⟨1, _⟩ => rfl | ⟨2, _⟩ => rfl),
    r_v48 x0 x2 x3 x4 x5 x6 x7 x8 x9 x10 x11 x12 x13 x14 x15 x16 x17 x18 x19 x20 x21 x22 x23 x24 x25 x26 x27 x28 x29 x30 x31 x32 x33]

/-- Channels 5, 6 of the first 64 features. -/
theorem r_v51 (b : Fin 32768) (t : Fin 2) (c : Fin 64) :
    val_main_v51 (F := Ideal) x0 x2 x3 x4 x5 x6 x7 x8 x9 x10 x11 x12 x13 (ix3 b t c) = Net.a4 (refP x2 x3 x4 x5 x6 x7 x8 x9 x10 x11 x12 x13 x14 x15 x16 x17 x18 x19 x20 x21 x22 x23 x24 x25 x26 x27 x28 x29 x30 x31 x32 x33) (refX x0 b) ⟨5 + t.val, by omega⟩ ⟨c.val, by omega⟩ := by
  rw [val_main_v51_apply, show idx_main_v51 (ix3 b t c) = ix3 b (⟨5 + t.val, by omega⟩ : Fin 7) c from funext fun a => Fin.ext (by match a with | ⟨0, _⟩ => rfl | ⟨1, _⟩ => rfl | ⟨2, _⟩ => rfl),
    r_v48 x0 x2 x3 x4 x5 x6 x7 x8 x9 x10 x11 x12 x13 x14 x15 x16 x17 x18 x19 x20 x21 x22 x23 x24 x25 x26 x27 x28 x29 x30 x31 x32 x33]

/-- A maximum over the middle axis (5 channels) of any array, from the −∞ word: the fold over the channels. -/
theorem reduceMax_channels (y : S32768x5x64.Idx → EReal) (b : Fin 32768) (c : Fin 64) :
    Host.reduce (α := EReal) (FloatOps.maximumf (F := Ideal) (φ := .f32)) y (val_main_cst_3 (F := Ideal))
        Gen.reducesTo_S32768x5x64_S32768x64_d1 Gen.h_S_ (ix2 b c)
      = Net.vmax (fun t : Fin 5 => y (ix3 b t c)) := by
  have hR : S32768x5x64.Reduces [1] S32768x64 := by decide
  rw [Host.reduce_eq_fold_single (FloatOps.maximumf (F := Ideal) (φ := .f32)) _ _ Gen.reducesTo_S32768x5x64_S32768x64_d1 hR Gen.h_S_]
  unfold Net.vmax
  refine congrArg (fun f => Finset.fold max (Ideal.ofBits .f32 0xFF800000#32) f (Finset.univ : Finset (Fin 5)))
    (funext fun (t : Fin 5) => ?_)
  exact congrArg y (show hR.lift (ix2 b c) t = ix3 b t c from funext fun a => Fin.ext (by match a with | ⟨0, _⟩ => rfl | ⟨1, _⟩ => rfl | ⟨2, _⟩ => rfl))

/-- The maximum over channels 0..4 of a feature. -/
theorem r_v52 (b : Fin 32768) (c : Fin 64) :
    val_main_v52 (F := Ideal) x0 x2 x3 x4 x5 x6 x7 x8 x9 x10 x11 x12 x13 (ix2 b c)
      = Net.vmax (fun t : Fin 5 => Net.a4 (refP x2 x3 x4 x5 x6 x7 x8 x9 x10 x11 x12 x13 x14 x15 x16 x17 x18 x19 x20 x21 x22 x23 x24 x25 x26 x27 x28 x29 x30 x31 x32 x33) (refX x0 b) ⟨t.val, by omega⟩ ⟨c.val, by omega⟩) := by
  unfold val_main_v52
  exact (reduceMax_channels _ b c).trans (congrArg Net.vmax (funext fun t => r_v50 x0 x2 x3 x4 x5 x6 x7 x8 x9 x10 x11 x12 x13 x14 x15 x16 x17 x18 x19 x20 x21 x22 x23 x24 x25 x26 x27 x28 x29 x30 x31 x32 x33 b t c))

/-- The mean over channels 0..4 of a feature. -/
theorem r_v55 (b : Fin 32768) (c : Fin 64) :
    val_main_v55 (F := Ideal) x0 x2 x3 x4 x5 x6 x7 x8 x9 x10 x11 x12 x13 (ix2 b c)
      = Net.vmean Net.f5 (fun t : Fin 5 => Net.a4 (refP x2 x3 x4 x5 x6 x7 x8 x9 x10 x11 x12 x13 x14 x15 x16 x17 x18 x19 x20 x21 x22 x23 x24 x25 x26 x27 x28 x29 x30 x31 x32 x33) (refX x0 b) ⟨t.val, by omega⟩ ⟨c.val, by omega⟩) := by
  rw [val_main_v55_apply, val_main_v54_apply, val_main_cst_5_apply, val_main_v53_apply, val_main_cst_4_apply]
  have hs : (∑ k : Fin 5, val_main_v50 (F := Ideal) x0 x2 x3 x4 x5 x6 x7 x8 x9 x10 x11 x12 x13 (idx_main_v53 (ix2 b c) k))
      = ∑ t : Fin 5, Net.a4 (refP x2 x3 x4 x5 x6 x7 x8 x9 x10 x11 x12 x13 x14 x15 x16 x17 x18 x19 x20 x21 x22 x23 x24 x25 x26 x27 x28 x29 x30 x31 x32 x33) (refX x0 b) ⟨t.val, by omega⟩ ⟨c.val, by omega⟩ :=
    Finset.sum_congr rfl fun k _ => by
      rw [show idx_main_v53 (ix2 b c) k = ix3 b k c from funext fun a => Fin.ext (by match a with | ⟨0, _⟩ => rfl | ⟨1, _⟩ => rfl | ⟨2, _⟩ => rfl), r_v50 x0 x2 x3 x4 x5 x6 x7 x8 x9 x10 x11 x12 x13 x14 x15 x16 x17 x18 x19 x20 x21 x22 x23 x24 x25 x26 x27 x28 x29 x30 x31 x32 x33]
  rw [hs]
  show Ideal.div (Ideal.ofBits .f32 0x00000000#32 + _) _ = _
  rw [Ideal.ofBits_zero_f32, zero_add]
  rfl

/-- Channels 5, 6 of the first 64 features laid side by side. -/
theorem r_v56 (b : Fin 32768) (c : Fin 128) :
    val_main_v56 (F := Ideal) x0 x2 x3 x4 x5 x6 x7 x8 x9 x10 x11 x12 x13 (ix2 b c)
      = Net.a4 (refP x2 x3 x4 x5 x6 x7 x8 x9 x10 x11 x12 x13 x14 x15 x16 x17 x18 x19 x20 x21 x22 x23 x24 x25 x26 x27 x28 x29 x30 x31 x32 x33) (refX x0 b) ⟨5 + c.val / 64, by omega⟩ ⟨c.val % 64, by omega⟩ := by
  rw [val_main_v56_apply,
    show idx_main_v56 (ix2 b c) = ix3 b (⟨c.val / 64, by omega⟩ : Fin 2) (⟨c.val % 64, by omega⟩ : Fin 64) from
      funext fun a => Fin.ext (by
        have hc := c.isLt
        match a with
        | ⟨0, _⟩ => show (b.val * 128 + c.val) / 128 = b.val; omega
        | ⟨1, _⟩ => show (b.val * 128 + c.val) / 64 % 2 = c.val / 64; omega
        | ⟨2, _⟩ => show (b.val * 128 + c.val) % 64 = c.val % 64; omega),
    r_v51 x0 x2 x3 x4 x5 x6 x7 x8 x9 x10 x11 x12 x13 x14 x15 x16 x17 x18 x19 x20 x21 x22 x23 x24 x25 x26 x27 x28 x29 x30 x31 x32 x33]

/-- The last 64 features of all 7 channels laid side by side. -/
theorem r_v57 (b : Fin 32768) (c : Fin 448) :
    val_main_v57 (F := Ideal) x0 x2 x3 x4 x5 x6 x7 x8 x9 x10 x11 x12 x13 (ix2 b c)
      = Net.a4 (refP x2 x3 x4 x5 x6 x7 x8 x9 x10 x11 x12 x13 x14 x15 x16 x17 x18 x19 x20 x21 x22 x23 x24 x25 x26 x27 x28 x29 x30 x31 x32 x33) (refX x0 b) ⟨c.val / 64, by omega⟩ ⟨64 + c.val % 64, by omega⟩ := by
  rw [val_main_v57_apply,
    show idx_main_v57 (ix2 b c) = ix3 b (⟨c.val / 64, by omega⟩ : Fin 7) (⟨c.val % 64, by omega⟩ : Fin 64) from
      funext fun a => Fin.ext (by
        have hc := c.isLt
        match a with
        | ⟨0, _⟩ => show (b.val * 448 + c.val) / 448 = b.val; omega
        | ⟨1, _⟩ => show (b.val * 448 + c.val) / 64 % 7 = c.val / 64; omega
        | ⟨2, _⟩ => show (b.val * 448 + c.val) % 64 = c.val % 64; omega),
    r_v49 x0 x2 x3 x4 x5 x6 x7 x8 x9 x10 x11 x12 x13 x14 x15 x16 x17 x18 x19 x20 x21 x22 x23 x24 x25 x26 x27 x28 x29 x30 x31 x32 x33]

/-- After flattening with pooling across channels. -/
theorem r_flat (b : Fin 32768) (j : Fin 704) :
    val_main_v58 (F := Ideal) x0 x2 x3 x4 x5 x6 x7 x8 x9 x10 x11 x12 x13 (ix2 b j) = Net.flat704 (Net.a4 (refP x2 x3 x4 x5 x6 x7 x8 x9 x10 x11 x12 x13 x14 x15 x16 x17 x18 x19 x20 x21 x22 x23 x24 x25 x26 x27 x28 x29 x30 x31 x32 x33) (refX x0 b)) j := by
  unfold val_main_v58 Net.flat704
  have hj := j.isLt
  by_cases h64 : j.val < 64
  · rw [if_pos h64]
    refine (concatenate_apply_piece _ _ _ (ix2 b j) 0 (by show (0 : Nat) < 4; omega) S32768x64 _ rfl rfl 0 rfl
      (ix2 b (⟨j.val, h64⟩ : Fin 64)) (fun c hc => ?_) ?_).trans ?_
    · match c with
      | ⟨0, _⟩ => rfl
      | ⟨1, _⟩ => exact absurd rfl hc
    · show 0 + j.val = j.val
      omega
    · rw [r_v52 x0 x2 x3 x4 x5 x6 x7 x8 x9 x10 x11 x12 x13 x14 x15 x16 x17 x18 x19 x20 x21 x22 x23 x24 x25 x26 x27 x28 x29 x30 x31 x32 x33]
      exact congrArg Net.vmax (funext fun t => (Net.get2_of_lt _ _ _ _ _).symm)
  rw [if_neg h64]
  by_cases h128 : j.val < 128
  · rw [if_pos h128]
    refine (concatenate_apply_piece _ _ _ (ix2 b j) 1 (by show (1 : Nat) < 4; omega) S32768x64 _ rfl rfl 64 rfl
      (ix2 b (⟨j.val - 64, by omega⟩ : Fin 64)) (fun c hc => ?_) ?_).trans ?_
    · match c with
      | ⟨0, _⟩ => rfl
      | ⟨1, _⟩ => exact absurd rfl hc
    · show 64 + (j.val - 64) = j.val
      omega
    · rw [r_v55 x0 x2 x3 x4 x5 x6 x7 x8 x9 x10 x11 x12 x13 x14 x15 x16 x17 x18 x19 x20 x21 x22 x23 x24 x25 x26 x27 x28 x29 x30 x31 x32 x33]
      exact congrArg (Net.vmean Net.f5) (funext fun t => (Net.get2_of_lt _ _ _ _ _).symm)
  rw [if_neg h128]
  by_cases h256 : j.val < 256
  · rw [if_pos h256]
    refine (concatenate_apply_piece _ _ _ (ix2 b j) 2 (by show (2 : Nat) < 4; omega) S32768x128 _ rfl rfl 128 rfl
      (ix2 b (⟨j.val - 128, by omega⟩ : Fin 128)) (fun c hc => ?_) ?_).trans ?_
    · match c with
      | ⟨0, _⟩ => rfl
      | ⟨1, _⟩ => exact absurd rfl hc
    · show 128 + (j.val - 128) = j.val
      omega
    · rw [r_v56 x0 x2 x3 x4 x5 x6 x7 x8 x9 x10 x11 x12 x13 x14 x15 x16 x17 x18 x19 x20 x21 x22 x23 x24 x25 x26 x27 x28 x29 x30 x31 x32 x33]
      exact (Net.get2_of_lt _ _ _ _ _).symm
  rw [if_neg h256]
  refine (concatenate_apply_piece _ _ _ (ix2 b j) 3 (by show (3 : Nat) < 4; omega) S32768x448 _ rfl rfl 256 rfl
    (ix2 b (⟨j.val - 256, by omega⟩ : Fin 448)) (fun c hc => ?_) ?_).trans ?_
  · match c with
    | ⟨0, _⟩ => rfl
    | ⟨1, _⟩ => exact absurd rfl hc
  · show 256 + (j.val - 256) = j.val
    omega
  · rw [r_v57 x0 x2 x3 x4 x5 x6 x7 x8 x9 x10 x11 x12 x13 x14 x15 x16 x17 x18 x19 x20 x21 x22 x23 x24 x25 x26 x27 x28 x29 x30 x31 x32 x33]
    exact (Net.get2_of_lt _ _ _ _ _).symm

end Cert.RStage

end
-- ==== Proof.RTrunkB.lean ====
/-
  The reference's stages after flattening, read at an index: for example b, the fourth affine layer, the partial
  pooling over groups of 4, the fifth affine layer and the second partial pooling — the trunk's output.
-/
import proofs.«125488_j18605798326416_1_alg».proof.Proof.RTrunkA
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RStage

open Idealize.ShloMosaic Idealize.ShloMosaic.ValueIdx Cert.ReferenceIdeal Cert.ReferenceIdeal.Read

variable (x0 : (⟨S32768x56x7, .f32⟩ : BufTy).Contents (Elt Ideal)) (x1 : (⟨S32768x81, .i1⟩ : BufTy).Contents (Elt Ideal)) (x2 : (⟨S256x56, .f32⟩ : BufTy).Contents (Elt Ideal)) (x3 : (⟨S256, .f32⟩ : BufTy).Contents (Elt Ideal)) (x4 : (⟨S7, .f32⟩ : BufTy).Contents (Elt Ideal)) (x5 : (⟨S7, .f32⟩ : BufTy).Contents (Elt Ideal)) (x6 : (⟨S7, .f32⟩ : BufTy).Contents (Elt Ideal)) (x7 : (⟨S7, .f32⟩ : BufTy).Contents (Elt Ideal)) (x8 : (⟨S256x256, .f32⟩ : BufTy).Contents (Elt Ideal)) (x9 : (⟨S256, .f32⟩ : BufTy).Contents (Elt Ideal)) (x10 : (⟨S248x224, .f32⟩ : BufTy).Contents (Elt Ideal)) (x11 : (⟨S248, .f32⟩ : BufTy).Contents (Elt Ideal)) (x12 : (⟨S128x256, .f32⟩ : BufTy).Contents (Elt Ideal)) (x13 : (⟨S128, .f32⟩ : BufTy).Contents (Elt Ideal)) (x14 : (⟨S256x704, .f32⟩ : BufTy).Contents (Elt Ideal)) (x15 : (⟨S256, .f32⟩ : BufTy).Contents (Elt Ideal)) (x16 : (⟨S248x240, .f32⟩ : BufTy).Contents (Elt Ideal)) (x17 : (⟨S248, .f32⟩ : BufTy).Contents (Elt Ideal)) (x18 : (⟨S128x256, .f32⟩ : BufTy).Contents (Elt Ideal)) (x19 : (⟨S128, .f32⟩ : BufTy).Contents (Elt Ideal)) (x20 : (⟨S120x112, .f32⟩ : BufTy).Contents (Elt Ideal)) (x21 : (⟨S120, .f32⟩ : BufTy).Contents (Elt Ideal)) (x22 : (⟨S128x128, .f32⟩ : BufTy).Contents (Elt Ideal)) (x23 : (⟨S128, .f32⟩ : BufTy).Contents (Elt Ideal)) (x24 : (⟨S81x128, .f32⟩ : BufTy).Contents (Elt Ideal)) (x25 : (⟨S81, .f32⟩ : BufTy).Contents (Elt Ideal)) (x26 : (⟨S128x128, .f32⟩ : BufTy).Contents (Elt Ideal)) (x27 : (⟨S128, .f32⟩ : BufTy).Contents (Elt Ideal)) (x28 : (⟨S1x128, .f32⟩ : BufTy).Contents (Elt Ideal)) (x29 : (⟨S1, .f32⟩ : BufTy).Contents (Elt Ideal)) (x30 : (⟨S128x128, .f32⟩ : BufTy).Contents (Elt Ideal)) (x31 : (⟨S128, .f32⟩ : BufTy).Contents (Elt Ideal)) (x32 : (⟨S31x128, .f32⟩ : BufTy).Contents (Elt Ideal)) (x33 : (⟨S31, .f32⟩ : BufTy).Contents (Elt Ideal))

/-- Two indices whose coordinates agree axis by axis are equal. -/
local macro "idx_rfl" : tactic => `(tactic| (funext a; apply Fin.ext; fin_cases a <;> rfl))

theorem r_a5 (b : Fin 32768) (o : Fin 256) :
    val_main_v64 (F := Ideal) x0 x2 x3 x4 x5 x6 x7 x8 x9 x10 x11 x12 x13 x14 x15 (ix3 b 0 o) = Net.a5 (refP x2 x3 x4 x5 x6 x7 x8 x9 x10 x11 x12 x13 x14 x15 x16 x17 x18 x19 x20 x21 x22 x23 x24 x25 x26 x27 x28 x29 x30 x31 x32 x33) (refX x0 b) o := by
  rw [val_main_v64_apply, val_main_v63_apply, val_main_v60_apply, val_main_v62_apply, val_main_v61_apply,
    val_main_call4_v0_apply, val_main_call4_cst_apply]
  unfold Net.a5 Net.relu Net.lin
  refine congrArg₂ max (congrArg₂ (· + ·) (Finset.sum_congr rfl fun k _ => ?_) (congrArg x15 (by idx_rfl))) rfl
  rw [val_main_v59_apply, show idx_main_v59 (lidx_main_v60 (ix3 b 0 o) k) = ix2 b k from by idx_rfl,
    r_flat x0 x2 x3 x4 x5 x6 x7 x8 x9 x10 x11 x12 x13 x14 x15 x16 x17 x18 x19 x20 x21 x22 x23 x24 x25 x26 x27 x28 x29 x30 x31 x32 x33 b k]
  exact congrArg (_ * ·) (congrArg x14 (by idx_rfl))

/-- One entry of the 4×4 head of the feature vector, read through the reshape and the slice. -/
theorem g4_cell (b : Fin 32768) (g i : Fin 4) :
    val_main_v66 (F := Ideal) x0 x2 x3 x4 x5 x6 x7 x8 x9 x10 x11 x12 x13 x14 x15 (ix4 b 0 g i) = Net.get (Net.a5 (refP x2 x3 x4 x5 x6 x7 x8 x9 x10 x11 x12 x13 x14 x15 x16 x17 x18 x19 x20 x21 x22 x23 x24 x25 x26 x27 x28 x29 x30 x31 x32 x33) (refX x0 b)) (g.val * 4 + i.val) := by
  have hg := g.isLt
  have hi := i.isLt
  have hlt : g.val * 4 + i.val < 256 := by omega
  rw [val_main_v66_apply, val_main_v65_apply, Net.get_of_lt _ _ hlt,
    show idx_main_v65 (idx_main_v66 (ix4 b 0 g i)) = ix3 b 0 (⟨g.val * 4 + i.val, hlt⟩ : Fin 256) from
      funext fun a => Fin.ext (by
        match a with
        | ⟨0, _⟩ => show (((b.val * 1 + 0) * 4 + g.val) * 4 + i.val) / 16 = b.val; omega
        | ⟨1, _⟩ => rfl
        | ⟨2, _⟩ => show (((b.val * 1 + 0) * 4 + g.val) * 4 + i.val) % 16 = g.val * 4 + i.val; omega),
    r_a5 x0 x2 x3 x4 x5 x6 x7 x8 x9 x10 x11 x12 x13 x14 x15 x16 x17 x18 x19 x20 x21 x22 x23 x24 x25 x26 x27 x28 x29 x30 x31 x32 x33 b]

/-- The maximum over one group of four entries. -/
theorem g4_max (b : Fin 32768) (g : Fin 4) :
    val_main_v73 (F := Ideal) x0 x2 x3 x4 x5 x6 x7 x8 x9 x10 x11 x12 x13 x14 x15 (ix3 b 0 g) = Net.vmax (fun i : Fin 4 => Net.get (Net.a5 (refP x2 x3 x4 x5 x6 x7 x8 x9 x10 x11 x12 x13 x14 x15 x16 x17 x18 x19 x20 x21 x22 x23 x24 x25 x26 x27 x28 x29 x30 x31 x32 x33) (refX x0 b)) (g.val * 4 + i.val)) := by
  have hR : S32768x1x4x4.Reduces [3] S32768x1x4 := by decide
  unfold val_main_v73
  refine (Host.reduce_eq_fold_single FloatOps.maximumf _ _ Gen.reducesTo_S32768x1x4x4_S32768x1x4_d3 hR Gen.h_S_ (ix3 b 0 g)).trans ?_
  show Finset.fold max Net.fninf (fun i : Fin 4 => val_main_v66 (F := Ideal) x0 x2 x3 x4 x5 x6 x7 x8 x9 x10 x11 x12 x13 x14 x15 (hR.lift (ix3 b 0 g) i)) Finset.univ = _
  unfold Net.vmax
  refine congrArg (fun f => Finset.fold max Net.fninf f (Finset.univ : Finset (Fin 4))) (funext fun i => ?_)
  beta_reduce
  rw [show hR.lift (ix3 b 0 g) i = ix4 b 0 g i from by idx_rfl, g4_cell]

/-- The mean over one group of four entries: the sum from the zero word, divided by the printed count. -/
theorem g4_mean (b : Fin 32768) (g : Fin 4) :
    val_main_v76 (F := Ideal) x0 x2 x3 x4 x5 x6 x7 x8 x9 x10 x11 x12 x13 x14 x15 (ix3 b 0 g) = Net.vmean Net.f4 (fun i : Fin 4 => Net.get (Net.a5 (refP x2 x3 x4 x5 x6 x7 x8 x9 x10 x11 x12 x13 x14 x15 x16 x17 x18 x19 x20 x21 x22 x23 x24 x25 x26 x27 x28 x29 x30 x31 x32 x33) (refX x0 b)) (g.val * 4 + i.val)) := by
  rw [val_main_v76_apply, val_main_v74_apply, val_main_v75_apply, val_main_cst_8_apply, val_main_cst_7_apply]
  unfold Net.vmean
  refine congrArg₂ Ideal.div ?_ rfl
  refine (congrArg (· + _) Ideal.ofBits_zero_f32).trans ((zero_add _).trans (Finset.sum_congr rfl fun i _ => ?_))
  rw [show idx_main_v74 (ix3 b 0 g) i = ix4 b 0 g i from by idx_rfl, g4_cell]

/-- The remaining entries through the affine layer and relu. -/
theorem g4_rest (b : Fin 32768) (r : Fin 248) :
    val_main_v72 (F := Ideal) x0 x2 x3 x4 x5 x6 x7 x8 x9 x10 x11 x12 x13 x14 x15 x16 x17 (ix3 b 0 r) = Net.relu (Net.lin (refP x2 x3 x4 x5 x6 x7 x8 x9 x10 x11 x12 x13 x14 x15 x16 x17 x18 x19 x20 x21 x22 x23 x24 x25 x26 x27 x28 x29 x30 x31 x32 x33).gp4w (refP x2 x3 x4 x5 x6 x7 x8 x9 x10 x11 x12 x13 x14 x15 x16 x17 x18 x19 x20 x21 x22 x23 x24 x25 x26 x27 x28 x29 x30 x31 x32 x33).gp4b (fun k : Fin 240 => Net.get (Net.a5 (refP x2 x3 x4 x5 x6 x7 x8 x9 x10 x11 x12 x13 x14 x15 x16 x17 x18 x19 x20 x21 x22 x23 x24 x25 x26 x27 x28 x29 x30 x31 x32 x33) (refX x0 b)) (4 * 4 + k.val)) r) := by
  rw [val_main_v72_apply, val_main_v71_apply, val_main_v68_apply, val_main_v70_apply, val_main_v69_apply,
    val_main_call5_v0_apply, val_main_call5_cst_apply]
  unfold Net.relu Net.lin
  refine congrArg₂ max (congrArg₂ (· + ·) (Finset.sum_congr rfl fun k _ => ?_) (congrArg x17 (by idx_rfl))) rfl
  beta_reduce
  have hk := k.isLt
  have hlt : 4 * 4 + k.val < 256 := by omega
  rw [val_main_v67_apply, Net.get_of_lt _ _ hlt,
    show idx_main_v67 (lidx_main_v68 (ix3 b 0 r) k) = ix3 b 0 (⟨4 * 4 + k.val, hlt⟩ : Fin 256) from
      funext fun a => Fin.ext (by
        match a with
        | ⟨0, _⟩ => rfl
        | ⟨1, _⟩ => rfl
        | ⟨2, _⟩ => show 16 + k.val = 4 * 4 + k.val; omega),
    r_a5 x0 x2 x3 x4 x5 x6 x7 x8 x9 x10 x11 x12 x13 x14 x15 x16 x17 x18 x19 x20 x21 x22 x23 x24 x25 x26 x27 x28 x29 x30 x31 x32 x33 b]
  exact congrArg (_ * ·) (congrArg x16 (by idx_rfl))

theorem r_g4 (b : Fin 32768) (j : Fin 256) :
    val_main_v77 (F := Ideal) x0 x2 x3 x4 x5 x6 x7 x8 x9 x10 x11 x12 x13 x14 x15 x16 x17 (ix3 b 0 j) = Net.g4 (refP x2 x3 x4 x5 x6 x7 x8 x9 x10 x11 x12 x13 x14 x15 x16 x17 x18 x19 x20 x21 x22 x23 x24 x25 x26 x27 x28 x29 x30 x31 x32 x33) (refX x0 b) j := by
  have hj := j.isLt
  unfold val_main_v77 Net.g4 Net.gpool
  by_cases h4 : j.val < 4
  · rw [if_pos h4]
    refine (concatenate_apply_piece _ _ _ (ix3 b 0 j) 0 (by simp) S32768x1x4 _ rfl rfl 0 rfl
      (ix3 b 0 (⟨j.val, h4⟩ : Fin 4)) ?_ ?_).trans ?_
    · intro c hc; fin_cases c <;> first | rfl | exact absurd rfl hc
    · exact Nat.zero_add _
    · exact g4_max x0 x2 x3 x4 x5 x6 x7 x8 x9 x10 x11 x12 x13 x14 x15 x16 x17 x18 x19 x20 x21 x22 x23 x24 x25 x26 x27 x28 x29 x30 x31 x32 x33 b ⟨j.val, h4⟩
  · rw [if_neg h4]
    by_cases h8 : j.val < 8
    · rw [if_pos h8]
      have hg : j.val - 4 < 4 := by omega
      refine (concatenate_apply_piece _ _ _ (ix3 b 0 j) 1 (by simp) S32768x1x4 _ rfl rfl 4 rfl
        (ix3 b 0 (⟨j.val - 4, hg⟩ : Fin 4)) ?_ ?_).trans ?_
      · intro c hc; fin_cases c <;> first | rfl | exact absurd rfl hc
      · show 4 + (j.val - 4) = j.val; omega
      · exact g4_mean x0 x2 x3 x4 x5 x6 x7 x8 x9 x10 x11 x12 x13 x14 x15 x16 x17 x18 x19 x20 x21 x22 x23 x24 x25 x26 x27 x28 x29 x30 x31 x32 x33 b ⟨j.val - 4, hg⟩
    · rw [if_neg h8]
      have hr : j.val - 8 < 248 := by omega
      rw [Net.get_of_lt _ _ hr]
      refine (concatenate_apply_piece _ _ _ (ix3 b 0 j) 2 (by simp) S32768x1x248 _ rfl rfl 8 rfl
        (ix3 b 0 (⟨j.val - 8, hr⟩ : Fin 248)) ?_ ?_).trans ?_
      · intro c hc; fin_cases c <;> first | rfl | exact absurd rfl hc
      · show 8 + (j.val - 8) = j.val; omega
      · exact g4_rest x0 x2 x3 x4 x5 x6 x7 x8 x9 x10 x11 x12 x13 x14 x15 x16 x17 x18 x19 x20 x21 x22 x23 x24 x25 x26 x27 x28 x29 x30 x31 x32 x33 b ⟨j.val - 8, hr⟩

theorem r_a6 (b : Fin 32768) (o : Fin 128) :
    val_main_v82 (F := Ideal) x0 x2 x3 x4 x5 x6 x7 x8 x9 x10 x11 x12 x13 x14 x15 x16 x17 x18 x19 (ix3 b 0 o) = Net.a6 (refP x2 x3 x4 x5 x6 x7 x8 x9 x10 x11 x12 x13 x14 x15 x16 x17 x18 x19 x20 x21 x22 x23 x24 x25 x26 x27 x28 x29 x30 x31 x32 x33) (refX x0 b) o := by
  rw [val_main_v82_apply, val_main_v81_apply, val_main_v78_apply, val_main_v80_apply, val_main_v79_apply,
    val_main_call6_v0_apply, val_main_call6_cst_apply]
  unfold Net.a6 Net.relu Net.lin
  refine congrArg₂ max (congrArg₂ (· + ·) (Finset.sum_congr rfl fun k _ => ?_) (congrArg x19 (by idx_rfl))) rfl
  rw [show lidx_main_v78 (ix3 b 0 o) k = ix3 b 0 k from by idx_rfl, r_g4 x0 x2 x3 x4 x5 x6 x7 x8 x9 x10 x11 x12 x13 x14 x15 x16 x17 x18 x19 x20 x21 x22 x23 x24 x25 x26 x27 x28 x29 x30 x31 x32 x33 b k]
  exact congrArg (_ * ·) (congrArg x18 (by idx_rfl))

/-- One entry of the 4×4 head of the feature vector, read through the reshape and the slice. -/
theorem g5_cell (b : Fin 32768) (g i : Fin 4) :
    val_main_v84 (F := Ideal) x0 x2 x3 x4 x5 x6 x7 x8 x9 x10 x11 x12 x13 x14 x15 x16 x17 x18 x19 (ix4 b 0 g i) = Net.get (Net.a6 (refP x2 x3 x4 x5 x6 x7 x8 x9 x10 x11 x12 x13 x14 x15 x16 x17 x18 x19 x20 x21 x22 x23 x24 x25 x26 x27 x28 x29 x30 x31 x32 x33) (refX x0 b)) (g.val * 4 + i.val) := by
  have hg := g.isLt
  have hi := i.isLt
  have hlt : g.val * 4 + i.val < 128 := by omega
  rw [val_main_v84_apply, val_main_v83_apply, Net.get_of_lt _ _ hlt,
    show idx_main_v83 (idx_main_v84 (ix4 b 0 g i)) = ix3 b 0 (⟨g.val * 4 + i.val, hlt⟩ : Fin 128) from
      funext fun a => Fin.ext (by
        match a with
        | ⟨0, _⟩ => show (((b.val * 1 + 0) * 4 + g.val) * 4 + i.val) / 16 = b.val; omega
        | ⟨1, _⟩ => rfl
        | ⟨2, _⟩ => show (((b.val * 1 + 0) * 4 + g.val) * 4 + i.val) % 16 = g.val * 4 + i.val; omega),
    r_a6 x0 x2 x3 x4 x5 x6 x7 x8 x9 x10 x11 x12 x13 x14 x15 x16 x17 x18 x19 x20 x21 x22 x23 x24 x25 x26 x27 x28 x29 x30 x31 x32 x33 b]

/-- The maximum over one group of four entries. -/
theorem g5_max (b : Fin 32768) (g : Fin 4) :
    val_main_v91 (F := Ideal) x0 x2 x3 x4 x5 x6 x7 x8 x9 x10 x11 x12 x13 x14 x15 x16 x17 x18 x19 (ix3 b 0 g) = Net.vmax (fun i : Fin 4 => Net.get (Net.a6 (refP x2 x3 x4 x5 x6 x7 x8 x9 x10 x11 x12 x13 x14 x15 x16 x17 x18 x19 x20 x21 x22 x23 x24 x25 x26 x27 x28 x29 x30 x31 x32 x33) (refX x0 b)) (g.val * 4 + i.val)) := by
  have hR : S32768x1x4x4.Reduces [3] S32768x1x4 := by decide
  unfold val_main_v91
  refine (Host.reduce_eq_fold_single FloatOps.maximumf _ _ Gen.reducesTo_S32768x1x4x4_S32768x1x4_d3 hR Gen.h_S_ (ix3 b 0 g)).trans ?_
  show Finset.fold max Net.fninf (fun i : Fin 4 => val_main_v84 (F := Ideal) x0 x2 x3 x4 x5 x6 x7 x8 x9 x10 x11 x12 x13 x14 x15 x16 x17 x18 x19 (hR.lift (ix3 b 0 g) i)) Finset.univ = _
  unfold Net.vmax
  refine congrArg (fun f => Finset.fold max Net.fninf f (Finset.univ : Finset (Fin 4))) (funext fun i => ?_)
  beta_reduce
  rw [show hR.lift (ix3 b 0 g) i = ix4 b 0 g i from by idx_rfl, g5_cell]

/-- The mean over one group of four entries: the sum from the zero word, divided by the printed count. -/
theorem g5_mean (b : Fin 32768) (g : Fin 4) :
    val_main_v94 (F := Ideal) x0 x2 x3 x4 x5 x6 x7 x8 x9 x10 x11 x12 x13 x14 x15 x16 x17 x18 x19 (ix3 b 0 g) = Net.vmean Net.f4 (fun i : Fin 4 => Net.get (Net.a6 (refP x2 x3 x4 x5 x6 x7 x8 x9 x10 x11 x12 x13 x14 x15 x16 x17 x18 x19 x20 x21 x22 x23 x24 x25 x26 x27 x28 x29 x30 x31 x32 x33) (refX x0 b)) (g.val * 4 + i.val)) := by
  rw [val_main_v94_apply, val_main_v92_apply, val_main_v93_apply, val_main_cst_11_apply, val_main_cst_10_apply]
  unfold Net.vmean
  refine congrArg₂ Ideal.div ?_ rfl
  refine (congrArg (· + _) Ideal.ofBits_zero_f32).trans ((zero_add _).trans (Finset.sum_congr rfl fun i _ => ?_))
  rw [show idx_main_v92 (ix3 b 0 g) i = ix4 b 0 g i from by idx_rfl, g5_cell]

/-- The remaining entries through the affine layer and relu. -/
theorem g5_rest (b : Fin 32768) (r : Fin 120) :
    val_main_v90 (F := Ideal) x0 x2 x3 x4 x5 x6 x7 x8 x9 x10 x11 x12 x13 x14 x15 x16 x17 x18 x19 x20 x21 (ix3 b 0 r) = Net.relu (Net.lin (refP x2 x3 x4 x5 x6 x7 x8 x9 x10 x11 x12 x13 x14 x15 x16 x17 x18 x19 x20 x21 x22 x23 x24 x25 x26 x27 x28 x29 x30 x31 x32 x33).gp5w (refP x2 x3 x4 x5 x6 x7 x8 x9 x10 x11 x12 x13 x14 x15 x16 x17 x18 x19 x20 x21 x22 x23 x24 x25 x26 x27 x28 x29 x30 x31 x32 x33).gp5b (fun k : Fin 112 => Net.get (Net.a6 (refP x2 x3 x4 x5 x6 x7 x8 x9 x10 x11 x12 x13 x14 x15 x16 x17 x18 x19 x20 x21 x22 x23 x24 x25 x26 x27 x28 x29 x30 x31 x32 x33) (refX x0 b)) (4 * 4 + k.val)) r) := by
  rw [val_main_v90_apply, val_main_v89_apply, val_main_v86_apply, val_main_v88_apply, val_main_v87_apply,
    val_main_call7_v0_apply, val_main_call7_cst_apply]
  unfold Net.relu Net.lin
  refine congrArg₂ max (congrArg₂ (· + ·) (Finset.sum_congr rfl fun k _ => ?_) (congrArg x21 (by idx_rfl))) rfl
  beta_reduce
  have hk := k.isLt
  have hlt : 4 * 4 + k.val < 128 := by omega
  rw [val_main_v85_apply, Net.get_of_lt _ _ hlt,
    show idx_main_v85 (lidx_main_v86 (ix3 b 0 r) k) = ix3 b 0 (⟨4 * 4 + k.val, hlt⟩ : Fin 128) from
      funext fun a => Fin.ext (by
        match a with
        | ⟨0, _⟩ => rfl
        | ⟨1, _⟩ => rfl
        | ⟨2, _⟩ => show 16 + k.val = 4 * 4 + k.val; omega),
    r_a6 x0 x2 x3 x4 x5 x6 x7 x8 x9 x10 x11 x12 x13 x14 x15 x16 x17 x18 x19 x20 x21 x22 x23 x24 x25 x26 x27 x28 x29 x30 x31 x32 x33 b]
  exact congrArg (_ * ·) (congrArg x20 (by idx_rfl))

/-- The trunk's output. -/
theorem r_g5 (b : Fin 32768) (j : Fin 128) :
    val_main_v95 (F := Ideal) x0 x2 x3 x4 x5 x6 x7 x8 x9 x10 x11 x12 x13 x14 x15 x16 x17 x18 x19 x20 x21 (ix3 b 0 j) = Net.g5 (refP x2 x3 x4 x5 x6 x7 x8 x9 x10 x11 x12 x13 x14 x15 x16 x17 x18 x19 x20 x21 x22 x23 x24 x25 x26 x27 x28 x29 x30 x31 x32 x33) (refX x0 b) j := by
  have hj := j.isLt
  unfold val_main_v95 Net.g5 Net.gpool
  by_cases h4 : j.val < 4
  · rw [if_pos h4]
    refine (concatenate_apply_piece _ _ _ (ix3 b 0 j) 0 (by simp) S32768x1x4 _ rfl rfl 0 rfl
      (ix3 b 0 (⟨j.val, h4⟩ : Fin 4)) ?_ ?_).trans ?_
    · intro c hc; fin_cases c <;> first | rfl | exact absurd rfl hc
    · exact Nat.zero_add _
    · exact g5_max x0 x2 x3 x4 x5 x6 x7 x8 x9 x10 x11 x12 x13 x14 x15 x16 x17 x18 x19 x20 x21 x22 x23 x24 x25 x26 x27 x28 x29 x30 x31 x32 x33 b ⟨j.val, h4⟩
  · rw [if_neg h4]
    by_cases h8 : j.val < 8
    · rw [if_pos h8]
      have hg : j.val - 4 < 4 := by omega
      refine (concatenate_apply_piece _ _ _ (ix3 b 0 j) 1 (by simp) S32768x1x4 _ rfl rfl 4 rfl
        (ix3 b 0 (⟨j.val - 4, hg⟩ : Fin 4)) ?_ ?_).trans ?_
      · intro c hc; fin_cases c <;> first | rfl | exact absurd rfl hc
      · show 4 + (j.val - 4) = j.val; omega
      · exact g5_mean x0 x2 x3 x4 x5 x6 x7 x8 x9 x10 x11 x12 x13 x14 x15 x16 x17 x18 x19 x20 x21 x22 x23 x24 x25 x26 x27 x28 x29 x30 x31 x32 x33 b ⟨j.val - 4, hg⟩
    · rw [if_neg h8]
      have hr : j.val - 8 < 120 := by omega
      rw [Net.get_of_lt _ _ hr]
      refine (concatenate_apply_piece _ _ _ (ix3 b 0 j) 2 (by simp) S32768x1x120 _ rfl rfl 8 rfl
        (ix3 b 0 (⟨j.val - 8, hr⟩ : Fin 120)) ?_ ?_).trans ?_
      · intro c hc; fin_cases c <;> first | rfl | exact absurd rfl hc
      · show 8 + (j.val - 8) = j.val; omega
      · exact g5_rest x0 x2 x3 x4 x5 x6 x7 x8 x9 x10 x11 x12 x13 x14 x15 x16 x17 x18 x19 x20 x21 x22 x23 x24 x25 x26 x27 x28 x29 x30 x31 x32 x33 b ⟨j.val - 8, hr⟩

end Cert.RStage

end
-- ==== Proof.RHeads.lean ====
/-
  The reference's three results read at an index: for example b, the masked policy logits under log_softmax, the
  value under tanh, the score-difference logits under log_softmax.
-/
import proofs.«125488_j18605798326416_1_alg».proof.Proof.RTrunkB
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RStage

open Idealize.ShloMosaic Idealize.ShloMosaic.ValueIdx Cert.ReferenceIdeal Cert.ReferenceIdeal.Read

variable (x0 : (⟨S32768x56x7, .f32⟩ : BufTy).Contents (Elt Ideal)) (x1 : (⟨S32768x81, .i1⟩ : BufTy).Contents (Elt Ideal)) (x2 : (⟨S256x56, .f32⟩ : BufTy).Contents (Elt Ideal)) (x3 : (⟨S256, .f32⟩ : BufTy).Contents (Elt Ideal)) (x4 : (⟨S7, .f32⟩ : BufTy).Contents (Elt Ideal)) (x5 : (⟨S7, .f32⟩ : BufTy).Contents (Elt Ideal)) (x6 : (⟨S7, .f32⟩ : BufTy).Contents (Elt Ideal)) (x7 : (⟨S7, .f32⟩ : BufTy).Contents (Elt Ideal)) (x8 : (⟨S256x256, .f32⟩ : BufTy).Contents (Elt Ideal)) (x9 : (⟨S256, .f32⟩ : BufTy).Contents (Elt Ideal)) (x10 : (⟨S248x224, .f32⟩ : BufTy).Contents (Elt Ideal)) (x11 : (⟨S248, .f32⟩ : BufTy).Contents (Elt Ideal)) (x12 : (⟨S128x256, .f32⟩ : BufTy).Contents (Elt Ideal)) (x13 : (⟨S128, .f32⟩ : BufTy).Contents (Elt Ideal)) (x14 : (⟨S256x704, .f32⟩ : BufTy).Contents (Elt Ideal)) (x15 : (⟨S256, .f32⟩ : BufTy).Contents (Elt Ideal)) (x16 : (⟨S248x240, .f32⟩ : BufTy).Contents (Elt Ideal)) (x17 : (⟨S248, .f32⟩ : BufTy).Contents (Elt Ideal)) (x18 : (⟨S128x256, .f32⟩ : BufTy).Contents (Elt Ideal)) (x19 : (⟨S128, .f32⟩ : BufTy).Contents (Elt Ideal)) (x20 : (⟨S120x112, .f32⟩ : BufTy).Contents (Elt Ideal)) (x21 : (⟨S120, .f32⟩ : BufTy).Contents (Elt Ideal)) (x22 : (⟨S128x128, .f32⟩ : BufTy).Contents (Elt Ideal)) (x23 : (⟨S128, .f32⟩ : BufTy).Contents (Elt Ideal)) (x24 : (⟨S81x128, .f32⟩ : BufTy).Contents (Elt Ideal)) (x25 : (⟨S81, .f32⟩ : BufTy).Contents (Elt Ideal)) (x26 : (⟨S128x128, .f32⟩ : BufTy).Contents (Elt Ideal)) (x27 : (⟨S128, .f32⟩ : BufTy).Contents (Elt Ideal)) (x28 : (⟨S1x128, .f32⟩ : BufTy).Contents (Elt Ideal)) (x29 : (⟨S1, .f32⟩ : BufTy).Contents (Elt Ideal)) (x30 : (⟨S128x128, .f32⟩ : BufTy).Contents (Elt Ideal)) (x31 : (⟨S128, .f32⟩ : BufTy).Contents (Elt Ideal)) (x32 : (⟨S31x128, .f32⟩ : BufTy).Contents (Elt Ideal)) (x33 : (⟨S31, .f32⟩ : BufTy).Contents (Elt Ideal))

/-- Two indices whose coordinates agree axis by axis are equal. -/
local macro "idx_rfl" : tactic => `(tactic| (funext a; apply Fin.ext; fin_cases a <;> rfl))

/-- An affine layer at one output. -/
theorem lin_apply {K N : ℕ} (w : Fin N → Fin K → EReal) (c : Fin N → EReal) (x : Fin K → EReal) (o : Fin N) :
    Net.lin w c x o = (∑ k : Fin K, x k * w o k) + c o := rfl

/-- The head's hidden layer: an affine layer of the trunk's output. -/
theorem pi_hidden (b : Fin 32768) (k : Fin 128) :
    val_main_v99 (F := Ideal) x0 x2 x3 x4 x5 x6 x7 x8 x9 x10 x11 x12 x13 x14 x15 x16 x17 x18 x19 x20 x21 x22 x23 (ix3 b 0 k) = (Net.lin (refP x2 x3 x4 x5 x6 x7 x8 x9 x10 x11 x12 x13 x14 x15 x16 x17 x18 x19 x20 x21 x22 x23 x24 x25 x26 x27 x28 x29 x30 x31 x32 x33).piw1 (refP x2 x3 x4 x5 x6 x7 x8 x9 x10 x11 x12 x13 x14 x15 x16 x17 x18 x19 x20 x21 x22 x23 x24 x25 x26 x27 x28 x29 x30 x31 x32 x33).pib1 (Net.g5 (refP x2 x3 x4 x5 x6 x7 x8 x9 x10 x11 x12 x13 x14 x15 x16 x17 x18 x19 x20 x21 x22 x23 x24 x25 x26 x27 x28 x29 x30 x31 x32 x33) (refX x0 b))) k := by
  rw [val_main_v99_apply, val_main_v96_apply, val_main_v98_apply, val_main_v97_apply, lin_apply]
  refine congrArg₂ (· + ·) (Finset.sum_congr rfl fun m _ => ?_) (congrArg x23 (by idx_rfl))
  rw [show lidx_main_v96 (ix3 b 0 k) m = ix3 b 0 m from by idx_rfl, r_g5 x0 x2 x3 x4 x5 x6 x7 x8 x9 x10 x11 x12 x13 x14 x15 x16 x17 x18 x19 x20 x21 x22 x23 x24 x25 x26 x27 x28 x29 x30 x31 x32 x33 b m]
  exact congrArg (_ * ·) (congrArg x22 (by idx_rfl))

/-- The head's output layer, read through the final reshape. -/
theorem pi_out (b : Fin 32768) (j : Fin 81) :
    val_main_v104 (F := Ideal) x0 x2 x3 x4 x5 x6 x7 x8 x9 x10 x11 x12 x13 x14 x15 x16 x17 x18 x19 x20 x21 x22 x23 x24 x25 (ix2 b j) = Net.lin (refP x2 x3 x4 x5 x6 x7 x8 x9 x10 x11 x12 x13 x14 x15 x16 x17 x18 x19 x20 x21 x22 x23 x24 x25 x26 x27 x28 x29 x30 x31 x32 x33).piw2 (refP x2 x3 x4 x5 x6 x7 x8 x9 x10 x11 x12 x13 x14 x15 x16 x17 x18 x19 x20 x21 x22 x23 x24 x25 x26 x27 x28 x29 x30 x31 x32 x33).pib2 (Net.lin (refP x2 x3 x4 x5 x6 x7 x8 x9 x10 x11 x12 x13 x14 x15 x16 x17 x18 x19 x20 x21 x22 x23 x24 x25 x26 x27 x28 x29 x30 x31 x32 x33).piw1 (refP x2 x3 x4 x5 x6 x7 x8 x9 x10 x11 x12 x13 x14 x15 x16 x17 x18 x19 x20 x21 x22 x23 x24 x25 x26 x27 x28 x29 x30 x31 x32 x33).pib1 (Net.g5 (refP x2 x3 x4 x5 x6 x7 x8 x9 x10 x11 x12 x13 x14 x15 x16 x17 x18 x19 x20 x21 x22 x23 x24 x25 x26 x27 x28 x29 x30 x31 x32 x33) (refX x0 b))) j := by
  have hj := j.isLt
  rw [val_main_v104_apply, show idx_main_v104 (ix2 b j) = ix3 b 0 j from
      funext fun a => Fin.ext (by
        match a with
        | ⟨0, _⟩ => show (b.val * 81 + j.val) / 81 = b.val; omega
        | ⟨1, _⟩ => rfl
        | ⟨2, _⟩ => show (b.val * 81 + j.val) % 81 = j.val; omega),
    val_main_v103_apply, val_main_v100_apply, val_main_v102_apply, val_main_v101_apply, lin_apply]
  refine congrArg₂ (· + ·) (Finset.sum_congr rfl fun k _ => ?_) (congrArg x25 (by idx_rfl))
  rw [show lidx_main_v100 (ix3 b 0 j) k = ix3 b 0 k from by idx_rfl, pi_hidden x0 x2 x3 x4 x5 x6 x7 x8 x9 x10 x11 x12 x13 x14 x15 x16 x17 x18 x19 x20 x21 x22 x23 x24 x25 x26 x27 x28 x29 x30 x31 x32 x33 b k]
  exact congrArg (_ * ·) (congrArg x24 (by idx_rfl))

/-- A masked policy logit: the logit where the action's flag is set, the large negative literal elsewhere. -/
theorem pi_logit (b : Fin 32768) (j : Fin 81) :
    val_main_v123 (F := Ideal) x0 x1 x2 x3 x4 x5 x6 x7 x8 x9 x10 x11 x12 x13 x14 x15 x16 x17 x18 x19 x20 x21 x22 x23 x24 x25 (ix2 b j) = Net.maskv (refFlags x1 b j) (Net.lin (refP x2 x3 x4 x5 x6 x7 x8 x9 x10 x11 x12 x13 x14 x15 x16 x17 x18 x19 x20 x21 x22 x23 x24 x25 x26 x27 x28 x29 x30 x31 x32 x33).piw2 (refP x2 x3 x4 x5 x6 x7 x8 x9 x10 x11 x12 x13 x14 x15 x16 x17 x18 x19 x20 x21 x22 x23 x24 x25 x26 x27 x28 x29 x30 x31 x32 x33).pib2 (Net.lin (refP x2 x3 x4 x5 x6 x7 x8 x9 x10 x11 x12 x13 x14 x15 x16 x17 x18 x19 x20 x21 x22 x23 x24 x25 x26 x27 x28 x29 x30 x31 x32 x33).piw1 (refP x2 x3 x4 x5 x6 x7 x8 x9 x10 x11 x12 x13 x14 x15 x16 x17 x18 x19 x20 x21 x22 x23 x24 x25 x26 x27 x28 x29 x30 x31 x32 x33).pib1 (Net.g5 (refP x2 x3 x4 x5 x6 x7 x8 x9 x10 x11 x12 x13 x14 x15 x16 x17 x18 x19 x20 x21 x22 x23 x24 x25 x26 x27 x28 x29 x30 x31 x32 x33) (refX x0 b))) j) := by
  rw [val_main_v123_apply, val_main_call8_v1_apply, val_main_call8_v0_apply, val_main_cst_12_apply, pi_out x0 x2 x3 x4 x5 x6 x7 x8 x9 x10 x11 x12 x13 x14 x15 x16 x17 x18 x19 x20 x21 x22 x23 x24 x25 x26 x27 x28 x29 x30 x31 x32 x33 b j]
  rfl

/-- The row maximum the reference subtracts: the maximum of −∞ and the fold from −∞ is that fold. -/
theorem pi_max (b : Fin 32768) :
    val_main_call9_v2 (F := Ideal) x0 x1 x2 x3 x4 x5 x6 x7 x8 x9 x10 x11 x12 x13 x14 x15 x16 x17 x18 x19 x20 x21 x22 x23 x24 x25 (ix1 b) = Net.vmax (fun i : Fin 81 => val_main_v123 (F := Ideal) x0 x1 x2 x3 x4 x5 x6 x7 x8 x9 x10 x11 x12 x13 x14 x15 x16 x17 x18 x19 x20 x21 x22 x23 x24 x25 (ix2 b i)) := by
  have hR : S32768x81.Reduces [1] S32768 := by decide
  rw [val_main_call9_v2_apply, val_main_call9_v1_apply, val_main_call9_cst_0_apply]
  unfold val_main_call9_v0
  rw [Host.reduce_eq_fold_single FloatOps.maximumf _ _ Gen.reducesTo_S32768x81_S32768_d1 hR Gen.h_S_ (ix1 b)]
  show max Net.fninf (Finset.fold max Net.fninf (fun i : Fin 81 => val_main_v123 (F := Ideal) x0 x1 x2 x3 x4 x5 x6 x7 x8 x9 x10 x11 x12 x13 x14 x15 x16 x17 x18 x19 x20 x21 x22 x23 x24 x25 (hR.lift (ix1 b) i)) Finset.univ) = _
  rw [max_eq_right ((Finset.le_fold_max _).2 (Or.inl le_rfl))]
  unfold Net.vmax
  refine congrArg (fun f => Finset.fold max Net.fninf f (Finset.univ : Finset (Fin 81))) (funext fun i => ?_)
  exact congrArg (val_main_v123 (F := Ideal) x0 x1 x2 x3 x4 x5 x6 x7 x8 x9 x10 x11 x12 x13 x14 x15 x16 x17 x18 x19 x20 x21 x22 x23 x24 x25) (by idx_rfl)

/-- An entry less the row maximum, as the reference forms it. -/
theorem pi_shift (b : Fin 32768) (i : Fin 81) :
    val_main_call9_v5 (F := Ideal) x0 x1 x2 x3 x4 x5 x6 x7 x8 x9 x10 x11 x12 x13 x14 x15 x16 x17 x18 x19 x20 x21 x22 x23 x24 x25 (ix2 b i) = val_main_v123 (F := Ideal) x0 x1 x2 x3 x4 x5 x6 x7 x8 x9 x10 x11 x12 x13 x14 x15 x16 x17 x18 x19 x20 x21 x22 x23 x24 x25 (ix2 b i) - Net.vmax (fun i : Fin 81 => val_main_v123 (F := Ideal) x0 x1 x2 x3 x4 x5 x6 x7 x8 x9 x10 x11 x12 x13 x14 x15 x16 x17 x18 x19 x20 x21 x22 x23 x24 x25 (ix2 b i)) := by
  rw [val_main_call9_v5_apply, val_main_call9_v4_apply, val_main_call9_v3_apply,
    show idx_main_call9_v3 (idx_main_call9_v4 (ix2 b i)) = ix1 b from by idx_rfl, pi_max x0 x1 x2 x3 x4 x5 x6 x7 x8 x9 x10 x11 x12 x13 x14 x15 x16 x17 x18 x19 x20 x21 x22 x23 x24 x25 b,
    Ideal.subf_def]

/-- The row's sum of exponentials, from the zero word. -/
theorem pi_sumexp (b : Fin 32768) :
    val_main_call9_v7 (F := Ideal) x0 x1 x2 x3 x4 x5 x6 x7 x8 x9 x10 x11 x12 x13 x14 x15 x16 x17 x18 x19 x20 x21 x22 x23 x24 x25 (ix1 b) = ∑ i : Fin 81, Ideal.exp (val_main_v123 (F := Ideal) x0 x1 x2 x3 x4 x5 x6 x7 x8 x9 x10 x11 x12 x13 x14 x15 x16 x17 x18 x19 x20 x21 x22 x23 x24 x25 (ix2 b i) - Net.vmax (fun i : Fin 81 => val_main_v123 (F := Ideal) x0 x1 x2 x3 x4 x5 x6 x7 x8 x9 x10 x11 x12 x13 x14 x15 x16 x17 x18 x19 x20 x21 x22 x23 x24 x25 (ix2 b i))) := by
  rw [val_main_call9_v7_apply, val_main_call9_cst_1_apply]
  refine (congrArg (· + _) Ideal.ofBits_zero_f32).trans ((zero_add _).trans (Finset.sum_congr rfl fun i _ => ?_))
  rw [val_main_call9_v6_apply, show idx_main_call9_v7 (ix1 b) i = ix2 b i from by idx_rfl, pi_shift x0 x1 x2 x3 x4 x5 x6 x7 x8 x9 x10 x11 x12 x13 x14 x15 x16 x17 x18 x19 x20 x21 x22 x23 x24 x25 b i,
    Ideal.hostUnary_exp_def]

/-- The reference's log_softmax of a row is the specification's. -/
theorem pi_lsm (b : Fin 32768) (j : Fin 81) :
    val_main_v124 (F := Ideal) x0 x1 x2 x3 x4 x5 x6 x7 x8 x9 x10 x11 x12 x13 x14 x15 x16 x17 x18 x19 x20 x21 x22 x23 x24 x25 (ix2 b j) = Net.logsoftmax (fun i : Fin 81 => val_main_v123 (F := Ideal) x0 x1 x2 x3 x4 x5 x6 x7 x8 x9 x10 x11 x12 x13 x14 x15 x16 x17 x18 x19 x20 x21 x22 x23 x24 x25 (ix2 b i)) j := by
  rw [val_main_v124_apply, val_main_call9_v10_apply, val_main_call9_v9_apply, val_main_call9_v8_apply,
    show idx_main_call9_v8 (idx_main_call9_v10 (ix2 b j)) = ix1 b from by idx_rfl,
    pi_sumexp x0 x1 x2 x3 x4 x5 x6 x7 x8 x9 x10 x11 x12 x13 x14 x15 x16 x17 x18 x19 x20 x21 x22 x23 x24 x25 b, pi_shift x0 x1 x2 x3 x4 x5 x6 x7 x8 x9 x10 x11 x12 x13 x14 x15 x16 x17 x18 x19 x20 x21 x22 x23 x24 x25 b j,
    Ideal.subf_def, Ideal.hostUnary_log_def]
  unfold Net.logsoftmax
  rfl

theorem r_pi (b : Fin 32768) (j : Fin 81) :
    val_main_v124 (F := Ideal) x0 x1 x2 x3 x4 x5 x6 x7 x8 x9 x10 x11 x12 x13 x14 x15 x16 x17 x18 x19 x20 x21 x22 x23 x24 x25 (ix2 b j) = Net.outPi (refP x2 x3 x4 x5 x6 x7 x8 x9 x10 x11 x12 x13 x14 x15 x16 x17 x18 x19 x20 x21 x22 x23 x24 x25 x26 x27 x28 x29 x30 x31 x32 x33) (refX x0 b) (refFlags x1 b) j := by
  rw [pi_lsm x0 x1 x2 x3 x4 x5 x6 x7 x8 x9 x10 x11 x12 x13 x14 x15 x16 x17 x18 x19 x20 x21 x22 x23 x24 x25 b j]
  unfold Net.outPi
  exact congrArg (fun z => Net.logsoftmax z j) (funext fun i => pi_logit x0 x1 x2 x3 x4 x5 x6 x7 x8 x9 x10 x11 x12 x13 x14 x15 x16 x17 x18 x19 x20 x21 x22 x23 x24 x25 x26 x27 x28 x29 x30 x31 x32 x33 b i)

/-- The head's hidden layer: an affine layer of the trunk's output. -/
theorem v_hidden (b : Fin 32768) (k : Fin 128) :
    val_main_v108 (F := Ideal) x0 x2 x3 x4 x5 x6 x7 x8 x9 x10 x11 x12 x13 x14 x15 x16 x17 x18 x19 x20 x21 x26 x27 (ix3 b 0 k) = (Net.lin (refP x2 x3 x4 x5 x6 x7 x8 x9 x10 x11 x12 x13 x14 x15 x16 x17 x18 x19 x20 x21 x22 x23 x24 x25 x26 x27 x28 x29 x30 x31 x32 x33).vw1 (refP x2 x3 x4 x5 x6 x7 x8 x9 x10 x11 x12 x13 x14 x15 x16 x17 x18 x19 x20 x21 x22 x23 x24 x25 x26 x27 x28 x29 x30 x31 x32 x33).vb1 (Net.g5 (refP x2 x3 x4 x5 x6 x7 x8 x9 x10 x11 x12 x13 x14 x15 x16 x17 x18 x19 x20 x21 x22 x23 x24 x25 x26 x27 x28 x29 x30 x31 x32 x33) (refX x0 b))) k := by
  rw [val_main_v108_apply, val_main_v105_apply, val_main_v107_apply, val_main_v106_apply, lin_apply]
  refine congrArg₂ (· + ·) (Finset.sum_congr rfl fun m _ => ?_) (congrArg x27 (by idx_rfl))
  rw [show lidx_main_v105 (ix3 b 0 k) m = ix3 b 0 m from by idx_rfl, r_g5 x0 x2 x3 x4 x5 x6 x7 x8 x9 x10 x11 x12 x13 x14 x15 x16 x17 x18 x19 x20 x21 x22 x23 x24 x25 x26 x27 x28 x29 x30 x31 x32 x33 b m]
  exact congrArg (_ * ·) (congrArg x26 (by idx_rfl))

/-- The head's output layer, read through the final reshape. -/
theorem v_out (b : Fin 32768) (j : Fin 1) :
    val_main_v113 (F := Ideal) x0 x2 x3 x4 x5 x6 x7 x8 x9 x10 x11 x12 x13 x14 x15 x16 x17 x18 x19 x20 x21 x26 x27 x28 x29 (ix2 b j) = Net.lin (refP x2 x3 x4 x5 x6 x7 x8 x9 x10 x11 x12 x13 x14 x15 x16 x17 x18 x19 x20 x21 x22 x23 x24 x25 x26 x27 x28 x29 x30 x31 x32 x33).vw2 (refP x2 x3 x4 x5 x6 x7 x8 x9 x10 x11 x12 x13 x14 x15 x16 x17 x18 x19 x20 x21 x22 x23 x24 x25 x26 x27 x28 x29 x30 x31 x32 x33).vb2 (Net.lin (refP x2 x3 x4 x5 x6 x7 x8 x9 x10 x11 x12 x13 x14 x15 x16 x17 x18 x19 x20 x21 x22 x23 x24 x25 x26 x27 x28 x29 x30 x31 x32 x33).vw1 (refP x2 x3 x4 x5 x6 x7 x8 x9 x10 x11 x12 x13 x14 x15 x16 x17 x18 x19 x20 x21 x22 x23 x24 x25 x26 x27 x28 x29 x30 x31 x32 x33).vb1 (Net.g5 (refP x2 x3 x4 x5 x6 x7 x8 x9 x10 x11 x12 x13 x14 x15 x16 x17 x18 x19 x20 x21 x22 x23 x24 x25 x26 x27 x28 x29 x30 x31 x32 x33) (refX x0 b))) j := by
  have hj := j.isLt
  have hj0 : j = 0 := Subsingleton.elim _ _
  subst hj0
  rw [val_main_v113_apply, show idx_main_v113 (ix2 b (0 : Fin 1)) = ix3 b 0 (0 : Fin 1) from
      funext fun a => Fin.ext (by
        match a with
        | ⟨0, _⟩ => show (b.val * 1 + 0) / 1 = b.val; omega
        | ⟨1, _⟩ => rfl
        | ⟨2, _⟩ => rfl),
    val_main_v112_apply, val_main_v109_apply, val_main_v111_apply, val_main_v110_apply, lin_apply]
  refine congrArg₂ (· + ·) (Finset.sum_congr rfl fun k _ => ?_) (congrArg x29 (by idx_rfl))
  rw [show lidx_main_v109 (ix3 b 0 (0 : Fin 1)) k = ix3 b 0 k from by idx_rfl, v_hidden x0 x2 x3 x4 x5 x6 x7 x8 x9 x10 x11 x12 x13 x14 x15 x16 x17 x18 x19 x20 x21 x22 x23 x24 x25 x26 x27 x28 x29 x30 x31 x32 x33 b k]
  exact congrArg (_ * ·) (congrArg x28 (by idx_rfl))

theorem r_v (b : Fin 32768) (j : Fin 1) :
    val_main_v125 (F := Ideal) x0 x2 x3 x4 x5 x6 x7 x8 x9 x10 x11 x12 x13 x14 x15 x16 x17 x18 x19 x20 x21 x26 x27 x28 x29 (ix2 b j) = Net.outV (refP x2 x3 x4 x5 x6 x7 x8 x9 x10 x11 x12 x13 x14 x15 x16 x17 x18 x19 x20 x21 x22 x23 x24 x25 x26 x27 x28 x29 x30 x31 x32 x33) (refX x0 b) j := by
  rw [val_main_v125_apply, v_out x0 x2 x3 x4 x5 x6 x7 x8 x9 x10 x11 x12 x13 x14 x15 x16 x17 x18 x19 x20 x21 x22 x23 x24 x25 x26 x27 x28 x29 x30 x31 x32 x33 b j]
  rfl

/-- The head's hidden layer: an affine layer of the trunk's output. -/
theorem sd_hidden (b : Fin 32768) (k : Fin 128) :
    val_main_v117 (F := Ideal) x0 x2 x3 x4 x5 x6 x7 x8 x9 x10 x11 x12 x13 x14 x15 x16 x17 x18 x19 x20 x21 x30 x31 (ix3 b 0 k) = (Net.lin (refP x2 x3 x4 x5 x6 x7 x8 x9 x10 x11 x12 x13 x14 x15 x16 x17 x18 x19 x20 x21 x22 x23 x24 x25 x26 x27 x28 x29 x30 x31 x32 x33).sdw1 (refP x2 x3 x4 x5 x6 x7 x8 x9 x10 x11 x12 x13 x14 x15 x16 x17 x18 x19 x20 x21 x22 x23 x24 x25 x26 x27 x28 x29 x30 x31 x32 x33).sdb1 (Net.g5 (refP x2 x3 x4 x5 x6 x7 x8 x9 x10 x11 x12 x13 x14 x15 x16 x17 x18 x19 x20 x21 x22 x23 x24 x25 x26 x27 x28 x29 x30 x31 x32 x33) (refX x0 b))) k := by
  rw [val_main_v117_apply, val_main_v114_apply, val_main_v116_apply, val_main_v115_apply, lin_apply]
  refine congrArg₂ (· + ·) (Finset.sum_congr rfl fun m _ => ?_) (congrArg x31 (by idx_rfl))
  rw [show lidx_main_v114 (ix3 b 0 k) m = ix3 b 0 m from by idx_rfl, r_g5 x0 x2 x3 x4 x5 x6 x7 x8 x9 x10 x11 x12 x13 x14 x15 x16 x17 x18 x19 x20 x21 x22 x23 x24 x25 x26 x27 x28 x29 x30 x31 x32 x33 b m]
  exact congrArg (_ * ·) (congrArg x30 (by idx_rfl))

/-- The head's output layer, read through the final reshape. -/
theorem sd_out (b : Fin 32768) (j : Fin 31) :
    val_main_v122 (F := Ideal) x0 x2 x3 x4 x5 x6 x7 x8 x9 x10 x11 x12 x13 x14 x15 x16 x17 x18 x19 x20 x21 x30 x31 x32 x33 (ix2 b j) = Net.lin (refP x2 x3 x4 x5 x6 x7 x8 x9 x10 x11 x12 x13 x14 x15 x16 x17 x18 x19 x20 x21 x22 x23 x24 x25 x26 x27 x28 x29 x30 x31 x32 x33).sdw2 (refP x2 x3 x4 x5 x6 x7 x8 x9 x10 x11 x12 x13 x14 x15 x16 x17 x18 x19 x20 x21 x22 x23 x24 x25 x26 x27 x28 x29 x30 x31 x32 x33).sdb2 (Net.lin (refP x2 x3 x4 x5 x6 x7 x8 x9 x10 x11 x12 x13 x14 x15 x16 x17 x18 x19 x20 x21 x22 x23 x24 x25 x26 x27 x28 x29 x30 x31 x32 x33).sdw1 (refP x2 x3 x4 x5 x6 x7 x8 x9 x10 x11 x12 x13 x14 x15 x16 x17 x18 x19 x20 x21 x22 x23 x24 x25 x26 x27 x28 x29 x30 x31 x32 x33).sdb1 (Net.g5 (refP x2 x3 x4 x5 x6 x7 x8 x9 x10 x11 x12 x13 x14 x15 x16 x17 x18 x19 x20 x21 x22 x23 x24 x25 x26 x27 x28 x29 x30 x31 x32 x33) (refX x0 b))) j := by
  have hj := j.isLt
  rw [val_main_v122_apply, show idx_main_v122 (ix2 b j) = ix3 b 0 j from
      funext fun a => Fin.ext (by
        match a with
        | ⟨0, _⟩ => show (b.val * 31 + j.val) / 31 = b.val; omega
        | ⟨1, _⟩ => rfl
        | ⟨2, _⟩ => show (b.val * 31 + j.val) % 31 = j.val; omega),
    val_main_v121_apply, val_main_v118_apply, val_main_v120_apply, val_main_v119_apply, lin_apply]
  refine congrArg₂ (· + ·) (Finset.sum_congr rfl fun k _ => ?_) (congrArg x33 (by idx_rfl))
  rw [show lidx_main_v118 (ix3 b 0 j) k = ix3 b 0 k from by idx_rfl, sd_hidden x0 x2 x3 x4 x5 x6 x7 x8 x9 x10 x11 x12 x13 x14 x15 x16 x17 x18 x19 x20 x21 x22 x23 x24 x25 x26 x27 x28 x29 x30 x31 x32 x33 b k]
  exact congrArg (_ * ·) (congrArg x32 (by idx_rfl))

/-- The row maximum the reference subtracts: the maximum of −∞ and the fold from −∞ is that fold. -/
theorem sd_max (b : Fin 32768) :
    val_main_call10_v2 (F := Ideal) x0 x2 x3 x4 x5 x6 x7 x8 x9 x10 x11 x12 x13 x14 x15 x16 x17 x18 x19 x20 x21 x30 x31 x32 x33 (ix1 b) = Net.vmax (fun i : Fin 31 => val_main_v122 (F := Ideal) x0 x2 x3 x4 x5 x6 x7 x8 x9 x10 x11 x12 x13 x14 x15 x16 x17 x18 x19 x20 x21 x30 x31 x32 x33 (ix2 b i)) := by
  have hR : S32768x31.Reduces [1] S32768 := by decide
  rw [val_main_call10_v2_apply, val_main_call10_v1_apply, val_main_call10_cst_0_apply]
  unfold val_main_call10_v0
  rw [Host.reduce_eq_fold_single FloatOps.maximumf _ _ Gen.reducesTo_S32768x31_S32768_d1 hR Gen.h_S_ (ix1 b)]
  show max Net.fninf (Finset.fold max Net.fninf (fun i : Fin 31 => val_main_v122 (F := Ideal) x0 x2 x3 x4 x5 x6 x7 x8 x9 x10 x11 x12 x13 x14 x15 x16 x17 x18 x19 x20 x21 x30 x31 x32 x33 (hR.lift (ix1 b) i)) Finset.univ) = _
  rw [max_eq_right ((Finset.le_fold_max _).2 (Or.inl le_rfl))]
  unfold Net.vmax
  refine congrArg (fun f => Finset.fold max Net.fninf f (Finset.univ : Finset (Fin 31))) (funext fun i => ?_)
  exact congrArg (val_main_v122 (F := Ideal) x0 x2 x3 x4 x5 x6 x7 x8 x9 x10 x11 x12 x13 x14 x15 x16 x17 x18 x19 x20 x21 x30 x31 x32 x33) (by idx_rfl)

/-- An entry less the row maximum, as the reference forms it. -/
theorem sd_shift (b : Fin 32768) (i : Fin 31) :
    val_main_call10_v5 (F := Ideal) x0 x2 x3 x4 x5 x6 x7 x8 x9 x10 x11 x12 x13 x14 x15 x16 x17 x18 x19 x20 x21 x30 x31 x32 x33 (ix2 b i) = val_main_v122 (F := Ideal) x0 x2 x3 x4 x5 x6 x7 x8 x9 x10 x11 x12 x13 x14 x15 x16 x17 x18 x19 x20 x21 x30 x31 x32 x33 (ix2 b i) - Net.vmax (fun i : Fin 31 => val_main_v122 (F := Ideal) x0 x2 x3 x4 x5 x6 x7 x8 x9 x10 x11 x12 x13 x14 x15 x16 x17 x18 x19 x20 x21 x30 x31 x32 x33 (ix2 b i)) := by
  rw [val_main_call10_v5_apply, val_main_call10_v4_apply, val_main_call10_v3_apply,
    show idx_main_call10_v3 (idx_main_call10_v4 (ix2 b i)) = ix1 b from by idx_rfl, sd_max x0 x2 x3 x4 x5 x6 x7 x8 x9 x10 x11 x12 x13 x14 x15 x16 x17 x18 x19 x20 x21 x30 x31 x32 x33 b,
    Ideal.subf_def]

/-- The row's sum of exponentials, from the zero word. -/
theorem sd_sumexp (b : Fin 32768) :
    val_main_call10_v7 (F := Ideal) x0 x2 x3 x4 x5 x6 x7 x8 x9 x10 x11 x12 x13 x14 x15 x16 x17 x18 x19 x20 x21 x30 x31 x32 x33 (ix1 b) = ∑ i : Fin 31, Ideal.exp (val_main_v122 (F := Ideal) x0 x2 x3 x4 x5 x6 x7 x8 x9 x10 x11 x12 x13 x14 x15 x16 x17 x18 x19 x20 x21 x30 x31 x32 x33 (ix2 b i) - Net.vmax (fun i : Fin 31 => val_main_v122 (F := Ideal) x0 x2 x3 x4 x5 x6 x7 x8 x9 x10 x11 x12 x13 x14 x15 x16 x17 x18 x19 x20 x21 x30 x31 x32 x33 (ix2 b i))) := by
  rw [val_main_call10_v7_apply, val_main_call10_cst_1_apply]
  refine (congrArg (· + _) Ideal.ofBits_zero_f32).trans ((zero_add _).trans (Finset.sum_congr rfl fun i _ => ?_))
  rw [val_main_call10_v6_apply, show idx_main_call10_v7 (ix1 b) i = ix2 b i from by idx_rfl, sd_shift x0 x2 x3 x4 x5 x6 x7 x8 x9 x10 x11 x12 x13 x14 x15 x16 x17 x18 x19 x20 x21 x30 x31 x32 x33 b i,
    Ideal.hostUnary_exp_def]

/-- The reference's log_softmax of a row is the specification's. -/
theorem sd_lsm (b : Fin 32768) (j : Fin 31) :
    val_main_v126 (F := Ideal) x0 x2 x3 x4 x5 x6 x7 x8 x9 x10 x11 x12 x13 x14 x15 x16 x17 x18 x19 x20 x21 x30 x31 x32 x33 (ix2 b j) = Net.logsoftmax (fun i : Fin 31 => val_main_v122 (F := Ideal) x0 x2 x3 x4 x5 x6 x7 x8 x9 x10 x11 x12 x13 x14 x15 x16 x17 x18 x19 x20 x21 x30 x31 x32 x33 (ix2 b i)) j := by
  rw [val_main_v126_apply, val_main_call10_v10_apply, val_main_call10_v9_apply, val_main_call10_v8_apply,
    show idx_main_call10_v8 (idx_main_call10_v10 (ix2 b j)) = ix1 b from by idx_rfl,
    sd_sumexp x0 x2 x3 x4 x5 x6 x7 x8 x9 x10 x11 x12 x13 x14 x15 x16 x17 x18 x19 x20 x21 x30 x31 x32 x33 b, sd_shift x0 x2 x3 x4 x5 x6 x7 x8 x9 x10 x11 x12 x13 x14 x15 x16 x17 x18 x19 x20 x21 x30 x31 x32 x33 b j,
    Ideal.subf_def, Ideal.hostUnary_log_def]
  unfold Net.logsoftmax
  rfl

theorem r_sd (b : Fin 32768) (j : Fin 31) :
    val_main_v126 (F := Ideal) x0 x2 x3 x4 x5 x6 x7 x8 x9 x10 x11 x12 x13 x14 x15 x16 x17 x18 x19 x20 x21 x30 x31 x32 x33 (ix2 b j) = Net.outSd (refP x2 x3 x4 x5 x6 x7 x8 x9 x10 x11 x12 x13 x14 x15 x16 x17 x18 x19 x20 x21 x22 x23 x24 x25 x26 x27 x28 x29 x30 x31 x32 x33) (refX x0 b) j := by
  rw [sd_lsm x0 x2 x3 x4 x5 x6 x7 x8 x9 x10 x11 x12 x13 x14 x15 x16 x17 x18 x19 x20 x21 x30 x31 x32 x33 b j]
  unfold Net.outSd
  exact congrArg (fun z => Net.logsoftmax z j) (funext fun i => sd_out x0 x2 x3 x4 x5 x6 x7 x8 x9 x10 x11 x12 x13 x14 x15 x16 x17 x18 x19 x20 x21 x22 x23 x24 x25 x26 x27 x28 x29 x30 x31 x32 x33 b i)

end Cert.RStage

end
-- ==== Proof.RFinal.lean ====
/-
  The reference's three results as whole arrays: each stage named for a result IS the whole-array function of the
  arguments — entry (b, j) is head j of the network on example b.
-/
import proofs.«125488_j18605798326416_1_alg».proof.Proof.RHeads
import proofs.«125488_j18605798326416_1_alg».proof.Proof.Results
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RStage

open Idealize.ShloMosaic Idealize.ShloMosaic.ValueIdx Cert.ReferenceIdeal Cert.ReferenceIdeal.Read

variable (x0 : (⟨S32768x56x7, .f32⟩ : BufTy).Contents (Elt Ideal)) (x1 : (⟨S32768x81, .i1⟩ : BufTy).Contents (Elt Ideal)) (x2 : (⟨S256x56, .f32⟩ : BufTy).Contents (Elt Ideal)) (x3 : (⟨S256, .f32⟩ : BufTy).Contents (Elt Ideal)) (x4 : (⟨S7, .f32⟩ : BufTy).Contents (Elt Ideal)) (x5 : (⟨S7, .f32⟩ : BufTy).Contents (Elt Ideal)) (x6 : (⟨S7, .f32⟩ : BufTy).Contents (Elt Ideal)) (x7 : (⟨S7, .f32⟩ : BufTy).Contents (Elt Ideal)) (x8 : (⟨S256x256, .f32⟩ : BufTy).Contents (Elt Ideal)) (x9 : (⟨S256, .f32⟩ : BufTy).Contents (Elt Ideal)) (x10 : (⟨S248x224, .f32⟩ : BufTy).Contents (Elt Ideal)) (x11 : (⟨S248, .f32⟩ : BufTy).Contents (Elt Ideal)) (x12 : (⟨S128x256, .f32⟩ : BufTy).Contents (Elt Ideal)) (x13 : (⟨S128, .f32⟩ : BufTy).Contents (Elt Ideal)) (x14 : (⟨S256x704, .f32⟩ : BufTy).Contents (Elt Ideal)) (x15 : (⟨S256, .f32⟩ : BufTy).Contents (Elt Ideal)) (x16 : (⟨S248x240, .f32⟩ : BufTy).Contents (Elt Ideal)) (x17 : (⟨S248, .f32⟩ : BufTy).Contents (Elt Ideal)) (x18 : (⟨S128x256, .f32⟩ : BufTy).Contents (Elt Ideal)) (x19 : (⟨S128, .f32⟩ : BufTy).Contents (Elt Ideal)) (x20 : (⟨S120x112, .f32⟩ : BufTy).Contents (Elt Ideal)) (x21 : (⟨S120, .f32⟩ : BufTy).Contents (Elt Ideal)) (x22 : (⟨S128x128, .f32⟩ : BufTy).Contents (Elt Ideal)) (x23 : (⟨S128, .f32⟩ : BufTy).Contents (Elt Ideal)) (x24 : (⟨S81x128, .f32⟩ : BufTy).Contents (Elt Ideal)) (x25 : (⟨S81, .f32⟩ : BufTy).Contents (Elt Ideal)) (x26 : (⟨S128x128, .f32⟩ : BufTy).Contents (Elt Ideal)) (x27 : (⟨S128, .f32⟩ : BufTy).Contents (Elt Ideal)) (x28 : (⟨S1x128, .f32⟩ : BufTy).Contents (Elt Ideal)) (x29 : (⟨S1, .f32⟩ : BufTy).Contents (Elt Ideal)) (x30 : (⟨S128x128, .f32⟩ : BufTy).Contents (Elt Ideal)) (x31 : (⟨S128, .f32⟩ : BufTy).Contents (Elt Ideal)) (x32 : (⟨S31x128, .f32⟩ : BufTy).Contents (Elt Ideal)) (x33 : (⟨S31, .f32⟩ : BufTy).Contents (Elt Ideal))

/-- Result stage 124 as a whole array. -/
theorem ref_resPi : val_main_v124 (F := Ideal) x0 x1 x2 x3 x4 x5 x6 x7 x8 x9 x10 x11 x12 x13 x14 x15 x16 x17 x18 x19 x20 x21 x22 x23 x24 x25 = Results.resPi x0 x1 x2 x3 x4 x5 x6 x7 x8 x9 x10 x11 x12 x13 x14 x15 x16 x17 x18 x19 x20 x21 x22 x23 x24 x25 x26 x27 x28 x29 x30 x31 x32 x33 := by
  funext i
  obtain ⟨b, j, rfl⟩ : ∃ (b : Fin 32768) (j : Fin 81), i = ix2 b j := ⟨i 0, i 1, eq_ix2 i⟩
  rw [r_pi]
  rfl

/-- Result stage 125 as a whole array. -/
theorem ref_resV : val_main_v125 (F := Ideal) x0 x2 x3 x4 x5 x6 x7 x8 x9 x10 x11 x12 x13 x14 x15 x16 x17 x18 x19 x20 x21 x26 x27 x28 x29 = Results.resV x0 x2 x3 x4 x5 x6 x7 x8 x9 x10 x11 x12 x13 x14 x15 x16 x17 x18 x19 x20 x21 x22 x23 x24 x25 x26 x27 x28 x29 x30 x31 x32 x33 := by
  funext i
  obtain ⟨b, j, rfl⟩ : ∃ (b : Fin 32768) (j : Fin 1), i = ix2 b j := ⟨i 0, i 1, eq_ix2 i⟩
  rw [r_v]
  rfl

/-- Result stage 126 as a whole array. -/
theorem ref_resSd : val_main_v126 (F := Ideal) x0 x2 x3 x4 x5 x6 x7 x8 x9 x10 x11 x12 x13 x14 x15 x16 x17 x18 x19 x20 x21 x30 x31 x32 x33 = Results.resSd x0 x2 x3 x4 x5 x6 x7 x8 x9 x10 x11 x12 x13 x14 x15 x16 x17 x18 x19 x20 x21 x22 x23 x24 x25 x26 x27 x28 x29 x30 x31 x32 x33 := by
  funext i
  obtain ⟨b, j, rfl⟩ : ∃ (b : Fin 32768) (j : Fin 31), i = ix2 b j := ⟨i 0, i 1, eq_ix2 i⟩
  rw [r_sd]
  rfl

end Cert.RStage

end
-- ==== Proof.RefRun.lean ====
/-
  The reference's run: every weakly fair execution of its @main terminates with each of its three results at the stage
  the reading of the program names for it — a function of the arguments — and the arguments unchanged. The program is a
  straight line of 187 host operations; the state after them is the fold of their results over the launch contents, read
  here a stretch of operations at a time so that each stage stays a name.
-/
import proofs.«125488_j18605798326416_1_alg».proof.Proof.RefOpsP
import proofs.«125488_j18605798326416_1_alg».proof.Proof.RefReadP
import Idealize.ShloMosaic.Lib.StableHlo.Run

noncomputable section

namespace Cert.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

-- a reduction is never opened here: its fold runs over every element of the operand
attribute [local irreducible] Host.reduce

/-- The state after two stretches of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- A buffer among a list of references is among their device buffers. -/
theorem writes_sub {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-
  How each stage is read off its stretch. The operations' results are computed down to the functions applied to the
  contents read from before the stretch; those are replaced by the stages they hold; the stages of the stretch are
  opened on the right. Both sides are then the same term up to moving contents to a typed reference's buffer and back,
  which is the identity at a literal reference — checked with the stages read from before the stretch as VARIABLES (the
  equation is stated over them, under the identity function), so that neither side is ever opened further. A
  concatenation is a stretch of its own: its operands are read at their literal references.
-/

/-- Operations 0–34 of the program. -/
abbrev ops1 : List (HloOp τ sig (Elt F)) :=
  [ unary main_arg0 main_v0 ((transpose S32768x7x56 [0, 2, 1] · transposes_S32768x56x7_S32768x7x56_0_2_1) : (⟨S32768x56x7, .f32⟩ : BufTy).Contents (Elt F) → (⟨S32768x7x56, .f32⟩ : BufTy).Contents (Elt F)),
    binary main_v0 main_arg2 main_v1 ((fun l r => Host.dotGeneral dot_S32768x7x56_S256x56_S32768x7x256_2_1_01_0_n_n none l r) : (⟨S32768x7x56, .f32⟩ : BufTy).Contents (Elt F) → (⟨S256x56, .f32⟩ : BufTy).Contents (Elt F) → (⟨S32768x7x256, .f32⟩ : BufTy).Contents (Elt F)),
    unary main_arg3 main_v2 (broadcastInDim S1x1x256 ![2] bcast_S256_S1x1x256_2 : (⟨S256, .f32⟩ : BufTy).Contents (Elt F) → (⟨S1x1x256, .f32⟩ : BufTy).Contents (Elt F)),
    unary main_v2 main_v3 (broadcastInDim S32768x7x256 ![0, 1, 2] bcast_S1x1x256_S32768x7x256_0_1_2 : (⟨S1x1x256, .f32⟩ : BufTy).Contents (Elt F) → (⟨S32768x7x256, .f32⟩ : BufTy).Contents (Elt F)),
    binary main_v1 main_v3 main_v4 (addf : (⟨S32768x7x256, .f32⟩ : BufTy).Contents (Elt F) → (⟨S32768x7x256, .f32⟩ : BufTy).Contents (Elt F) → (⟨S32768x7x256, .f32⟩ : BufTy).Contents (Elt F)),
    unary main_arg6 main_v5 (broadcastInDim S7x1 ![0] bcast_S7_S7x1_0 : (⟨S7, .f32⟩ : BufTy).Contents (Elt F) → (⟨S7x1, .f32⟩ : BufTy).Contents (Elt F)),
    unary main_v5 main_v6 (broadcastInDim S1x7x1 ![1, 2] bcast_S7x1_S1x7x1_1_2 : (⟨S7x1, .f32⟩ : BufTy).Contents (Elt F) → (⟨S1x7x1, .f32⟩ : BufTy).Contents (Elt F)),
    unary main_v6 main_v7 (broadcastInDim S32768x7x256 ![0, 1, 2] bcast_S1x7x1_S32768x7x256_0_1_2 : (⟨S1x7x1, .f32⟩ : BufTy).Contents (Elt F) → (⟨S32768x7x256, .f32⟩ : BufTy).Contents (Elt F)),
    binary main_v4 main_v7 main_v8 (subf : (⟨S32768x7x256, .f32⟩ : BufTy).Contents (Elt F) → (⟨S32768x7x256, .f32⟩ : BufTy).Contents (Elt F) → (⟨S32768x7x256, .f32⟩ : BufTy).Contents (Elt F)),
    unary main_arg7 main_v9 (broadcastInDim S7x1 ![0] bcast_S7_S7x1_0 : (⟨S7, .f32⟩ : BufTy).Contents (Elt F) → (⟨S7x1, .f32⟩ : BufTy).Contents (Elt F)),
    nullary main_cst (constant S_ .f32 0x3727C5AC#32),
    unary main_cst main_v10 (broadcastInDim S7x1 ![] bcast_S_S7x1 : (⟨S_, .f32⟩ : BufTy).Contents (Elt F) → (⟨S7x1, .f32⟩ : BufTy).Contents (Elt F)),
    binary main_v9 main_v10 main_v11 (addf : (⟨S7x1, .f32⟩ : BufTy).Contents (Elt F) → (⟨S7x1, .f32⟩ : BufTy).Contents (Elt F) → (⟨S7x1, .f32⟩ : BufTy).Contents (Elt F)),
    unary main_v11 main_v12 (Host.rsqrt : (⟨S7x1, .f32⟩ : BufTy).Contents (Elt F) → (⟨S7x1, .f32⟩ : BufTy).Contents (Elt F)),
    unary main_v12 main_v13 (broadcastInDim S1x7x1 ![1, 2] bcast_S7x1_S1x7x1_1_2 : (⟨S7x1, .f32⟩ : BufTy).Contents (Elt F) → (⟨S1x7x1, .f32⟩ : BufTy).Contents (Elt F)),
    unary main_v13 main_v14 (broadcastInDim S32768x7x256 ![0, 1, 2] bcast_S1x7x1_S32768x7x256_0_1_2 : (⟨S1x7x1, .f32⟩ : BufTy).Contents (Elt F) → (⟨S32768x7x256, .f32⟩ : BufTy).Contents (Elt F)),
    binary main_v8 main_v14 main_v15 (mulf : (⟨S32768x7x256, .f32⟩ : BufTy).Contents (Elt F) → (⟨S32768x7x256, .f32⟩ : BufTy).Contents (Elt F) → (⟨S32768x7x256, .f32⟩ : BufTy).Contents (Elt F)),
    unary main_arg4 main_v16 (broadcastInDim S7x1 ![0] bcast_S7_S7x1_0 : (⟨S7, .f32⟩ : BufTy).Contents (Elt F) → (⟨S7x1, .f32⟩ : BufTy).Contents (Elt F)),
    unary main_v16 main_v17 (broadcastInDim S1x7x1 ![1, 2] bcast_S7x1_S1x7x1_1_2 : (⟨S7x1, .f32⟩ : BufTy).Contents (Elt F) → (⟨S1x7x1, .f32⟩ : BufTy).Contents (Elt F)),
    unary main_v17 main_v18 (broadcastInDim S32768x7x256 ![0, 1, 2] bcast_S1x7x1_S32768x7x256_0_1_2 : (⟨S1x7x1, .f32⟩ : BufTy).Contents (Elt F) → (⟨S32768x7x256, .f32⟩ : BufTy).Contents (Elt F)),
    binary main_v15 main_v18 main_v19 (mulf : (⟨S32768x7x256, .f32⟩ : BufTy).Contents (Elt F) → (⟨S32768x7x256, .f32⟩ : BufTy).Contents (Elt F) → (⟨S32768x7x256, .f32⟩ : BufTy).Contents (Elt F)),
    unary main_arg5 main_v20 (broadcastInDim S7x1 ![0] bcast_S7_S7x1_0 : (⟨S7, .f32⟩ : BufTy).Contents (Elt F) → (⟨S7x1, .f32⟩ : BufTy).Contents (Elt F)),
    unary main_v20 main_v21 (broadcastInDim S1x7x1 ![1, 2] bcast_S7x1_S1x7x1_1_2 : (⟨S7x1, .f32⟩ : BufTy).Contents (Elt F) → (⟨S1x7x1, .f32⟩ : BufTy).Contents (Elt F)),
    unary main_v21 main_v22 (broadcastInDim S32768x7x256 ![0, 1, 2] bcast_S1x7x1_S32768x7x256_0_1_2 : (⟨S1x7x1, .f32⟩ : BufTy).Contents (Elt F) → (⟨S32768x7x256, .f32⟩ : BufTy).Contents (Elt F)),
    binary main_v19 main_v22 main_v23 (addf : (⟨S32768x7x256, .f32⟩ : BufTy).Contents (Elt F) → (⟨S32768x7x256, .f32⟩ : BufTy).Contents (Elt F) → (⟨S32768x7x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x7x256, .f32⟩) main_call0_v0) (broadcastInDim S32768x7x256 ![] bcast_S_S32768x7x256),
    TRef.binary (TRef.of (T := ⟨S32768x7x256, .f32⟩) main_v23) (TRef.of (T := ⟨S32768x7x256, .f32⟩) main_call0_v0) (TRef.of (T := ⟨S32768x7x256, .f32⟩) main_v24) maximumf,
    binary main_v24 main_arg8 main_v25 ((fun l r => Host.dotGeneral dot_S32768x7x256_S256x256_S32768x7x256_2_1_01_0_n_n none l r) : (⟨S32768x7x256, .f32⟩ : BufTy).Contents (Elt F) → (⟨S256x256, .f32⟩ : BufTy).Contents (Elt F) → (⟨S32768x7x256, .f32⟩ : BufTy).Contents (Elt F)),
    unary main_arg9 main_v26 (broadcastInDim S1x1x256 ![2] bcast_S256_S1x1x256_2 : (⟨S256, .f32⟩ : BufTy).Contents (Elt F) → (⟨S1x1x256, .f32⟩ : BufTy).Contents (Elt F)),
    unary main_v26 main_v27 (broadcastInDim S32768x7x256 ![0, 1, 2] bcast_S1x1x256_S32768x7x256_0_1_2 : (⟨S1x1x256, .f32⟩ : BufTy).Contents (Elt F) → (⟨S32768x7x256, .f32⟩ : BufTy).Contents (Elt F)),
    binary main_v25 main_v27 main_v28 (addf : (⟨S32768x7x256, .f32⟩ : BufTy).Contents (Elt F) → (⟨S32768x7x256, .f32⟩ : BufTy).Contents (Elt F) → (⟨S32768x7x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x7x256, .f32⟩) main_call1_v0) (broadcastInDim S32768x7x256 ![] bcast_S_S32768x7x256),
    TRef.binary (TRef.of (T := ⟨S32768x7x256, .f32⟩) main_v28) (TRef.of (T := ⟨S32768x7x256, .f32⟩) main_call1_v0) (TRef.of (T := ⟨S32768x7x256, .f32⟩) main_v29) maximumf ]

/-- The buffers operations 0–34 write. -/
abbrev wr1 : List (Ref sig .tc) := [main_v0, main_v1, main_v2, main_v3, main_v4, main_v5, main_v6, main_v7, main_v8, main_v9, main_cst, main_v10, main_v11, main_v12, main_v13, main_v14, main_v15, main_v16, main_v17, main_v18, main_v19, main_v20, main_v21, main_v22, main_v23, main_call0_cst, main_call0_v0, main_v24, main_v25, main_v26, main_v27, main_v28, main_call1_cst, main_call1_v0, main_v29]

theorem ops1_writes : (ops1 : List (HloOp τ sig (Elt F))).Forall fun op => op.writes ⊆ ((wr1).map (Proc.devRef (τ := τ) .tc)).toFinset :=
  ⟨writes_sub main_v0 (by decide), writes_sub main_v1 (by decide), writes_sub main_v2 (by decide), writes_sub main_v3 (by decide), writes_sub main_v4 (by decide), writes_sub main_v5 (by decide), writes_sub main_v6 (by decide), writes_sub main_v7 (by decide), writes_sub main_v8 (by decide), writes_sub main_v9 (by decide), writes_sub main_cst (by decide), writes_sub main_v10 (by decide), writes_sub main_v11 (by decide), writes_sub main_v12 (by decide), writes_sub main_v13 (by decide), writes_sub main_v14 (by decide), writes_sub main_v15 (by decide), writes_sub main_v16 (by decide), writes_sub main_v17 (by decide), writes_sub main_v18 (by decide), writes_sub main_v19 (by decide), writes_sub main_v20 (by decide), writes_sub main_v21 (by decide), writes_sub main_v22 (by decide), writes_sub main_v23 (by decide), writes_sub main_call0_cst (by decide), writes_sub main_call0_v0 (by decide), writes_sub main_v24 (by decide), writes_sub main_v25 (by decide), writes_sub main_v26 (by decide), writes_sub main_v27 (by decide), writes_sub main_v28 (by decide), writes_sub main_call1_cst (by decide), writes_sub main_call1_v0 (by decide), writes_sub main_v29 (by decide)⟩

/-- A buffer operations 0–34 do not write keeps its contents. -/
theorem frame1 (V : Valuation τ sig (Elt F)) (r : Ref sig .tc) (hr : r ∉ wr1) :
    after ops1 V (Proc.devRef .tc r) = V (Proc.devRef .tc r) :=
  after_of_writes_sub ops1 V ops1_writes hr

theorem st1_v29 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F))
    (h_arg0 : V (Proc.devRef .tc main_arg0) = A0)
    (h_arg2 : V (Proc.devRef .tc main_arg2) = A2)
    (h_arg3 : V (Proc.devRef .tc main_arg3) = A3)
    (h_arg6 : V (Proc.devRef .tc main_arg6) = A6)
    (h_arg7 : V (Proc.devRef .tc main_arg7) = A7)
    (h_arg4 : V (Proc.devRef .tc main_arg4) = A4)
    (h_arg5 : V (Proc.devRef .tc main_arg5) = A5)
    (h_arg8 : V (Proc.devRef .tc main_arg8) = A8)
    (h_arg9 : V (Proc.devRef .tc main_arg9) = A9) :
    after ops1 V (Proc.devRef .tc main_v29) = val_main_v29 (F := F) A0 A2 A3 A4 A5 A6 A7 A8 A9 := by
  after_results_simp
  simp only [h_arg0, h_arg2, h_arg3, h_arg6, h_arg7, h_arg4, h_arg5, h_arg8, h_arg9]
  unfold val_main_v29 val_main_v28 val_main_v25 val_main_v24 val_main_v23 val_main_v19 val_main_v15 val_main_v8 val_main_v4 val_main_v1 val_main_v0 val_main_v3 val_main_v2 val_main_v7 val_main_v6 val_main_v5 val_main_v14 val_main_v13 val_main_v12 val_main_v11 val_main_v9 val_main_v10 val_main_cst val_main_v18 val_main_v17 val_main_v16 val_main_v22 val_main_v21 val_main_v20 val_main_call0_v0 val_main_call0_cst val_main_v27 val_main_v26 val_main_call1_v0 val_main_call1_cst
  rfl

/-- Operations 35–51 of the program. -/
abbrev ops2 : List (HloOp τ sig (Elt F)) :=
  [ unary main_v29 main_v30 ((extractStridedSlice S32768x7x32 ![0, 0, 0] · slices_S32768x7x256_S32768x7x32_0_0_0) : (⟨S32768x7x256, .f32⟩ : BufTy).Contents (Elt F) → (⟨S32768x7x32, .f32⟩ : BufTy).Contents (Elt F)),
    reshape main_v30 main_v31 rfl shapeCasts_S32768x7x32_S32768x7x4x8,
    unary main_v29 main_v32 ((extractStridedSlice S32768x7x224 ![0, 0, 32] · slices_S32768x7x256_S32768x7x224_0_0_32) : (⟨S32768x7x256, .f32⟩ : BufTy).Contents (Elt F) → (⟨S32768x7x224, .f32⟩ : BufTy).Contents (Elt F)),
    binary main_v32 main_arg10 main_v33 ((fun l r => Host.dotGeneral dot_S32768x7x224_S248x224_S32768x7x248_2_1_01_0_n_n none l r) : (⟨S32768x7x224, .f32⟩ : BufTy).Contents (Elt F) → (⟨S248x224, .f32⟩ : BufTy).Contents (Elt F) → (⟨S32768x7x248, .f32⟩ : BufTy).Contents (Elt F)),
    unary main_arg11 main_v34 (broadcastInDim S1x1x248 ![2] bcast_S248_S1x1x248_2 : (⟨S248, .f32⟩ : BufTy).Contents (Elt F) → (⟨S1x1x248, .f32⟩ : BufTy).Contents (Elt F)),
    unary main_v34 main_v35 (broadcastInDim S32768x7x248 ![0, 1, 2] bcast_S1x1x248_S32768x7x248_0_1_2 : (⟨S1x1x248, .f32⟩ : BufTy).Contents (Elt F) → (⟨S32768x7x248, .f32⟩ : BufTy).Contents (Elt F)),
    binary main_v33 main_v35 main_v36 (addf : (⟨S32768x7x248, .f32⟩ : BufTy).Contents (Elt F) → (⟨S32768x7x248, .f32⟩ : BufTy).Contents (Elt F) → (⟨S32768x7x248, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x7x248, .f32⟩) main_call2_v0) (broadcastInDim S32768x7x248 ![] bcast_S_S32768x7x248),
    TRef.binary (TRef.of (T := ⟨S32768x7x248, .f32⟩) main_v36) (TRef.of (T := ⟨S32768x7x248, .f32⟩) main_call2_v0) (TRef.of (T := ⟨S32768x7x248, .f32⟩) main_v37) maximumf,
    nullary main_cst_0 (constant S_ .f32 0xFF800000#32),
    binary main_v31 main_cst_0 main_v38 ((fun x v => Host.reduce FloatOps.maximumf x v reducesTo_S32768x7x4x8_S32768x7x4_d3 h_S_) : (⟨S32768x7x4x8, .f32⟩ : BufTy).Contents (Elt F) → (⟨S_, .f32⟩ : BufTy).Contents (Elt F) → (⟨S32768x7x4, .f32⟩ : BufTy).Contents (Elt F)),
    nullary main_cst_1 (constant S_ .f32 0x00000000#32),
    binary main_v31 main_cst_1 main_v39 ((fun x v => Host.reduceAdd x v reducesTo_S32768x7x4x8_S32768x7x4_d3 h_S_) : (⟨S32768x7x4x8, .f32⟩ : BufTy).Contents (Elt F) → (⟨S_, .f32⟩ : BufTy).Contents (Elt F) → (⟨S32768x7x4, .f32⟩ : BufTy).Contents (Elt F)),
    nullary main_cst_2 (constant S_ .f32 0x41000000#32),
    unary main_cst_2 main_v40 (broadcastInDim S32768x7x4 ![] bcast_S_S32768x7x4 : (⟨S_, .f32⟩ : BufTy).Contents (Elt F) → (⟨S32768x7x4, .f32⟩ : BufTy).Contents (Elt F)),
    binary main_v39 main_v40 main_v41 (Host.divf : (⟨S32768x7x4, .f32⟩ : BufTy).Contents (Elt F) → (⟨S32768x7x4, .f32⟩ : BufTy).Contents (Elt F) → (⟨S32768x7x4, .f32⟩ : BufTy).Contents (Elt F)) ]

/-- The buffers operations 35–51 write. -/
abbrev wr2 : List (Ref sig .tc) := [main_v30, main_v31, main_v32, main_v33, main_v34, main_v35, main_v36, main_call2_cst, main_call2_v0, main_v37, main_cst_0, main_v38, main_cst_1, main_v39, main_cst_2, main_v40, main_v41]

theorem ops2_writes : (ops2 : List (HloOp τ sig (Elt F))).Forall fun op => op.writes ⊆ ((wr2).map (Proc.devRef (τ := τ) .tc)).toFinset :=
  ⟨writes_sub main_v30 (by decide), writes_sub main_v31 (by decide), writes_sub main_v32 (by decide), writes_sub main_v33 (by decide), writes_sub main_v34 (by decide), writes_sub main_v35 (by decide), writes_sub main_v36 (by decide), writes_sub main_call2_cst (by decide), writes_sub main_call2_v0 (by decide), writes_sub main_v37 (by decide), writes_sub main_cst_0 (by decide), writes_sub main_v38 (by decide), writes_sub main_cst_1 (by decide), writes_sub main_v39 (by decide), writes_sub main_cst_2 (by decide), writes_sub main_v40 (by decide), writes_sub main_v41 (by decide)⟩

/-- A buffer operations 35–51 do not write keeps its contents. -/
theorem frame2 (V : Valuation τ sig (Elt F)) (r : Ref sig .tc) (hr : r ∉ wr2) :
    after ops2 V (Proc.devRef .tc r) = V (Proc.devRef .tc r) :=
  after_of_writes_sub ops2 V ops2_writes hr

theorem st2_v37 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F))
    (h_v29 : V (Proc.devRef .tc main_v29) = val_main_v29 (F := F) A0 A2 A3 A4 A5 A6 A7 A8 A9)
    (h_arg10 : V (Proc.devRef .tc main_arg10) = A10)
    (h_arg11 : V (Proc.devRef .tc main_arg11) = A11) :
    after ops2 V (Proc.devRef .tc main_v37) = val_main_v37 (F := F) A0 A2 A3 A4 A5 A6 A7 A8 A9 A10 A11 := by
  after_results_simp
  simp only [h_v29, h_arg10, h_arg11]
  unfold val_main_v37 val_main_v36 val_main_v33 val_main_v32 val_main_v35 val_main_v34 val_main_call2_v0 val_main_call2_cst
  generalize val_main_v29 (F := F) A0 A2 A3 A4 A5 A6 A7 A8 A9 = X_v29
  revert X_v29
  refine @id _ ?_
  intro X_v29
  rfl

theorem st2_v38 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F))
    (h_v29 : V (Proc.devRef .tc main_v29) = val_main_v29 (F := F) A0 A2 A3 A4 A5 A6 A7 A8 A9) :
    after ops2 V (Proc.devRef .tc main_v38) = val_main_v38 (F := F) A0 A2 A3 A4 A5 A6 A7 A8 A9 := by
  after_results_simp
  simp only [h_v29]
  unfold val_main_v38 val_main_v31 val_main_v30 val_main_cst_0
  generalize val_main_v29 (F := F) A0 A2 A3 A4 A5 A6 A7 A8 A9 = X_v29
  revert X_v29
  refine @id _ ?_
  intro X_v29
  rfl

theorem st2_v41 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F))
    (h_v29 : V (Proc.devRef .tc main_v29) = val_main_v29 (F := F) A0 A2 A3 A4 A5 A6 A7 A8 A9) :
    after ops2 V (Proc.devRef .tc main_v41) = val_main_v41 (F := F) A0 A2 A3 A4 A5 A6 A7 A8 A9 := by
  after_results_simp
  simp only [h_v29]
  unfold val_main_v41 val_main_v39 val_main_v31 val_main_v30 val_main_cst_1 val_main_v40 val_main_cst_2
  generalize val_main_v29 (F := F) A0 A2 A3 A4 A5 A6 A7 A8 A9 = X_v29
  revert X_v29
  refine @id _ ?_
  intro X_v29
  rfl

/-- Operations 52–52 of the program. -/
abbrev ops3 : List (HloOp τ sig (Elt F)) :=
  [ nary ![main_v38, main_v41, main_v37] main_v42 (fun u => concatenate S32768x7x256 2 [⟨S32768x7x4, u 0⟩, ⟨S32768x7x4, u 1⟩, ⟨S32768x7x248, u 2⟩] concatenates_S32768x7x4_S32768x7x4_S32768x7x248_S32768x7x256_d2) ]

/-- The buffers operations 52–52 write. -/
abbrev wr3 : List (Ref sig .tc) := [main_v42]

theorem ops3_writes : (ops3 : List (HloOp τ sig (Elt F))).Forall fun op => op.writes ⊆ ((wr3).map (Proc.devRef (τ := τ) .tc)).toFinset :=
  writes_sub main_v42 (by decide)

/-- A buffer operations 52–52 do not write keeps its contents. -/
theorem frame3 (V : Valuation τ sig (Elt F)) (r : Ref sig .tc) (hr : r ∉ wr3) :
    after ops3 V (Proc.devRef .tc r) = V (Proc.devRef .tc r) :=
  after_of_writes_sub ops3 V ops3_writes hr

theorem st3_v42 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F))
    (h_v38 : V (Proc.devRef .tc main_v38) = val_main_v38 (F := F) A0 A2 A3 A4 A5 A6 A7 A8 A9)
    (h_v41 : V (Proc.devRef .tc main_v41) = val_main_v41 (F := F) A0 A2 A3 A4 A5 A6 A7 A8 A9)
    (h_v37 : V (Proc.devRef .tc main_v37) = val_main_v37 (F := F) A0 A2 A3 A4 A5 A6 A7 A8 A9 A10 A11) :
    after ops3 V (Proc.devRef .tc main_v42) = val_main_v42 (F := F) A0 A2 A3 A4 A5 A6 A7 A8 A9 A10 A11 := by
  rw [after_cons, after_nil, nary_result, val_main_v42]
  show concatenate _ _ [⟨S32768x7x4, V (Proc.devRef .tc main_v38)⟩, ⟨S32768x7x4, V (Proc.devRef .tc main_v41)⟩, ⟨S32768x7x248, V (Proc.devRef .tc main_v37)⟩] _ = _
  rw [h_v38, h_v41, h_v37]

/-- Operations 53–59 of the program. -/
abbrev ops4 : List (HloOp τ sig (Elt F)) :=
  [ binary main_v42 main_arg12 main_v43 ((fun l r => Host.dotGeneral dot_S32768x7x256_S128x256_S32768x7x128_2_1_01_0_n_n none l r) : (⟨S32768x7x256, .f32⟩ : BufTy).Contents (Elt F) → (⟨S128x256, .f32⟩ : BufTy).Contents (Elt F) → (⟨S32768x7x128, .f32⟩ : BufTy).Contents (Elt F)),
    unary main_arg13 main_v44 (broadcastInDim S1x1x128 ![2] bcast_S128_S1x1x128_2 : (⟨S128, .f32⟩ : BufTy).Contents (Elt F) → (⟨S1x1x128, .f32⟩ : BufTy).Contents (Elt F)),
    unary main_v44 main_v45 (broadcastInDim S32768x7x128 ![0, 1, 2] bcast_S1x1x128_S32768x7x128_0_1_2 : (⟨S1x1x128, .f32⟩ : BufTy).Contents (Elt F) → (⟨S32768x7x128, .f32⟩ : BufTy).Contents (Elt F)),
    binary main_v43 main_v45 main_v46 (addf : (⟨S32768x7x128, .f32⟩ : BufTy).Contents (Elt F) → (⟨S32768x7x128, .f32⟩ : BufTy).Contents (Elt F) → (⟨S32768x7x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x7x128, .f32⟩) main_call3_v0) (broadcastInDim S32768x7x128 ![] bcast_S_S32768x7x128),
    TRef.binary (TRef.of (T := ⟨S32768x7x128, .f32⟩) main_v46) (TRef.of (T := ⟨S32768x7x128, .f32⟩) main_call3_v0) (TRef.of (T := ⟨S32768x7x128, .f32⟩) main_v47) maximumf ]

/-- The buffers operations 53–59 write. -/
abbrev wr4 : List (Ref sig .tc) := [main_v43, main_v44, main_v45, main_v46, main_call3_cst, main_call3_v0, main_v47]

theorem ops4_writes : (ops4 : List (HloOp τ sig (Elt F))).Forall fun op => op.writes ⊆ ((wr4).map (Proc.devRef (τ := τ) .tc)).toFinset :=
  ⟨writes_sub main_v43 (by decide), writes_sub main_v44 (by decide), writes_sub main_v45 (by decide), writes_sub main_v46 (by decide), writes_sub main_call3_cst (by decide), writes_sub main_call3_v0 (by decide), writes_sub main_v47 (by decide)⟩

/-- A buffer operations 53–59 do not write keeps its contents. -/
theorem frame4 (V : Valuation τ sig (Elt F)) (r : Ref sig .tc) (hr : r ∉ wr4) :
    after ops4 V (Proc.devRef .tc r) = V (Proc.devRef .tc r) :=
  after_of_writes_sub ops4 V ops4_writes hr

theorem st4_v47 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F))
    (h_v42 : V (Proc.devRef .tc main_v42) = val_main_v42 (F := F) A0 A2 A3 A4 A5 A6 A7 A8 A9 A10 A11)
    (h_arg12 : V (Proc.devRef .tc main_arg12) = A12)
    (h_arg13 : V (Proc.devRef .tc main_arg13) = A13) :
    after ops4 V (Proc.devRef .tc main_v47) = val_main_v47 (F := F) A0 A2 A3 A4 A5 A6 A7 A8 A9 A10 A11 A12 A13 := by
  after_results_simp
  simp only [h_v42, h_arg12, h_arg13]
  unfold val_main_v47 val_main_v46 val_main_v43 val_main_v45 val_main_v44 val_main_call3_v0 val_main_call3_cst
  generalize val_main_v42 (F := F) A0 A2 A3 A4 A5 A6 A7 A8 A9 A10 A11 = X_v42
  revert X_v42
  refine @id _ ?_
  intro X_v42
  rfl

/-- Operations 60–72 of the program. -/
abbrev ops5 : List (HloOp τ sig (Elt F)) :=
  [ unary main_v47 main_v48 ((extractStridedSlice S32768x7x64 ![0, 0, 0] · slices_S32768x7x128_S32768x7x64_0_0_0) : (⟨S32768x7x128, .f32⟩ : BufTy).Contents (Elt F) → (⟨S32768x7x64, .f32⟩ : BufTy).Contents (Elt F)),
    unary main_v47 main_v49 ((extractStridedSlice S32768x7x64 ![0, 0, 64] · slices_S32768x7x128_S32768x7x64_0_0_64) : (⟨S32768x7x128, .f32⟩ : BufTy).Contents (Elt F) → (⟨S32768x7x64, .f32⟩ : BufTy).Contents (Elt F)),
    unary main_v48 main_v50 ((extractStridedSlice S32768x5x64 ![0, 0, 0] · slices_S32768x7x64_S32768x5x64_0_0_0) : (⟨S32768x7x64, .f32⟩ : BufTy).Contents (Elt F) → (⟨S32768x5x64, .f32⟩ : BufTy).Contents (Elt F)),
    unary main_v48 main_v51 ((extractStridedSlice S32768x2x64 ![0, 5, 0] · slices_S32768x7x64_S32768x2x64_0_5_0) : (⟨S32768x7x64, .f32⟩ : BufTy).Contents (Elt F) → (⟨S32768x2x64, .f32⟩ : BufTy).Contents (Elt F)),
    nullary main_cst_3 (constant S_ .f32 0xFF800000#32),
    binary main_v50 main_cst_3 main_v52 ((fun x v => Host.reduce FloatOps.maximumf x v reducesTo_S32768x5x64_S32768x64_d1 h_S_) : (⟨S32768x5x64, .f32⟩ : BufTy).Contents (Elt F) → (⟨S_, .f32⟩ : BufTy).Contents (Elt F) → (⟨S32768x64, .f32⟩ : BufTy).Contents (Elt F)),
    nullary main_cst_4 (constant S_ .f32 0x00000000#32),
    binary main_v50 main_cst_4 main_v53 ((fun x v => Host.reduceAdd x v reducesTo_S32768x5x64_S32768x64_d1 h_S_) : (⟨S32768x5x64, .f32⟩ : BufTy).Contents (Elt F) → (⟨S_, .f32⟩ : BufTy).Contents (Elt F) → (⟨S32768x64, .f32⟩ : BufTy).Contents (Elt F)),
    nullary main_cst_5 (constant S_ .f32 0x40A00000#32),
    unary main_cst_5 main_v54 (broadcastInDim S32768x64 ![] bcast_S_S32768x64 : (⟨S_, .f32⟩ : BufTy).Contents (Elt F) → (⟨S32768x64, .f32⟩ : BufTy).Contents (Elt F)),
    binary main_v53 main_v54 main_v55 (Host.divf : (⟨S32768x64, .f32⟩ : BufTy).Contents (Elt F) → (⟨S32768x64, .f32⟩ : BufTy).Contents (Elt F) → (⟨S32768x64, .f32⟩ : BufTy).Contents (Elt F)),
    reshape main_v51 main_v56 rfl shapeCasts_S32768x2x64_S32768x128,
    reshape main_v49 main_v57 rfl shapeCasts_S32768x7x64_S32768x448 ]

/-- The buffers operations 60–72 write. -/
abbrev wr5 : List (Ref sig .tc) := [main_v48, main_v49, main_v50, main_v51, main_cst_3, main_v52, main_cst_4, main_v53, main_cst_5, main_v54, main_v55, main_v56, main_v57]

theorem ops5_writes : (ops5 : List (HloOp τ sig (Elt F))).Forall fun op => op.writes ⊆ ((wr5).map (Proc.devRef (τ := τ) .tc)).toFinset :=
  ⟨writes_sub main_v48 (by decide), writes_sub main_v49 (by decide), writes_sub main_v50 (by decide), writes_sub main_v51 (by decide), writes_sub main_cst_3 (by decide), writes_sub main_v52 (by decide), writes_sub main_cst_4 (by decide), writes_sub main_v53 (by decide), writes_sub main_cst_5 (by decide), writes_sub main_v54 (by decide), writes_sub main_v55 (by decide), writes_sub main_v56 (by decide), writes_sub main_v57 (by decide)⟩

/-- A buffer operations 60–72 do not write keeps its contents. -/
theorem frame5 (V : Valuation τ sig (Elt F)) (r : Ref sig .tc) (hr : r ∉ wr5) :
    after ops5 V (Proc.devRef .tc r) = V (Proc.devRef .tc r) :=
  after_of_writes_sub ops5 V ops5_writes hr

theorem st5_v52 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F))
    (h_v47 : V (Proc.devRef .tc main_v47) = val_main_v47 (F := F) A0 A2 A3 A4 A5 A6 A7 A8 A9 A10 A11 A12 A13) :
    after ops5 V (Proc.devRef .tc main_v52) = val_main_v52 (F := F) A0 A2 A3 A4 A5 A6 A7 A8 A9 A10 A11 A12 A13 := by
  after_results_simp
  simp only [h_v47]
  unfold val_main_v52 val_main_v50 val_main_v48 val_main_cst_3
  generalize val_main_v47 (F := F) A0 A2 A3 A4 A5 A6 A7 A8 A9 A10 A11 A12 A13 = X_v47
  revert X_v47
  refine @id _ ?_
  intro X_v47
  rfl

theorem st5_v55 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F))
    (h_v47 : V (Proc.devRef .tc main_v47) = val_main_v47 (F := F) A0 A2 A3 A4 A5 A6 A7 A8 A9 A10 A11 A12 A13) :
    after ops5 V (Proc.devRef .tc main_v55) = val_main_v55 (F := F) A0 A2 A3 A4 A5 A6 A7 A8 A9 A10 A11 A12 A13 := by
  after_results_simp
  simp only [h_v47]
  unfold val_main_v55 val_main_v53 val_main_v50 val_main_v48 val_main_cst_4 val_main_v54 val_main_cst_5
  generalize val_main_v47 (F := F) A0 A2 A3 A4 A5 A6 A7 A8 A9 A10 A11 A12 A13 = X_v47
  revert X_v47
  refine @id _ ?_
  intro X_v47
  rfl

theorem st5_v56 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F))
    (h_v47 : V (Proc.devRef .tc main_v47) = val_main_v47 (F := F) A0 A2 A3 A4 A5 A6 A7 A8 A9 A10 A11 A12 A13) :
    after ops5 V (Proc.devRef .tc main_v56) = val_main_v56 (F := F) A0 A2 A3 A4 A5 A6 A7 A8 A9 A10 A11 A12 A13 := by
  after_results_simp
  simp only [h_v47]
  unfold val_main_v56 val_main_v51 val_main_v48
  generalize val_main_v47 (F := F) A0 A2 A3 A4 A5 A6 A7 A8 A9 A10 A11 A12 A13 = X_v47
  revert X_v47
  refine @id _ ?_
  intro X_v47
  rfl

theorem st5_v57 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F))
    (h_v47 : V (Proc.devRef .tc main_v47) = val_main_v47 (F := F) A0 A2 A3 A4 A5 A6 A7 A8 A9 A10 A11 A12 A13) :
    after ops5 V (Proc.devRef .tc main_v57) = val_main_v57 (F := F) A0 A2 A3 A4 A5 A6 A7 A8 A9 A10 A11 A12 A13 := by
  after_results_simp
  simp only [h_v47]
  unfold val_main_v57 val_main_v49
  generalize val_main_v47 (F := F) A0 A2 A3 A4 A5 A6 A7 A8 A9 A10 A11 A12 A13 = X_v47
  revert X_v47
  refine @id _ ?_
  intro X_v47
  rfl

/-- Operations 73–73 of the program. -/
abbrev ops6 : List (HloOp τ sig (Elt F)) :=
  [ nary ![main_v52, main_v55, main_v56, main_v57] main_v58 (fun u => concatenate S32768x704 1 [⟨S32768x64, u 0⟩, ⟨S32768x64, u 1⟩, ⟨S32768x128, u 2⟩, ⟨S32768x448, u 3⟩] concatenates_S32768x64_S32768x64_S32768x128_S32768x448_S32768x704_d1) ]

/-- The buffers operations 73–73 write. -/
abbrev wr6 : List (Ref sig .tc) := [main_v58]

theorem ops6_writes : (ops6 : List (HloOp τ sig (Elt F))).Forall fun op => op.writes ⊆ ((wr6).map (Proc.devRef (τ := τ) .tc)).toFinset :=
  writes_sub main_v58 (by decide)

/-- A buffer operations 73–73 do not write keeps its contents. -/
theorem frame6 (V : Valuation τ sig (Elt F)) (r : Ref sig .tc) (hr : r ∉ wr6) :
    after ops6 V (Proc.devRef .tc r) = V (Proc.devRef .tc r) :=
  after_of_writes_sub ops6 V ops6_writes hr

theorem st6_v58 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F))
    (h_v52 : V (Proc.devRef .tc main_v52) = val_main_v52 (F := F) A0 A2 A3 A4 A5 A6 A7 A8 A9 A10 A11 A12 A13)
    (h_v55 : V (Proc.devRef .tc main_v55) = val_main_v55 (F := F) A0 A2 A3 A4 A5 A6 A7 A8 A9 A10 A11 A12 A13)
    (h_v56 : V (Proc.devRef .tc main_v56) = val_main_v56 (F := F) A0 A2 A3 A4 A5 A6 A7 A8 A9 A10 A11 A12 A13)
    (h_v57 : V (Proc.devRef .tc main_v57) = val_main_v57 (F := F) A0 A2 A3 A4 A5 A6 A7 A8 A9 A10 A11 A12 A13) :
    after ops6 V (Proc.devRef .tc main_v58) = val_main_v58 (F := F) A0 A2 A3 A4 A5 A6 A7 A8 A9 A10 A11 A12 A13 := by
  rw [after_cons, after_nil, nary_result, val_main_v58]
  show concatenate _ _ [⟨S32768x64, V (Proc.devRef .tc main_v52)⟩, ⟨S32768x64, V (Proc.devRef .tc main_v55)⟩, ⟨S32768x128, V (Proc.devRef .tc main_v56)⟩, ⟨S32768x448, V (Proc.devRef .tc main_v57)⟩] _ = _
  rw [h_v52, h_v55, h_v56, h_v57]

/-- Operations 74–81 of the program. -/
abbrev ops7 : List (HloOp τ sig (Elt F)) :=
  [ unary main_v58 main_v59 (broadcastInDim S32768x1x704 ![0, 2] bcast_S32768x704_S32768x1x704_0_2 : (⟨S32768x704, .f32⟩ : BufTy).Contents (Elt F) → (⟨S32768x1x704, .f32⟩ : BufTy).Contents (Elt F)),
    binary main_v59 main_arg14 main_v60 ((fun l r => Host.dotGeneral dot_S32768x1x704_S256x704_S32768x1x256_2_1_01_0_n_n none l r) : (⟨S32768x1x704, .f32⟩ : BufTy).Contents (Elt F) → (⟨S256x704, .f32⟩ : BufTy).Contents (Elt F) → (⟨S32768x1x256, .f32⟩ : BufTy).Contents (Elt F)),
    unary main_arg15 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S32768x1x256 ![0, 1, 2] bcast_S1x1x256_S32768x1x256_0_1_2 : (⟨S1x1x256, .f32⟩ : BufTy).Contents (Elt F) → (⟨S32768x1x256, .f32⟩ : BufTy).Contents (Elt F)),
    binary main_v60 main_v62 main_v63 (addf : (⟨S32768x1x256, .f32⟩ : BufTy).Contents (Elt F) → (⟨S32768x1x256, .f32⟩ : BufTy).Contents (Elt F) → (⟨S32768x1x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32768x1x256, .f32⟩) main_call4_v0) (broadcastInDim S32768x1x256 ![] bcast_S_S32768x1x256),
    TRef.binary (TRef.of (T := ⟨S32768x1x256, .f32⟩) main_v63) (TRef.of (T := ⟨S32768x1x256, .f32⟩) main_call4_v0) (TRef.of (T := ⟨S32768x1x256, .f32⟩) main_v64) maximumf ]

/-- The buffers operations 74–81 write. -/
abbrev wr7 : List (Ref sig .tc) := [main_v59, main_v60, main_v61, main_v62, main_v63, main_call4_cst, main_call4_v0, main_v64]

theorem ops7_writes : (ops7 : List (HloOp τ sig (Elt F))).Forall fun op => op.writes ⊆ ((wr7).map (Proc.devRef (τ := τ) .tc)).toFinset :=
  ⟨writes_sub main_v59 (by decide), writes_sub main_v60 (by decide), writes_sub main_v61 (by decide), writes_sub main_v62 (by decide), writes_sub main_v63 (by decide), writes_sub main_call4_cst (by decide), writes_sub main_call4_v0 (by decide), writes_sub main_v64 (by decide)⟩

/-- A buffer operations 74–81 do not write keeps its contents. -/
theorem frame7 (V : Valuation τ sig (Elt F)) (r : Ref sig .tc) (hr : r ∉ wr7) :
    after ops7 V (Proc.devRef .tc r) = V (Proc.devRef .tc r) :=
  after_of_writes_sub ops7 V ops7_writes hr

theorem st7_v64 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F))
    (h_v58 : V (Proc.devRef .tc main_v58) = val_main_v58 (F := F) A0 A2 A3 A4 A5 A6 A7 A8 A9 A10 A11 A12 A13)
    (h_arg14 : V (Proc.devRef .tc main_arg14) = A14)
    (h_arg15 : V (Proc.devRef .tc main_arg15) = A15) :
    after ops7 V (Proc.devRef .tc main_v64) = val_main_v64 (F := F) A0 A2 A3 A4 A5 A6 A7 A8 A9 A10 A11 A12 A13 A14 A15 := by
  after_results_simp
  simp only [h_v58, h_arg14, h_arg15]
  unfold val_main_v64 val_main_v63 val_main_v60 val_main_v59 val_main_v62 val_main_v61 val_main_call4_v0 val_main_call4_cst
  generalize val_main_v58 (F := F) A0 A2 A3 A4 A5 A6 A7 A8 A9 A10 A11 A12 A13 = X_v58
  revert X_v58
  refine @id _ ?_
  intro X_v58
  rfl

/-- Operations 82–98 of the program. -/
abbrev ops8 : List (HloOp τ sig (Elt F)) :=
  [ unary main_v64 main_v65 ((extractStridedSlice S32768x1x16 ![0, 0, 0] · slices_S32768x1x256_S32768x1x16_0_0_0) : (⟨S32768x1x256, .f32⟩ : BufTy).Contents (Elt F) → (⟨S32768x1x16, .f32⟩ : BufTy).Contents (Elt F)),
    reshape main_v65 main_v66 rfl shapeCasts_S32768x1x16_S32768x1x4x4,
    unary main_v64 main_v67 ((extractStridedSlice S32768x1x240 ![0, 0, 16] · slices_S32768x1x256_S32768x1x240_0_0_16) : (⟨S32768x1x256, .f32⟩ : BufTy).Contents (Elt F) → (⟨S32768x1x240, .f32⟩ : BufTy).Contents (Elt F)),
    binary main_v67 main_arg16 main_v68 ((fun l r => Host.dotGeneral dot_S32768x1x240_S248x240_S32768x1x248_2_1_01_0_n_n none l r) : (⟨S32768x1x240, .f32⟩ : BufTy).Contents (Elt F) → (⟨S248x240, .f32⟩ : BufTy).Contents (Elt F) → (⟨S32768x1x248, .f32⟩ : BufTy).Contents (Elt F)),
    unary main_arg17 main_v69 (broadcastInDim S1x1x248 ![2] bcast_S248_S1x1x248_2 : (⟨S248, .f32⟩ : BufTy).Contents (Elt F) → (⟨S1x1x248, .f32⟩ : BufTy).Contents (Elt F)),
    unary main_v69 main_v70 (broadcastInDim S32768x1x248 ![0, 1, 2] bcast_S1x1x248_S32768x1x248_0_1_2 : (⟨S1x1x248, .f32⟩ : BufTy).Contents (Elt F) → (⟨S32768x1x248, .f32⟩ : BufTy).Contents (Elt F)),
    binary main_v68 main_v70 main_v71 (addf : (⟨S32768x1x248, .f32⟩ : BufTy).Contents (Elt F) → (⟨S32768x1x248, .f32⟩ : BufTy).Contents (Elt F) → (⟨S32768x1x248, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32768x1x248, .f32⟩) main_call5_v0) (broadcastInDim S32768x1x248 ![] bcast_S_S32768x1x248),
    TRef.binary (TRef.of (T := ⟨S32768x1x248, .f32⟩) main_v71) (TRef.of (T := ⟨S32768x1x248, .f32⟩) main_call5_v0) (TRef.of (T := ⟨S32768x1x248, .f32⟩) main_v72) maximumf,
    nullary main_cst_6 (constant S_ .f32 0xFF800000#32),
    binary main_v66 main_cst_6 main_v73 ((fun x v => Host.reduce FloatOps.maximumf x v reducesTo_S32768x1x4x4_S32768x1x4_d3 h_S_) : (⟨S32768x1x4x4, .f32⟩ : BufTy).Contents (Elt F) → (⟨S_, .f32⟩ : BufTy).Contents (Elt F) → (⟨S32768x1x4, .f32⟩ : BufTy).Contents (Elt F)),
    nullary main_cst_7 (constant S_ .f32 0x00000000#32),
    binary main_v66 main_cst_7 main_v74 ((fun x v => Host.reduceAdd x v reducesTo_S32768x1x4x4_S32768x1x4_d3 h_S_) : (⟨S32768x1x4x4, .f32⟩ : BufTy).Contents (Elt F) → (⟨S_, .f32⟩ : BufTy).Contents (Elt F) → (⟨S32768x1x4, .f32⟩ : BufTy).Contents (Elt F)),
    nullary main_cst_8 (constant S_ .f32 0x40800000#32),
    unary main_cst_8 main_v75 (broadcastInDim S32768x1x4 ![] bcast_S_S32768x1x4 : (⟨S_, .f32⟩ : BufTy).Contents (Elt F) → (⟨S32768x1x4, .f32⟩ : BufTy).Contents (Elt F)),
    binary main_v74 main_v75 main_v76 (Host.divf : (⟨S32768x1x4, .f32⟩ : BufTy).Contents (Elt F) → (⟨S32768x1x4, .f32⟩ : BufTy).Contents (Elt F) → (⟨S32768x1x4, .f32⟩ : BufTy).Contents (Elt F)) ]

/-- The buffers operations 82–98 write. -/
abbrev wr8 : List (Ref sig .tc) := [main_v65, main_v66, main_v67, main_v68, main_v69, main_v70, main_v71, main_call5_cst, main_call5_v0, main_v72, main_cst_6, main_v73, main_cst_7, main_v74, main_cst_8, main_v75, main_v76]

theorem ops8_writes : (ops8 : List (HloOp τ sig (Elt F))).Forall fun op => op.writes ⊆ ((wr8).map (Proc.devRef (τ := τ) .tc)).toFinset :=
  ⟨writes_sub main_v65 (by decide), writes_sub main_v66 (by decide), writes_sub main_v67 (by decide), writes_sub main_v68 (by decide), writes_sub main_v69 (by decide), writes_sub main_v70 (by decide), writes_sub main_v71 (by decide), writes_sub main_call5_cst (by decide), writes_sub main_call5_v0 (by decide), writes_sub main_v72 (by decide), writes_sub main_cst_6 (by decide), writes_sub main_v73 (by decide), writes_sub main_cst_7 (by decide), writes_sub main_v74 (by decide), writes_sub main_cst_8 (by decide), writes_sub main_v75 (by decide), writes_sub main_v76 (by decide)⟩

/-- A buffer operations 82–98 do not write keeps its contents. -/
theorem frame8 (V : Valuation τ sig (Elt F)) (r : Ref sig .tc) (hr : r ∉ wr8) :
    after ops8 V (Proc.devRef .tc r) = V (Proc.devRef .tc r) :=
  after_of_writes_sub ops8 V ops8_writes hr

theorem st8_v72 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F))
    (h_v64 : V (Proc.devRef .tc main_v64) = val_main_v64 (F := F) A0 A2 A3 A4 A5 A6 A7 A8 A9 A10 A11 A12 A13 A14 A15)
    (h_arg16 : V (Proc.devRef .tc main_arg16) = A16)
    (h_arg17 : V (Proc.devRef .tc main_arg17) = A17) :
    after ops8 V (Proc.devRef .tc main_v72) = val_main_v72 (F := F) A0 A2 A3 A4 A5 A6 A7 A8 A9 A10 A11 A12 A13 A14 A15 A16 A17 := by
  after_results_simp
  simp only [h_v64, h_arg16, h_arg17]
  unfold val_main_v72 val_main_v71 val_main_v68 val_main_v67 val_main_v70 val_main_v69 val_main_call5_v0 val_main_call5_cst
  generalize val_main_v64 (F := F) A0 A2 A3 A4 A5 A6 A7 A8 A9 A10 A11 A12 A13 A14 A15 = X_v64
  revert X_v64
  refine @id _ ?_
  intro X_v64
  rfl

theorem st8_v73 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F))
    (h_v64 : V (Proc.devRef .tc main_v64) = val_main_v64 (F := F) A0 A2 A3 A4 A5 A6 A7 A8 A9 A10 A11 A12 A13 A14 A15) :
    after ops8 V (Proc.devRef .tc main_v73) = val_main_v73 (F := F) A0 A2 A3 A4 A5 A6 A7 A8 A9 A10 A11 A12 A13 A14 A15 := by
  after_results_simp
  simp only [h_v64]
  unfold val_main_v73 val_main_v66 val_main_v65 val_main_cst_6
  generalize val_main_v64 (F := F) A0 A2 A3 A4 A5 A6 A7 A8 A9 A10 A11 A12 A13 A14 A15 = X_v64
  revert X_v64
  refine @id _ ?_
  intro X_v64
  rfl

theorem st8_v76 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F))
    (h_v64 : V (Proc.devRef .tc main_v64) = val_main_v64 (F := F) A0 A2 A3 A4 A5 A6 A7 A8 A9 A10 A11 A12 A13 A14 A15) :
    after ops8 V (Proc.devRef .tc main_v76) = val_main_v76 (F := F) A0 A2 A3 A4 A5 A6 A7 A8 A9 A10 A11 A12 A13 A14 A15 := by
  after_results_simp
  simp only [h_v64]
  unfold val_main_v76 val_main_v74 val_main_v66 val_main_v65 val_main_cst_7 val_main_v75 val_main_cst_8
  generalize val_main_v64 (F := F) A0 A2 A3 A4 A5 A6 A7 A8 A9 A10 A11 A12 A13 A14 A15 = X_v64
  revert X_v64
  refine @id _ ?_
  intro X_v64
  rfl

/-- Operations 99–99 of the program. -/
abbrev ops9 : List (HloOp τ sig (Elt F)) :=
  [ nary ![main_v73, main_v76, main_v72] main_v77 (fun u => concatenate S32768x1x256 2 [⟨S32768x1x4, u 0⟩, ⟨S32768x1x4, u 1⟩, ⟨S32768x1x248, u 2⟩] concatenates_S32768x1x4_S32768x1x4_S32768x1x248_S32768x1x256_d2) ]

/-- The buffers operations 99–99 write. -/
abbrev wr9 : List (Ref sig .tc) := [main_v77]

theorem ops9_writes : (ops9 : List (HloOp τ sig (Elt F))).Forall fun op => op.writes ⊆ ((wr9).map (Proc.devRef (τ := τ) .tc)).toFinset :=
  writes_sub main_v77 (by decide)

/-- A buffer operations 99–99 do not write keeps its contents. -/
theorem frame9 (V : Valuation τ sig (Elt F)) (r : Ref sig .tc) (hr : r ∉ wr9) :
    after ops9 V (Proc.devRef .tc r) = V (Proc.devRef .tc r) :=
  after_of_writes_sub ops9 V ops9_writes hr

theorem st9_v77 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F))
    (h_v73 : V (Proc.devRef .tc main_v73) = val_main_v73 (F := F) A0 A2 A3 A4 A5 A6 A7 A8 A9 A10 A11 A12 A13 A14 A15)
    (h_v76 : V (Proc.devRef .tc main_v76) = val_main_v76 (F := F) A0 A2 A3 A4 A5 A6 A7 A8 A9 A10 A11 A12 A13 A14 A15)
    (h_v72 : V (Proc.devRef .tc main_v72) = val_main_v72 (F := F) A0 A2 A3 A4 A5 A6 A7 A8 A9 A10 A11 A12 A13 A14 A15 A16 A17) :
    after ops9 V (Proc.devRef .tc main_v77) = val_main_v77 (F := F) A0 A2 A3 A4 A5 A6 A7 A8 A9 A10 A11 A12 A13 A14 A15 A16 A17 := by
  rw [after_cons, after_nil, nary_result, val_main_v77]
  show concatenate _ _ [⟨S32768x1x4, V (Proc.devRef .tc main_v73)⟩, ⟨S32768x1x4, V (Proc.devRef .tc main_v76)⟩, ⟨S32768x1x248, V (Proc.devRef .tc main_v72)⟩] _ = _
  rw [h_v73, h_v76, h_v72]

/-- Operations 100–106 of the program. -/
abbrev ops10 : List (HloOp τ sig (Elt F)) :=
  [ binary main_v77 main_arg18 main_v78 ((fun l r => Host.dotGeneral dot_S32768x1x256_S128x256_S32768x1x128_2_1_01_0_n_n none l r) : (⟨S32768x1x256, .f32⟩ : BufTy).Contents (Elt F) → (⟨S128x256, .f32⟩ : BufTy).Contents (Elt F) → (⟨S32768x1x128, .f32⟩ : BufTy).Contents (Elt F)),
    unary main_arg19 main_v79 (broadcastInDim S1x1x128 ![2] bcast_S128_S1x1x128_2 : (⟨S128, .f32⟩ : BufTy).Contents (Elt F) → (⟨S1x1x128, .f32⟩ : BufTy).Contents (Elt F)),
    unary main_v79 main_v80 (broadcastInDim S32768x1x128 ![0, 1, 2] bcast_S1x1x128_S32768x1x128_0_1_2 : (⟨S1x1x128, .f32⟩ : BufTy).Contents (Elt F) → (⟨S32768x1x128, .f32⟩ : BufTy).Contents (Elt F)),
    binary main_v78 main_v80 main_v81 (addf : (⟨S32768x1x128, .f32⟩ : BufTy).Contents (Elt F) → (⟨S32768x1x128, .f32⟩ : BufTy).Contents (Elt F) → (⟨S32768x1x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32768x1x128, .f32⟩) main_call6_v0) (broadcastInDim S32768x1x128 ![] bcast_S_S32768x1x128),
    TRef.binary (TRef.of (T := ⟨S32768x1x128, .f32⟩) main_v81) (TRef.of (T := ⟨S32768x1x128, .f32⟩) main_call6_v0) (TRef.of (T := ⟨S32768x1x128, .f32⟩) main_v82) maximumf ]

/-- The buffers operations 100–106 write. -/
abbrev wr10 : List (Ref sig .tc) := [main_v78, main_v79, main_v80, main_v81, main_call6_cst, main_call6_v0, main_v82]

theorem ops10_writes : (ops10 : List (HloOp τ sig (Elt F))).Forall fun op => op.writes ⊆ ((wr10).map (Proc.devRef (τ := τ) .tc)).toFinset :=
  ⟨writes_sub main_v78 (by decide), writes_sub main_v79 (by decide), writes_sub main_v80 (by decide), writes_sub main_v81 (by decide), writes_sub main_call6_cst (by decide), writes_sub main_call6_v0 (by decide), writes_sub main_v82 (by decide)⟩

/-- A buffer operations 100–106 do not write keeps its contents. -/
theorem frame10 (V : Valuation τ sig (Elt F)) (r : Ref sig .tc) (hr : r ∉ wr10) :
    after ops10 V (Proc.devRef .tc r) = V (Proc.devRef .tc r) :=
  after_of_writes_sub ops10 V ops10_writes hr

theorem st10_v82 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F))
    (h_v77 : V (Proc.devRef .tc main_v77) = val_main_v77 (F := F) A0 A2 A3 A4 A5 A6 A7 A8 A9 A10 A11 A12 A13 A14 A15 A16 A17)
    (h_arg18 : V (Proc.devRef .tc main_arg18) = A18)
    (h_arg19 : V (Proc.devRef .tc main_arg19) = A19) :
    after ops10 V (Proc.devRef .tc main_v82) = val_main_v82 (F := F) A0 A2 A3 A4 A5 A6 A7 A8 A9 A10 A11 A12 A13 A14 A15 A16 A17 A18 A19 := by
  after_results_simp
  simp only [h_v77, h_arg18, h_arg19]
  unfold val_main_v82 val_main_v81 val_main_v78 val_main_v80 val_main_v79 val_main_call6_v0 val_main_call6_cst
  generalize val_main_v77 (F := F) A0 A2 A3 A4 A5 A6 A7 A8 A9 A10 A11 A12 A13 A14 A15 A16 A17 = X_v77
  revert X_v77
  refine @id _ ?_
  intro X_v77
  rfl

/-- Operations 107–123 of the program. -/
abbrev ops11 : List (HloOp τ sig (Elt F)) :=
  [ unary main_v82 main_v83 ((extractStridedSlice S32768x1x16 ![0, 0, 0] · slices_S32768x1x128_S32768x1x16_0_0_0) : (⟨S32768x1x128, .f32⟩ : BufTy).Contents (Elt F) → (⟨S32768x1x16, .f32⟩ : BufTy).Contents (Elt F)),
    reshape main_v83 main_v84 rfl shapeCasts_S32768x1x16_S32768x1x4x4,
    unary main_v82 main_v85 ((extractStridedSlice S32768x1x112 ![0, 0, 16] · slices_S32768x1x128_S32768x1x112_0_0_16) : (⟨S32768x1x128, .f32⟩ : BufTy).Contents (Elt F) → (⟨S32768x1x112, .f32⟩ : BufTy).Contents (Elt F)),
    binary main_v85 main_arg20 main_v86 ((fun l r => Host.dotGeneral dot_S32768x1x112_S120x112_S32768x1x120_2_1_01_0_n_n none l r) : (⟨S32768x1x112, .f32⟩ : BufTy).Contents (Elt F) → (⟨S120x112, .f32⟩ : BufTy).Contents (Elt F) → (⟨S32768x1x120, .f32⟩ : BufTy).Contents (Elt F)),
    unary main_arg21 main_v87 (broadcastInDim S1x1x120 ![2] bcast_S120_S1x1x120_2 : (⟨S120, .f32⟩ : BufTy).Contents (Elt F) → (⟨S1x1x120, .f32⟩ : BufTy).Contents (Elt F)),
    unary main_v87 main_v88 (broadcastInDim S32768x1x120 ![0, 1, 2] bcast_S1x1x120_S32768x1x120_0_1_2 : (⟨S1x1x120, .f32⟩ : BufTy).Contents (Elt F) → (⟨S32768x1x120, .f32⟩ : BufTy).Contents (Elt F)),
    binary main_v86 main_v88 main_v89 (addf : (⟨S32768x1x120, .f32⟩ : BufTy).Contents (Elt F) → (⟨S32768x1x120, .f32⟩ : BufTy).Contents (Elt F) → (⟨S32768x1x120, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x1x120, .f32⟩) main_call7_v0) (broadcastInDim S32768x1x120 ![] bcast_S_S32768x1x120),
    TRef.binary (TRef.of (T := ⟨S32768x1x120, .f32⟩) main_v89) (TRef.of (T := ⟨S32768x1x120, .f32⟩) main_call7_v0) (TRef.of (T := ⟨S32768x1x120, .f32⟩) main_v90) maximumf,
    nullary main_cst_9 (constant S_ .f32 0xFF800000#32),
    binary main_v84 main_cst_9 main_v91 ((fun x v => Host.reduce FloatOps.maximumf x v reducesTo_S32768x1x4x4_S32768x1x4_d3 h_S_) : (⟨S32768x1x4x4, .f32⟩ : BufTy).Contents (Elt F) → (⟨S_, .f32⟩ : BufTy).Contents (Elt F) → (⟨S32768x1x4, .f32⟩ : BufTy).Contents (Elt F)),
    nullary main_cst_10 (constant S_ .f32 0x00000000#32),
    binary main_v84 main_cst_10 main_v92 ((fun x v => Host.reduceAdd x v reducesTo_S32768x1x4x4_S32768x1x4_d3 h_S_) : (⟨S32768x1x4x4, .f32⟩ : BufTy).Contents (Elt F) → (⟨S_, .f32⟩ : BufTy).Contents (Elt F) → (⟨S32768x1x4, .f32⟩ : BufTy).Contents (Elt F)),
    nullary main_cst_11 (constant S_ .f32 0x40800000#32),
    unary main_cst_11 main_v93 (broadcastInDim S32768x1x4 ![] bcast_S_S32768x1x4 : (⟨S_, .f32⟩ : BufTy).Contents (Elt F) → (⟨S32768x1x4, .f32⟩ : BufTy).Contents (Elt F)),
    binary main_v92 main_v93 main_v94 (Host.divf : (⟨S32768x1x4, .f32⟩ : BufTy).Contents (Elt F) → (⟨S32768x1x4, .f32⟩ : BufTy).Contents (Elt F) → (⟨S32768x1x4, .f32⟩ : BufTy).Contents (Elt F)) ]

/-- The buffers operations 107–123 write. -/
abbrev wr11 : List (Ref sig .tc) := [main_v83, main_v84, main_v85, main_v86, main_v87, main_v88, main_v89, main_call7_cst, main_call7_v0, main_v90, main_cst_9, main_v91, main_cst_10, main_v92, main_cst_11, main_v93, main_v94]

theorem ops11_writes : (ops11 : List (HloOp τ sig (Elt F))).Forall fun op => op.writes ⊆ ((wr11).map (Proc.devRef (τ := τ) .tc)).toFinset :=
  ⟨writes_sub main_v83 (by decide), writes_sub main_v84 (by decide), writes_sub main_v85 (by decide), writes_sub main_v86 (by decide), writes_sub main_v87 (by decide), writes_sub main_v88 (by decide), writes_sub main_v89 (by decide), writes_sub main_call7_cst (by decide), writes_sub main_call7_v0 (by decide), writes_sub main_v90 (by decide), writes_sub main_cst_9 (by decide), writes_sub main_v91 (by decide), writes_sub main_cst_10 (by decide), writes_sub main_v92 (by decide), writes_sub main_cst_11 (by decide), writes_sub main_v93 (by decide), writes_sub main_v94 (by decide)⟩

/-- A buffer operations 107–123 do not write keeps its contents. -/
theorem frame11 (V : Valuation τ sig (Elt F)) (r : Ref sig .tc) (hr : r ∉ wr11) :
    after ops11 V (Proc.devRef .tc r) = V (Proc.devRef .tc r) :=
  after_of_writes_sub ops11 V ops11_writes hr

theorem st11_v90 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F))
    (h_v82 : V (Proc.devRef .tc main_v82) = val_main_v82 (F := F) A0 A2 A3 A4 A5 A6 A7 A8 A9 A10 A11 A12 A13 A14 A15 A16 A17 A18 A19)
    (h_arg20 : V (Proc.devRef .tc main_arg20) = A20)
    (h_arg21 : V (Proc.devRef .tc main_arg21) = A21) :
    after ops11 V (Proc.devRef .tc main_v90) = val_main_v90 (F := F) A0 A2 A3 A4 A5 A6 A7 A8 A9 A10 A11 A12 A13 A14 A15 A16 A17 A18 A19 A20 A21 := by
  after_results_simp
  simp only [h_v82, h_arg20, h_arg21]
  unfold val_main_v90 val_main_v89 val_main_v86 val_main_v85 val_main_v88 val_main_v87 val_main_call7_v0 val_main_call7_cst
  generalize val_main_v82 (F := F) A0 A2 A3 A4 A5 A6 A7 A8 A9 A10 A11 A12 A13 A14 A15 A16 A17 A18 A19 = X_v82
  revert X_v82
  refine @id _ ?_
  intro X_v82
  rfl

theorem st11_v91 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F))
    (h_v82 : V (Proc.devRef .tc main_v82) = val_main_v82 (F := F) A0 A2 A3 A4 A5 A6 A7 A8 A9 A10 A11 A12 A13 A14 A15 A16 A17 A18 A19) :
    after ops11 V (Proc.devRef .tc main_v91) = val_main_v91 (F := F) A0 A2 A3 A4 A5 A6 A7 A8 A9 A10 A11 A12 A13 A14 A15 A16 A17 A18 A19 := by
  after_results_simp
  simp only [h_v82]
  unfold val_main_v91 val_main_v84 val_main_v83 val_main_cst_9
  generalize val_main_v82 (F := F) A0 A2 A3 A4 A5 A6 A7 A8 A9 A10 A11 A12 A13 A14 A15 A16 A17 A18 A19 = X_v82
  revert X_v82
  refine @id _ ?_
  intro X_v82
  rfl

theorem st11_v94 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F))
    (h_v82 : V (Proc.devRef .tc main_v82) = val_main_v82 (F := F) A0 A2 A3 A4 A5 A6 A7 A8 A9 A10 A11 A12 A13 A14 A15 A16 A17 A18 A19) :
    after ops11 V (Proc.devRef .tc main_v94) = val_main_v94 (F := F) A0 A2 A3 A4 A5 A6 A7 A8 A9 A10 A11 A12 A13 A14 A15 A16 A17 A18 A19 := by
  after_results_simp
  simp only [h_v82]
  unfold val_main_v94 val_main_v92 val_main_v84 val_main_v83 val_main_cst_10 val_main_v93 val_main_cst_11
  generalize val_main_v82 (F := F) A0 A2 A3 A4 A5 A6 A7 A8 A9 A10 A11 A12 A13 A14 A15 A16 A17 A18 A19 = X_v82
  revert X_v82
  refine @id _ ?_
  intro X_v82
  rfl

/-- Operations 124–124 of the program. -/
abbrev ops12 : List (HloOp τ sig (Elt F)) :=
  [ nary ![main_v91, main_v94, main_v90] main_v95 (fun u => concatenate S32768x1x128 2 [⟨S32768x1x4, u 0⟩, ⟨S32768x1x4, u 1⟩, ⟨S32768x1x120, u 2⟩] concatenates_S32768x1x4_S32768x1x4_S32768x1x120_S32768x1x128_d2) ]

/-- The buffers operations 124–124 write. -/
abbrev wr12 : List (Ref sig .tc) := [main_v95]

theorem ops12_writes : (ops12 : List (HloOp τ sig (Elt F))).Forall fun op => op.writes ⊆ ((wr12).map (Proc.devRef (τ := τ) .tc)).toFinset :=
  writes_sub main_v95 (by decide)

/-- A buffer operations 124–124 do not write keeps its contents. -/
theorem frame12 (V : Valuation τ sig (Elt F)) (r : Ref sig .tc) (hr : r ∉ wr12) :
    after ops12 V (Proc.devRef .tc r) = V (Proc.devRef .tc r) :=
  after_of_writes_sub ops12 V ops12_writes hr

theorem st12_v95 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F))
    (h_v91 : V (Proc.devRef .tc main_v91) = val_main_v91 (F := F) A0 A2 A3 A4 A5 A6 A7 A8 A9 A10 A11 A12 A13 A14 A15 A16 A17 A18 A19)
    (h_v94 : V (Proc.devRef .tc main_v94) = val_main_v94 (F := F) A0 A2 A3 A4 A5 A6 A7 A8 A9 A10 A11 A12 A13 A14 A15 A16 A17 A18 A19)
    (h_v90 : V (Proc.devRef .tc main_v90) = val_main_v90 (F := F) A0 A2 A3 A4 A5 A6 A7 A8 A9 A10 A11 A12 A13 A14 A15 A16 A17 A18 A19 A20 A21) :
    after ops12 V (Proc.devRef .tc main_v95) = val_main_v95 (F := F) A0 A2 A3 A4 A5 A6 A7 A8 A9 A10 A11 A12 A13 A14 A15 A16 A17 A18 A19 A20 A21 := by
  rw [after_cons, after_nil, nary_result, val_main_v95]
  show concatenate _ _ [⟨S32768x1x4, V (Proc.devRef .tc main_v91)⟩, ⟨S32768x1x4, V (Proc.devRef .tc main_v94)⟩, ⟨S32768x1x120, V (Proc.devRef .tc main_v90)⟩] _ = _
  rw [h_v91, h_v94, h_v90]

/-- Operations 125–133 of the program. -/
abbrev ops13 : List (HloOp τ sig (Elt F)) :=
  [ binary main_v95 main_arg22 main_v96 ((fun l r => Host.dotGeneral dot_S32768x1x128_S128x128_S32768x1x128_2_1_01_0_n_n none l r) : (⟨S32768x1x128, .f32⟩ : BufTy).Contents (Elt F) → (⟨S128x128, .f32⟩ : BufTy).Contents (Elt F) → (⟨S32768x1x128, .f32⟩ : BufTy).Contents (Elt F)),
    unary main_arg23 main_v97 (broadcastInDim S1x1x128 ![2] bcast_S128_S1x1x128_2 : (⟨S128, .f32⟩ : BufTy).Contents (Elt F) → (⟨S1x1x128, .f32⟩ : BufTy).Contents (Elt F)),
    unary main_v97 main_v98 (broadcastInDim S32768x1x128 ![0, 1, 2] bcast_S1x1x128_S32768x1x128_0_1_2 : (⟨S1x1x128, .f32⟩ : BufTy).Contents (Elt F) → (⟨S32768x1x128, .f32⟩ : BufTy).Contents (Elt F)),
    binary main_v96 main_v98 main_v99 (addf : (⟨S32768x1x128, .f32⟩ : BufTy).Contents (Elt F) → (⟨S32768x1x128, .f32⟩ : BufTy).Contents (Elt F) → (⟨S32768x1x128, .f32⟩ : BufTy).Contents (Elt F)),
    binary main_v99 main_arg24 main_v100 ((fun l r => Host.dotGeneral dot_S32768x1x128_S81x128_S32768x1x81_2_1_01_0_n_n none l r) : (⟨S32768x1x128, .f32⟩ : BufTy).Contents (Elt F) → (⟨S81x128, .f32⟩ : BufTy).Contents (Elt F) → (⟨S32768x1x81, .f32⟩ : BufTy).Contents (Elt F)),
    unary main_arg25 main_v101 (broadcastInDim S1x1x81 ![2] bcast_S81_S1x1x81_2 : (⟨S81, .f32⟩ : BufTy).Contents (Elt F) → (⟨S1x1x81, .f32⟩ : BufTy).Contents (Elt F)),
    unary main_v101 main_v102 (broadcastInDim S32768x1x81 ![0, 1, 2] bcast_S1x1x81_S32768x1x81_0_1_2 : (⟨S1x1x81, .f32⟩ : BufTy).Contents (Elt F) → (⟨S32768x1x81, .f32⟩ : BufTy).Contents (Elt F)),
    binary main_v100 main_v102 main_v103 (addf : (⟨S32768x1x81, .f32⟩ : BufTy).Contents (Elt F) → (⟨S32768x1x81, .f32⟩ : BufTy).Contents (Elt F) → (⟨S32768x1x81, .f32⟩ : BufTy).Contents (Elt F)),
    reshape main_v103 main_v104 rfl shapeCasts_S32768x1x81_S32768x81 ]

/-- The buffers operations 125–133 write. -/
abbrev wr13 : List (Ref sig .tc) := [main_v96, main_v97, main_v98, main_v99, main_v100, main_v101, main_v102, main_v103, main_v104]

theorem ops13_writes : (ops13 : List (HloOp τ sig (Elt F))).Forall fun op => op.writes ⊆ ((wr13).map (Proc.devRef (τ := τ) .tc)).toFinset :=
  ⟨writes_sub main_v96 (by decide), writes_sub main_v97 (by decide), writes_sub main_v98 (by decide), writes_sub main_v99 (by decide), writes_sub main_v100 (by decide), writes_sub main_v101 (by decide), writes_sub main_v102 (by decide), writes_sub main_v103 (by decide), writes_sub main_v104 (by decide)⟩

/-- A buffer operations 125–133 do not write keeps its contents. -/
theorem frame13 (V : Valuation τ sig (Elt F)) (r : Ref sig .tc) (hr : r ∉ wr13) :
    after ops13 V (Proc.devRef .tc r) = V (Proc.devRef .tc r) :=
  after_of_writes_sub ops13 V ops13_writes hr

theorem st13_v104 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F))
    (h_v95 : V (Proc.devRef .tc main_v95) = val_main_v95 (F := F) A0 A2 A3 A4 A5 A6 A7 A8 A9 A10 A11 A12 A13 A14 A15 A16 A17 A18 A19 A20 A21)
    (h_arg22 : V (Proc.devRef .tc main_arg22) = A22)
    (h_arg23 : V (Proc.devRef .tc main_arg23) = A23)
    (h_arg24 : V (Proc.devRef .tc main_arg24) = A24)
    (h_arg25 : V (Proc.devRef .tc main_arg25) = A25) :
    after ops13 V (Proc.devRef .tc main_v104) = val_main_v104 (F := F) A0 A2 A3 A4 A5 A6 A7 A8 A9 A10 A11 A12 A13 A14 A15 A16 A17 A18 A19 A20 A21 A22 A23 A24 A25 := by
  after_results_simp
  simp only [h_v95, h_arg22, h_arg23, h_arg24, h_arg25]
  unfold val_main_v104 val_main_v103 val_main_v100 val_main_v99 val_main_v96 val_main_v98 val_main_v97 val_main_v102 val_main_v101
  generalize val_main_v95 (F := F) A0 A2 A3 A4 A5 A6 A7 A8 A9 A10 A11 A12 A13 A14 A15 A16 A17 A18 A19 A20 A21 = X_v95
  revert X_v95
  refine @id _ ?_
  intro X_v95
  rfl

/-- Operations 134–142 of the program. -/
abbrev ops14 : List (HloOp τ sig (Elt F)) :=
  [ binary main_v95 main_arg26 main_v105 ((fun l r => Host.dotGeneral dot_S32768x1x128_S128x128_S32768x1x128_2_1_01_0_n_n none l r) : (⟨S32768x1x128, .f32⟩ : BufTy).Contents (Elt F) → (⟨S128x128, .f32⟩ : BufTy).Contents (Elt F) → (⟨S32768x1x128, .f32⟩ : BufTy).Contents (Elt F)),
    unary main_arg27 main_v106 (broadcastInDim S1x1x128 ![2] bcast_S128_S1x1x128_2 : (⟨S128, .f32⟩ : BufTy).Contents (Elt F) → (⟨S1x1x128, .f32⟩ : BufTy).Contents (Elt F)),
    unary main_v106 main_v107 (broadcastInDim S32768x1x128 ![0, 1, 2] bcast_S1x1x128_S32768x1x128_0_1_2 : (⟨S1x1x128, .f32⟩ : BufTy).Contents (Elt F) → (⟨S32768x1x128, .f32⟩ : BufTy).Contents (Elt F)),
    binary main_v105 main_v107 main_v108 (addf : (⟨S32768x1x128, .f32⟩ : BufTy).Contents (Elt F) → (⟨S32768x1x128, .f32⟩ : BufTy).Contents (Elt F) → (⟨S32768x1x128, .f32⟩ : BufTy).Contents (Elt F)),
    binary main_v108 main_arg28 main_v109 ((fun l r => Host.dotGeneral dot_S32768x1x128_S1x128_S32768x1x1_2_1_01_0_n_n none l r) : (⟨S32768x1x128, .f32⟩ : BufTy).Contents (Elt F) → (⟨S1x128, .f32⟩ : BufTy).Contents (Elt F) → (⟨S32768x1x1, .f32⟩ : BufTy).Contents (Elt F)),
    unary main_arg29 main_v110 (broadcastInDim S1x1x1 ![2] bcast_S1_S1x1x1_2 : (⟨S1, .f32⟩ : BufTy).Contents (Elt F) → (⟨S1x1x1, .f32⟩ : BufTy).Contents (Elt F)),
    unary main_v110 main_v111 (broadcastInDim S32768x1x1 ![0, 1, 2] bcast_S1x1x1_S32768x1x1_0_1_2 : (⟨S1x1x1, .f32⟩ : BufTy).Contents (Elt F) → (⟨S32768x1x1, .f32⟩ : BufTy).Contents (Elt F)),
    binary main_v109 main_v111 main_v112 (addf : (⟨S32768x1x1, .f32⟩ : BufTy).Contents (Elt F) → (⟨S32768x1x1, .f32⟩ : BufTy).Contents (Elt F) → (⟨S32768x1x1, .f32⟩ : BufTy).Contents (Elt F)),
    reshape main_v112 main_v113 rfl shapeCasts_S32768x1x1_S32768x1 ]

/-- The buffers operations 134–142 write. -/
abbrev wr14 : List (Ref sig .tc) := [main_v105, main_v106, main_v107, main_v108, main_v109, main_v110, main_v111, main_v112, main_v113]

theorem ops14_writes : (ops14 : List (HloOp τ sig (Elt F))).Forall fun op => op.writes ⊆ ((wr14).map (Proc.devRef (τ := τ) .tc)).toFinset :=
  ⟨writes_sub main_v105 (by decide), writes_sub main_v106 (by decide), writes_sub main_v107 (by decide), writes_sub main_v108 (by decide), writes_sub main_v109 (by decide), writes_sub main_v110 (by decide), writes_sub main_v111 (by decide), writes_sub main_v112 (by decide), writes_sub main_v113 (by decide)⟩

/-- A buffer operations 134–142 do not write keeps its contents. -/
theorem frame14 (V : Valuation τ sig (Elt F)) (r : Ref sig .tc) (hr : r ∉ wr14) :
    after ops14 V (Proc.devRef .tc r) = V (Proc.devRef .tc r) :=
  after_of_writes_sub ops14 V ops14_writes hr

theorem st14_v113 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A26 : (⟨S128x128, .f32⟩ : BufTy).Contents (Elt F)) (A27 : (⟨S128, .f32⟩ : BufTy).Contents (Elt F)) (A28 : (⟨S1x128, .f32⟩ : BufTy).Contents (Elt F)) (A29 : (⟨S1, .f32⟩ : BufTy).Contents (Elt F))
    (h_v95 : V (Proc.devRef .tc main_v95) = val_main_v95 (F := F) A0 A2 A3 A4 A5 A6 A7 A8 A9 A10 A11 A12 A13 A14 A15 A16 A17 A18 A19 A20 A21)
    (h_arg26 : V (Proc.devRef .tc main_arg26) = A26)
    (h_arg27 : V (Proc.devRef .tc main_arg27) = A27)
    (h_arg28 : V (Proc.devRef .tc main_arg28) = A28)
    (h_arg29 : V (Proc.devRef .tc main_arg29) = A29) :
    after ops14 V (Proc.devRef .tc main_v113) = val_main_v113 (F := F) A0 A2 A3 A4 A5 A6 A7 A8 A9 A10 A11 A12 A13 A14 A15 A16 A17 A18 A19 A20 A21 A26 A27 A28 A29 := by
  after_results_simp
  simp only [h_v95, h_arg26, h_arg27, h_arg28, h_arg29]
  unfold val_main_v113 val_main_v112 val_main_v109 val_main_v108 val_main_v105 val_main_v107 val_main_v106 val_main_v111 val_main_v110
  generalize val_main_v95 (F := F) A0 A2 A3 A4 A5 A6 A7 A8 A9 A10 A11 A12 A13 A14 A15 A16 A17 A18 A19 A20 A21 = X_v95
  revert X_v95
  refine @id _ ?_
  intro X_v95
  rfl

/-- Operations 143–151 of the program. -/
abbrev ops15 : List (HloOp τ sig (Elt F)) :=
  [ binary main_v95 main_arg30 main_v114 ((fun l r => Host.dotGeneral dot_S32768x1x128_S128x128_S32768x1x128_2_1_01_0_n_n none l r) : (⟨S32768x1x128, .f32⟩ : BufTy).Contents (Elt F) → (⟨S128x128, .f32⟩ : BufTy).Contents (Elt F) → (⟨S32768x1x128, .f32⟩ : BufTy).Contents (Elt F)),
    unary main_arg31 main_v115 (broadcastInDim S1x1x128 ![2] bcast_S128_S1x1x128_2 : (⟨S128, .f32⟩ : BufTy).Contents (Elt F) → (⟨S1x1x128, .f32⟩ : BufTy).Contents (Elt F)),
    unary main_v115 main_v116 (broadcastInDim S32768x1x128 ![0, 1, 2] bcast_S1x1x128_S32768x1x128_0_1_2 : (⟨S1x1x128, .f32⟩ : BufTy).Contents (Elt F) → (⟨S32768x1x128, .f32⟩ : BufTy).Contents (Elt F)),
    binary main_v114 main_v116 main_v117 (addf : (⟨S32768x1x128, .f32⟩ : BufTy).Contents (Elt F) → (⟨S32768x1x128, .f32⟩ : BufTy).Contents (Elt F) → (⟨S32768x1x128, .f32⟩ : BufTy).Contents (Elt F)),
    binary main_v117 main_arg32 main_v118 ((fun l r => Host.dotGeneral dot_S32768x1x128_S31x128_S32768x1x31_2_1_01_0_n_n none l r) : (⟨S32768x1x128, .f32⟩ : BufTy).Contents (Elt F) → (⟨S31x128, .f32⟩ : BufTy).Contents (Elt F) → (⟨S32768x1x31, .f32⟩ : BufTy).Contents (Elt F)),
    unary main_arg33 main_v119 (broadcastInDim S1x1x31 ![2] bcast_S31_S1x1x31_2 : (⟨S31, .f32⟩ : BufTy).Contents (Elt F) → (⟨S1x1x31, .f32⟩ : BufTy).Contents (Elt F)),
    unary main_v119 main_v120 (broadcastInDim S32768x1x31 ![0, 1, 2] bcast_S1x1x31_S32768x1x31_0_1_2 : (⟨S1x1x31, .f32⟩ : BufTy).Contents (Elt F) → (⟨S32768x1x31, .f32⟩ : BufTy).Contents (Elt F)),
    binary main_v118 main_v120 main_v121 (addf : (⟨S32768x1x31, .f32⟩ : BufTy).Contents (Elt F) → (⟨S32768x1x31, .f32⟩ : BufTy).Contents (Elt F) → (⟨S32768x1x31, .f32⟩ : BufTy).Contents (Elt F)),
    reshape main_v121 main_v122 rfl shapeCasts_S32768x1x31_S32768x31 ]

/-- The buffers operations 143–151 write. -/
abbrev wr15 : List (Ref sig .tc) := [main_v114, main_v115, main_v116, main_v117, main_v118, main_v119, main_v120, main_v121, main_v122]

theorem ops15_writes : (ops15 : List (HloOp τ sig (Elt F))).Forall fun op => op.writes ⊆ ((wr15).map (Proc.devRef (τ := τ) .tc)).toFinset :=
  ⟨writes_sub main_v114 (by decide), writes_sub main_v115 (by decide), writes_sub main_v116 (by decide), writes_sub main_v117 (by decide), writes_sub main_v118 (by decide), writes_sub main_v119 (by decide), writes_sub main_v120 (by decide), writes_sub main_v121 (by decide), writes_sub main_v122 (by decide)⟩

/-- A buffer operations 143–151 do not write keeps its contents. -/
theorem frame15 (V : Valuation τ sig (Elt F)) (r : Ref sig .tc) (hr : r ∉ wr15) :
    after ops15 V (Proc.devRef .tc r) = V (Proc.devRef .tc r) :=
  after_of_writes_sub ops15 V ops15_writes hr

theorem st15_v122 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A30 : (⟨S128x128, .f32⟩ : BufTy).Contents (Elt F)) (A31 : (⟨S128, .f32⟩ : BufTy).Contents (Elt F)) (A32 : (⟨S31x128, .f32⟩ : BufTy).Contents (Elt F)) (A33 : (⟨S31, .f32⟩ : BufTy).Contents (Elt F))
    (h_v95 : V (Proc.devRef .tc main_v95) = val_main_v95 (F := F) A0 A2 A3 A4 A5 A6 A7 A8 A9 A10 A11 A12 A13 A14 A15 A16 A17 A18 A19 A20 A21)
    (h_arg30 : V (Proc.devRef .tc main_arg30) = A30)
    (h_arg31 : V (Proc.devRef .tc main_arg31) = A31)
    (h_arg32 : V (Proc.devRef .tc main_arg32) = A32)
    (h_arg33 : V (Proc.devRef .tc main_arg33) = A33) :
    after ops15 V (Proc.devRef .tc main_v122) = val_main_v122 (F := F) A0 A2 A3 A4 A5 A6 A7 A8 A9 A10 A11 A12 A13 A14 A15 A16 A17 A18 A19 A20 A21 A30 A31 A32 A33 := by
  after_results_simp
  simp only [h_v95, h_arg30, h_arg31, h_arg32, h_arg33]
  unfold val_main_v122 val_main_v121 val_main_v118 val_main_v117 val_main_v114 val_main_v116 val_main_v115 val_main_v120 val_main_v119
  generalize val_main_v95 (F := F) A0 A2 A3 A4 A5 A6 A7 A8 A9 A10 A11 A12 A13 A14 A15 A16 A17 A18 A19 A20 A21 = X_v95
  revert X_v95
  refine @id _ ?_
  intro X_v95
  rfl

/-- Operations 152–155 of the program. -/
abbrev ops16 : List (HloOp τ sig (Elt F)) :=
  [ nullary main_cst_12 (constant S_ .f32 0xCCBEBC20#32),
    TRef.unary (TRef.of (T := ⟨S_, .f32⟩) main_cst_12) (TRef.of (T := ⟨S_, .f32⟩) main_call8_v0) id,
    TRef.unary (TRef.of (T := ⟨S_, .f32⟩) main_call8_v0) (TRef.of (T := ⟨S32768x81, .f32⟩) main_call8_v1) (broadcastInDim S32768x81 ![] bcast_S_S32768x81),
    TRef.ternary (TRef.of (T := ⟨S32768x81, .i1⟩) main_arg1) (TRef.of (T := ⟨S32768x81, .f32⟩) main_v104) (TRef.of (T := ⟨S32768x81, .f32⟩) main_call8_v1) (TRef.of (T := ⟨S32768x81, .f32⟩) main_v123) select ]

/-- The buffers operations 152–155 write. -/
abbrev wr16 : List (Ref sig .tc) := [main_cst_12, main_call8_v0, main_call8_v1, main_v123]

theorem ops16_writes : (ops16 : List (HloOp τ sig (Elt F))).Forall fun op => op.writes ⊆ ((wr16).map (Proc.devRef (τ := τ) .tc)).toFinset :=
  ⟨writes_sub main_cst_12 (by decide), writes_sub main_call8_v0 (by decide), writes_sub main_call8_v1 (by decide), writes_sub main_v123 (by decide)⟩

/-- A buffer operations 152–155 do not write keeps its contents. -/
theorem frame16 (V : Valuation τ sig (Elt F)) (r : Ref sig .tc) (hr : r ∉ wr16) :
    after ops16 V (Proc.devRef .tc r) = V (Proc.devRef .tc r) :=
  after_of_writes_sub ops16 V ops16_writes hr

theorem st16_v123 (V : Valuation τ sig (Elt F)) (A0 : (⟨S32768x56x7, .f32⟩ : BufTy).Contents (Elt F)) (A1 : (⟨S32768x81, .i1⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F))
    (h_arg1 : V (Proc.devRef .tc main_arg1) = A1)
    (h_v104 : V (Proc.devRef .tc main_v104) = val_main_v104 (F := F) A0 A2 A3 A4 A5 A6 A7 A8 A9 A10 A11 A12 A13 A14 A15 A16 A17 A18 A19 A20 A21 A22 A23 A24 A25) :
    after ops16 V (Proc.devRef .tc main_v123) = val_main_v123 (F := F) A0 A1 A2 A3 A4 A5 A6 A7 A8 A9 A10 A11 A12 A13 A14 A15 A16 A17 A18 A19 A20 A21 A22 A23 A24 A25 := by
  after_results_simp
  simp only [h_arg1, h_v104]
  unfold val_main_v123 val_main_call8_v1 val_main_call8_v0 val_main_cst_12
  generalize val_main_v104 (F := F) A0 A2 A3 A4 A5 A6 A7 A8 A9 A10 A11 A12 A13 A14 A15 A16 A17 A18 A19 A20 A21 A22 A23 A24 A25 = X_v104
  revert X_v104
  refine @id _ ?_
  intro X_v104
  rfl

/-- Operations 156–157 of the program. -/
abbrev ops17 : List (HloOp τ sig (Elt F)) :=
  [ TRef.nullary (TRef.of (T := ⟨S_, .f32⟩) main_call9_cst) (constant S_ .f32 0xFF800000#32),
    TRef.binary (TRef.of (T := ⟨S32768x81, .f32⟩) main_v123) (TRef.of (T := ⟨S_, .f32⟩) main_call9_cst) (TRef.of (T := ⟨S32768, .f32⟩) main_call9_v0) (fun x v => Host.reduce FloatOps.maximumf x v reducesTo_S32768x81_S32768_d1 h_S_) ]

/-- The buffers operations 156–157 write. -/
abbrev wr17 : List (Ref sig .tc) := [main_call9_cst, main_call9_v0]

theorem ops17_writes : (ops17 : List (HloOp τ sig (Elt F))).Forall fun op => op.writes ⊆ ((wr17).map (Proc.devRef (τ := τ) .tc)).toFinset :=
  ⟨writes_sub main_call9_cst (by decide), writes_sub main_call9_v0 (by decide)⟩

/-- A buffer operations 156–157 do not write keeps its contents. -/
theorem frame17 (V : Valuation τ sig (Elt F)) (r : Ref sig .tc) (hr : r ∉ wr17) :
    after ops17 V (Proc.devRef .tc r) = V (Proc.devRef .tc r) :=
  after_of_writes_sub ops17 V ops17_writes hr

theorem st17_call9_v0 (V : Valuation τ sig (Elt F)) (A0 : (⟨S32768x56x7, .f32⟩ : BufTy).Contents (Elt F)) (A1 : (⟨S32768x81, .i1⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F))
    (h_v123 : V (Proc.devRef .tc main_v123) = val_main_v123 (F := F) A0 A1 A2 A3 A4 A5 A6 A7 A8 A9 A10 A11 A12 A13 A14 A15 A16 A17 A18 A19 A20 A21 A22 A23 A24 A25) :
    after ops17 V (Proc.devRef .tc main_call9_v0) = val_main_call9_v0 (F := F) A0 A1 A2 A3 A4 A5 A6 A7 A8 A9 A10 A11 A12 A13 A14 A15 A16 A17 A18 A19 A20 A21 A22 A23 A24 A25 := by
  after_results_simp
  simp only [h_v123]
  unfold val_main_call9_v0 val_main_call9_cst
  generalize val_main_v123 (F := F) A0 A1 A2 A3 A4 A5 A6 A7 A8 A9 A10 A11 A12 A13 A14 A15 A16 A17 A18 A19 A20 A21 A22 A23 A24 A25 = X_v123
  revert X_v123
  refine @id _ ?_
  intro X_v123
  rfl

/-- Operations 158–160 of the program. -/
abbrev ops18 : List (HloOp τ sig (Elt F)) :=
  [ TRef.nullary (TRef.of (T := ⟨S_, .f32⟩) main_call9_cst_0) (constant S_ .f32 0xFF800000#32),
    TRef.unary (TRef.of (T := ⟨S_, .f32⟩) main_call9_cst_0) (TRef.of (T := ⟨S32768, .f32⟩) main_call9_v1) (broadcastInDim S32768 ![] bcast_S_S32768),
    TRef.binary (TRef.of (T := ⟨S32768, .f32⟩) main_call9_v1) (TRef.of (T := ⟨S32768, .f32⟩) main_call9_v0) (TRef.of (T := ⟨S32768, .f32⟩) main_call9_v2) maximumf ]

/-- The buffers operations 158–160 write. -/
abbrev wr18 : List (Ref sig .tc) := [main_call9_cst_0, main_call9_v1, main_call9_v2]

theorem ops18_writes : (ops18 : List (HloOp τ sig (Elt F))).Forall fun op => op.writes ⊆ ((wr18).map (Proc.devRef (τ := τ) .tc)).toFinset :=
  ⟨writes_sub main_call9_cst_0 (by decide), writes_sub main_call9_v1 (by decide), writes_sub main_call9_v2 (by decide)⟩

/-- A buffer operations 158–160 do not write keeps its contents. -/
theorem frame18 (V : Valuation τ sig (Elt F)) (r : Ref sig .tc) (hr : r ∉ wr18) :
    after ops18 V (Proc.devRef .tc r) = V (Proc.devRef .tc r) :=
  after_of_writes_sub ops18 V ops18_writes hr

theorem st18_call9_v2 (V : Valuation τ sig (Elt F)) (A0 : (⟨S32768x56x7, .f32⟩ : BufTy).Contents (Elt F)) (A1 : (⟨S32768x81, .i1⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F))
    (h_call9_v0 : V (Proc.devRef .tc main_call9_v0) = val_main_call9_v0 (F := F) A0 A1 A2 A3 A4 A5 A6 A7 A8 A9 A10 A11 A12 A13 A14 A15 A16 A17 A18 A19 A20 A21 A22 A23 A24 A25) :
    after ops18 V (Proc.devRef .tc main_call9_v2) = val_main_call9_v2 (F := F) A0 A1 A2 A3 A4 A5 A6 A7 A8 A9 A10 A11 A12 A13 A14 A15 A16 A17 A18 A19 A20 A21 A22 A23 A24 A25 := by
  after_results_simp
  simp only [h_call9_v0]
  unfold val_main_call9_v2 val_main_call9_v1 val_main_call9_cst_0
  generalize val_main_call9_v0 (F := F) A0 A1 A2 A3 A4 A5 A6 A7 A8 A9 A10 A11 A12 A13 A14 A15 A16 A17 A18 A19 A20 A21 A22 A23 A24 A25 = X_call9_v0
  revert X_call9_v0
  refine @id _ ?_
  intro X_call9_v0
  rfl

/-- Operations 161–163 of the program. -/
abbrev ops19 : List (HloOp τ sig (Elt F)) :=
  [ TRef.unary (TRef.of (T := ⟨S32768, .f32⟩) main_call9_v2) (TRef.of (T := ⟨S32768x1, .f32⟩) main_call9_v3) (broadcastInDim S32768x1 ![0] bcast_S32768_S32768x1_0),
    TRef.unary (TRef.of (T := ⟨S32768x1, .f32⟩) main_call9_v3) (TRef.of (T := ⟨S32768x81, .f32⟩) main_call9_v4) (broadcastInDim S32768x81 ![0, 1] bcast_S32768x1_S32768x81_0_1),
    TRef.binary (TRef.of (T := ⟨S32768x81, .f32⟩) main_v123) (TRef.of (T := ⟨S32768x81, .f32⟩) main_call9_v4) (TRef.of (T := ⟨S32768x81, .f32⟩) main_call9_v5) subf ]

/-- The buffers operations 161–163 write. -/
abbrev wr19 : List (Ref sig .tc) := [main_call9_v3, main_call9_v4, main_call9_v5]

theorem ops19_writes : (ops19 : List (HloOp τ sig (Elt F))).Forall fun op => op.writes ⊆ ((wr19).map (Proc.devRef (τ := τ) .tc)).toFinset :=
  ⟨writes_sub main_call9_v3 (by decide), writes_sub main_call9_v4 (by decide), writes_sub main_call9_v5 (by decide)⟩

/-- A buffer operations 161–163 do not write keeps its contents. -/
theorem frame19 (V : Valuation τ sig (Elt F)) (r : Ref sig .tc) (hr : r ∉ wr19) :
    after ops19 V (Proc.devRef .tc r) = V (Proc.devRef .tc r) :=
  after_of_writes_sub ops19 V ops19_writes hr

theorem st19_call9_v5 (V : Valuation τ sig (Elt F)) (A0 : (⟨S32768x56x7, .f32⟩ : BufTy).Contents (Elt F)) (A1 : (⟨S32768x81, .i1⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F))
    (h_v123 : V (Proc.devRef .tc main_v123) = val_main_v123 (F := F) A0 A1 A2 A3 A4 A5 A6 A7 A8 A9 A10 A11 A12 A13 A14 A15 A16 A17 A18 A19 A20 A21 A22 A23 A24 A25)
    (h_call9_v2 : V (Proc.devRef .tc main_call9_v2) = val_main_call9_v2 (F := F) A0 A1 A2 A3 A4 A5 A6 A7 A8 A9 A10 A11 A12 A13 A14 A15 A16 A17 A18 A19 A20 A21 A22 A23 A24 A25) :
    after ops19 V (Proc.devRef .tc main_call9_v5) = val_main_call9_v5 (F := F) A0 A1 A2 A3 A4 A5 A6 A7 A8 A9 A10 A11 A12 A13 A14 A15 A16 A17 A18 A19 A20 A21 A22 A23 A24 A25 := by
  after_results_simp
  simp only [h_v123, h_call9_v2]
  unfold val_main_call9_v5 val_main_call9_v4 val_main_call9_v3
  generalize val_main_v123 (F := F) A0 A1 A2 A3 A4 A5 A6 A7 A8 A9 A10 A11 A12 A13 A14 A15 A16 A17 A18 A19 A20 A21 A22 A23 A24 A25 = X_v123
  generalize val_main_call9_v2 (F := F) A0 A1 A2 A3 A4 A5 A6 A7 A8 A9 A10 A11 A12 A13 A14 A15 A16 A17 A18 A19 A20 A21 A22 A23 A24 A25 = X_call9_v2
  revert X_v123 X_call9_v2
  refine @id _ ?_
  intro X_v123 X_call9_v2
  rfl

/-- Operations 164–170 of the program. -/
abbrev ops20 : List (HloOp τ sig (Elt F)) :=
  [ TRef.unary (TRef.of (T := ⟨S32768x81, .f32⟩) main_call9_v5) (TRef.of (T := ⟨S32768x81, .f32⟩) main_call9_v6) Host.exp,
    TRef.nullary (TRef.of (T := ⟨S_, .f32⟩) main_call9_cst_1) (constant S_ .f32 0x00000000#32),
    TRef.binary (TRef.of (T := ⟨S32768x81, .f32⟩) main_call9_v6) (TRef.of (T := ⟨S_, .f32⟩) main_call9_cst_1) (TRef.of (T := ⟨S32768, .f32⟩) main_call9_v7) (fun x v => Host.reduceAdd x v reducesTo_S32768x81_S32768_d1 h_S_),
    TRef.unary (TRef.of (T := ⟨S32768, .f32⟩) main_call9_v7) (TRef.of (T := ⟨S32768x1, .f32⟩) main_call9_v8) (broadcastInDim S32768x1 ![0] bcast_S32768_S32768x1_0),
    TRef.unary (TRef.of (T := ⟨S32768x1, .f32⟩) main_call9_v8) (TRef.of (T := ⟨S32768x1, .f32⟩) main_call9_v9) Host.log,
    TRef.unary (TRef.of (T := ⟨S32768x1, .f32⟩) main_call9_v9) (TRef.of (T := ⟨S32768x81, .f32⟩) main_call9_v10) (broadcastInDim S32768x81 ![0, 1] bcast_S32768x1_S32768x81_0_1),
    TRef.binary (TRef.of (T := ⟨S32768x81, .f32⟩) main_call9_v5) (TRef.of (T := ⟨S32768x81, .f32⟩) main_call9_v10) (TRef.of (T := ⟨S32768x81, .f32⟩) main_v124) subf ]

/-- The buffers operations 164–170 write. -/
abbrev wr20 : List (Ref sig .tc) := [main_call9_v6, main_call9_cst_1, main_call9_v7, main_call9_v8, main_call9_v9, main_call9_v10, main_v124]

theorem ops20_writes : (ops20 : List (HloOp τ sig (Elt F))).Forall fun op => op.writes ⊆ ((wr20).map (Proc.devRef (τ := τ) .tc)).toFinset :=
  ⟨writes_sub main_call9_v6 (by decide), writes_sub main_call9_cst_1 (by decide), writes_sub main_call9_v7 (by decide), writes_sub main_call9_v8 (by decide), writes_sub main_call9_v9 (by decide), writes_sub main_call9_v10 (by decide), writes_sub main_v124 (by decide)⟩

/-- A buffer operations 164–170 do not write keeps its contents. -/
theorem frame20 (V : Valuation τ sig (Elt F)) (r : Ref sig .tc) (hr : r ∉ wr20) :
    after ops20 V (Proc.devRef .tc r) = V (Proc.devRef .tc r) :=
  after_of_writes_sub ops20 V ops20_writes hr

theorem st20_v124 (V : Valuation τ sig (Elt F)) (A0 : (⟨S32768x56x7, .f32⟩ : BufTy).Contents (Elt F)) (A1 : (⟨S32768x81, .i1⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F))
    (h_call9_v5 : V (Proc.devRef .tc main_call9_v5) = val_main_call9_v5 (F := F) A0 A1 A2 A3 A4 A5 A6 A7 A8 A9 A10 A11 A12 A13 A14 A15 A16 A17 A18 A19 A20 A21 A22 A23 A24 A25) :
    after ops20 V (Proc.devRef .tc main_v124) = val_main_v124 (F := F) A0 A1 A2 A3 A4 A5 A6 A7 A8 A9 A10 A11 A12 A13 A14 A15 A16 A17 A18 A19 A20 A21 A22 A23 A24 A25 := by
  after_results_simp
  simp only [h_call9_v5]
  unfold val_main_v124 val_main_call9_v10 val_main_call9_v9 val_main_call9_v8 val_main_call9_v7 val_main_call9_v6 val_main_call9_cst_1
  generalize val_main_call9_v5 (F := F) A0 A1 A2 A3 A4 A5 A6 A7 A8 A9 A10 A11 A12 A13 A14 A15 A16 A17 A18 A19 A20 A21 A22 A23 A24 A25 = X_call9_v5
  revert X_call9_v5
  refine @id _ ?_
  intro X_call9_v5
  rfl

/-- Operations 171–171 of the program. -/
abbrev ops21 : List (HloOp τ sig (Elt F)) :=
  [ unary main_v113 main_v125 (Host.tanh : (⟨S32768x1, .f32⟩ : BufTy).Contents (Elt F) → (⟨S32768x1, .f32⟩ : BufTy).Contents (Elt F)) ]

/-- The buffers operations 171–171 write. -/
abbrev wr21 : List (Ref sig .tc) := [main_v125]

theorem ops21_writes : (ops21 : List (HloOp τ sig (Elt F))).Forall fun op => op.writes ⊆ ((wr21).map (Proc.devRef (τ := τ) .tc)).toFinset :=
  writes_sub main_v125 (by decide)

/-- A buffer operations 171–171 do not write keeps its contents. -/
theorem frame21 (V : Valuation τ sig (Elt F)) (r : Ref sig .tc) (hr : r ∉ wr21) :
    after ops21 V (Proc.devRef .tc r) = V (Proc.devRef .tc r) :=
  after_of_writes_sub ops21 V ops21_writes hr

theorem st21_v125 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A26 : (⟨S128x128, .f32⟩ : BufTy).Contents (Elt F)) (A27 : (⟨S128, .f32⟩ : BufTy).Contents (Elt F)) (A28 : (⟨S1x128, .f32⟩ : BufTy).Contents (Elt F)) (A29 : (⟨S1, .f32⟩ : BufTy).Contents (Elt F))
    (h_v113 : V (Proc.devRef .tc main_v113) = val_main_v113 (F := F) A0 A2 A3 A4 A5 A6 A7 A8 A9 A10 A11 A12 A13 A14 A15 A16 A17 A18 A19 A20 A21 A26 A27 A28 A29) :
    after ops21 V (Proc.devRef .tc main_v125) = val_main_v125 (F := F) A0 A2 A3 A4 A5 A6 A7 A8 A9 A10 A11 A12 A13 A14 A15 A16 A17 A18 A19 A20 A21 A26 A27 A28 A29 := by
  after_results_simp
  simp only [h_v113]
  unfold val_main_v125
  generalize val_main_v113 (F := F) A0 A2 A3 A4 A5 A6 A7 A8 A9 A10 A11 A12 A13 A14 A15 A16 A17 A18 A19 A20 A21 A26 A27 A28 A29 = X_v113
  revert X_v113
  refine @id _ ?_
  intro X_v113
  rfl

/-- Operations 172–173 of the program. -/
abbrev ops22 : List (HloOp τ sig (Elt F)) :=
  [ TRef.nullary (TRef.of (T := ⟨S_, .f32⟩) main_call10_cst) (constant S_ .f32 0xFF800000#32),
    TRef.binary (TRef.of (T := ⟨S32768x31, .f32⟩) main_v122) (TRef.of (T := ⟨S_, .f32⟩) main_call10_cst) (TRef.of (T := ⟨S32768, .f32⟩) main_call10_v0) (fun x v => Host.reduce FloatOps.maximumf x v reducesTo_S32768x31_S32768_d1 h_S_) ]

/-- The buffers operations 172–173 write. -/
abbrev wr22 : List (Ref sig .tc) := [main_call10_cst, main_call10_v0]

theorem ops22_writes : (ops22 : List (HloOp τ sig (Elt F))).Forall fun op => op.writes ⊆ ((wr22).map (Proc.devRef (τ := τ) .tc)).toFinset :=
  ⟨writes_sub main_call10_cst (by decide), writes_sub main_call10_v0 (by decide)⟩

/-- A buffer operations 172–173 do not write keeps its contents. -/
theorem frame22 (V : Valuation τ sig (Elt F)) (r : Ref sig .tc) (hr : r ∉ wr22) :
    after ops22 V (Proc.devRef .tc r) = V (Proc.devRef .tc r) :=
  after_of_writes_sub ops22 V ops22_writes hr

theorem st22_call10_v0 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A30 : (⟨S128x128, .f32⟩ : BufTy).Contents (Elt F)) (A31 : (⟨S128, .f32⟩ : BufTy).Contents (Elt F)) (A32 : (⟨S31x128, .f32⟩ : BufTy).Contents (Elt F)) (A33 : (⟨S31, .f32⟩ : BufTy).Contents (Elt F))
    (h_v122 : V (Proc.devRef .tc main_v122) = val_main_v122 (F := F) A0 A2 A3 A4 A5 A6 A7 A8 A9 A10 A11 A12 A13 A14 A15 A16 A17 A18 A19 A20 A21 A30 A31 A32 A33) :
    after ops22 V (Proc.devRef .tc main_call10_v0) = val_main_call10_v0 (F := F) A0 A2 A3 A4 A5 A6 A7 A8 A9 A10 A11 A12 A13 A14 A15 A16 A17 A18 A19 A20 A21 A30 A31 A32 A33 := by
  after_results_simp
  simp only [h_v122]
  unfold val_main_call10_v0 val_main_call10_cst
  generalize val_main_v122 (F := F) A0 A2 A3 A4 A5 A6 A7 A8 A9 A10 A11 A12 A13 A14 A15 A16 A17 A18 A19 A20 A21 A30 A31 A32 A33 = X_v122
  revert X_v122
  refine @id _ ?_
  intro X_v122
  rfl

/-- Operations 174–176 of the program. -/
abbrev ops23 : List (HloOp τ sig (Elt F)) :=
  [ TRef.nullary (TRef.of (T := ⟨S_, .f32⟩) main_call10_cst_0) (constant S_ .f32 0xFF800000#32),
    TRef.unary (TRef.of (T := ⟨S_, .f32⟩) main_call10_cst_0) (TRef.of (T := ⟨S32768, .f32⟩) main_call10_v1) (broadcastInDim S32768 ![] bcast_S_S32768),
    TRef.binary (TRef.of (T := ⟨S32768, .f32⟩) main_call10_v1) (TRef.of (T := ⟨S32768, .f32⟩) main_call10_v0) (TRef.of (T := ⟨S32768, .f32⟩) main_call10_v2) maximumf ]

/-- The buffers operations 174–176 write. -/
abbrev wr23 : List (Ref sig .tc) := [main_call10_cst_0, main_call10_v1, main_call10_v2]

theorem ops23_writes : (ops23 : List (HloOp τ sig (Elt F))).Forall fun op => op.writes ⊆ ((wr23).map (Proc.devRef (τ := τ) .tc)).toFinset :=
  ⟨writes_sub main_call10_cst_0 (by decide), writes_sub main_call10_v1 (by decide), writes_sub main_call10_v2 (by decide)⟩

/-- A buffer operations 174–176 do not write keeps its contents. -/
theorem frame23 (V : Valuation τ sig (Elt F)) (r : Ref sig .tc) (hr : r ∉ wr23) :
    after ops23 V (Proc.devRef .tc r) = V (Proc.devRef .tc r) :=
  after_of_writes_sub ops23 V ops23_writes hr

theorem st23_call10_v2 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A30 : (⟨S128x128, .f32⟩ : BufTy).Contents (Elt F)) (A31 : (⟨S128, .f32⟩ : BufTy).Contents (Elt F)) (A32 : (⟨S31x128, .f32⟩ : BufTy).Contents (Elt F)) (A33 : (⟨S31, .f32⟩ : BufTy).Contents (Elt F))
    (h_call10_v0 : V (Proc.devRef .tc main_call10_v0) = val_main_call10_v0 (F := F) A0 A2 A3 A4 A5 A6 A7 A8 A9 A10 A11 A12 A13 A14 A15 A16 A17 A18 A19 A20 A21 A30 A31 A32 A33) :
    after ops23 V (Proc.devRef .tc main_call10_v2) = val_main_call10_v2 (F := F) A0 A2 A3 A4 A5 A6 A7 A8 A9 A10 A11 A12 A13 A14 A15 A16 A17 A18 A19 A20 A21 A30 A31 A32 A33 := by
  after_results_simp
  simp only [h_call10_v0]
  unfold val_main_call10_v2 val_main_call10_v1 val_main_call10_cst_0
  generalize val_main_call10_v0 (F := F) A0 A2 A3 A4 A5 A6 A7 A8 A9 A10 A11 A12 A13 A14 A15 A16 A17 A18 A19 A20 A21 A30 A31 A32 A33 = X_call10_v0
  revert X_call10_v0
  refine @id _ ?_
  intro X_call10_v0
  rfl

/-- Operations 177–179 of the program. -/
abbrev ops24 : List (HloOp τ sig (Elt F)) :=
  [ TRef.unary (TRef.of (T := ⟨S32768, .f32⟩) main_call10_v2) (TRef.of (T := ⟨S32768x1, .f32⟩) main_call10_v3) (broadcastInDim S32768x1 ![0] bcast_S32768_S32768x1_0),
    TRef.unary (TRef.of (T := ⟨S32768x1, .f32⟩) main_call10_v3) (TRef.of (T := ⟨S32768x31, .f32⟩) main_call10_v4) (broadcastInDim S32768x31 ![0, 1] bcast_S32768x1_S32768x31_0_1),
    TRef.binary (TRef.of (T := ⟨S32768x31, .f32⟩) main_v122) (TRef.of (T := ⟨S32768x31, .f32⟩) main_call10_v4) (TRef.of (T := ⟨S32768x31, .f32⟩) main_call10_v5) subf ]

/-- The buffers operations 177–179 write. -/
abbrev wr24 : List (Ref sig .tc) := [main_call10_v3, main_call10_v4, main_call10_v5]

theorem ops24_writes : (ops24 : List (HloOp τ sig (Elt F))).Forall fun op => op.writes ⊆ ((wr24).map (Proc.devRef (τ := τ) .tc)).toFinset :=
  ⟨writes_sub main_call10_v3 (by decide), writes_sub main_call10_v4 (by decide), writes_sub main_call10_v5 (by decide)⟩

/-- A buffer operations 177–179 do not write keeps its contents. -/
theorem frame24 (V : Valuation τ sig (Elt F)) (r : Ref sig .tc) (hr : r ∉ wr24) :
    after ops24 V (Proc.devRef .tc r) = V (Proc.devRef .tc r) :=
  after_of_writes_sub ops24 V ops24_writes hr

theorem st24_call10_v5 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A30 : (⟨S128x128, .f32⟩ : BufTy).Contents (Elt F)) (A31 : (⟨S128, .f32⟩ : BufTy).Contents (Elt F)) (A32 : (⟨S31x128, .f32⟩ : BufTy).Contents (Elt F)) (A33 : (⟨S31, .f32⟩ : BufTy).Contents (Elt F))
    (h_v122 : V (Proc.devRef .tc main_v122) = val_main_v122 (F := F) A0 A2 A3 A4 A5 A6 A7 A8 A9 A10 A11 A12 A13 A14 A15 A16 A17 A18 A19 A20 A21 A30 A31 A32 A33)
    (h_call10_v2 : V (Proc.devRef .tc main_call10_v2) = val_main_call10_v2 (F := F) A0 A2 A3 A4 A5 A6 A7 A8 A9 A10 A11 A12 A13 A14 A15 A16 A17 A18 A19 A20 A21 A30 A31 A32 A33) :
    after ops24 V (Proc.devRef .tc main_call10_v5) = val_main_call10_v5 (F := F) A0 A2 A3 A4 A5 A6 A7 A8 A9 A10 A11 A12 A13 A14 A15 A16 A17 A18 A19 A20 A21 A30 A31 A32 A33 := by
  after_results_simp
  simp only [h_v122, h_call10_v2]
  unfold val_main_call10_v5 val_main_call10_v4 val_main_call10_v3
  generalize val_main_v122 (F := F) A0 A2 A3 A4 A5 A6 A7 A8 A9 A10 A11 A12 A13 A14 A15 A16 A17 A18 A19 A20 A21 A30 A31 A32 A33 = X_v122
  generalize val_main_call10_v2 (F := F) A0 A2 A3 A4 A5 A6 A7 A8 A9 A10 A11 A12 A13 A14 A15 A16 A17 A18 A19 A20 A21 A30 A31 A32 A33 = X_call10_v2
  revert X_v122 X_call10_v2
  refine @id _ ?_
  intro X_v122 X_call10_v2
  rfl

/-- Operations 180–186 of the program. -/
abbrev ops25 : List (HloOp τ sig (Elt F)) :=
  [ TRef.unary (TRef.of (T := ⟨S32768x31, .f32⟩) main_call10_v5) (TRef.of (T := ⟨S32768x31, .f32⟩) main_call10_v6) Host.exp,
    TRef.nullary (TRef.of (T := ⟨S_, .f32⟩) main_call10_cst_1) (constant S_ .f32 0x00000000#32),
    TRef.binary (TRef.of (T := ⟨S32768x31, .f32⟩) main_call10_v6) (TRef.of (T := ⟨S_, .f32⟩) main_call10_cst_1) (TRef.of (T := ⟨S32768, .f32⟩) main_call10_v7) (fun x v => Host.reduceAdd x v reducesTo_S32768x31_S32768_d1 h_S_),
    TRef.unary (TRef.of (T := ⟨S32768, .f32⟩) main_call10_v7) (TRef.of (T := ⟨S32768x1, .f32⟩) main_call10_v8) (broadcastInDim S32768x1 ![0] bcast_S32768_S32768x1_0),
    TRef.unary (TRef.of (T := ⟨S32768x1, .f32⟩) main_call10_v8) (TRef.of (T := ⟨S32768x1, .f32⟩) main_call10_v9) Host.log,
    TRef.unary (TRef.of (T := ⟨S32768x1, .f32⟩) main_call10_v9) (TRef.of (T := ⟨S32768x31, .f32⟩) main_call10_v10) (broadcastInDim S32768x31 ![0, 1] bcast_S32768x1_S32768x31_0_1),
    TRef.binary (TRef.of (T := ⟨S32768x31, .f32⟩) main_call10_v5) (TRef.of (T := ⟨S32768x31, .f32⟩) main_call10_v10) (TRef.of (T := ⟨S32768x31, .f32⟩) main_v126) subf ]

/-- The buffers operations 180–186 write. -/
abbrev wr25 : List (Ref sig .tc) := [main_call10_v6, main_call10_cst_1, main_call10_v7, main_call10_v8, main_call10_v9, main_call10_v10, main_v126]

theorem ops25_writes : (ops25 : List (HloOp τ sig (Elt F))).Forall fun op => op.writes ⊆ ((wr25).map (Proc.devRef (τ := τ) .tc)).toFinset :=
  ⟨writes_sub main_call10_v6 (by decide), writes_sub main_call10_cst_1 (by decide), writes_sub main_call10_v7 (by decide), writes_sub main_call10_v8 (by decide), writes_sub main_call10_v9 (by decide), writes_sub main_call10_v10 (by decide), writes_sub main_v126 (by decide)⟩

/-- A buffer operations 180–186 do not write keeps its contents. -/
theorem frame25 (V : Valuation τ sig (Elt F)) (r : Ref sig .tc) (hr : r ∉ wr25) :
    after ops25 V (Proc.devRef .tc r) = V (Proc.devRef .tc r) :=
  after_of_writes_sub ops25 V ops25_writes hr

theorem st25_v126 (V : Valuation τ sig (Elt F)) (A0 : (⟨S32768x56x7, .f32⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A30 : (⟨S128x128, .f32⟩ : BufTy).Contents (Elt F)) (A31 : (⟨S128, .f32⟩ : BufTy).Contents (Elt F)) (A32 : (⟨S31x128, .f32⟩ : BufTy).Contents (Elt F)) (A33 : (⟨S31, .f32⟩ : BufTy).Contents (Elt F))
    (h_call10_v5 : V (Proc.devRef .tc main_call10_v5) = val_main_call10_v5 (F := F) A0 A2 A3 A4 A5 A6 A7 A8 A9 A10 A11 A12 A13 A14 A15 A16 A17 A18 A19 A20 A21 A30 A31 A32 A33) :
    after ops25 V (Proc.devRef .tc main_v126) = val_main_v126 (F := F) A0 A2 A3 A4 A5 A6 A7 A8 A9 A10 A11 A12 A13 A14 A15 A16 A17 A18 A19 A20 A21 A30 A31 A32 A33 := by
  after_results_simp
  simp only [h_call10_v5]
  unfold val_main_v126 val_main_call10_v10 val_main_call10_v9 val_main_call10_v8 val_main_call10_v7 val_main_call10_v6 val_main_call10_cst_1
  generalize val_main_call10_v5 (F := F) A0 A2 A3 A4 A5 A6 A7 A8 A9 A10 A11 A12 A13 A14 A15 A16 A17 A18 A19 A20 A21 A30 A31 A32 A33 = X_call10_v5
  revert X_call10_v5
  refine @id _ ?_
  intro X_call10_v5
  rfl

set_option maxRecDepth 8192 in
/-- The program is its stretches laid end to end: both sides are the same list of operations once the stretches are
    opened and the concatenations computed. -/
theorem ops_split : (ops : List (HloOp τ sig (Elt F))) = ops1 ++ ops2 ++ ops3 ++ ops4 ++ ops5 ++ ops6 ++ ops7 ++ ops8 ++ ops9 ++ ops10 ++ ops11 ++ ops12 ++ ops13 ++ ops14 ++ ops15 ++ ops16 ++ ops17 ++ ops18 ++ ops19 ++ ops20 ++ ops21 ++ ops22 ++ ops23 ++ ops24 ++ ops25 := by
  simp only [ops1, ops2, ops3, ops4, ops5, ops6, ops7, ops8, ops9, ops10, ops11, ops12, ops13, ops14, ops15, ops16, ops17, ops18, ops19, ops20, ops21, ops22, ops23, ops24, ops25, List.cons_append, List.nil_append]

/-- A buffer no operation of the program writes keeps its contents through the run. -/
theorem kept (V : Valuation τ sig (Elt F)) (r : Ref sig .tc)
    (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13) (h14 : r ∉ wr14) (h15 : r ∉ wr15) (h16 : r ∉ wr16) (h17 : r ∉ wr17) (h18 : r ∉ wr18) (h19 : r ∉ wr19) (h20 : r ∉ wr20) (h21 : r ∉ wr21) (h22 : r ∉ wr22) (h23 : r ∉ wr23) (h24 : r ∉ wr24) (h25 : r ∉ wr25) :
    after ops V (Proc.devRef .tc r) = V (Proc.devRef .tc r) := by
  rw [ops_split]
  simp only [after_append]
  rw [frame25 _ r h25, frame24 _ r h24, frame23 _ r h23, frame22 _ r h22, frame21 _ r h21, frame20 _ r h20, frame19 _ r h19, frame18 _ r h18, frame17 _ r h17, frame16 _ r h16, frame15 _ r h15, frame14 _ r h14, frame13 _ r h13, frame12 _ r h12, frame11 _ r h11, frame10 _ r h10, frame9 _ r h9, frame8 _ r h8, frame7 _ r h7, frame6 _ r h6, frame5 _ r h5, frame4 _ r h4, frame3 _ r h3, frame2 _ r h2, frame1 _ r h1]

/-- The three results, from contents holding the arguments: each stage is read off the stretch that writes it, the stages
    still to be read and the arguments carried along. -/
theorem results (V0 : Valuation τ sig (Elt F)) (A0 : (⟨S32768x56x7, .f32⟩ : BufTy).Contents (Elt F)) (A1 : (⟨S32768x81, .i1⟩ : BufTy).Contents (Elt F)) (A2 : (⟨S256x56, .f32⟩ : BufTy).Contents (Elt F)) (A3 : (⟨S256, .f32⟩ : BufTy).Contents (Elt F)) (A4 : (⟨S7, .f32⟩ : BufTy).Contents (Elt F)) (A5 : (⟨S7, .f32⟩ : BufTy).Contents (Elt F)) (A6 : (⟨S7, .f32⟩ : BufTy).Contents (Elt F)) (A7 : (⟨S7, .f32⟩ : BufTy).Contents (Elt F)) (A8 : (⟨S256x256, .f32⟩ : BufTy).Contents (Elt F)) (A9 : (⟨S256, .f32⟩ : BufTy).Contents (Elt F)) (A10 : (⟨S248x224, .f32⟩ : BufTy).Contents (Elt F)) (A11 : (⟨S248, .f32⟩ : BufTy).Contents (Elt F)) (A12 : (⟨S128x256, .f32⟩ : BufTy).Contents (Elt F)) (A13 : (⟨S128, .f32⟩ : BufTy).Contents (Elt F)) (A14 : (⟨S256x704, .f32⟩ : BufTy).Contents (Elt F)) (A15 : (⟨S256, .f32⟩ : BufTy).Contents (Elt F)) (A16 : (⟨S248x240, .f32⟩ : BufTy).Contents (Elt F)) (A17 : (⟨S248, .f32⟩ : BufTy).Contents (Elt F)) (A18 : (⟨S128x256, .f32⟩ : BufTy).Contents (Elt F)) (A19 : (⟨S128, .f32⟩ : BufTy).Contents (Elt F)) (A20 : (⟨S120x112, .f32⟩ : BufTy).Contents (Elt F)) (A21 : (⟨S120, .f32⟩ : BufTy).Contents (Elt F)) (A22 : (⟨S128x128, .f32⟩ : BufTy).Contents (Elt F)) (A23 : (⟨S128, .f32⟩ : BufTy).Contents (Elt F)) (A24 : (⟨S81x128, .f32⟩ : BufTy).Contents (Elt F)) (A25 : (⟨S81, .f32⟩ : BufTy).Contents (Elt F)) (A26 : (⟨S128x128, .f32⟩ : BufTy).Contents (Elt F)) (A27 : (⟨S128, .f32⟩ : BufTy).Contents (Elt F)) (A28 : (⟨S1x128, .f32⟩ : BufTy).Contents (Elt F)) (A29 : (⟨S1, .f32⟩ : BufTy).Contents (Elt F)) (A30 : (⟨S128x128, .f32⟩ : BufTy).Contents (Elt F)) (A31 : (⟨S128, .f32⟩ : BufTy).Contents (Elt F)) (A32 : (⟨S31x128, .f32⟩ : BufTy).Contents (Elt F)) (A33 : (⟨S31, .f32⟩ : BufTy).Contents (Elt F))
    (h0_arg0 : V0 (Proc.devRef .tc main_arg0) = A0)
    (h0_arg1 : V0 (Proc.devRef .tc main_arg1) = A1)
    (h0_arg2 : V0 (Proc.devRef .tc main_arg2) = A2)
    (h0_arg3 : V0 (Proc.devRef .tc main_arg3) = A3)
    (h0_arg4 : V0 (Proc.devRef .tc main_arg4) = A4)
    (h0_arg5 : V0 (Proc.devRef .tc main_arg5) = A5)
    (h0_arg6 : V0 (Proc.devRef .tc main_arg6) = A6)
    (h0_arg7 : V0 (Proc.devRef .tc main_arg7) = A7)
    (h0_arg8 : V0 (Proc.devRef .tc main_arg8) = A8)
    (h0_arg9 : V0 (Proc.devRef .tc main_arg9) = A9)
    (h0_arg10 : V0 (Proc.devRef .tc main_arg10) = A10)
    (h0_arg11 : V0 (Proc.devRef .tc main_arg11) = A11)
    (h0_arg12 : V0 (Proc.devRef .tc main_arg12) = A12)
    (h0_arg13 : V0 (Proc.devRef .tc main_arg13) = A13)
    (h0_arg14 : V0 (Proc.devRef .tc main_arg14) = A14)
    (h0_arg15 : V0 (Proc.devRef .tc main_arg15) = A15)
    (h0_arg16 : V0 (Proc.devRef .tc main_arg16) = A16)
    (h0_arg17 : V0 (Proc.devRef .tc main_arg17) = A17)
    (h0_arg18 : V0 (Proc.devRef .tc main_arg18) = A18)
    (h0_arg19 : V0 (Proc.devRef .tc main_arg19) = A19)
    (h0_arg20 : V0 (Proc.devRef .tc main_arg20) = A20)
    (h0_arg21 : V0 (Proc.devRef .tc main_arg21) = A21)
    (h0_arg22 : V0 (Proc.devRef .tc main_arg22) = A22)
    (h0_arg23 : V0 (Proc.devRef .tc main_arg23) = A23)
    (h0_arg24 : V0 (Proc.devRef .tc main_arg24) = A24)
    (h0_arg25 : V0 (Proc.devRef .tc main_arg25) = A25)
    (h0_arg26 : V0 (Proc.devRef .tc main_arg26) = A26)
    (h0_arg27 : V0 (Proc.devRef .tc main_arg27) = A27)
    (h0_arg28 : V0 (Proc.devRef .tc main_arg28) = A28)
    (h0_arg29 : V0 (Proc.devRef .tc main_arg29) = A29)
    (h0_arg30 : V0 (Proc.devRef .tc main_arg30) = A30)
    (h0_arg31 : V0 (Proc.devRef .tc main_arg31) = A31)
    (h0_arg32 : V0 (Proc.devRef .tc main_arg32) = A32)
    (h0_arg33 : V0 (Proc.devRef .tc main_arg33) = A33) :
    after ops V0 (Proc.devRef .tc main_v124) = val_main_v124 (F := F) A0 A1 A2 A3 A4 A5 A6 A7 A8 A9 A10 A11 A12 A13 A14 A15 A16 A17 A18 A19 A20 A21 A22 A23 A24 A25
    ∧ after ops V0 (Proc.devRef .tc main_v125) = val_main_v125 (F := F) A0 A2 A3 A4 A5 A6 A7 A8 A9 A10 A11 A12 A13 A14 A15 A16 A17 A18 A19 A20 A21 A26 A27 A28 A29
    ∧ after ops V0 (Proc.devRef .tc main_v126) = val_main_v126 (F := F) A0 A2 A3 A4 A5 A6 A7 A8 A9 A10 A11 A12 A13 A14 A15 A16 A17 A18 A19 A20 A21 A30 A31 A32 A33 := by
  rw [ops_split]
  simp only [after_append]
  have h1_v29 := st1_v29 V0 A0 A2 A3 A4 A5 A6 A7 A8 A9 h0_arg0 h0_arg2 h0_arg3 h0_arg6 h0_arg7 h0_arg4 h0_arg5 h0_arg8 h0_arg9
  have h1_arg10 := (frame1 V0 main_arg10 (by decide)).trans h0_arg10
  have h1_arg11 := (frame1 V0 main_arg11 (by decide)).trans h0_arg11
  have h1_arg12 := (frame1 V0 main_arg12 (by decide)).trans h0_arg12
  have h1_arg13 := (frame1 V0 main_arg13 (by decide)).trans h0_arg13
  have h1_arg14 := (frame1 V0 main_arg14 (by decide)).trans h0_arg14
  have h1_arg15 := (frame1 V0 main_arg15 (by decide)).trans h0_arg15
  have h1_arg16 := (frame1 V0 main_arg16 (by decide)).trans h0_arg16
  have h1_arg17 := (frame1 V0 main_arg17 (by decide)).trans h0_arg17
  have h1_arg18 := (frame1 V0 main_arg18 (by decide)).trans h0_arg18
  have h1_arg19 := (frame1 V0 main_arg19 (by decide)).trans h0_arg19
  have h1_arg20 := (frame1 V0 main_arg20 (by decide)).trans h0_arg20
  have h1_arg21 := (frame1 V0 main_arg21 (by decide)).trans h0_arg21
  have h1_arg22 := (frame1 V0 main_arg22 (by decide)).trans h0_arg22
  have h1_arg23 := (frame1 V0 main_arg23 (by decide)).trans h0_arg23
  have h1_arg24 := (frame1 V0 main_arg24 (by decide)).trans h0_arg24
  have h1_arg25 := (frame1 V0 main_arg25 (by decide)).trans h0_arg25
  have h1_arg26 := (frame1 V0 main_arg26 (by decide)).trans h0_arg26
  have h1_arg27 := (frame1 V0 main_arg27 (by decide)).trans h0_arg27
  have h1_arg28 := (frame1 V0 main_arg28 (by decide)).trans h0_arg28
  have h1_arg29 := (frame1 V0 main_arg29 (by decide)).trans h0_arg29
  have h1_arg30 := (frame1 V0 main_arg30 (by decide)).trans h0_arg30
  have h1_arg31 := (frame1 V0 main_arg31 (by decide)).trans h0_arg31
  have h1_arg32 := (frame1 V0 main_arg32 (by decide)).trans h0_arg32
  have h1_arg33 := (frame1 V0 main_arg33 (by decide)).trans h0_arg33
  have h1_arg1 := (frame1 V0 main_arg1 (by decide)).trans h0_arg1
  generalize after ops1 V0 = V1 at h1_v29 h1_arg10 h1_arg11 h1_arg12 h1_arg13 h1_arg14 h1_arg15 h1_arg16 h1_arg17 h1_arg18 h1_arg19 h1_arg20 h1_arg21 h1_arg22 h1_arg23 h1_arg24 h1_arg25 h1_arg26 h1_arg27 h1_arg28 h1_arg29 h1_arg30 h1_arg31 h1_arg32 h1_arg33 h1_arg1 ⊢
  clear h0_arg0 h0_arg1 h0_arg2 h0_arg3 h0_arg4 h0_arg5 h0_arg6 h0_arg7 h0_arg8 h0_arg9 h0_arg10 h0_arg11 h0_arg12 h0_arg13 h0_arg14 h0_arg15 h0_arg16 h0_arg17 h0_arg18 h0_arg19 h0_arg20 h0_arg21 h0_arg22 h0_arg23 h0_arg24 h0_arg25 h0_arg26 h0_arg27 h0_arg28 h0_arg29 h0_arg30 h0_arg31 h0_arg32 h0_arg33
  have h2_v37 := st2_v37 V1 A0 A2 A3 A4 A5 A6 A7 A8 A9 A10 A11 h1_v29 h1_arg10 h1_arg11
  have h2_v38 := st2_v38 V1 A0 A2 A3 A4 A5 A6 A7 A8 A9 h1_v29
  have h2_v41 := st2_v41 V1 A0 A2 A3 A4 A5 A6 A7 A8 A9 h1_v29
  have h2_arg12 := (frame2 V1 main_arg12 (by decide)).trans h1_arg12
  have h2_arg13 := (frame2 V1 main_arg13 (by decide)).trans h1_arg13
  have h2_arg14 := (frame2 V1 main_arg14 (by decide)).trans h1_arg14
  have h2_arg15 := (frame2 V1 main_arg15 (by decide)).trans h1_arg15
  have h2_arg16 := (frame2 V1 main_arg16 (by decide)).trans h1_arg16
  have h2_arg17 := (frame2 V1 main_arg17 (by decide)).trans h1_arg17
  have h2_arg18 := (frame2 V1 main_arg18 (by decide)).trans h1_arg18
  have h2_arg19 := (frame2 V1 main_arg19 (by decide)).trans h1_arg19
  have h2_arg20 := (frame2 V1 main_arg20 (by decide)).trans h1_arg20
  have h2_arg21 := (frame2 V1 main_arg21 (by decide)).trans h1_arg21
  have h2_arg22 := (frame2 V1 main_arg22 (by decide)).trans h1_arg22
  have h2_arg23 := (frame2 V1 main_arg23 (by decide)).trans h1_arg23
  have h2_arg24 := (frame2 V1 main_arg24 (by decide)).trans h1_arg24
  have h2_arg25 := (frame2 V1 main_arg25 (by decide)).trans h1_arg25
  have h2_arg26 := (frame2 V1 main_arg26 (by decide)).trans h1_arg26
  have h2_arg27 := (frame2 V1 main_arg27 (by decide)).trans h1_arg27
  have h2_arg28 := (frame2 V1 main_arg28 (by decide)).trans h1_arg28
  have h2_arg29 := (frame2 V1 main_arg29 (by decide)).trans h1_arg29
  have h2_arg30 := (frame2 V1 main_arg30 (by decide)).trans h1_arg30
  have h2_arg31 := (frame2 V1 main_arg31 (by decide)).trans h1_arg31
  have h2_arg32 := (frame2 V1 main_arg32 (by decide)).trans h1_arg32
  have h2_arg33 := (frame2 V1 main_arg33 (by decide)).trans h1_arg33
  have h2_arg1 := (frame2 V1 main_arg1 (by decide)).trans h1_arg1
  generalize after ops2 V1 = V2 at h2_v37 h2_v38 h2_v41 h2_arg12 h2_arg13 h2_arg14 h2_arg15 h2_arg16 h2_arg17 h2_arg18 h2_arg19 h2_arg20 h2_arg21 h2_arg22 h2_arg23 h2_arg24 h2_arg25 h2_arg26 h2_arg27 h2_arg28 h2_arg29 h2_arg30 h2_arg31 h2_arg32 h2_arg33 h2_arg1 ⊢
  clear h1_v29 h1_arg10 h1_arg11 h1_arg12 h1_arg13 h1_arg14 h1_arg15 h1_arg16 h1_arg17 h1_arg18 h1_arg19 h1_arg20 h1_arg21 h1_arg22 h1_arg23 h1_arg24 h1_arg25 h1_arg26 h1_arg27 h1_arg28 h1_arg29 h1_arg30 h1_arg31 h1_arg32 h1_arg33 h1_arg1
  have h3_v42 := st3_v42 V2 A0 A2 A3 A4 A5 A6 A7 A8 A9 A10 A11 h2_v38 h2_v41 h2_v37
  have h3_arg12 := (frame3 V2 main_arg12 (by decide)).trans h2_arg12
  have h3_arg13 := (frame3 V2 main_arg13 (by decide)).trans h2_arg13
  have h3_arg14 := (frame3 V2 main_arg14 (by decide)).trans h2_arg14
  have h3_arg15 := (frame3 V2 main_arg15 (by decide)).trans h2_arg15
  have h3_arg16 := (frame3 V2 main_arg16 (by decide)).trans h2_arg16
  have h3_arg17 := (frame3 V2 main_arg17 (by decide)).trans h2_arg17
  have h3_arg18 := (frame3 V2 main_arg18 (by decide)).trans h2_arg18
  have h3_arg19 := (frame3 V2 main_arg19 (by decide)).trans h2_arg19
  have h3_arg20 := (frame3 V2 main_arg20 (by decide)).trans h2_arg20
  have h3_arg21 := (frame3 V2 main_arg21 (by decide)).trans h2_arg21
  have h3_arg22 := (frame3 V2 main_arg22 (by decide)).trans h2_arg22
  have h3_arg23 := (frame3 V2 main_arg23 (by decide)).trans h2_arg23
  have h3_arg24 := (frame3 V2 main_arg24 (by decide)).trans h2_arg24
  have h3_arg25 := (frame3 V2 main_arg25 (by decide)).trans h2_arg25
  have h3_arg26 := (frame3 V2 main_arg26 (by decide)).trans h2_arg26
  have h3_arg27 := (frame3 V2 main_arg27 (by decide)).trans h2_arg27
  have h3_arg28 := (frame3 V2 main_arg28 (by decide)).trans h2_arg28
  have h3_arg29 := (frame3 V2 main_arg29 (by decide)).trans h2_arg29
  have h3_arg30 := (frame3 V2 main_arg30 (by decide)).trans h2_arg30
  have h3_arg31 := (frame3 V2 main_arg31 (by decide)).trans h2_arg31
  have h3_arg32 := (frame3 V2 main_arg32 (by decide)).trans h2_arg32
  have h3_arg33 := (frame3 V2 main_arg33 (by decide)).trans h2_arg33
  have h3_arg1 := (frame3 V2 main_arg1 (by decide)).trans h2_arg1
  generalize after ops3 V2 = V3 at h3_v42 h3_arg12 h3_arg13 h3_arg14 h3_arg15 h3_arg16 h3_arg17 h3_arg18 h3_arg19 h3_arg20 h3_arg21 h3_arg22 h3_arg23 h3_arg24 h3_arg25 h3_arg26 h3_arg27 h3_arg28 h3_arg29 h3_arg30 h3_arg31 h3_arg32 h3_arg33 h3_arg1 ⊢
  clear h2_v38 h2_v41 h2_v37 h2_arg12 h2_arg13 h2_arg14 h2_arg15 h2_arg16 h2_arg17 h2_arg18 h2_arg19 h2_arg20 h2_arg21 h2_arg22 h2_arg23 h2_arg24 h2_arg25 h2_arg26 h2_arg27 h2_arg28 h2_arg29 h2_arg30 h2_arg31 h2_arg32 h2_arg33 h2_arg1
  have h4_v47 := st4_v47 V3 A0 A2 A3 A4 A5 A6 A7 A8 A9 A10 A11 A12 A13 h3_v42 h3_arg12 h3_arg13
  have h4_arg14 := (frame4 V3 main_arg14 (by decide)).trans h3_arg14
  have h4_arg15 := (frame4 V3 main_arg15 (by decide)).trans h3_arg15
  have h4_arg16 := (frame4 V3 main_arg16 (by decide)).trans h3_arg16
  have h4_arg17 := (frame4 V3 main_arg17 (by decide)).trans h3_arg17
  have h4_arg18 := (frame4 V3 main_arg18 (by decide)).trans h3_arg18
  have h4_arg19 := (frame4 V3 main_arg19 (by decide)).trans h3_arg19
  have h4_arg20 := (frame4 V3 main_arg20 (by decide)).trans h3_arg20
  have h4_arg21 := (frame4 V3 main_arg21 (by decide)).trans h3_arg21
  have h4_arg22 := (frame4 V3 main_arg22 (by decide)).trans h3_arg22
  have h4_arg23 := (frame4 V3 main_arg23 (by decide)).trans h3_arg23
  have h4_arg24 := (frame4 V3 main_arg24 (by decide)).trans h3_arg24
  have h4_arg25 := (frame4 V3 main_arg25 (by decide)).trans h3_arg25
  have h4_arg26 := (frame4 V3 main_arg26 (by decide)).trans h3_arg26
  have h4_arg27 := (frame4 V3 main_arg27 (by decide)).trans h3_arg27
  have h4_arg28 := (frame4 V3 main_arg28 (by decide)).trans h3_arg28
  have h4_arg29 := (frame4 V3 main_arg29 (by decide)).trans h3_arg29
  have h4_arg30 := (frame4 V3 main_arg30 (by decide)).trans h3_arg30
  have h4_arg31 := (frame4 V3 main_arg31 (by decide)).trans h3_arg31
  have h4_arg32 := (frame4 V3 main_arg32 (by decide)).trans h3_arg32
  have h4_arg33 := (frame4 V3 main_arg33 (by decide)).trans h3_arg33
  have h4_arg1 := (frame4 V3 main_arg1 (by decide)).trans h3_arg1
  generalize after ops4 V3 = V4 at h4_v47 h4_arg14 h4_arg15 h4_arg16 h4_arg17 h4_arg18 h4_arg19 h4_arg20 h4_arg21 h4_arg22 h4_arg23 h4_arg24 h4_arg25 h4_arg26 h4_arg27 h4_arg28 h4_arg29 h4_arg30 h4_arg31 h4_arg32 h4_arg33 h4_arg1 ⊢
  clear h3_v42 h3_arg12 h3_arg13 h3_arg14 h3_arg15 h3_arg16 h3_arg17 h3_arg18 h3_arg19 h3_arg20 h3_arg21 h3_arg22 h3_arg23 h3_arg24 h3_arg25 h3_arg26 h3_arg27 h3_arg28 h3_arg29 h3_arg30 h3_arg31 h3_arg32 h3_arg33 h3_arg1
  have h5_v52 := st5_v52 V4 A0 A2 A3 A4 A5 A6 A7 A8 A9 A10 A11 A12 A13 h4_v47
  have h5_v55 := st5_v55 V4 A0 A2 A3 A4 A5 A6 A7 A8 A9 A10 A11 A12 A13 h4_v47
  have h5_v56 := st5_v56 V4 A0 A2 A3 A4 A5 A6 A7 A8 A9 A10 A11 A12 A13 h4_v47
  have h5_v57 := st5_v57 V4 A0 A2 A3 A4 A5 A6 A7 A8 A9 A10 A11 A12 A13 h4_v47
  have h5_arg14 := (frame5 V4 main_arg14 (by decide)).trans h4_arg14
  have h5_arg15 := (frame5 V4 main_arg15 (by decide)).trans h4_arg15
  have h5_arg16 := (frame5 V4 main_arg16 (by decide)).trans h4_arg16
  have h5_arg17 := (frame5 V4 main_arg17 (by decide)).trans h4_arg17
  have h5_arg18 := (frame5 V4 main_arg18 (by decide)).trans h4_arg18
  have h5_arg19 := (frame5 V4 main_arg19 (by decide)).trans h4_arg19
  have h5_arg20 := (frame5 V4 main_arg20 (by decide)).trans h4_arg20
  have h5_arg21 := (frame5 V4 main_arg21 (by decide)).trans h4_arg21
  have h5_arg22 := (frame5 V4 main_arg22 (by decide)).trans h4_arg22
  have h5_arg23 := (frame5 V4 main_arg23 (by decide)).trans h4_arg23
  have h5_arg24 := (frame5 V4 main_arg24 (by decide)).trans h4_arg24
  have h5_arg25 := (frame5 V4 main_arg25 (by decide)).trans h4_arg25
  have h5_arg26 := (frame5 V4 main_arg26 (by decide)).trans h4_arg26
  have h5_arg27 := (frame5 V4 main_arg27 (by decide)).trans h4_arg27
  have h5_arg28 := (frame5 V4 main_arg28 (by decide)).trans h4_arg28
  have h5_arg29 := (frame5 V4 main_arg29 (by decide)).trans h4_arg29
  have h5_arg30 := (frame5 V4 main_arg30 (by decide)).trans h4_arg30
  have h5_arg31 := (frame5 V4 main_arg31 (by decide)).trans h4_arg31
  have h5_arg32 := (frame5 V4 main_arg32 (by decide)).trans h4_arg32
  have h5_arg33 := (frame5 V4 main_arg33 (by decide)).trans h4_arg33
  have h5_arg1 := (frame5 V4 main_arg1 (by decide)).trans h4_arg1
  generalize after ops5 V4 = V5 at h5_v52 h5_v55 h5_v56 h5_v57 h5_arg14 h5_arg15 h5_arg16 h5_arg17 h5_arg18 h5_arg19 h5_arg20 h5_arg21 h5_arg22 h5_arg23 h5_arg24 h5_arg25 h5_arg26 h5_arg27 h5_arg28 h5_arg29 h5_arg30 h5_arg31 h5_arg32 h5_arg33 h5_arg1 ⊢
  clear h4_v47 h4_arg14 h4_arg15 h4_arg16 h4_arg17 h4_arg18 h4_arg19 h4_arg20 h4_arg21 h4_arg22 h4_arg23 h4_arg24 h4_arg25 h4_arg26 h4_arg27 h4_arg28 h4_arg29 h4_arg30 h4_arg31 h4_arg32 h4_arg33 h4_arg1
  have h6_v58 := st6_v58 V5 A0 A2 A3 A4 A5 A6 A7 A8 A9 A10 A11 A12 A13 h5_v52 h5_v55 h5_v56 h5_v57
  have h6_arg14 := (frame6 V5 main_arg14 (by decide)).trans h5_arg14
  have h6_arg15 := (frame6 V5 main_arg15 (by decide)).trans h5_arg15
  have h6_arg16 := (frame6 V5 main_arg16 (by decide)).trans h5_arg16
  have h6_arg17 := (frame6 V5 main_arg17 (by decide)).trans h5_arg17
  have h6_arg18 := (frame6 V5 main_arg18 (by decide)).trans h5_arg18
  have h6_arg19 := (frame6 V5 main_arg19 (by decide)).trans h5_arg19
  have h6_arg20 := (frame6 V5 main_arg20 (by decide)).trans h5_arg20
  have h6_arg21 := (frame6 V5 main_arg21 (by decide)).trans h5_arg21
  have h6_arg22 := (frame6 V5 main_arg22 (by decide)).trans h5_arg22
  have h6_arg23 := (frame6 V5 main_arg23 (by decide)).trans h5_arg23
  have h6_arg24 := (frame6 V5 main_arg24 (by decide)).trans h5_arg24
  have h6_arg25 := (frame6 V5 main_arg25 (by decide)).trans h5_arg25
  have h6_arg26 := (frame6 V5 main_arg26 (by decide)).trans h5_arg26
  have h6_arg27 := (frame6 V5 main_arg27 (by decide)).trans h5_arg27
  have h6_arg28 := (frame6 V5 main_arg28 (by decide)).trans h5_arg28
  have h6_arg29 := (frame6 V5 main_arg29 (by decide)).trans h5_arg29
  have h6_arg30 := (frame6 V5 main_arg30 (by decide)).trans h5_arg30
  have h6_arg31 := (frame6 V5 main_arg31 (by decide)).trans h5_arg31
  have h6_arg32 := (frame6 V5 main_arg32 (by decide)).trans h5_arg32
  have h6_arg33 := (frame6 V5 main_arg33 (by decide)).trans h5_arg33
  have h6_arg1 := (frame6 V5 main_arg1 (by decide)).trans h5_arg1
  generalize after ops6 V5 = V6 at h6_v58 h6_arg14 h6_arg15 h6_arg16 h6_arg17 h6_arg18 h6_arg19 h6_arg20 h6_arg21 h6_arg22 h6_arg23 h6_arg24 h6_arg25 h6_arg26 h6_arg27 h6_arg28 h6_arg29 h6_arg30 h6_arg31 h6_arg32 h6_arg33 h6_arg1 ⊢
  clear h5_v52 h5_v55 h5_v56 h5_v57 h5_arg14 h5_arg15 h5_arg16 h5_arg17 h5_arg18 h5_arg19 h5_arg20 h5_arg21 h5_arg22 h5_arg23 h5_arg24 h5_arg25 h5_arg26 h5_arg27 h5_arg28 h5_arg29 h5_arg30 h5_arg31 h5_arg32 h5_arg33 h5_arg1
  have h7_v64 := st7_v64 V6 A0 A2 A3 A4 A5 A6 A7 A8 A9 A10 A11 A12 A13 A14 A15 h6_v58 h6_arg14 h6_arg15
  have h7_arg16 := (frame7 V6 main_arg16 (by decide)).trans h6_arg16
  have h7_arg17 := (frame7 V6 main_arg17 (by decide)).trans h6_arg17
  have h7_arg18 := (frame7 V6 main_arg18 (by decide)).trans h6_arg18
  have h7_arg19 := (frame7 V6 main_arg19 (by decide)).trans h6_arg19
  have h7_arg20 := (frame7 V6 main_arg20 (by decide)).trans h6_arg20
  have h7_arg21 := (frame7 V6 main_arg21 (by decide)).trans h6_arg21
  have h7_arg22 := (frame7 V6 main_arg22 (by decide)).trans h6_arg22
  have h7_arg23 := (frame7 V6 main_arg23 (by decide)).trans h6_arg23
  have h7_arg24 := (frame7 V6 main_arg24 (by decide)).trans h6_arg24
  have h7_arg25 := (frame7 V6 main_arg25 (by decide)).trans h6_arg25
  have h7_arg26 := (frame7 V6 main_arg26 (by decide)).trans h6_arg26
  have h7_arg27 := (frame7 V6 main_arg27 (by decide)).trans h6_arg27
  have h7_arg28 := (frame7 V6 main_arg28 (by decide)).trans h6_arg28
  have h7_arg29 := (frame7 V6 main_arg29 (by decide)).trans h6_arg29
  have h7_arg30 := (frame7 V6 main_arg30 (by decide)).trans h6_arg30
  have h7_arg31 := (frame7 V6 main_arg31 (by decide)).trans h6_arg31
  have h7_arg32 := (frame7 V6 main_arg32 (by decide)).trans h6_arg32
  have h7_arg33 := (frame7 V6 main_arg33 (by decide)).trans h6_arg33
  have h7_arg1 := (frame7 V6 main_arg1 (by decide)).trans h6_arg1
  generalize after ops7 V6 = V7 at h7_v64 h7_arg16 h7_arg17 h7_arg18 h7_arg19 h7_arg20 h7_arg21 h7_arg22 h7_arg23 h7_arg24 h7_arg25 h7_arg26 h7_arg27 h7_arg28 h7_arg29 h7_arg30 h7_arg31 h7_arg32 h7_arg33 h7_arg1 ⊢
  clear h6_v58 h6_arg14 h6_arg15 h6_arg16 h6_arg17 h6_arg18 h6_arg19 h6_arg20 h6_arg21 h6_arg22 h6_arg23 h6_arg24 h6_arg25 h6_arg26 h6_arg27 h6_arg28 h6_arg29 h6_arg30 h6_arg31 h6_arg32 h6_arg33 h6_arg1
  have h8_v72 := st8_v72 V7 A0 A2 A3 A4 A5 A6 A7 A8 A9 A10 A11 A12 A13 A14 A15 A16 A17 h7_v64 h7_arg16 h7_arg17
  have h8_v73 := st8_v73 V7 A0 A2 A3 A4 A5 A6 A7 A8 A9 A10 A11 A12 A13 A14 A15 h7_v64
  have h8_v76 := st8_v76 V7 A0 A2 A3 A4 A5 A6 A7 A8 A9 A10 A11 A12 A13 A14 A15 h7_v64
  have h8_arg18 := (frame8 V7 main_arg18 (by decide)).trans h7_arg18
  have h8_arg19 := (frame8 V7 main_arg19 (by decide)).trans h7_arg19
  have h8_arg20 := (frame8 V7 main_arg20 (by decide)).trans h7_arg20
  have h8_arg21 := (frame8 V7 main_arg21 (by decide)).trans h7_arg21
  have h8_arg22 := (frame8 V7 main_arg22 (by decide)).trans h7_arg22
  have h8_arg23 := (frame8 V7 main_arg23 (by decide)).trans h7_arg23
  have h8_arg24 := (frame8 V7 main_arg24 (by decide)).trans h7_arg24
  have h8_arg25 := (frame8 V7 main_arg25 (by decide)).trans h7_arg25
  have h8_arg26 := (frame8 V7 main_arg26 (by decide)).trans h7_arg26
  have h8_arg27 := (frame8 V7 main_arg27 (by decide)).trans h7_arg27
  have h8_arg28 := (frame8 V7 main_arg28 (by decide)).trans h7_arg28
  have h8_arg29 := (frame8 V7 main_arg29 (by decide)).trans h7_arg29
  have h8_arg30 := (frame8 V7 main_arg30 (by decide)).trans h7_arg30
  have h8_arg31 := (frame8 V7 main_arg31 (by decide)).trans h7_arg31
  have h8_arg32 := (frame8 V7 main_arg32 (by decide)).trans h7_arg32
  have h8_arg33 := (frame8 V7 main_arg33 (by decide)).trans h7_arg33
  have h8_arg1 := (frame8 V7 main_arg1 (by decide)).trans h7_arg1
  generalize after ops8 V7 = V8 at h8_v72 h8_v73 h8_v76 h8_arg18 h8_arg19 h8_arg20 h8_arg21 h8_arg22 h8_arg23 h8_arg24 h8_arg25 h8_arg26 h8_arg27 h8_arg28 h8_arg29 h8_arg30 h8_arg31 h8_arg32 h8_arg33 h8_arg1 ⊢
  clear h7_v64 h7_arg16 h7_arg17 h7_arg18 h7_arg19 h7_arg20 h7_arg21 h7_arg22 h7_arg23 h7_arg24 h7_arg25 h7_arg26 h7_arg27 h7_arg28 h7_arg29 h7_arg30 h7_arg31 h7_arg32 h7_arg33 h7_arg1
  have h9_v77 := st9_v77 V8 A0 A2 A3 A4 A5 A6 A7 A8 A9 A10 A11 A12 A13 A14 A15 A16 A17 h8_v73 h8_v76 h8_v72
  have h9_arg18 := (frame9 V8 main_arg18 (by decide)).trans h8_arg18
  have h9_arg19 := (frame9 V8 main_arg19 (by decide)).trans h8_arg19
  have h9_arg20 := (frame9 V8 main_arg20 (by decide)).trans h8_arg20
  have h9_arg21 := (frame9 V8 main_arg21 (by decide)).trans h8_arg21
  have h9_arg22 := (frame9 V8 main_arg22 (by decide)).trans h8_arg22
  have h9_arg23 := (frame9 V8 main_arg23 (by decide)).trans h8_arg23
  have h9_arg24 := (frame9 V8 main_arg24 (by decide)).trans h8_arg24
  have h9_arg25 := (frame9 V8 main_arg25 (by decide)).trans h8_arg25
  have h9_arg26 := (frame9 V8 main_arg26 (by decide)).trans h8_arg26
  have h9_arg27 := (frame9 V8 main_arg27 (by decide)).trans h8_arg27
  have h9_arg28 := (frame9 V8 main_arg28 (by decide)).trans h8_arg28
  have h9_arg29 := (frame9 V8 main_arg29 (by decide)).trans h8_arg29
  have h9_arg30 := (frame9 V8 main_arg30 (by decide)).trans h8_arg30
  have h9_arg31 := (frame9 V8 main_arg31 (by decide)).trans h8_arg31
  have h9_arg32 := (frame9 V8 main_arg32 (by decide)).trans h8_arg32
  have h9_arg33 := (frame9 V8 main_arg33 (by decide)).trans h8_arg33
  have h9_arg1 := (frame9 V8 main_arg1 (by decide)).trans h8_arg1
  generalize after ops9 V8 = V9 at h9_v77 h9_arg18 h9_arg19 h9_arg20 h9_arg21 h9_arg22 h9_arg23 h9_arg24 h9_arg25 h9_arg26 h9_arg27 h9_arg28 h9_arg29 h9_arg30 h9_arg31 h9_arg32 h9_arg33 h9_arg1 ⊢
  clear h8_v73 h8_v76 h8_v72 h8_arg18 h8_arg19 h8_arg20 h8_arg21 h8_arg22 h8_arg23 h8_arg24 h8_arg25 h8_arg26 h8_arg27 h8_arg28 h8_arg29 h8_arg30 h8_arg31 h8_arg32 h8_arg33 h8_arg1
  have h10_v82 := st10_v82 V9 A0 A2 A3 A4 A5 A6 A7 A8 A9 A10 A11 A12 A13 A14 A15 A16 A17 A18 A19 h9_v77 h9_arg18 h9_arg19
  have h10_arg20 := (frame10 V9 main_arg20 (by decide)).trans h9_arg20
  have h10_arg21 := (frame10 V9 main_arg21 (by decide)).trans h9_arg21
  have h10_arg22 := (frame10 V9 main_arg22 (by decide)).trans h9_arg22
  have h10_arg23 := (frame10 V9 main_arg23 (by decide)).trans h9_arg23
  have h10_arg24 := (frame10 V9 main_arg24 (by decide)).trans h9_arg24
  have h10_arg25 := (frame10 V9 main_arg25 (by decide)).trans h9_arg25
  have h10_arg26 := (frame10 V9 main_arg26 (by decide)).trans h9_arg26
  have h10_arg27 := (frame10 V9 main_arg27 (by decide)).trans h9_arg27
  have h10_arg28 := (frame10 V9 main_arg28 (by decide)).trans h9_arg28
  have h10_arg29 := (frame10 V9 main_arg29 (by decide)).trans h9_arg29
  have h10_arg30 := (frame10 V9 main_arg30 (by decide)).trans h9_arg30
  have h10_arg31 := (frame10 V9 main_arg31 (by decide)).trans h9_arg31
  have h10_arg32 := (frame10 V9 main_arg32 (by decide)).trans h9_arg32
  have h10_arg33 := (frame10 V9 main_arg33 (by decide)).trans h9_arg33
  have h10_arg1 := (frame10 V9 main_arg1 (by decide)).trans h9_arg1
  generalize after ops10 V9 = V10 at h10_v82 h10_arg20 h10_arg21 h10_arg22 h10_arg23 h10_arg24 h10_arg25 h10_arg26 h10_arg27 h10_arg28 h10_arg29 h10_arg30 h10_arg31 h10_arg32 h10_arg33 h10_arg1 ⊢
  clear h9_v77 h9_arg18 h9_arg19 h9_arg20 h9_arg21 h9_arg22 h9_arg23 h9_arg24 h9_arg25 h9_arg26 h9_arg27 h9_arg28 h9_arg29 h9_arg30 h9_arg31 h9_arg32 h9_arg33 h9_arg1
  have h11_v90 := st11_v90 V10 A0 A2 A3 A4 A5 A6 A7 A8 A9 A10 A11 A12 A13 A14 A15 A16 A17 A18 A19 A20 A21 h10_v82 h10_arg20 h10_arg21
  have h11_v91 := st11_v91 V10 A0 A2 A3 A4 A5 A6 A7 A8 A9 A10 A11 A12 A13 A14 A15 A16 A17 A18 A19 h10_v82
  have h11_v94 := st11_v94 V10 A0 A2 A3 A4 A5 A6 A7 A8 A9 A10 A11 A12 A13 A14 A15 A16 A17 A18 A19 h10_v82
  have h11_arg22 := (frame11 V10 main_arg22 (by decide)).trans h10_arg22
  have h11_arg23 := (frame11 V10 main_arg23 (by decide)).trans h10_arg23
  have h11_arg24 := (frame11 V10 main_arg24 (by decide)).trans h10_arg24
  have h11_arg25 := (frame11 V10 main_arg25 (by decide)).trans h10_arg25
  have h11_arg26 := (frame11 V10 main_arg26 (by decide)).trans h10_arg26
  have h11_arg27 := (frame11 V10 main_arg27 (by decide)).trans h10_arg27
  have h11_arg28 := (frame11 V10 main_arg28 (by decide)).trans h10_arg28
  have h11_arg29 := (frame11 V10 main_arg29 (by decide)).trans h10_arg29
  have h11_arg30 := (frame11 V10 main_arg30 (by decide)).trans h10_arg30
  have h11_arg31 := (frame11 V10 main_arg31 (by decide)).trans h10_arg31
  have h11_arg32 := (frame11 V10 main_arg32 (by decide)).trans h10_arg32
  have h11_arg33 := (frame11 V10 main_arg33 (by decide)).trans h10_arg33
  have h11_arg1 := (frame11 V10 main_arg1 (by decide)).trans h10_arg1
  generalize after ops11 V10 = V11 at h11_v90 h11_v91 h11_v94 h11_arg22 h11_arg23 h11_arg24 h11_arg25 h11_arg26 h11_arg27 h11_arg28 h11_arg29 h11_arg30 h11_arg31 h11_arg32 h11_arg33 h11_arg1 ⊢
  clear h10_v82 h10_arg20 h10_arg21 h10_arg22 h10_arg23 h10_arg24 h10_arg25 h10_arg26 h10_arg27 h10_arg28 h10_arg29 h10_arg30 h10_arg31 h10_arg32 h10_arg33 h10_arg1
  have h12_v95 := st12_v95 V11 A0 A2 A3 A4 A5 A6 A7 A8 A9 A10 A11 A12 A13 A14 A15 A16 A17 A18 A19 A20 A21 h11_v91 h11_v94 h11_v90
  have h12_arg22 := (frame12 V11 main_arg22 (by decide)).trans h11_arg22
  have h12_arg23 := (frame12 V11 main_arg23 (by decide)).trans h11_arg23
  have h12_arg24 := (frame12 V11 main_arg24 (by decide)).trans h11_arg24
  have h12_arg25 := (frame12 V11 main_arg25 (by decide)).trans h11_arg25
  have h12_arg26 := (frame12 V11 main_arg26 (by decide)).trans h11_arg26
  have h12_arg27 := (frame12 V11 main_arg27 (by decide)).trans h11_arg27
  have h12_arg28 := (frame12 V11 main_arg28 (by decide)).trans h11_arg28
  have h12_arg29 := (frame12 V11 main_arg29 (by decide)).trans h11_arg29
  have h12_arg30 := (frame12 V11 main_arg30 (by decide)).trans h11_arg30
  have h12_arg31 := (frame12 V11 main_arg31 (by decide)).trans h11_arg31
  have h12_arg32 := (frame12 V11 main_arg32 (by decide)).trans h11_arg32
  have h12_arg33 := (frame12 V11 main_arg33 (by decide)).trans h11_arg33
  have h12_arg1 := (frame12 V11 main_arg1 (by decide)).trans h11_arg1
  generalize after ops12 V11 = V12 at h12_v95 h12_arg22 h12_arg23 h12_arg24 h12_arg25 h12_arg26 h12_arg27 h12_arg28 h12_arg29 h12_arg30 h12_arg31 h12_arg32 h12_arg33 h12_arg1 ⊢
  clear h11_v91 h11_v94 h11_v90 h11_arg22 h11_arg23 h11_arg24 h11_arg25 h11_arg26 h11_arg27 h11_arg28 h11_arg29 h11_arg30 h11_arg31 h11_arg32 h11_arg33 h11_arg1
  have h13_v104 := st13_v104 V12 A0 A2 A3 A4 A5 A6 A7 A8 A9 A10 A11 A12 A13 A14 A15 A16 A17 A18 A19 A20 A21 A22 A23 A24 A25 h12_v95 h12_arg22 h12_arg23 h12_arg24 h12_arg25
  have h13_v95 := (frame13 V12 main_v95 (by decide)).trans h12_v95
  have h13_arg26 := (frame13 V12 main_arg26 (by decide)).trans h12_arg26
  have h13_arg27 := (frame13 V12 main_arg27 (by decide)).trans h12_arg27
  have h13_arg28 := (frame13 V12 main_arg28 (by decide)).trans h12_arg28
  have h13_arg29 := (frame13 V12 main_arg29 (by decide)).trans h12_arg29
  have h13_arg30 := (frame13 V12 main_arg30 (by decide)).trans h12_arg30
  have h13_arg31 := (frame13 V12 main_arg31 (by decide)).trans h12_arg31
  have h13_arg32 := (frame13 V12 main_arg32 (by decide)).trans h12_arg32
  have h13_arg33 := (frame13 V12 main_arg33 (by decide)).trans h12_arg33
  have h13_arg1 := (frame13 V12 main_arg1 (by decide)).trans h12_arg1
  generalize after ops13 V12 = V13 at h13_v104 h13_v95 h13_arg26 h13_arg27 h13_arg28 h13_arg29 h13_arg30 h13_arg31 h13_arg32 h13_arg33 h13_arg1 ⊢
  clear h12_v95 h12_arg22 h12_arg23 h12_arg24 h12_arg25 h12_arg26 h12_arg27 h12_arg28 h12_arg29 h12_arg30 h12_arg31 h12_arg32 h12_arg33 h12_arg1
  have h14_v113 := st14_v113 V13 A0 A2 A3 A4 A5 A6 A7 A8 A9 A10 A11 A12 A13 A14 A15 A16 A17 A18 A19 A20 A21 A26 A27 A28 A29 h13_v95 h13_arg26 h13_arg27 h13_arg28 h13_arg29
  have h14_v95 := (frame14 V13 main_v95 (by decide)).trans h13_v95
  have h14_arg30 := (frame14 V13 main_arg30 (by decide)).trans h13_arg30
  have h14_arg31 := (frame14 V13 main_arg31 (by decide)).trans h13_arg31
  have h14_arg32 := (frame14 V13 main_arg32 (by decide)).trans h13_arg32
  have h14_arg33 := (frame14 V13 main_arg33 (by decide)).trans h13_arg33
  have h14_arg1 := (frame14 V13 main_arg1 (by decide)).trans h13_arg1
  have h14_v104 := (frame14 V13 main_v104 (by decide)).trans h13_v104
  generalize after ops14 V13 = V14 at h14_v113 h14_v95 h14_arg30 h14_arg31 h14_arg32 h14_arg33 h14_arg1 h14_v104 ⊢
  clear h13_v95 h13_arg26 h13_arg27 h13_arg28 h13_arg29 h13_arg30 h13_arg31 h13_arg32 h13_arg33 h13_arg1 h13_v104
  have h15_v122 := st15_v122 V14 A0 A2 A3 A4 A5 A6 A7 A8 A9 A10 A11 A12 A13 A14 A15 A16 A17 A18 A19 A20 A21 A30 A31 A32 A33 h14_v95 h14_arg30 h14_arg31 h14_arg32 h14_arg33
  have h15_arg1 := (frame15 V14 main_arg1 (by decide)).trans h14_arg1
  have h15_v104 := (frame15 V14 main_v104 (by decide)).trans h14_v104
  have h15_v113 := (frame15 V14 main_v113 (by decide)).trans h14_v113
  generalize after ops15 V14 = V15 at h15_v122 h15_arg1 h15_v104 h15_v113 ⊢
  clear h14_v95 h14_arg30 h14_arg31 h14_arg32 h14_arg33 h14_arg1 h14_v104 h14_v113
  have h16_v123 := st16_v123 V15 A0 A1 A2 A3 A4 A5 A6 A7 A8 A9 A10 A11 A12 A13 A14 A15 A16 A17 A18 A19 A20 A21 A22 A23 A24 A25 h15_arg1 h15_v104
  have h16_v113 := (frame16 V15 main_v113 (by decide)).trans h15_v113
  have h16_v122 := (frame16 V15 main_v122 (by decide)).trans h15_v122
  generalize after ops16 V15 = V16 at h16_v123 h16_v113 h16_v122 ⊢
  clear h15_arg1 h15_v104 h15_v113 h15_v122
  have h17_call9_v0 := st17_call9_v0 V16 A0 A1 A2 A3 A4 A5 A6 A7 A8 A9 A10 A11 A12 A13 A14 A15 A16 A17 A18 A19 A20 A21 A22 A23 A24 A25 h16_v123
  have h17_v123 := (frame17 V16 main_v123 (by decide)).trans h16_v123
  have h17_v113 := (frame17 V16 main_v113 (by decide)).trans h16_v113
  have h17_v122 := (frame17 V16 main_v122 (by decide)).trans h16_v122
  generalize after ops17 V16 = V17 at h17_call9_v0 h17_v123 h17_v113 h17_v122 ⊢
  clear h16_v123 h16_v113 h16_v122
  have h18_call9_v2 := st18_call9_v2 V17 A0 A1 A2 A3 A4 A5 A6 A7 A8 A9 A10 A11 A12 A13 A14 A15 A16 A17 A18 A19 A20 A21 A22 A23 A24 A25 h17_call9_v0
  have h18_v123 := (frame18 V17 main_v123 (by decide)).trans h17_v123
  have h18_v113 := (frame18 V17 main_v113 (by decide)).trans h17_v113
  have h18_v122 := (frame18 V17 main_v122 (by decide)).trans h17_v122
  generalize after ops18 V17 = V18 at h18_call9_v2 h18_v123 h18_v113 h18_v122 ⊢
  clear h17_call9_v0 h17_v123 h17_v113 h17_v122
  have h19_call9_v5 := st19_call9_v5 V18 A0 A1 A2 A3 A4 A5 A6 A7 A8 A9 A10 A11 A12 A13 A14 A15 A16 A17 A18 A19 A20 A21 A22 A23 A24 A25 h18_v123 h18_call9_v2
  have h19_v113 := (frame19 V18 main_v113 (by decide)).trans h18_v113
  have h19_v122 := (frame19 V18 main_v122 (by decide)).trans h18_v122
  generalize after ops19 V18 = V19 at h19_call9_v5 h19_v113 h19_v122 ⊢
  clear h18_call9_v2 h18_v123 h18_v113 h18_v122
  have h20_v124 := st20_v124 V19 A0 A1 A2 A3 A4 A5 A6 A7 A8 A9 A10 A11 A12 A13 A14 A15 A16 A17 A18 A19 A20 A21 A22 A23 A24 A25 h19_call9_v5
  have h20_v113 := (frame20 V19 main_v113 (by decide)).trans h19_v113
  have h20_v122 := (frame20 V19 main_v122 (by decide)).trans h19_v122
  generalize after ops20 V19 = V20 at h20_v124 h20_v113 h20_v122 ⊢
  clear h19_call9_v5 h19_v113 h19_v122
  have h21_v125 := st21_v125 V20 A0 A2 A3 A4 A5 A6 A7 A8 A9 A10 A11 A12 A13 A14 A15 A16 A17 A18 A19 A20 A21 A26 A27 A28 A29 h20_v113
  have h21_v122 := (frame21 V20 main_v122 (by decide)).trans h20_v122
  have h21_v124 := (frame21 V20 main_v124 (by decide)).trans h20_v124
  generalize after ops21 V20 = V21 at h21_v125 h21_v122 h21_v124 ⊢
  clear h20_v113 h20_v122 h20_v124
  have h22_call10_v0 := st22_call10_v0 V21 A0 A2 A3 A4 A5 A6 A7 A8 A9 A10 A11 A12 A13 A14 A15 A16 A17 A18 A19 A20 A21 A30 A31 A32 A33 h21_v122
  have h22_v122 := (frame22 V21 main_v122 (by decide)).trans h21_v122
  have h22_v124 := (frame22 V21 main_v124 (by decide)).trans h21_v124
  have h22_v125 := (frame22 V21 main_v125 (by decide)).trans h21_v125
  generalize after ops22 V21 = V22 at h22_call10_v0 h22_v122 h22_v124 h22_v125 ⊢
  clear h21_v122 h21_v124 h21_v125
  have h23_call10_v2 := st23_call10_v2 V22 A0 A2 A3 A4 A5 A6 A7 A8 A9 A10 A11 A12 A13 A14 A15 A16 A17 A18 A19 A20 A21 A30 A31 A32 A33 h22_call10_v0
  have h23_v122 := (frame23 V22 main_v122 (by decide)).trans h22_v122
  have h23_v124 := (frame23 V22 main_v124 (by decide)).trans h22_v124
  have h23_v125 := (frame23 V22 main_v125 (by decide)).trans h22_v125
  generalize after ops23 V22 = V23 at h23_call10_v2 h23_v122 h23_v124 h23_v125 ⊢
  clear h22_call10_v0 h22_v122 h22_v124 h22_v125
  have h24_call10_v5 := st24_call10_v5 V23 A0 A2 A3 A4 A5 A6 A7 A8 A9 A10 A11 A12 A13 A14 A15 A16 A17 A18 A19 A20 A21 A30 A31 A32 A33 h23_v122 h23_call10_v2
  have h24_v124 := (frame24 V23 main_v124 (by decide)).trans h23_v124
  have h24_v125 := (frame24 V23 main_v125 (by decide)).trans h23_v125
  generalize after ops24 V23 = V24 at h24_call10_v5 h24_v124 h24_v125 ⊢
  clear h23_call10_v2 h23_v122 h23_v124 h23_v125
  have h25_v126 := st25_v126 V24 A0 A2 A3 A4 A5 A6 A7 A8 A9 A10 A11 A12 A13 A14 A15 A16 A17 A18 A19 A20 A21 A30 A31 A32 A33 h24_call10_v5
  have h25_v124 := (frame25 V24 main_v124 (by decide)).trans h24_v124
  have h25_v125 := (frame25 V24 main_v125 (by decide)).trans h24_v125
  generalize after ops25 V24 = V25 at h25_v126 h25_v124 h25_v125 ⊢
  clear h24_call10_v5 h24_v124 h24_v125
  exact ⟨h25_v124, h25_v125, h25_v126⟩

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v124) = val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v125) = val_main_v125 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_v126) = val_main_v126 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg30)) (m ((c.tc : Thread nD τ).loc main_arg31)) (m ((c.tc : Thread nD τ).loc main_arg32)) (m ((c.tc : Thread nD τ).loc main_arg33))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) :=
  (θ_run defs _ _).mono (fun _ h c =>
    have R := results (F := Ideal) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
      rfl rfl rfl rfl rfl rfl rfl rfl rfl rfl rfl rfl rfl rfl rfl rfl rfl rfl rfl rfl rfl rfl rfl rfl rfl rfl rfl rfl rfl rfl rfl rfl rfl rfl
    ⟨(h c main_v124).trans R.1, (h c main_v125).trans R.2.1, (h c main_v126).trans R.2.2,
      (h c main_arg0).trans (kept _ main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg1).trans (kept _ main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg2).trans (kept _ main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg3).trans (kept _ main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg4).trans (kept _ main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg5).trans (kept _ main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg6).trans (kept _ main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg7).trans (kept _ main_arg7 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg8).trans (kept _ main_arg8 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg9).trans (kept _ main_arg9 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg10).trans (kept _ main_arg10 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg11).trans (kept _ main_arg11 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg12).trans (kept _ main_arg12 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg13).trans (kept _ main_arg13 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg14).trans (kept _ main_arg14 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg15).trans (kept _ main_arg15 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg16).trans (kept _ main_arg16 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg17).trans (kept _ main_arg17 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg18).trans (kept _ main_arg18 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg19).trans (kept _ main_arg19 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg20).trans (kept _ main_arg20 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg21).trans (kept _ main_arg21 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg22).trans (kept _ main_arg22 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg23).trans (kept _ main_arg23 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg24).trans (kept _ main_arg24 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg25).trans (kept _ main_arg25 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg26).trans (kept _ main_arg26 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg27).trans (kept _ main_arg27 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg28).trans (kept _ main_arg28 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg29).trans (kept _ main_arg29 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg30).trans (kept _ main_arg30 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg31).trans (kept _ main_arg31 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg32).trans (kept _ main_arg32 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)),
      (h c main_arg33).trans (kept _ main_arg33 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ)

end Cert.RefRun

end
-- ==== Proof.lean ====
/-
  The certificate. A fused kernel computes, block by block of 256 examples, a dense network — affine layers, a per-channel
  normalisation, relu, partial max / mean pooling, and three heads (a masked log_softmax, a tanh, a log_softmax) — against
  the same network written in plain array operations over the whole batch. On the extended reals both end with entry
  (b, j) of each result at head j of ONE function of example b's input and flags and the shared weights (Net.lean): the
  two programs form the same sums of the same products and differ only in layout (rows 7a + s against (a, s), transposed
  weights, a block of 256 against the batch), so no law beyond re-indexing is used and the precondition is never opened.
    * the kernel's side: the payloads at an index (KPay1 … KHeads), composed (KBody), the blocks assembled into the
      arrays (KBlocks, KArrays), the host operations before the region read back (KHost), the run (KRun);
    * the reference's side: its stages at an index (RTrunkA, RTrunkB, RHeads, RFinal) and its run (RefRun);
    * the three frames: the kernel's from its frame certificate at either instance, the reference's from its run.
  The ideal pass rewrote nothing, so the kernel's idealization is its own text read on the extended reals.
-/
import proofs.«125488_j18605798326416_1_alg».proof.Defs
import proofs.«125488_j18605798326416_1_alg».proof.Proof.Gen.Kernel
import proofs.«125488_j18605798326416_1_alg».proof.Proof.Gen.KernelIdeal
import proofs.«125488_j18605798326416_1_alg».proof.Proof.Gen.ReferenceIdeal
import proofs.«125488_j18605798326416_1_alg».proof.Proof.Gen.Pre_finite_inputs
import proofs.«125488_j18605798326416_1_alg».proof.Proof.KernelFrameP
import proofs.«125488_j18605798326416_1_alg».proof.Proof.KernelIdealFrameP
import proofs.«125488_j18605798326416_1_alg».proof.Proof.KRun
import proofs.«125488_j18605798326416_1_alg».proof.Proof.RFinal
import proofs.«125488_j18605798326416_1_alg».proof.Proof.RefRun
import Idealize.ShloMosaic.Adequacy
import Idealize.ShloMosaic.Init

noncomputable section

namespace Cert.Proof

open Idealize.ShloMosaic Idealize.SL.Sem

/-- The kernel runs and leaves its arguments as they were (its frame certificate, at the word-level instance). -/
theorem frame_k : Cert.frame_Kernel := fun m ρ _ => Cert.Kernel.GenP.frame m ρ

/-- The same for the idealized kernel. -/
theorem frame_ki : Cert.frame_KernelIdeal := fun m ρ _ => Cert.KernelIdeal.GenP.frame m ρ

/-- The reference runs and leaves its arguments as they were: its run with the results dropped. -/
theorem frame_ri : Cert.frame_ReferenceIdeal := fun m ρ _ =>
  (θ_run Cert.ReferenceIdeal.defs _ _).mono (fun _ h c => (h c).2.2.2) (Cert.RefRun.run m ρ)

set_option maxHeartbeats 16000000 in
/-- From memories agreeing on the arguments both programs end with each result at the network's head of each example. -/
theorem algebraic : Cert.algebraic_KernelIdeal_ReferenceIdeal := by
  intro m ρ m' ρ' _ hagree
  refine ⟨fun c => Cert.Results.resPi (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)),
    fun c => Cert.Results.resV (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)),
    fun c => Cert.Results.resSd (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)),
    Cert.KRun.run m ρ, ?_⟩
  refine (θ_run Cert.ReferenceIdeal.defs _ _).mono (fun _ h c => ?_) (Cert.RefRun.run m' ρ')
  obtain ⟨e0, e1, e2, e3, e4, e5, e6, e7, e8, e9, e10, e11, e12, e13, e14, e15, e16, e17, e18, e19, e20, e21, e22, e23, e24, e25, e26, e27, e28, e29, e30, e31, e32, e33⟩ := hagree c
  refine ⟨(h c).1.trans ?_, (h c).2.1.trans ?_, (h c).2.2.1.trans ?_, (h c).2.2.2⟩
  · rw [Cert.RStage.ref_resPi (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33)), e0, e1, e2, e3, e4, e5, e6, e7, e8, e9, e10, e11, e12, e13, e14, e15, e16, e17, e18, e19, e20, e21, e22, e23, e24, e25, e26, e27, e28, e29, e30, e31, e32, e33]
  · rw [Cert.RStage.ref_resV (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33)), e0, e2, e3, e4, e5, e6, e7, e8, e9, e10, e11, e12, e13, e14, e15, e16, e17, e18, e19, e20, e21, e22, e23, e24, e25, e26, e27, e28, e29, e30, e31, e32, e33]
  · rw [Cert.RStage.ref_resSd (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33)), e0, e2, e3, e4, e5, e6, e7, e8, e9, e10, e11, e12, e13, e14, e15, e16, e17, e18, e19, e20, e21, e22, e23, e24, e25, e26, e27, e28, e29, e30, e31, e32, e33]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
